-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v366) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S128x128 : Shape := ⟨2, ![128, 128]⟩
abbrev S128 : Shape := ⟨1, ![128]⟩
abbrev S640x132 : Shape := ⟨2, ![640, 132]⟩
abbrev S132 : Shape := ⟨1, ![132]⟩
abbrev S132x132 : Shape := ⟨2, ![132, 132]⟩
abbrev S132x128 : Shape := ⟨2, ![132, 128]⟩
abbrev S256x132 : Shape := ⟨2, ![256, 132]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S640x132 : S_.BroadcastsInDim S640x132 (![] : Fin 0 → Fin S640x132.rank)
  reducesTo_S640x132_S_d0_1 : S640x132.ReducesTo [0, 1] S_
  bcast_S_S132 : S_.BroadcastsInDim S132 (![] : Fin 0 → Fin S132.rank)
  reducesTo_S132_S_d0 : S132.ReducesTo [0] S_
  bcast_S_S132x132 : S_.BroadcastsInDim S132x132 (![] : Fin 0 → Fin S132x132.rank)
  reducesTo_S132x132_S_d0_1 : S132x132.ReducesTo [0, 1] S_
  bcast_S_S132x128 : S_.BroadcastsInDim S132x128 (![] : Fin 0 → Fin S132x128.rank)
  reducesTo_S132x128_S_d0_1 : S132x128.ReducesTo [0, 1] S_
  bcast_S_S256x132 : S_.BroadcastsInDim S256x132 (![] : Fin 0 → Fin S256x132.rank)
  reducesTo_S256x132_S_d0_1 : S256x132.ReducesTo [0, 1] S_

variable [Facts]

def fn_part10 {F : FTy → Type} [FloatOps F] (main_arg35 : FVec F S132x128 .f32) (main_arg36 : FVec F S128 .f32) (main_v168 : IVec S_ 1) (main_v169 : FVec F S132 .f32) (main_v170 : FVec F S132 .f32) : IVec S_ 1 :=
  let main_v171 : IVec S132 1 := cmpf .olt main_v169 main_v170
  let main_c_67 : IVec S_ 1 := constantI S_ 1 1#1
  let main_v172 : IVec S_ 1 := (fun x v => Host.reduce IntOp.andi x v reducesTo_S132_S_d0 h_S_) main_v171 main_c_67
  let main_v173 : IVec S_ 1 := andi main_v168 main_v172
  let main_v174 : FVec F S132x128 .f32 := Host.absf main_arg35
  let main_cst_68 : FVec F S_ .f32 := constant S_ .f32 0x7F800000#32
  let main_v175 : FVec F S132x128 .f32 := broadcastInDim S132x128 ![] bcast_S_S132x128 main_cst_68
  let main_v176 : IVec S132x128 1 := cmpf .olt main_v174 main_v175
  let main_c_69 : IVec S_ 1 := constantI S_ 1 1#1
  let main_v177 : IVec S_ 1 := (fun x v => Host.reduce IntOp.andi x v reducesTo_S132x128_S_d0_1 h_S_) main_v176 main_c_69
  let main_v178 : IVec S_ 1 := andi main_v173 main_v177
  let main_v179 : FVec F S128 .f32 := Host.absf main_arg36
  let main_cst_70 : FVec F S_ .f32 := constant S_ .f32 0x7F800000#32
  let main_v180 : FVec F S128 .f32 := broadcastInDim S128 ![] bcast_S_S128 main_cst_70
  let main_v181 : IVec S128 1 := cmpf .olt main_v179 main_v180
  let main_c_71 : IVec S_ 1 := constantI S_ 1 1#1
  let main_v182 : IVec S_ 1 := (fun x v => Host.reduce IntOp.andi x v reducesTo_S128_S_d0 h_S_) main_v181 main_c_71
  let main_v183 : IVec S_ 1 := andi main_v178 main_v182
  main_v183

def fn_part9 {F : FTy → Type} [FloatOps F] (main_arg31 : FVec F S256x132 .f32) (main_arg32 : FVec F S132 .f32) (main_arg33 : FVec F S132x132 .f32) (main_arg34 : FVec F S132 .f32) (main_arg35 : FVec F S132x128 .f32) (main_arg36 : FVec F S128 .f32) (main_v153 : IVec S_ 1) : IVec S_ 1 :=
  let main_v154 : FVec F S256x132 .f32 := Host.absf main_arg31
  let main_cst_60 : FVec F S_ .f32 := constant S_ .f32 0x7F800000#32
  let main_v155 : FVec F S256x132 .f32 := broadcastInDim S256x132 ![] bcast_S_S256x132 main_cst_60
  let main_v156 : IVec S256x132 1 := cmpf .olt main_v154 main_v155
  let main_c_61 : IVec S_ 1 := constantI S_ 1 1#1
  let main_v157 : IVec S_ 1 := (fun x v => Host.reduce IntOp.andi x v reducesTo_S256x132_S_d0_1 h_S_) main_v156 main_c_61
  let main_v158 : IVec S_ 1 := andi main_v153 main_v157
  let main_v159 : FVec F S132 .f32 := Host.absf main_arg32
  let main_cst_62 : FVec F S_ .f32 := constant S_ .f32 0x7F800000#32
  let main_v160 : FVec F S132 .f32 := broadcastInDim S132 ![] bcast_S_S132 main_cst_62
  let main_v161 : IVec S132 1 := cmpf .olt main_v159 main_v160
  let main_c_63 : IVec S_ 1 := constantI S_ 1 1#1
  let main_v162 : IVec S_ 1 := (fun x v => Host.reduce IntOp.andi x v reducesTo_S132_S_d0 h_S_) main_v161 main_c_63
  let main_v163 : IVec S_ 1 := andi main_v158 main_v162
  let main_v164 : FVec F S132x132 .f32 := Host.absf main_arg33
  let main_cst_64 : FVec F S_ .f32 := constant S_ .f32 0x7F800000#32
  let main_v165 : FVec F S132x132 .f32 := broadcastInDim S132x132 ![] bcast_S_S132x132 main_cst_64
  let main_v166 : IVec S132x132 1 := cmpf .olt main_v164 main_v165
  let main_c_65 : IVec S_ 1 := constantI S_ 1 1#1
  let main_v167 : IVec S_ 1 := (fun x v => Host.reduce IntOp.andi x v reducesTo_S132x132_S_d0_1 h_S_) main_v166 main_c_65
  let main_v168 : IVec S_ 1 := andi main_v163 main_v167
  let main_v169 : FVec F S132 .f32 := Host.absf main_arg34
  let main_cst_66 : FVec F S_ .f32 := constant S_ .f32 0x7F800000#32
  let main_v170 : FVec F S132 .f32 := broadcastInDim S132 ![] bcast_S_S132 main_cst_66
  fn_part10 (F := F) main_arg35 main_arg36 main_v168 main_v169 main_v170

def fn_part8 {F : FTy → Type} [FloatOps F] (main_arg28 : FVec F S128 .f32) (main_arg29 : FVec F S128x128 .f32) (main_arg30 : FVec F S128 .f32) (main_arg31 : FVec F S256x132 .f32) (main_arg32 : FVec F S132 .f32) (main_arg33 : FVec F S132x132 .f32) (main_arg34 : FVec F S132 .f32) (main_arg35 : FVec F S132x128 .f32) (main_arg36 : FVec F S128 .f32) (main_v133 : IVec S_ 1) (main_v136 : IVec S128x128 1) : IVec S_ 1 :=
  let main_c_53 : IVec S_ 1 := constantI S_ 1 1#1
  let main_v137 : IVec S_ 1 := (fun x v => Host.reduce IntOp.andi x v reducesTo_S128x128_S_d0_1 h_S_) main_v136 main_c_53
  let main_v138 : IVec S_ 1 := andi main_v133 main_v137
  let main_v139 : FVec F S128 .f32 := Host.absf main_arg28
  let main_cst_54 : FVec F S_ .f32 := constant S_ .f32 0x7F800000#32
  let main_v140 : FVec F S128 .f32 := broadcastInDim S128 ![] bcast_S_S128 main_cst_54
  let main_v141 : IVec S128 1 := cmpf .olt main_v139 main_v140
  let main_c_55 : IVec S_ 1 := constantI S_ 1 1#1
  let main_v142 : IVec S_ 1 := (fun x v => Host.reduce IntOp.andi x v reducesTo_S128_S_d0 h_S_) main_v141 main_c_55
  let main_v143 : IVec S_ 1 := andi main_v138 main_v142
  let main_v144 : FVec F S128x128 .f32 := Host.absf main_arg29
  let main_cst_56 : FVec F S_ .f32 := constant S_ .f32 0x7F800000#32
  let main_v145 : FVec F S128x128 .f32 := broadcastInDim S128x128 ![] bcast_S_S128x128 main_cst_56
  let main_v146 : IVec S128x128 1 := cmpf .olt main_v144 main_v145
  let main_c_57 : IVec S_ 1 := constantI S_ 1 1#1
  let main_v147 : IVec S_ 1 := (fun x v => Host.reduce IntOp.andi x v reducesTo_S128x128_S_d0_1 h_S_) main_v146 main_c_57
  let main_v148 : IVec S_ 1 := andi main_v143 main_v147
  let main_v149 : FVec F S128 .f32 := Host.absf main_arg30
  let main_cst_58 : FVec F S_ .f32 := constant S_ .f32 0x7F800000#32
  let main_v150 : FVec F S128 .f32 := broadcastInDim S128 ![] bcast_S_S128 main_cst_58
  let main_v151 : IVec S128 1 := cmpf .olt main_v149 main_v150
  let main_c_59 : IVec S_ 1 := constantI S_ 1 1#1
  let main_v152 : IVec S_ 1 := (fun x v => Host.reduce IntOp.andi x v reducesTo_S128_S_d0 h_S_) main_v151 main_c_59
  let main_v153 : IVec S_ 1 := andi main_v148 main_v152
  fn_part9 (F := F) main_arg31 main_arg32 main_arg33 main_arg34 main_arg35 main_arg36 main_v153

def fn_part7 {F : FTy → Type} [FloatOps F] (main_arg25 : FVec F S132x128 .f32) (main_arg26 : FVec F S128 .f32) (main_arg27 : FVec F S128x128 .f32) (main_arg28 : FVec F S128 .f32) (main_arg29 : FVec F S128x128 .f32) (main_arg30 : FVec F S128 .f32) (main_arg31 : FVec F S256x132 .f32) (main_arg32 : FVec F S132 .f32) (main_arg33 : FVec F S132x132 .f32) (main_arg34 : FVec F S132 .f32) (main_arg35 : FVec F S132x128 .f32) (main_arg36 : FVec F S128 .f32) (main_v118 : IVec S_ 1) (main_v119 : FVec F S132 .f32) : IVec S_ 1 :=
  let main_cst_46 : FVec F S_ .f32 := constant S_ .f32 0x7F800000#32
  let main_v120 : FVec F S132 .f32 := broadcastInDim S132 ![] bcast_S_S132 main_cst_46
  let main_v121 : IVec S132 1 := cmpf .olt main_v119 main_v120
  let main_c_47 : IVec S_ 1 := constantI S_ 1 1#1
  let main_v122 : IVec S_ 1 := (fun x v => Host.reduce IntOp.andi x v reducesTo_S132_S_d0 h_S_) main_v121 main_c_47
  let main_v123 : IVec S_ 1 := andi main_v118 main_v122
  let main_v124 : FVec F S132x128 .f32 := Host.absf main_arg25
  let main_cst_48 : FVec F S_ .f32 := constant S_ .f32 0x7F800000#32
  let main_v125 : FVec F S132x128 .f32 := broadcastInDim S132x128 ![] bcast_S_S132x128 main_cst_48
  let main_v126 : IVec S132x128 1 := cmpf .olt main_v124 main_v125
  let main_c_49 : IVec S_ 1 := constantI S_ 1 1#1
  let main_v127 : IVec S_ 1 := (fun x v => Host.reduce IntOp.andi x v reducesTo_S132x128_S_d0_1 h_S_) main_v126 main_c_49
  let main_v128 : IVec S_ 1 := andi main_v123 main_v127
  let main_v129 : FVec F S128 .f32 := Host.absf main_arg26
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_v134 : FVec F S128x128 .f32 := Host.absf main_arg27
  let main_cst_52 : FVec F S_ .f32 := constant S_ .f32 0x7F800000#32
  let main_v135 : FVec F S128x128 .f32 := broadcastInDim S128x128 ![] bcast_S_S128x128 main_cst_52
  let main_v136 : IVec S128x128 1 := cmpf .olt main_v134 main_v135
  fn_part8 (F := F) main_arg28 main_arg29 main_arg30 main_arg31 main_arg32 main_arg33 main_arg34 main_arg35 main_arg36 main_v133 main_v136

def fn_part6 {F : FTy → Type} [FloatOps F] (main_arg21 : FVec F S132x132 .f32) (main_arg22 : FVec F S132 .f32) (main_arg23 : FVec F S132x132 .f32) (main_arg24 : FVec F S132 .f32) (main_arg25 : FVec F S132x128 .f32) (main_arg26 : FVec F S128 .f32) (main_arg27 : FVec F S128x128 .f32) (main_arg28 : FVec F S128 .f32) (main_arg29 : FVec F S128x128 .f32) (main_arg30 : FVec F S128 .f32) (main_arg31 : FVec F S256x132 .f32) (main_arg32 : FVec F S132 .f32) (main_arg33 : FVec F S132x132 .f32) (main_arg34 : FVec F S132 .f32) (main_arg35 : FVec F S132x128 .f32) (main_arg36 : FVec F S128 .f32) (main_v98 : IVec S_ 1) (main_v101 : IVec S132 1) (main_c_39 : IVec S_ 1) : IVec S_ 1 :=
  let main_v102 : IVec S_ 1 := (fun x v => Host.reduce IntOp.andi x v reducesTo_S132_S_d0 h_S_) main_v101 main_c_39
  let main_v103 : IVec S_ 1 := andi main_v98 main_v102
  let main_v104 : FVec F S132x132 .f32 := Host.absf main_arg21
  let main_cst_40 : FVec F S_ .f32 := constant S_ .f32 0x7F800000#32
  let main_v105 : FVec F S132x132 .f32 := broadcastInDim S132x132 ![] bcast_S_S132x132 main_cst_40
  let main_v106 : IVec S132x132 1 := cmpf .olt main_v104 main_v105
  let main_c_41 : IVec S_ 1 := constantI S_ 1 1#1
  let main_v107 : IVec S_ 1 := (fun x v => Host.reduce IntOp.andi x v reducesTo_S132x132_S_d0_1 h_S_) main_v106 main_c_41
  let main_v108 : IVec S_ 1 := andi main_v103 main_v107
  let main_v109 : FVec F S132 .f32 := Host.absf main_arg22
  let main_cst_42 : FVec F S_ .f32 := constant S_ .f32 0x7F800000#32
  let main_v110 : FVec F S132 .f32 := broadcastInDim S132 ![] bcast_S_S132 main_cst_42
  let main_v111 : IVec S132 1 := cmpf .olt main_v109 main_v110
  let main_c_43 : IVec S_ 1 := constantI S_ 1 1#1
  let main_v112 : IVec S_ 1 := (fun x v => Host.reduce IntOp.andi x v reducesTo_S132_S_d0 h_S_) main_v111 main_c_43
  let main_v113 : IVec S_ 1 := andi main_v108 main_v112
  let main_v114 : FVec F S132x132 .f32 := Host.absf main_arg23
  let main_cst_44 : FVec F S_ .f32 := constant S_ .f32 0x7F800000#32
  let main_v115 : FVec F S132x132 .f32 := broadcastInDim S132x132 ![] bcast_S_S132x132 main_cst_44
  let main_v116 : IVec S132x132 1 := cmpf .olt main_v114 main_v115
  let main_c_45 : IVec S_ 1 := constantI S_ 1 1#1
  let main_v117 : IVec S_ 1 := (fun x v => Host.reduce IntOp.andi x v reducesTo_S132x132_S_d0_1 h_S_) main_v116 main_c_45
  let main_v118 : IVec S_ 1 := andi main_v113 main_v117
  let main_v119 : FVec F S132 .f32 := Host.absf main_arg24
  fn_part7 (F := F) main_arg25 main_arg26 main_arg27 main_arg28 main_arg29 main_arg30 main_arg31 main_arg32 main_arg33 main_arg34 main_arg35 main_arg36 main_v118 main_v119

def fn_part5 {F : FTy → Type} [FloatOps F] (main_arg18 : FVec F S128 .f32) (main_arg19 : FVec F S256x132 .f32) (main_arg20 : FVec F S132 .f32) (main_arg21 : FVec F S132x132 .f32) (main_arg22 : FVec F S132 .f32) (main_arg23 : FVec F S132x132 .f32) (main_arg24 : FVec F S132 .f32) (main_arg25 : FVec F S132x128 .f32) (main_arg26 : FVec F S128 .f32) (main_arg27 : FVec F S128x128 .f32) (main_arg28 : FVec F S128 .f32) (main_arg29 : FVec F S128x128 .f32) (main_arg30 : FVec F S128 .f32) (main_arg31 : FVec F S256x132 .f32) (main_arg32 : FVec F S132 .f32) (main_arg33 : FVec F S132x132 .f32) (main_arg34 : FVec F S132 .f32) (main_arg35 : FVec F S132x128 .f32) (main_arg36 : FVec F S128 .f32) (main_v83 : IVec S_ 1) (main_v84 : FVec F S132x128 .f32) (main_cst_32 : FVec F S_ .f32) : IVec S_ 1 :=
  let main_v85 : FVec F S132x128 .f32 := broadcastInDim S132x128 ![] bcast_S_S132x128 main_cst_32
  let main_v86 : IVec S132x128 1 := cmpf .olt main_v84 main_v85
  let main_c_33 : IVec S_ 1 := constantI S_ 1 1#1
  let main_v87 : IVec S_ 1 := (fun x v => Host.reduce IntOp.andi x v reducesTo_S132x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S256x132 .f32 := Host.absf main_arg19
  let main_cst_36 : FVec F S_ .f32 := constant S_ .f32 0x7F800000#32
  let main_v95 : FVec F S256x132 .f32 := broadcastInDim S256x132 ![] bcast_S_S256x132 main_cst_36
  let main_v96 : IVec S256x132 1 := cmpf .olt main_v94 main_v95
  let main_c_37 : IVec S_ 1 := constantI S_ 1 1#1
  let main_v97 : IVec S_ 1 := (fun x v => Host.reduce IntOp.andi x v reducesTo_S256x132_S_d0_1 h_S_) main_v96 main_c_37
  let main_v98 : IVec S_ 1 := andi main_v93 main_v97
  let main_v99 : FVec F S132 .f32 := Host.absf main_arg20
  let main_cst_38 : FVec F S_ .f32 := constant S_ .f32 0x7F800000#32
  let main_v100 : FVec F S132 .f32 := broadcastInDim S132 ![] bcast_S_S132 main_cst_38
  let main_v101 : IVec S132 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_arg33 main_arg34 main_arg35 main_arg36 main_v98 main_v101 main_c_39

def fn_part4 {F : FTy → Type} [FloatOps F] (main_arg14 : FVec F S132 .f32) (main_arg15 : FVec F S132x132 .f32) (main_arg16 : FVec F S132 .f32) (main_arg17 : FVec F S132x128 .f32) (main_arg18 : FVec F S128 .f32) (main_arg19 : FVec F S256x132 .f32) (main_arg20 : FVec F S132 .f32) (main_arg21 : FVec F S132x132 .f32) (main_arg22 : FVec F S132 .f32) (main_arg23 : FVec F S132x132 .f32) (main_arg24 : FVec F S132 .f32) (main_arg25 : FVec F S132x128 .f32) (main_arg26 : FVec F S128 .f32) (main_arg27 : FVec F S128x128 .f32) (main_arg28 : FVec F S128 .f32) (main_arg29 : FVec F S128x128 .f32) (main_arg30 : FVec F S128 .f32) (main_arg31 : FVec F S256x132 .f32) (main_arg32 : FVec F S132 .f32) (main_arg33 : FVec F S132x132 .f32) (main_arg34 : FVec F S132 .f32) (main_arg35 : FVec F S132x128 .f32) (main_arg36 : FVec F S128 .f32) (main_v63 : IVec S_ 1) (main_v67 : IVec S_ 1) : IVec S_ 1 :=
  let main_v68 : IVec S_ 1 := andi main_v63 main_v67
  let main_v69 : FVec F S132 .f32 := Host.absf main_arg14
  let main_cst_26 : FVec F S_ .f32 := constant S_ .f32 0x7F800000#32
  let main_v70 : FVec F S132 .f32 := broadcastInDim S132 ![] bcast_S_S132 main_cst_26
  let main_v71 : IVec S132 1 := cmpf .olt main_v69 main_v70
  let main_c_27 : IVec S_ 1 := constantI S_ 1 1#1
  let main_v72 : IVec S_ 1 := (fun x v => Host.reduce IntOp.andi x v reducesTo_S132_S_d0 h_S_) main_v71 main_c_27
  let main_v73 : IVec S_ 1 := andi main_v68 main_v72
  let main_v74 : FVec F S132x132 .f32 := Host.absf main_arg15
  let main_cst_28 : FVec F S_ .f32 := constant S_ .f32 0x7F800000#32
  let main_v75 : FVec F S132x132 .f32 := broadcastInDim S132x132 ![] bcast_S_S132x132 main_cst_28
  let main_v76 : IVec S132x132 1 := cmpf .olt main_v74 main_v75
  let main_c_29 : IVec S_ 1 := constantI S_ 1 1#1
  let main_v77 : IVec S_ 1 := (fun x v => Host.reduce IntOp.andi x v reducesTo_S132x132_S_d0_1 h_S_) main_v76 main_c_29
  let main_v78 : IVec S_ 1 := andi main_v73 main_v77
  let main_v79 : FVec F S132 .f32 := Host.absf main_arg16
  let main_cst_30 : FVec F S_ .f32 := constant S_ .f32 0x7F800000#32
  let main_v80 : FVec F S132 .f32 := broadcastInDim S132 ![] bcast_S_S132 main_cst_30
  let main_v81 : IVec S132 1 := cmpf .olt main_v79 main_v80
  let main_c_31 : IVec S_ 1 := constantI S_ 1 1#1
  let main_v82 : IVec S_ 1 := (fun x v => Host.reduce IntOp.andi x v reducesTo_S132_S_d0 h_S_) main_v81 main_c_31
  let main_v83 : IVec S_ 1 := andi main_v78 main_v82
  let main_v84 : FVec F S132x128 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_arg33 main_arg34 main_arg35 main_arg36 main_v83 main_v84 main_cst_32

def fn_part3 {F : FTy → Type} [FloatOps F] (main_arg11 : FVec F S256x132 .f32) (main_arg12 : FVec F S132 .f32) (main_arg13 : FVec F S132x132 .f32) (main_arg14 : FVec F S132 .f32) (main_arg15 : FVec F S132x132 .f32) (main_arg16 : FVec F S132 .f32) (main_arg17 : FVec F S132x128 .f32) (main_arg18 : FVec F S128 .f32) (main_arg19 : FVec F S256x132 .f32) (main_arg20 : FVec F S132 .f32) (main_arg21 : FVec F S132x132 .f32) (main_arg22 : FVec F S132 .f32) (main_arg23 : FVec F S132x132 .f32) (main_arg24 : FVec F S132 .f32) (main_arg25 : FVec F S132x128 .f32) (main_arg26 : FVec F S128 .f32) (main_arg27 : FVec F S128x128 .f32) (main_arg28 : FVec F S128 .f32) (main_arg29 : FVec F S128x128 .f32) (main_arg30 : FVec F S128 .f32) (main_arg31 : FVec F S256x132 .f32) (main_arg32 : FVec F S132 .f32) (main_arg33 : FVec F S132x132 .f32) (main_arg34 : FVec F S132 .f32) (main_arg35 : FVec F S132x128 .f32) (main_arg36 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S256x132 .f32 := Host.absf main_arg11
  let main_cst_20 : FVec F S_ .f32 := constant S_ .f32 0x7F800000#32
  let main_v55 : FVec F S256x132 .f32 := broadcastInDim S256x132 ![] bcast_S_S256x132 main_cst_20
  let main_v56 : IVec S256x132 1 := cmpf .olt main_v54 main_v55
  let main_c_21 : IVec S_ 1 := constantI S_ 1 1#1
  let main_v57 : IVec S_ 1 := (fun x v => Host.reduce IntOp.andi x v reducesTo_S256x132_S_d0_1 h_S_) main_v56 main_c_21
  let main_v58 : IVec S_ 1 := andi main_v53 main_v57
  let main_v59 : FVec F S132 .f32 := Host.absf main_arg12
  let main_cst_22 : FVec F S_ .f32 := constant S_ .f32 0x7F800000#32
  let main_v60 : FVec F S132 .f32 := broadcastInDim S132 ![] bcast_S_S132 main_cst_22
  let main_v61 : IVec S132 1 := cmpf .olt main_v59 main_v60
  let main_c_23 : IVec S_ 1 := constantI S_ 1 1#1
  let main_v62 : IVec S_ 1 := (fun x v => Host.reduce IntOp.andi x v reducesTo_S132_S_d0 h_S_) main_v61 main_c_23
  let main_v63 : IVec S_ 1 := andi main_v58 main_v62
  let main_v64 : FVec F S132x132 .f32 := Host.absf main_arg13
  let main_cst_24 : FVec F S_ .f32 := constant S_ .f32 0x7F800000#32
  let main_v65 : FVec F S132x132 .f32 := broadcastInDim S132x132 ![] bcast_S_S132x132 main_cst_24
  let main_v66 : IVec S132x132 1 := cmpf .olt main_v64 main_v65
  let main_c_25 : IVec S_ 1 := constantI S_ 1 1#1
  let main_v67 : IVec S_ 1 := (fun x v => Host.reduce IntOp.andi x v reducesTo_S132x132_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v63 main_v67

def fn_part2 {F : FTy → Type} [FloatOps F] (main_arg7 : FVec F S132x132 .f32) (main_arg8 : FVec F S132 .f32) (main_arg9 : FVec F S132x128 .f32) (main_arg10 : FVec F S128 .f32) (main_arg11 : FVec F S256x132 .f32) (main_arg12 : FVec F S132 .f32) (main_arg13 : FVec F S132x132 .f32) (main_arg14 : FVec F S132 .f32) (main_arg15 : FVec F S132x132 .f32) (main_arg16 : FVec F S132 .f32) (main_arg17 : FVec F S132x128 .f32) (main_arg18 : FVec F S128 .f32) (main_arg19 : FVec F S256x132 .f32) (main_arg20 : FVec F S132 .f32) (main_arg21 : FVec F S132x132 .f32) (main_arg22 : FVec F S132 .f32) (main_arg23 : FVec F S132x132 .f32) (main_arg24 : FVec F S132 .f32) (main_arg25 : FVec F S132x128 .f32) (main_arg26 : FVec F S128 .f32) (main_arg27 : FVec F S128x128 .f32) (main_arg28 : FVec F S128 .f32) (main_arg29 : FVec F S128x128 .f32) (main_arg30 : FVec F S128 .f32) (main_arg31 : FVec F S256x132 .f32) (main_arg32 : FVec F S132 .f32) (main_arg33 : FVec F S132x132 .f32) (main_arg34 : FVec F S132 .f32) (main_arg35 : FVec F S132x128 .f32) (main_arg36 : FVec F S128 .f32) (main_v33 : IVec S_ 1) : IVec S_ 1 :=
  let main_v34 : FVec F S132x132 .f32 := Host.absf main_arg7
  let main_cst_12 : FVec F S_ .f32 := constant S_ .f32 0x7F800000#32
  let main_v35 : FVec F S132x132 .f32 := broadcastInDim S132x132 ![] bcast_S_S132x132 main_cst_12
  let main_v36 : IVec S132x132 1 := cmpf .olt main_v34 main_v35
  let main_c_13 : IVec S_ 1 := constantI S_ 1 1#1
  let main_v37 : IVec S_ 1 := (fun x v => Host.reduce IntOp.andi x v reducesTo_S132x132_S_d0_1 h_S_) main_v36 main_c_13
  let main_v38 : IVec S_ 1 := andi main_v33 main_v37
  let main_v39 : FVec F S132 .f32 := Host.absf main_arg8
  let main_cst_14 : FVec F S_ .f32 := constant S_ .f32 0x7F800000#32
  let main_v40 : FVec F S132 .f32 := broadcastInDim S132 ![] bcast_S_S132 main_cst_14
  let main_v41 : IVec S132 1 := cmpf .olt main_v39 main_v40
  let main_c_15 : IVec S_ 1 := constantI S_ 1 1#1
  let main_v42 : IVec S_ 1 := (fun x v => Host.reduce IntOp.andi x v reducesTo_S132_S_d0 h_S_) main_v41 main_c_15
  let main_v43 : IVec S_ 1 := andi main_v38 main_v42
  let main_v44 : FVec F S132x128 .f32 := Host.absf main_arg9
  let main_cst_16 : FVec F S_ .f32 := constant S_ .f32 0x7F800000#32
  let main_v45 : FVec F S132x128 .f32 := broadcastInDim S132x128 ![] bcast_S_S132x128 main_cst_16
  let main_v46 : IVec S132x128 1 := cmpf .olt main_v44 main_v45
  let main_c_17 : IVec S_ 1 := constantI S_ 1 1#1
  let main_v47 : IVec S_ 1 := (fun x v => Host.reduce IntOp.andi x v reducesTo_S132x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v48 main_v49 main_v50

def fn_part1 {F : FTy → Type} [FloatOps F] (main_arg4 : FVec F S128 .f32) (main_arg5 : FVec F S640x132 .f32) (main_arg6 : FVec F S132 .f32) (main_arg7 : FVec F S132x132 .f32) (main_arg8 : FVec F S132 .f32) (main_arg9 : FVec F S132x128 .f32) (main_arg10 : FVec F S128 .f32) (main_arg11 : FVec F S256x132 .f32) (main_arg12 : FVec F S132 .f32) (main_arg13 : FVec F S132x132 .f32) (main_arg14 : FVec F S132 .f32) (main_arg15 : FVec F S132x132 .f32) (main_arg16 : FVec F S132 .f32) (main_arg17 : FVec F S132x128 .f32) (main_arg18 : FVec F S128 .f32) (main_arg19 : FVec F S256x132 .f32) (main_arg20 : FVec F S132 .f32) (main_arg21 : FVec F S132x132 .f32) (main_arg22 : FVec F S132 .f32) (main_arg23 : FVec F S132x132 .f32) (main_arg24 : FVec F S132 .f32) (main_arg25 : FVec F S132x128 .f32) (main_arg26 : FVec F S128 .f32) (main_arg27 : FVec F S128x128 .f32) (main_arg28 : FVec F S128 .f32) (main_arg29 : FVec F S128x128 .f32) (main_arg30 : FVec F S128 .f32) (main_arg31 : FVec F S256x132 .f32) (main_arg32 : FVec F S132 .f32) (main_arg33 : FVec F S132x132 .f32) (main_arg34 : FVec F S132 .f32) (main_arg35 : FVec F S132x128 .f32) (main_arg36 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S640x132 .f32 := Host.absf main_arg5
  let main_cst_8 : FVec F S_ .f32 := constant S_ .f32 0x7F800000#32
  let main_v25 : FVec F S640x132 .f32 := broadcastInDim S640x132 ![] bcast_S_S640x132 main_cst_8
  let main_v26 : IVec S640x132 1 := cmpf .olt main_v24 main_v25
  let main_c_9 : IVec S_ 1 := constantI S_ 1 1#1
  let main_v27 : IVec S_ 1 := (fun x v => Host.reduce IntOp.andi x v reducesTo_S640x132_S_d0_1 h_S_) main_v26 main_c_9
  let main_v28 : IVec S_ 1 := andi main_v23 main_v27
  let main_v29 : FVec F S132 .f32 := Host.absf main_arg6
  let main_cst_10 : FVec F S_ .f32 := constant S_ .f32 0x7F800000#32
  let main_v30 : FVec F S132 .f32 := broadcastInDim S132 ![] bcast_S_S132 main_cst_10
  let main_v31 : IVec S132 1 := cmpf .olt main_v29 main_v30
  let main_c_11 : IVec S_ 1 := constantI S_ 1 1#1
  let main_v32 : IVec S_ 1 := (fun x v => Host.reduce IntOp.andi x v reducesTo_S132_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v33

def fn {F : FTy → Type} [FloatOps F] (main_arg0 : FVec F S65536x512 .f32) (main_arg1 : FVec F S128x128 .f32) (main_arg2 : FVec F S128 .f32) (main_arg3 : FVec F S128x128 .f32) (main_arg4 : FVec F S128 .f32) (main_arg5 : FVec F S640x132 .f32) (main_arg6 : FVec F S132 .f32) (main_arg7 : FVec F S132x132 .f32) (main_arg8 : FVec F S132 .f32) (main_arg9 : FVec F S132x128 .f32) (main_arg10 : FVec F S128 .f32) (main_arg11 : FVec F S256x132 .f32) (main_arg12 : FVec F S132 .f32) (main_arg13 : FVec F S132x132 .f32) (main_arg14 : FVec F S132 .f32) (main_arg15 : FVec F S132x132 .f32) (main_arg16 : FVec F S132 .f32) (main_arg17 : FVec F S132x128 .f32) (main_arg18 : FVec F S128 .f32) (main_arg19 : FVec F S256x132 .f32) (main_arg20 : FVec F S132 .f32) (main_arg21 : FVec F S132x132 .f32) (main_arg22 : FVec F S132 .f32) (main_arg23 : FVec F S132x132 .f32) (main_arg24 : FVec F S132 .f32) (main_arg25 : FVec F S132x128 .f32) (main_arg26 : FVec F S128 .f32) (main_arg27 : FVec F S128x128 .f32) (main_arg28 : FVec F S128 .f32) (main_arg29 : FVec F S128x128 .f32) (main_arg30 : FVec F S128 .f32) (main_arg31 : FVec F S256x132 .f32) (main_arg32 : FVec F S132 .f32) (main_arg33 : FVec F S132x132 .f32) (main_arg34 : FVec F S132 .f32) (main_arg35 : FVec F S132x128 .f32) (main_arg36 : FVec F S128 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v13 main_v16
-- ==== Kernel.lean ====
abbrev S65536x512 : Shape := ⟨2, ![65536, 512]⟩
abbrev S128x128 : Shape := ⟨2, ![128, 128]⟩
abbrev S128 : Shape := ⟨1, ![128]⟩
abbrev S640x132 : Shape := ⟨2, ![640, 132]⟩
abbrev S132 : Shape := ⟨1, ![132]⟩
abbrev S132x132 : Shape := ⟨2, ![132, 132]⟩
abbrev S132x128 : Shape := ⟨2, ![132, 128]⟩
abbrev S256x132 : Shape := ⟨2, ![256, 132]⟩
abbrev S8x65536x128 : Shape := ⟨3, ![8, 65536, 128]⟩
abbrev S1024x512 : Shape := ⟨2, ![1024, 512]⟩
abbrev S8x1024x128 : Shape := ⟨3, ![8, 1024, 128]⟩
abbrev S512x132 : Shape := ⟨2, ![512, 132]⟩
abbrev S1024x132 : Shape := ⟨2, ![1024, 132]⟩
abbrev S1x132 : Shape := ⟨2, ![1, 132]⟩
abbrev S1024x128 : Shape := ⟨2, ![1024, 128]⟩
abbrev S1x128 : Shape := ⟨2, ![1, 128]⟩
abbrev S128x132 : Shape := ⟨2, ![128, 132]⟩
abbrev S1024x640 : Shape := ⟨2, ![1024, 640]⟩
abbrev S1024x256 : Shape := ⟨2, ![1024, 256]⟩
abbrev S1x1024x128 : Shape := ⟨3, ![1, 1024, 128]⟩

abbrev nBuf : Space → Nat
  | .hbm => 56
  | .vmem => 40
  | .smem => 0
  | _ => 0

abbrev bufTy : (tb : Table) → Fin (tcTables nBuf tb) → BufTy
  | .hbm, ⟨0, _⟩ => ⟨S65536x512, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S640x132, .f32⟩
  | .hbm, ⟨6, _⟩ => ⟨S132, .f32⟩
  | .hbm, ⟨7, _⟩ => ⟨S132x132, .f32⟩
  | .hbm, ⟨8, _⟩ => ⟨S132, .f32⟩
  | .hbm, ⟨9, _⟩ => ⟨S132x128, .f32⟩
  | .hbm, ⟨10, _⟩ => ⟨S128, .f32⟩
  | .hbm, ⟨11, _⟩ => ⟨S256x132, .f32⟩
  | .hbm, ⟨12, _⟩ => ⟨S132, .f32⟩
  | .hbm, ⟨13, _⟩ => ⟨S132x132, .f32⟩
  | .hbm, ⟨14, _⟩ => ⟨S132, .f32⟩
  | .hbm, ⟨15, _⟩ => ⟨S132x132, .f32⟩
  | .hbm, ⟨16, _⟩ => ⟨S132, .f32⟩
  | .hbm, ⟨17, _⟩ => ⟨S132x128, .f32⟩
  | .hbm, ⟨18, _⟩ => ⟨S128, .f32⟩
  | .hbm, ⟨19, _⟩ => ⟨S256x132, .f32⟩
  | .hbm, ⟨20, _⟩ => ⟨S132, .f32⟩
  | .hbm, ⟨21, _⟩ => ⟨S132x132, .f32⟩
  | .hbm, ⟨22, _⟩ => ⟨S132, .f32⟩
  | .hbm, ⟨23, _⟩ => ⟨S132x132, .f32⟩
  | .hbm, ⟨24, _⟩ => ⟨S132, .f32⟩
  | .hbm, ⟨25, _⟩ => ⟨S132x128, .f32⟩
  | .hbm, ⟨26, _⟩ => ⟨S128, .f32⟩
  | .hbm, ⟨27, _⟩ => ⟨S128x128, .f32⟩
  | .hbm, ⟨28, _⟩ => ⟨S128, .f32⟩
  | .hbm, ⟨29, _⟩ => ⟨S128x128, .f32⟩
  | .hbm, ⟨30, _⟩ => ⟨S128, .f32⟩
  | .hbm, ⟨31, _⟩ => ⟨S256x132, .f32⟩
  | .hbm, ⟨32, _⟩ => ⟨S132, .f32⟩
  | .hbm, ⟨33, _⟩ => ⟨S132x132, .f32⟩
  | .hbm, ⟨34, _⟩ => ⟨S132, .f32⟩
  | .hbm, ⟨35, _⟩ => ⟨S132x128, .f32⟩
  | .hbm, ⟨36, _⟩ => ⟨S128, .f32⟩
  | .hbm, ⟨37, _⟩ => ⟨S128x128, .bf16⟩
  | .hbm, ⟨38, _⟩ => ⟨S128x128, .bf16⟩
  | .hbm, ⟨39, _⟩ => ⟨S640x132, .bf16⟩
  | .hbm, ⟨40, _⟩ => ⟨S132x132, .bf16⟩
  | .hbm, ⟨41, _⟩ => ⟨S132x128, .bf16⟩
  | .hbm, ⟨42, _⟩ => ⟨S256x132, .bf16⟩
  | .hbm, ⟨43, _⟩ => ⟨S132x132, .bf16⟩
  | .hbm, ⟨44, _⟩ => ⟨S132x132, .bf16⟩
  | .hbm, ⟨45, _⟩ => ⟨S132x128, .bf16⟩
  | .hbm, ⟨46, _⟩ => ⟨S256x132, .bf16⟩
  | .hbm, ⟨47, _⟩ => ⟨S132x132, .bf16⟩
  | .hbm, ⟨48, _⟩ => ⟨S132x132, .bf16⟩
  | .hbm, ⟨49, _⟩ => ⟨S132x128, .bf16⟩
  | .hbm, ⟨50, _⟩ => ⟨S128x128, .bf16⟩
  | .hbm, ⟨51, _⟩ => ⟨S128x128, .bf16⟩
  | .hbm, ⟨52, _⟩ => ⟨S256x132, .bf16⟩
  | .hbm, ⟨53, _⟩ => ⟨S132x132, .bf16⟩
  | .hbm, ⟨54, _⟩ => ⟨S132x128, .bf16⟩
  | .hbm, ⟨55, _⟩ => ⟨S8x65536x128, .f32⟩
  | .local _ .vmem, ⟨0, _⟩ => ⟨S1024x512, .f32⟩
  | .local _ .vmem, ⟨1, _⟩ => ⟨S1024x512, .f32⟩
  | .local _ .vmem, ⟨2, _⟩ => ⟨S128x128, .bf16⟩
  | .local _ .vmem, ⟨3, _⟩ => ⟨S128, .f32⟩
  | .local _ .vmem, ⟨4, _⟩ => ⟨S128x128, .bf16⟩
  | .local _ .vmem, ⟨5, _⟩ => ⟨S128, .f32⟩
  | .local _ .vmem, ⟨6, _⟩ => ⟨S640x132, .bf16⟩
  | .local _ .vmem, ⟨7, _⟩ => ⟨S132, .f32⟩
  | .local _ .vmem, ⟨8, _⟩ => ⟨S132x132, .bf16⟩
  | .local _ .vmem, ⟨9, _⟩ => ⟨S132, .f32⟩
  | .local _ .vmem, ⟨10, _⟩ => ⟨S132x128, .bf16⟩
  | .local _ .vmem, ⟨11, _⟩ => ⟨S128, .f32⟩
  | .local _ .vmem, ⟨12, _⟩ => ⟨S256x132, .bf16⟩
  | .local _ .vmem, ⟨13, _⟩ => ⟨S132, .f32⟩
  | .local _ .vmem, ⟨14, _⟩ => ⟨S132x132, .bf16⟩
  | .local _ .vmem, ⟨15, _⟩ => ⟨S132, .f32⟩
  | .local _ .vmem, ⟨16, _⟩ => ⟨S132x132, .bf16⟩
  | .local _ .vmem, ⟨17, _⟩ => ⟨S132, .f32⟩
  | .local _ .vmem, ⟨18, _⟩ => ⟨S132x128, .bf16⟩
  | .local _ .vmem, ⟨19, _⟩ => ⟨S128, .f32⟩
  | .local _ .vmem, ⟨20, _⟩ => ⟨S256x132, .bf16⟩
  | .local _ .vmem, ⟨21, _⟩ => ⟨S132, .f32⟩
  | .local _ .vmem, ⟨22, _⟩ => ⟨S132x132, .bf16⟩
  | .local _ .vmem, ⟨23, _⟩ => ⟨S132, .f32⟩
  | .local _ .vmem, ⟨24, _⟩ => ⟨S132x132, .bf16⟩
  | .local _ .vmem, ⟨25, _⟩ => ⟨S132, .f32⟩
  | .local _ .vmem, ⟨26, _⟩ => ⟨S132x128, .bf16⟩
  | .local _ .vmem, ⟨27, _⟩ => ⟨S128, .f32⟩
  | .local _ .vmem, ⟨28, _⟩ => ⟨S128x128, .bf16⟩
  | .local _ .vmem, ⟨29, _⟩ => ⟨S128, .f32⟩
  | .local _ .vmem, ⟨30, _⟩ => ⟨S128x128, .bf16⟩
  | .local _ .vmem, ⟨31, _⟩ => ⟨S128, .f32⟩
  | .local _ .vmem, ⟨32, _⟩ => ⟨S256x132, .bf16⟩
  | .local _ .vmem, ⟨33, _⟩ => ⟨S132, .f32⟩
  | .local _ .vmem, ⟨34, _⟩ => ⟨S132x132, .bf16⟩
  | .local _ .vmem, ⟨35, _⟩ => ⟨S132, .f32⟩
  | .local _ .vmem, ⟨36, _⟩ => ⟨S132x128, .bf16⟩
  | .local _ .vmem, ⟨37, _⟩ => ⟨S128, .f32⟩
  | .local _ .vmem, ⟨38, _⟩ => ⟨S8x1024x128, .f32⟩
  | .local _ .vmem, ⟨39, _⟩ => ⟨S8x1024x128, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_v0 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg28_0 : Ref sig .tc := ⟨.vmem, 29, rfl⟩
abbrev cc0_stg29_0 : Ref sig .tc := ⟨.vmem, 30, rfl⟩
abbrev cc0_stg30_0 : Ref sig .tc := ⟨.vmem, 31, rfl⟩
abbrev cc0_stg31_0 : Ref sig .tc := ⟨.vmem, 32, rfl⟩
abbrev cc0_stg32_0 : Ref sig .tc := ⟨.vmem, 33, rfl⟩
abbrev cc0_stg33_0 : Ref sig .tc := ⟨.vmem, 34, rfl⟩
abbrev cc0_stg34_0 : Ref sig .tc := ⟨.vmem, 35, rfl⟩
abbrev cc0_stg35_0 : Ref sig .tc := ⟨.vmem, 36, rfl⟩
abbrev cc0_stg36_0 : Ref sig .tc := ⟨.vmem, 37, rfl⟩
abbrev cc0_stg37_0 : Ref sig .tc := ⟨.vmem, 38, rfl⟩
abbrev cc0_stg37_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem28_0 : DmaSem sig := 29
abbrev cc0_sem29_0 : DmaSem sig := 30
abbrev cc0_sem30_0 : DmaSem sig := 31
abbrev cc0_sem31_0 : DmaSem sig := 32
abbrev cc0_sem32_0 : DmaSem sig := 33
abbrev cc0_sem33_0 : DmaSem sig := 34
abbrev cc0_sem34_0 : DmaSem sig := 35
abbrev cc0_sem35_0 : DmaSem sig := 36
abbrev cc0_sem36_0 : DmaSem sig := 37
abbrev cc0_sem37_0 : DmaSem sig := 38
abbrev cc0_sem37_1 : DmaSem sig := 39

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_37 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S640x132 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S132 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S132x132 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S132 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S132x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x132 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S132 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S132x132 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S132 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S132x132 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S132 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S132x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x132 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S132 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S132x132 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S132 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S132x132 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S132 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S132x128 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S128x128 .bf16 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S128x128 .bf16 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S256x132 .bf16 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S132 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S132x132 .bf16 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S132 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S132x128 .bf16 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]

abbrev stage0_36 : Fin 1 → Memref sig .tc .vmem S128 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
abbrev reads0_36 : Fin grid0.rank → Bool := ![false]

abbrev stage0_37 : Fin 2 → Memref sig .tc .vmem S8x1024x128 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

class Facts₀ : Prop where
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S640x132_S512x132_0_0 : ∀ a, (![0, 0] : Fin 2 → Nat) a + S512x132.size a ≤ S640x132.size a
  h_S512x132 : 0 < S512x132.numel
  shapeCasts_S512x132_S512x132 : S512x132.ShapeCasts S512x132
  inb_S132_S132_0 : ∀ a, (![0] : Fin 1 → Nat) a + S132.size a ≤ S132.size a
  h_S132 : 0 < S132.numel
  shapeCasts_S132_S1x132 : S132.ShapeCasts S1x132
  broadcasts_S1x132_S1024x132 : S1x132.Broadcasts S1024x132
  inb_S132x132_S132x132_0_0 : ∀ a, (![0, 0] : Fin 2 → Nat) a + S132x132.size a ≤ S132x132.size a
  h_S132x132 : 0 < S132x132.numel
  shapeCasts_S132x132_S132x132 : S132x132.ShapeCasts S132x132
  inb_S132x128_S132x128_0_0 : ∀ a, (![0, 0] : Fin 2 → Nat) a + S132x128.size a ≤ S132x128.size a
  h_S132x128 : 0 < S132x128.numel
  shapeCasts_S132x128_S132x128 : S132x128.ShapeCasts S132x128
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S256x132_S128x132_0_0 : ∀ a, (![0, 0] : Fin 2 → Nat) a + S128x132.size a ≤ S256x132.size a
  h_S128x132 : 0 < S128x132.numel
  shapeCasts_S128x132_S128x132 : S128x132.ShapeCasts S128x132
  inb_S256x132_S128x132_128_0 : ∀ a, (![128, 0] : Fin 2 → Nat) a + S128x132.size a ≤ S256x132.size a
  inb_S128x128_S128x128_0_0 : ∀ a, (![0, 0] : Fin 2 → Nat) a + S128x128.size a ≤ S128x128.size a
  h_S128x128 : 0 < S128x128.numel
  shapeCasts_S128x128_S128x128 : S128x128.ShapeCasts S128x128
  concatenates_S1024x512_S1024x128_S1024x640_d1 : Shape.Concatenates [S1024x512, S1024x128] S1024x640 1
  inb_S640x132_S640x132_0_0 : ∀ a, (![0, 0] : Fin 2 → Nat) a + S640x132.size a ≤ S640x132.size a
  h_S640x132 : 0 < S640x132.numel
  shapeCasts_S640x132_S640x132 : S640x132.ShapeCasts S640x132
  concatenates_S1024x128_S1024x128_S1024x256_d1 : Shape.Concatenates [S1024x128, S1024x128] S1024x256 1
  inb_S256x132_S256x132_0_0 : ∀ a, (![0, 0] : Fin 2 → Nat) a + S256x132.size a ≤ S256x132.size a
  h_S256x132 : 0 < S256x132.numel
  shapeCasts_S256x132_S256x132 : S256x132.ShapeCasts S256x132
  inb_S8x1024x128_S1x1024x128_0_0_0 : ∀ a, (![0, 0, 0] : Fin 3 → Nat) a + S1x1024x128.size a ≤ S8x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  inb_S8x1024x128_S1x1024x128_1_0_0 : ∀ a, (![1, 0, 0] : Fin 3 → Nat) a + S1x1024x128.size a ≤ S8x1024x128.size a
  inb_S8x1024x128_S1x1024x128_2_0_0 : ∀ a, (![2, 0, 0] : Fin 3 → Nat) a + S1x1024x128.size a ≤ S8x1024x128.size a
  inb_S8x1024x128_S1x1024x128_3_0_0 : ∀ a, (![3, 0, 0] : Fin 3 → Nat) a + S1x1024x128.size a ≤ S8x1024x128.size a
  inb_S8x1024x128_S1x1024x128_4_0_0 : ∀ a, (![4, 0, 0] : Fin 3 → Nat) a + S1x1024x128.size a ≤ S8x1024x128.size a
  inb_S8x1024x128_S1x1024x128_5_0_0 : ∀ a, (![5, 0, 0] : Fin 3 → Nat) a + S1x1024x128.size a ≤ S8x1024x128.size a
  inb_S8x1024x128_S1x1024x128_6_0_0 : ∀ a, (![6, 0, 0] : Fin 3 → Nat) a + S1x1024x128.size a ≤ S8x1024x128.size a
  inb_S8x1024x128_S1x1024x128_7_0_0 : ∀ a, (![7, 0, 0] : Fin 3 → Nat) a + S1x1024x128.size a ≤ S8x1024x128.size a
  dot_S1024x512_S512x132_S1024x132_1_0_0_1_n_n_wf : DotDims.WF S1024x512 S512x132 S1024x132 [1] [0] [0] [1] [] []
  dot_S1024x132_S132x132_S1024x132_1_0_0_1_n_n_wf : DotDims.WF S1024x132 S132x132 S1024x132 [1] [0] [0] [1] [] []
  dot_S1024x132_S132x128_S1024x128_1_0_0_1_n_n_wf : DotDims.WF S1024x132 S132x128 S1024x128 [1] [0] [0] [1] [] []
  dot_S1024x128_S128x132_S1024x132_1_0_0_1_n_n_wf : DotDims.WF S1024x128 S128x132 S1024x132 [1] [0] [0] [1] [] []
  dot_S1024x128_S128x128_S1024x128_1_0_0_1_n_n_wf : DotDims.WF S1024x128 S128x128 S1024x128 [1] [0] [0] [1] [] []
  dot_S1024x640_S640x132_S1024x132_1_0_0_1_n_n_wf : DotDims.WF S1024x640 S640x132 S1024x132 [1] [0] [0] [1] [] []
  dot_S1024x256_S256x132_S1024x132_1_0_0_1_n_n_wf : DotDims.WF S1024x256 S256x132 S1024x132 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S640x132.size a ≤ S640x132.size a
  hwx0_5 : ∀ i : grid0.Coords, EltTy.bits .bf16 = 32 ∨ (Rect.block (s := S640x132) S640x132.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S132.size a ≤ S132.size a
  hwx0_6 : ∀ i : grid0.Coords, EltTy.bits .f32 = 32 ∨ (Rect.block (s := S132) S132.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S132x132.size a ≤ S132x132.size a
  hwx0_7 : ∀ i : grid0.Coords, EltTy.bits .bf16 = 32 ∨ (Rect.block (s := S132x132) S132x132.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S132.size a ≤ S132.size a
  hwx0_8 : ∀ i : grid0.Coords, EltTy.bits .f32 = 32 ∨ (Rect.block (s := S132) S132.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S132x128.size a ≤ S132x128.size a
  hwx0_9 : ∀ i : grid0.Coords, EltTy.bits .bf16 = 32 ∨ (Rect.block (s := S132x128) S132x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x132.size a ≤ S256x132.size a
  hwx0_11 : ∀ i : grid0.Coords, EltTy.bits .bf16 = 32 ∨ (Rect.block (s := S256x132) S256x132.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S132.size a ≤ S132.size a
  hwx0_12 : ∀ i : grid0.Coords, EltTy.bits .f32 = 32 ∨ (Rect.block (s := S132) S132.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S132x132.size a ≤ S132x132.size a
  hwx0_13 : ∀ i : grid0.Coords, EltTy.bits .bf16 = 32 ∨ (Rect.block (s := S132x132) S132x132.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S132.size a ≤ S132.size a
  hwx0_14 : ∀ i : grid0.Coords, EltTy.bits .f32 = 32 ∨ (Rect.block (s := S132) S132.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S132x132.size a ≤ S132x132.size a
  hwx0_15 : ∀ i : grid0.Coords, EltTy.bits .bf16 = 32 ∨ (Rect.block (s := S132x132) S132x132.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S132.size a ≤ S132.size a
  hwx0_16 : ∀ i : grid0.Coords, EltTy.bits .f32 = 32 ∨ (Rect.block (s := S132) S132.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S132x128.size a ≤ S132x128.size a
  hwx0_17 : ∀ i : grid0.Coords, EltTy.bits .bf16 = 32 ∨ (Rect.block (s := S132x128) S132x128.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S128.size a ≤ S128.size a
  hwx0_18 : ∀ i : grid0.Coords, EltTy.bits .f32 = 32 ∨ (Rect.block (s := S128) S128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256x132.size a ≤ S256x132.size a
  hwx0_19 : ∀ i : grid0.Coords, EltTy.bits .bf16 = 32 ∨ (Rect.block (s := S256x132) S256x132.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S132.size a ≤ S132.size a
  hwx0_20 : ∀ i : grid0.Coords, EltTy.bits .f32 = 32 ∨ (Rect.block (s := S132) S132.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S132x132.size a ≤ S132x132.size a
  hwx0_21 : ∀ i : grid0.Coords, EltTy.bits .bf16 = 32 ∨ (Rect.block (s := S132x132) S132x132.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S132.size a ≤ S132.size a
  hwx0_22 : ∀ i : grid0.Coords, EltTy.bits .f32 = 32 ∨ (Rect.block (s := S132) S132.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S132x132.size a ≤ S132x132.size a
  hwx0_23 : ∀ i : grid0.Coords, EltTy.bits .bf16 = 32 ∨ (Rect.block (s := S132x132) S132x132.size (cc0_transform_23 i) (hinb0_23 i)).WholeWords (EltTy.packing .bf16)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S132.size a ≤ S132.size a
  hwx0_24 : ∀ i : grid0.Coords, EltTy.bits .f32 = 32 ∨ (Rect.block (s := S132) S132.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S132x128.size a ≤ S132x128.size a
  hwx0_25 : ∀ i : grid0.Coords, EltTy.bits .bf16 = 32 ∨ (Rect.block (s := S132x128) S132x128.size (cc0_transform_25 i) (hinb0_25 i)).WholeWords (EltTy.packing .bf16)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S128.size a ≤ S128.size a
  hwx0_26 : ∀ i : grid0.Coords, EltTy.bits .f32 = 32 ∨ (Rect.block (s := S128) S128.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S128x128.size a ≤ S128x128.size a
  hwx0_27 : ∀ i : grid0.Coords, EltTy.bits .bf16 = 32 ∨ (Rect.block (s := S128x128) S128x128.size (cc0_transform_27 i) (hinb0_27 i)).WholeWords (EltTy.packing .bf16)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S128.size a ≤ S128.size a
  hwx0_28 : ∀ i : grid0.Coords, EltTy.bits .f32 = 32 ∨ (Rect.block (s := S128) S128.size (cc0_transform_28 i) (hinb0_28 i)).WholeWords (EltTy.packing .f32)
  hstage0_29 : ∀ j, (stage0_29 j).IsWhole
  nbuf0_29 : grid0.bufCount reads0_29 true = 1
  hreads0_29 : ∀ i i' : grid0.Coords, (∀ a, reads0_29 a = true → i a = i' a) → cc0_transform_29 i = cc0_transform_29 i'
  hinb0_29 : ∀ (i : grid0.Coords) a, (cc0_transform_29 i a + 1) * S128x128.size a ≤ S128x128.size a
  hwx0_29 : ∀ i : grid0.Coords, EltTy.bits .bf16 = 32 ∨ (Rect.block (s := S128x128) S128x128.size (cc0_transform_29 i) (hinb0_29 i)).WholeWords (EltTy.packing .bf16)
  hstage0_30 : ∀ j, (stage0_30 j).IsWhole
  nbuf0_30 : grid0.bufCount reads0_30 true = 1
  hreads0_30 : ∀ i i' : grid0.Coords, (∀ a, reads0_30 a = true → i a = i' a) → cc0_transform_30 i = cc0_transform_30 i'
  hinb0_30 : ∀ (i : grid0.Coords) a, (cc0_transform_30 i a + 1) * S128.size a ≤ S128.size a
  hwx0_30 : ∀ i : grid0.Coords, EltTy.bits .f32 = 32 ∨ (Rect.block (s := S128) S128.size (cc0_transform_30 i) (hinb0_30 i)).WholeWords (EltTy.packing .f32)
  hstage0_31 : ∀ j, (stage0_31 j).IsWhole
  nbuf0_31 : grid0.bufCount reads0_31 true = 1
  hreads0_31 : ∀ i i' : grid0.Coords, (∀ a, reads0_31 a = true → i a = i' a) → cc0_transform_31 i = cc0_transform_31 i'
  hinb0_31 : ∀ (i : grid0.Coords) a, (cc0_transform_31 i a + 1) * S256x132.size a ≤ S256x132.size a
  hwx0_31 : ∀ i : grid0.Coords, EltTy.bits .bf16 = 32 ∨ (Rect.block (s := S256x132) S256x132.size (cc0_transform_31 i) (hinb0_31 i)).WholeWords (EltTy.packing .bf16)
  hstage0_32 : ∀ j, (stage0_32 j).IsWhole
  nbuf0_32 : grid0.bufCount reads0_32 true = 1
  hreads0_32 : ∀ i i' : grid0.Coords, (∀ a, reads0_32 a = true → i a = i' a) → cc0_transform_32 i = cc0_transform_32 i'
  hinb0_32 : ∀ (i : grid0.Coords) a, (cc0_transform_32 i a + 1) * S132.size a ≤ S132.size a
  hwx0_32 : ∀ i : grid0.Coords, EltTy.bits .f32 = 32 ∨ (Rect.block (s := S132) S132.size (cc0_transform_32 i) (hinb0_32 i)).WholeWords (EltTy.packing .f32)
  hstage0_33 : ∀ j, (stage0_33 j).IsWhole
  nbuf0_33 : grid0.bufCount reads0_33 true = 1
  hreads0_33 : ∀ i i' : grid0.Coords, (∀ a, reads0_33 a = true → i a = i' a) → cc0_transform_33 i = cc0_transform_33 i'
  hinb0_33 : ∀ (i : grid0.Coords) a, (cc0_transform_33 i a + 1) * S132x132.size a ≤ S132x132.size a
  hwx0_33 : ∀ i : grid0.Coords, EltTy.bits .bf16 = 32 ∨ (Rect.block (s := S132x132) S132x132.size (cc0_transform_33 i) (hinb0_33 i)).WholeWords (EltTy.packing .bf16)
  hstage0_34 : ∀ j, (stage0_34 j).IsWhole
  nbuf0_34 : grid0.bufCount reads0_34 true = 1
  hreads0_34 : ∀ i i' : grid0.Coords, (∀ a, reads0_34 a = true → i a = i' a) → cc0_transform_34 i = cc0_transform_34 i'
  hinb0_34 : ∀ (i : grid0.Coords) a, (cc0_transform_34 i a + 1) * S132.size a ≤ S132.size a
  hwx0_34 : ∀ i : grid0.Coords, EltTy.bits .f32 = 32 ∨ (Rect.block (s := S132) S132.size (cc0_transform_34 i) (hinb0_34 i)).WholeWords (EltTy.packing .f32)
  hstage0_35 : ∀ j, (stage0_35 j).IsWhole
  nbuf0_35 : grid0.bufCount reads0_35 true = 1
  hreads0_35 : ∀ i i' : grid0.Coords, (∀ a, reads0_35 a = true → i a = i' a) → cc0_transform_35 i = cc0_transform_35 i'
  hinb0_35 : ∀ (i : grid0.Coords) a, (cc0_transform_35 i a + 1) * S132x128.size a ≤ S132x128.size a
  hwx0_35 : ∀ i : grid0.Coords, EltTy.bits .bf16 = 32 ∨ (Rect.block (s := S132x128) S132x128.size (cc0_transform_35 i) (hinb0_35 i)).WholeWords (EltTy.packing .bf16)
  hstage0_36 : ∀ j, (stage0_36 j).IsWhole
  nbuf0_36 : grid0.bufCount reads0_36 true = 1
  hreads0_36 : ∀ i i' : grid0.Coords, (∀ a, reads0_36 a = true → i a = i' a) → cc0_transform_36 i = cc0_transform_36 i'
  hinb0_36 : ∀ (i : grid0.Coords) a, (cc0_transform_36 i a + 1) * S128.size a ≤ S128.size a
  hwx0_36 : ∀ i : grid0.Coords, EltTy.bits .f32 = 32 ∨ (Rect.block (s := S128) S128.size (cc0_transform_36 i) (hinb0_36 i)).WholeWords (EltTy.packing .f32)
  hstage0_37 : ∀ j, (stage0_37 j).IsWhole
  nbuf0_37 : grid0.bufCount reads0_37 false = 2
  hreads0_37 : ∀ i i' : grid0.Coords, (∀ a, reads0_37 a = true → i a = i' a) → cc0_transform_37 i = cc0_transform_37 i'
  hinb0_37 : ∀ (i : grid0.Coords) a, (cc0_transform_37 i a + 1) * S8x1024x128.size a ≤ S8x65536x128.size a
  hwx0_37 : ∀ i : grid0.Coords, EltTy.bits .f32 = 32 ∨ (Rect.block (s := S8x65536x128) S8x1024x128.size (cc0_transform_37 i) (hinb0_37 i)).WholeWords (EltTy.packing .f32)

variable [Facts₀]

def dot_S1024x512_S512x132_S1024x132_1_0_0_1_n_n : DotDims S1024x512 S512x132 S1024x132 where
  lhsContracting := [1]
  rhsContracting := [0]
  lhsNonContracting := [0]
  rhsNonContracting := [1]
  lhsBatch := []
  rhsBatch := []
  wf := dot_S1024x512_S512x132_S1024x132_1_0_0_1_n_n_wf
def dot_S1024x132_S132x132_S1024x132_1_0_0_1_n_n : DotDims S1024x132 S132x132 S1024x132 where
  lhsContracting := [1]
  rhsContracting := [0]
  lhsNonContracting := [0]
  rhsNonContracting := [1]
  lhsBatch := []
  rhsBatch := []
  wf := dot_S1024x132_S132x132_S1024x132_1_0_0_1_n_n_wf
def dot_S1024x132_S132x128_S1024x128_1_0_0_1_n_n : DotDims S1024x132 S132x128 S1024x128 where
  lhsContracting := [1]
  rhsContracting := [0]
  lhsNonContracting := [0]
  rhsNonContracting := [1]
  lhsBatch := []
  rhsBatch := []
  wf := dot_S1024x132_S132x128_S1024x128_1_0_0_1_n_n_wf
def dot_S1024x128_S128x132_S1024x132_1_0_0_1_n_n : DotDims S1024x128 S128x132 S1024x132 where
  lhsContracting := [1]
  rhsContracting := [0]
  lhsNonContracting := [0]
  rhsNonContracting := [1]
  lhsBatch := []
  rhsBatch := []
  wf := dot_S1024x128_S128x132_S1024x132_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x640_S640x132_S1024x132_1_0_0_1_n_n : DotDims S1024x640 S640x132 S1024x132 where
  lhsContracting := [1]
  rhsContracting := [0]
  lhsNonContracting := [0]
  rhsNonContracting := [1]
  lhsBatch := []
  rhsBatch := []
  wf := dot_S1024x640_S640x132_S1024x132_1_0_0_1_n_n_wf
def dot_S1024x256_S256x132_S1024x132_1_0_0_1_n_n : DotDims S1024x256 S256x132 S1024x132 where
  lhsContracting := [1]
  rhsContracting := [0]
  lhsNonContracting := [0]
  rhsNonContracting := [1]
  lhsBatch := []
  rhsBatch := []
  wf := dot_S1024x256_S256x132_S1024x132_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S640x132.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S132.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S132x132.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S132.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S132x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S256x132.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S132.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S132x132.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S132.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v7) S132x132.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S132.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v8) S132x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v9) S256x132.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S132.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v10) S132x132.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg22) S132.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v11) S132x132.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg24) S132.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v12) S132x128.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_arg26) S128.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v13) S128x128.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_arg28) S128.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_v14) S128x128.size cc0_transform_29 reads0_29 false true 1 stage0_29 sem0_29
    hrank0 hreads0_29 hinb0_29 nbuf0_29 (Memref.isWhole_whole _) hwx0_29 hstage0_29

abbrev win0_30 : Pipeline.Window sig grid0 :=
  Pipeline.Window.ofSpec (Memref.whole main_arg30) S128.size cc0_transform_30 reads0_30 false true 1 stage0_30 sem0_30
    hrank0 hreads0_30 hinb0_30 nbuf0_30 (Memref.isWhole_whole _) hwx0_30 hstage0_30

abbrev win0_31 : Pipeline.Window sig grid0 :=
  Pipeline.Window.ofSpec (Memref.whole main_v15) S256x132.size cc0_transform_31 reads0_31 false true 1 stage0_31 sem0_31
    hrank0 hreads0_31 hinb0_31 nbuf0_31 (Memref.isWhole_whole _) hwx0_31 hstage0_31

abbrev win0_32 : Pipeline.Window sig grid0 :=
  Pipeline.Window.ofSpec (Memref.whole main_arg32) S132.size cc0_transform_32 reads0_32 false true 1 stage0_32 sem0_32
    hrank0 hreads0_32 hinb0_32 nbuf0_32 (Memref.isWhole_whole _) hwx0_32 hstage0_32

abbrev win0_33 : Pipeline.Window sig grid0 :=
  Pipeline.Window.ofSpec (Memref.whole main_v16) S132x132.size cc0_transform_33 reads0_33 false true 1 stage0_33 sem0_33
    hrank0 hreads0_33 hinb0_33 nbuf0_33 (Memref.isWhole_whole _) hwx0_33 hstage0_33

abbrev win0_34 : Pipeline.Window sig grid0 :=
  Pipeline.Window.ofSpec (Memref.whole main_arg34) S132.size cc0_transform_34 reads0_34 false true 1 stage0_34 sem0_34
    hrank0 hreads0_34 hinb0_34 nbuf0_34 (Memref.isWhole_whole _) hwx0_34 hstage0_34

abbrev win0_35 : Pipeline.Window sig grid0 :=
  Pipeline.Window.ofSpec (Memref.whole main_v17) S132x128.size cc0_transform_35 reads0_35 false true 1 stage0_35 sem0_35
    hrank0 hreads0_35 hinb0_35 nbuf0_35 (Memref.isWhole_whole _) hwx0_35 hstage0_35

abbrev win0_36 : Pipeline.Window sig grid0 :=
  Pipeline.Window.ofSpec (Memref.whole main_arg36) S128.size cc0_transform_36 reads0_36 false true 1 stage0_36 sem0_36
    hrank0 hreads0_36 hinb0_36 nbuf0_36 (Memref.isWhole_whole _) hwx0_36 hstage0_36

abbrev win0_37 : Pipeline.Window sig grid0 :=
  Pipeline.Window.ofSpec (Memref.whole main_v18) S8x1024x128.size cc0_transform_37 reads0_37 true false 2 stage0_37 sem0_37
    hrank0 hreads0_37 hinb0_37 nbuf0_37 (Memref.isWhole_whole _) hwx0_37 hstage0_37

abbrev win0 : Fin 38 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | 32 => win0_32 | 33 => win0_33 | 34 => win0_34 | 35 => win0_35 | 36 => win0_36 | 37 => win0_37 | ⟨_ + 38, h⟩ => absurd h (Nat.not_lt.2 (Nat.le_add_left _ _))
abbrev spec0 : Fin 38 → Pipeline.WinSpec sig grid0.rank := fun w => (win0 w).toWinSpec

class Facts : Prop extends Facts₀ where

variable [Facts]
-- ==== ReferenceIdeal.lean ====
abbrev S65536x512 : Shape := ⟨2, ![65536, 512]⟩
abbrev S128x128 : Shape := ⟨2, ![128, 128]⟩
abbrev S128 : Shape := ⟨1, ![128]⟩
abbrev S640x132 : Shape := ⟨2, ![640, 132]⟩
abbrev S132 : Shape := ⟨1, ![132]⟩
abbrev S132x132 : Shape := ⟨2, ![132, 132]⟩
abbrev S132x128 : Shape := ⟨2, ![132, 128]⟩
abbrev S256x132 : Shape := ⟨2, ![256, 132]⟩
abbrev S_ : Shape := ⟨0, ![]⟩
abbrev S65536x128 : Shape := ⟨2, ![65536, 128]⟩
abbrev S65536x640 : Shape := ⟨2, ![65536, 640]⟩
abbrev S65536x132 : Shape := ⟨2, ![65536, 132]⟩
abbrev S1x132 : Shape := ⟨2, ![1, 132]⟩
abbrev S1x128 : Shape := ⟨2, ![1, 128]⟩
abbrev S65536x256 : Shape := ⟨2, ![65536, 256]⟩
abbrev S1x65536x128 : Shape := ⟨3, ![1, 65536, 128]⟩
abbrev S8x65536x128 : Shape := ⟨3, ![8, 65536, 128]⟩

abbrev nBuf : Space → Nat
  | .hbm => 495
  | .vmem => 0
  | .smem => 0
  | _ => 0

abbrev hbmTy0_0 (i : Nat) : BufTy := match i % 128 with
  | 0 => ⟨S65536x512, .f32⟩
  | 1 => ⟨S128x128, .f32⟩
  | 2 => ⟨S128, .f32⟩
  | 3 => ⟨S128x128, .f32⟩
  | 4 => ⟨S128, .f32⟩
  | 5 => ⟨S640x132, .f32⟩
  | 6 => ⟨S132, .f32⟩
  | 7 => ⟨S132x132, .f32⟩
  | 8 => ⟨S132, .f32⟩
  | 9 => ⟨S132x128, .f32⟩
  | 10 => ⟨S128, .f32⟩
  | 11 => ⟨S256x132, .f32⟩
  | 12 => ⟨S132, .f32⟩
  | 13 => ⟨S132x132, .f32⟩
  | 14 => ⟨S132, .f32⟩
  | 15 => ⟨S132x132, .f32⟩
  | 16 => ⟨S132, .f32⟩
  | 17 => ⟨S132x128, .f32⟩
  | 18 => ⟨S128, .f32⟩
  | 19 => ⟨S256x132, .f32⟩
  | 20 => ⟨S132, .f32⟩
  | 21 => ⟨S132x132, .f32⟩
  | 22 => ⟨S132, .f32⟩
  | 23 => ⟨S132x132, .f32⟩
  | 24 => ⟨S132, .f32⟩
  | 25 => ⟨S132x128, .f32⟩
  | 26 => ⟨S128, .f32⟩
  | 27 => ⟨S128x128, .f32⟩
  | 28 => ⟨S128, .f32⟩
  | 29 => ⟨S128x128, .f32⟩
  | 30 => ⟨S128, .f32⟩
  | 31 => ⟨S256x132, .f32⟩
  | 32 => ⟨S132, .f32⟩
  | 33 => ⟨S132x132, .f32⟩
  | 34 => ⟨S132, .f32⟩
  | 35 => ⟨S132x128, .f32⟩
  | 36 => ⟨S128, .f32⟩
  | 37 => ⟨S_, .f32⟩
  | 38 => ⟨S65536x128, .f32⟩
  | 39 => ⟨S65536x640, .f32⟩
  | 40 => ⟨S65536x132, .f32⟩
  | 41 => ⟨S1x132, .f32⟩
  | 42 => ⟨S65536x132, .f32⟩
  | 43 => ⟨S65536x132, .f32⟩
  | 44 => ⟨S_, .f32⟩
  | 45 => ⟨S65536x132, .f32⟩
  | 46 => ⟨S65536x132, .f32⟩
  | 47 => ⟨S65536x132, .f32⟩
  | 48 => ⟨S1x132, .f32⟩
  | 49 => ⟨S65536x132, .f32⟩
  | 50 => ⟨S65536x132, .f32⟩
  | 51 => ⟨S_, .f32⟩
  | 52 => ⟨S65536x132, .f32⟩
  | 53 => ⟨S65536x132, .f32⟩
  | 54 => ⟨S65536x128, .f32⟩
  | 55 => ⟨S1x128, .f32⟩
  | 56 => ⟨S65536x128, .f32⟩
  | 57 => ⟨S65536x128, .f32⟩
  | 58 => ⟨S_, .f32⟩
  | 59 => ⟨S65536x128, .f32⟩
  | 60 => ⟨S65536x640, .f32⟩
  | 61 => ⟨S65536x132, .f32⟩
  | 62 => ⟨S1x132, .f32⟩
  | 63 => ⟨S65536x132, .f32⟩
  | 64 => ⟨S65536x132, .f32⟩
  | 65 => ⟨S_, .f32⟩
  | 66 => ⟨S65536x132, .f32⟩
  | 67 => ⟨S65536x132, .f32⟩
  | 68 => ⟨S65536x132, .f32⟩
  | 69 => ⟨S1x132, .f32⟩
  | 70 => ⟨S65536x132, .f32⟩
  | 71 => ⟨S65536x132, .f32⟩
  | 72 => ⟨S_, .f32⟩
  | 73 => ⟨S65536x132, .f32⟩
  | 74 => ⟨S65536x132, .f32⟩
  | 75 => ⟨S65536x128, .f32⟩
  | 76 => ⟨S1x128, .f32⟩
  | 77 => ⟨S65536x128, .f32⟩
  | 78 => ⟨S65536x128, .f32⟩
  | 79 => ⟨S65536x256, .f32⟩
  | 80 => ⟨S65536x132, .f32⟩
  | 81 => ⟨S1x132, .f32⟩
  | 82 => ⟨S65536x132, .f32⟩
  | 83 => ⟨S65536x132, .f32⟩
  | 84 => ⟨S_, .f32⟩
  | 85 => ⟨S65536x132, .f32⟩
  | 86 => ⟨S65536x132, .f32⟩
  | 87 => ⟨S65536x132, .f32⟩
  | 88 => ⟨S1x132, .f32⟩
  | 89 => ⟨S65536x132, .f32⟩
  | 90 => ⟨S65536x132, .f32⟩
  | 91 => ⟨S_, .f32⟩
  | 92 => ⟨S65536x132, .f32⟩
  | 93 => ⟨S65536x132, .f32⟩
  | 94 => ⟨S65536x132, .f32⟩
  | 95 => ⟨S1x132, .f32⟩
  | 96 => ⟨S65536x132, .f32⟩
  | 97 => ⟨S65536x132, .f32⟩
  | 98 => ⟨S_, .f32⟩
  | 99 => ⟨S65536x132, .f32⟩
  | 100 => ⟨S65536x132, .f32⟩
  | 101 => ⟨S65536x128, .f32⟩
  | 102 => ⟨S1x128, .f32⟩
  | 103 => ⟨S65536x128, .f32⟩
  | 104 => ⟨S65536x128, .f32⟩
  | 105 => ⟨S65536x256, .f32⟩
  | 106 => ⟨S65536x132, .f32⟩
  | 107 => ⟨S1x132, .f32⟩
  | 108 => ⟨S65536x132, .f32⟩
  | 109 => ⟨S65536x132, .f32⟩
  | 110 => ⟨S_, .f32⟩
  | 111 => ⟨S65536x132, .f32⟩
  | 112 => ⟨S65536x132, .f32⟩
  | 113 => ⟨S65536x132, .f32⟩
  | 114 => ⟨S1x132, .f32⟩
  | 115 => ⟨S65536x132, .f32⟩
  | 116 => ⟨S65536x132, .f32⟩
  | 117 => ⟨S_, .f32⟩
  | 118 => ⟨S65536x132, .f32⟩
  | 119 => ⟨S65536x132, .f32⟩
  | 120 => ⟨S65536x132, .f32⟩
  | 121 => ⟨S1x132, .f32⟩
  | 122 => ⟨S65536x132, .f32⟩
  | 123 => ⟨S65536x132, .f32⟩
  | 124 => ⟨S_, .f32⟩
  | 125 => ⟨S65536x132, .f32⟩
  | 126 => ⟨S65536x132, .f32⟩
  | 127 => ⟨S65536x128, .f32⟩
  | _ => ⟨S65536x512, .f32⟩

abbrev hbmTy0_1 (i : Nat) : BufTy := match i % 128 with
  | 0 => ⟨S1x128, .f32⟩
  | 1 => ⟨S65536x128, .f32⟩
  | 2 => ⟨S65536x128, .f32⟩
  | 3 => ⟨S65536x256, .f32⟩
  | 4 => ⟨S65536x132, .f32⟩
  | 5 => ⟨S1x132, .f32⟩
  | 6 => ⟨S65536x132, .f32⟩
  | 7 => ⟨S65536x132, .f32⟩
  | 8 => ⟨S_, .f32⟩
  | 9 => ⟨S65536x132, .f32⟩
  | 10 => ⟨S65536x132, .f32⟩
  | 11 => ⟨S65536x132, .f32⟩
  | 12 => ⟨S1x132, .f32⟩
  | 13 => ⟨S65536x132, .f32⟩
  | 14 => ⟨S65536x132, .f32⟩
  | 15 => ⟨S_, .f32⟩
  | 16 => ⟨S65536x132, .f32⟩
  | 17 => ⟨S65536x132, .f32⟩
  | 18 => ⟨S65536x132, .f32⟩
  | 19 => ⟨S1x132, .f32⟩
  | 20 => ⟨S65536x132, .f32⟩
  | 21 => ⟨S65536x132, .f32⟩
  | 22 => ⟨S_, .f32⟩
  | 23 => ⟨S65536x132, .f32⟩
  | 24 => ⟨S65536x132, .f32⟩
  | 25 => ⟨S65536x128, .f32⟩
  | 26 => ⟨S1x128, .f32⟩
  | 27 => ⟨S65536x128, .f32⟩
  | 28 => ⟨S65536x128, .f32⟩
  | 29 => ⟨S65536x128, .f32⟩
  | 30 => ⟨S_, .f32⟩
  | 31 => ⟨S65536x128, .f32⟩
  | 32 => ⟨S65536x128, .f32⟩
  | 33 => ⟨S65536x128, .f32⟩
  | 34 => ⟨S65536x128, .f32⟩
  | 35 => ⟨S_, .f32⟩
  | 36 => ⟨S128, .f32⟩
  | 37 => ⟨S128, .f32⟩
  | 38 => ⟨S1x128, .f32⟩
  | 39 => ⟨S65536x128, .f32⟩
  | 40 => ⟨S65536x128, .f32⟩
  | 41 => ⟨S65536x128, .f32⟩
  | 42 => ⟨S1x128, .f32⟩
  | 43 => ⟨S65536x128, .f32⟩
  | 44 => ⟨S65536x128, .f32⟩
  | 45 => ⟨S65536x640, .f32⟩
  | 46 => ⟨S65536x132, .f32⟩
  | 47 => ⟨S1x132, .f32⟩
  | 48 => ⟨S65536x132, .f32⟩
  | 49 => ⟨S65536x132, .f32⟩
  | 50 => ⟨S_, .f32⟩
  | 51 => ⟨S65536x132, .f32⟩
  | 52 => ⟨S65536x132, .f32⟩
  | 53 => ⟨S65536x132, .f32⟩
  | 54 => ⟨S1x132, .f32⟩
  | 55 => ⟨S65536x132, .f32⟩
  | 56 => ⟨S65536x132, .f32⟩
  | 57 => ⟨S_, .f32⟩
  | 58 => ⟨S65536x132, .f32⟩
  | 59 => ⟨S65536x132, .f32⟩
  | 60 => ⟨S65536x128, .f32⟩
  | 61 => ⟨S1x128, .f32⟩
  | 62 => ⟨S65536x128, .f32⟩
  | 63 => ⟨S65536x128, .f32⟩
  | 64 => ⟨S65536x256, .f32⟩
  | 65 => ⟨S65536x132, .f32⟩
  | 66 => ⟨S1x132, .f32⟩
  | 67 => ⟨S65536x132, .f32⟩
  | 68 => ⟨S65536x132, .f32⟩
  | 69 => ⟨S_, .f32⟩
  | 70 => ⟨S65536x132, .f32⟩
  | 71 => ⟨S65536x132, .f32⟩
  | 72 => ⟨S65536x132, .f32⟩
  | 73 => ⟨S1x132, .f32⟩
  | 74 => ⟨S65536x132, .f32⟩
  | 75 => ⟨S65536x132, .f32⟩
  | 76 => ⟨S_, .f32⟩
  | 77 => ⟨S65536x132, .f32⟩
  | 78 => ⟨S65536x132, .f32⟩
  | 79 => ⟨S65536x132, .f32⟩
  | 80 => ⟨S1x132, .f32⟩
  | 81 => ⟨S65536x132, .f32⟩
  | 82 => ⟨S65536x132, .f32⟩
  | 83 => ⟨S_, .f32⟩
  | 84 => ⟨S65536x132, .f32⟩
  | 85 => ⟨S65536x132, .f32⟩
  | 86 => ⟨S65536x128, .f32⟩
  | 87 => ⟨S1x128, .f32⟩
  | 88 => ⟨S65536x128, .f32⟩
  | 89 => ⟨S65536x128, .f32⟩
  | 90 => ⟨S65536x256, .f32⟩
  | 91 => ⟨S65536x132, .f32⟩
  | 92 => ⟨S1x132, .f32⟩
  | 93 => ⟨S65536x132, .f32⟩
  | 94 => ⟨S65536x132, .f32⟩
  | 95 => ⟨S_, .f32⟩
  | 96 => ⟨S65536x132, .f32⟩
  | 97 => ⟨S65536x132, .f32⟩
  | 98 => ⟨S65536x132, .f32⟩
  | 99 => ⟨S1x132, .f32⟩
  | 100 => ⟨S65536x132, .f32⟩
  | 101 => ⟨S65536x132, .f32⟩
  | 102 => ⟨S_, .f32⟩
  | 103 => ⟨S65536x132, .f32⟩
  | 104 => ⟨S65536x132, .f32⟩
  | 105 => ⟨S65536x132, .f32⟩
  | 106 => ⟨S1x132, .f32⟩
  | 107 => ⟨S65536x132, .f32⟩
  | 108 => ⟨S65536x132, .f32⟩
  | 109 => ⟨S_, .f32⟩
  | 110 => ⟨S65536x132, .f32⟩
  | 111 => ⟨S65536x132, .f32⟩
  | 112 => ⟨S65536x128, .f32⟩
  | 113 => ⟨S1x128, .f32⟩
  | 114 => ⟨S65536x128, .f32⟩
  | 115 => ⟨S65536x128, .f32⟩
  | 116 => ⟨S_, .f32⟩
  | 117 => ⟨S65536x128, .f32⟩
  | 118 => ⟨S65536x256, .f32⟩
  | 119 => ⟨S65536x132, .f32⟩
  | 120 => ⟨S1x132, .f32⟩
  | 121 => ⟨S65536x132, .f32⟩
  | 122 => ⟨S65536x132, .f32⟩
  | 123 => ⟨S_, .f32⟩
  | 124 => ⟨S65536x132, .f32⟩
  | 125 => ⟨S65536x132, .f32⟩
  | 126 => ⟨S65536x132, .f32⟩
  | 127 => ⟨S1x132, .f32⟩
  | _ => ⟨S65536x512, .f32⟩

abbrev hbmTy0_2 (i : Nat) : BufTy := match i % 128 with
  | 0 => ⟨S65536x132, .f32⟩
  | 1 => ⟨S65536x132, .f32⟩
  | 2 => ⟨S_, .f32⟩
  | 3 => ⟨S65536x132, .f32⟩
  | 4 => ⟨S65536x132, .f32⟩
  | 5 => ⟨S65536x128, .f32⟩
  | 6 => ⟨S1x128, .f32⟩
  | 7 => ⟨S65536x128, .f32⟩
  | 8 => ⟨S65536x128, .f32⟩
  | 9 => ⟨S_, .f32⟩
  | 10 => ⟨S65536x128, .f32⟩
  | 11 => ⟨S65536x256, .f32⟩
  | 12 => ⟨S65536x132, .f32⟩
  | 13 => ⟨S1x132, .f32⟩
  | 14 => ⟨S65536x132, .f32⟩
  | 15 => ⟨S65536x132, .f32⟩
  | 16 => ⟨S_, .f32⟩
  | 17 => ⟨S65536x132, .f32⟩
  | 18 => ⟨S65536x132, .f32⟩
  | 19 => ⟨S65536x132, .f32⟩
  | 20 => ⟨S1x132, .f32⟩
  | 21 => ⟨S65536x132, .f32⟩
  | 22 => ⟨S65536x132, .f32⟩
  | 23 => ⟨S_, .f32⟩
  | 24 => ⟨S65536x132, .f32⟩
  | 25 => ⟨S65536x132, .f32⟩
  | 26 => ⟨S65536x128, .f32⟩
  | 27 => ⟨S1x128, .f32⟩
  | 28 => ⟨S65536x128, .f32⟩
  | 29 => ⟨S65536x128, .f32⟩
  | 30 => ⟨S_, .f32⟩
  | 31 => ⟨S65536x128, .f32⟩
  | 32 => ⟨S65536x256, .f32⟩
  | 33 => ⟨S65536x132, .f32⟩
  | 34 => ⟨S1x132, .f32⟩
  | 35 => ⟨S65536x132, .f32⟩
  | 36 => ⟨S65536x132, .f32⟩
  | 37 => ⟨S_, .f32⟩
  | 38 => ⟨S65536x132, .f32⟩
  | 39 => ⟨S65536x132, .f32⟩
  | 40 => ⟨S65536x132, .f32⟩
  | 41 => ⟨S1x132, .f32⟩
  | 42 => ⟨S65536x132, .f32⟩
  | 43 => ⟨S65536x132, .f32⟩
  | 44 => ⟨S_, .f32⟩
  | 45 => ⟨S65536x132, .f32⟩
  | 46 => ⟨S65536x132, .f32⟩
  | 47 => ⟨S65536x128, .f32⟩
  | 48 => ⟨S1x128, .f32⟩
  | 49 => ⟨S65536x128, .f32⟩
  | 50 => ⟨S65536x128, .f32⟩
  | 51 => ⟨S65536x128, .f32⟩
  | 52 => ⟨S_, .f32⟩
  | 53 => ⟨S65536x128, .f32⟩
  | 54 => ⟨S65536x128, .f32⟩
  | 55 => ⟨S65536x128, .f32⟩
  | 56 => ⟨S65536x128, .f32⟩
  | 57 => ⟨S_, .f32⟩
  | 58 => ⟨S128, .f32⟩
  | 59 => ⟨S128, .f32⟩
  | 60 => ⟨S1x128, .f32⟩
  | 61 => ⟨S65536x128, .f32⟩
  | 62 => ⟨S65536x128, .f32⟩
  | 63 => ⟨S65536x128, .f32⟩
  | 64 => ⟨S1x128, .f32⟩
  | 65 => ⟨S65536x128, .f32⟩
  | 66 => ⟨S65536x128, .f32⟩
  | 67 => ⟨S65536x256, .f32⟩
  | 68 => ⟨S65536x132, .f32⟩
  | 69 => ⟨S1x132, .f32⟩
  | 70 => ⟨S65536x132, .f32⟩
  | 71 => ⟨S65536x132, .f32⟩
  | 72 => ⟨S_, .f32⟩
  | 73 => ⟨S65536x132, .f32⟩
  | 74 => ⟨S65536x132, .f32⟩
  | 75 => ⟨S65536x132, .f32⟩
  | 76 => ⟨S1x132, .f32⟩
  | 77 => ⟨S65536x132, .f32⟩
  | 78 => ⟨S65536x132, .f32⟩
  | 79 => ⟨S_, .f32⟩
  | 80 => ⟨S65536x132, .f32⟩
  | 81 => ⟨S65536x132, .f32⟩
  | 82 => ⟨S65536x128, .f32⟩
  | 83 => ⟨S1x128, .f32⟩
  | 84 => ⟨S65536x128, .f32⟩
  | 85 => ⟨S65536x128, .f32⟩
  | 86 => ⟨S65536x128, .f32⟩
  | 87 => ⟨S_, .f32⟩
  | 88 => ⟨S65536x128, .f32⟩
  | 89 => ⟨S65536x128, .f32⟩
  | 90 => ⟨S_, .f32⟩
  | 91 => ⟨S128, .f32⟩
  | 92 => ⟨S128, .f32⟩
  | 93 => ⟨S1x128, .f32⟩
  | 94 => ⟨S65536x128, .f32⟩
  | 95 => ⟨S65536x128, .f32⟩
  | 96 => ⟨S65536x128, .f32⟩
  | 97 => ⟨S1x128, .f32⟩
  | 98 => ⟨S65536x128, .f32⟩
  | 99 => ⟨S65536x128, .f32⟩
  | 100 => ⟨S65536x256, .f32⟩
  | 101 => ⟨S65536x132, .f32⟩
  | 102 => ⟨S1x132, .f32⟩
  | 103 => ⟨S65536x132, .f32⟩
  | 104 => ⟨S65536x132, .f32⟩
  | 105 => ⟨S_, .f32⟩
  | 106 => ⟨S65536x132, .f32⟩
  | 107 => ⟨S65536x132, .f32⟩
  | 108 => ⟨S65536x132, .f32⟩
  | 109 => ⟨S1x132, .f32⟩
  | 110 => ⟨S65536x132, .f32⟩
  | 111 => ⟨S65536x132, .f32⟩
  | 112 => ⟨S_, .f32⟩
  | 113 => ⟨S65536x132, .f32⟩
  | 114 => ⟨S65536x132, .f32⟩
  | 115 => ⟨S65536x128, .f32⟩
  | 116 => ⟨S1x128, .f32⟩
  | 117 => ⟨S65536x128, .f32⟩
  | 118 => ⟨S65536x128, .f32⟩
  | 119 => ⟨S65536x128, .f32⟩
  | 120 => ⟨S_, .f32⟩
  | 121 => ⟨S65536x128, .f32⟩
  | 122 => ⟨S65536x128, .f32⟩
  | 123 => ⟨S_, .f32⟩
  | 124 => ⟨S128, .f32⟩
  | 125 => ⟨S128, .f32⟩
  | 126 => ⟨S1x128, .f32⟩
  | 127 => ⟨S65536x128, .f32⟩
  | _ => ⟨S65536x512, .f32⟩

abbrev hbmTy0_3 (i : Nat) : BufTy := match i % 128 with
  | 0 => ⟨S65536x128, .f32⟩
  | 1 => ⟨S65536x128, .f32⟩
  | 2 => ⟨S1x128, .f32⟩
  | 3 => ⟨S65536x128, .f32⟩
  | 4 => ⟨S65536x128, .f32⟩
  | 5 => ⟨S65536x256, .f32⟩
  | 6 => ⟨S65536x132, .f32⟩
  | 7 => ⟨S1x132, .f32⟩
  | 8 => ⟨S65536x132, .f32⟩
  | 9 => ⟨S65536x132, .f32⟩
  | 10 => ⟨S_, .f32⟩
  | 11 => ⟨S65536x132, .f32⟩
  | 12 => ⟨S65536x132, .f32⟩
  | 13 => ⟨S65536x132, .f32⟩
  | 14 => ⟨S1x132, .f32⟩
  | 15 => ⟨S65536x132, .f32⟩
  | 16 => ⟨S65536x132, .f32⟩
  | 17 => ⟨S_, .f32⟩
  | 18 => ⟨S65536x132, .f32⟩
  | 19 => ⟨S65536x132, .f32⟩
  | 20 => ⟨S65536x128, .f32⟩
  | 21 => ⟨S1x128, .f32⟩
  | 22 => ⟨S65536x128, .f32⟩
  | 23 => ⟨S65536x128, .f32⟩
  | 24 => ⟨S65536x128, .f32⟩
  | 25 => ⟨S_, .f32⟩
  | 26 => ⟨S65536x128, .f32⟩
  | 27 => ⟨S65536x128, .f32⟩
  | 28 => ⟨S65536x128, .f32⟩
  | 29 => ⟨S65536x128, .f32⟩
  | 30 => ⟨S65536x128, .f32⟩
  | 31 => ⟨S65536x128, .f32⟩
  | 32 => ⟨S65536x128, .f32⟩
  | 33 => ⟨S65536x128, .f32⟩
  | 34 => ⟨S_, .f32⟩
  | 35 => ⟨S128, .f32⟩
  | 36 => ⟨S128, .f32⟩
  | 37 => ⟨S1x128, .f32⟩
  | 38 => ⟨S65536x128, .f32⟩
  | 39 => ⟨S65536x128, .f32⟩
  | 40 => ⟨S65536x128, .f32⟩
  | 41 => ⟨S1x128, .f32⟩
  | 42 => ⟨S65536x128, .f32⟩
  | 43 => ⟨S65536x128, .f32⟩
  | 44 => ⟨S65536x256, .f32⟩
  | 45 => ⟨S65536x132, .f32⟩
  | 46 => ⟨S1x132, .f32⟩
  | 47 => ⟨S65536x132, .f32⟩
  | 48 => ⟨S65536x132, .f32⟩
  | 49 => ⟨S_, .f32⟩
  | 50 => ⟨S65536x132, .f32⟩
  | 51 => ⟨S65536x132, .f32⟩
  | 52 => ⟨S65536x132, .f32⟩
  | 53 => ⟨S1x132, .f32⟩
  | 54 => ⟨S65536x132, .f32⟩
  | 55 => ⟨S65536x132, .f32⟩
  | 56 => ⟨S_, .f32⟩
  | 57 => ⟨S65536x132, .f32⟩
  | 58 => ⟨S65536x132, .f32⟩
  | 59 => ⟨S65536x128, .f32⟩
  | 60 => ⟨S1x128, .f32⟩
  | 61 => ⟨S65536x128, .f32⟩
  | 62 => ⟨S65536x128, .f32⟩
  | 63 => ⟨S65536x128, .f32⟩
  | 64 => ⟨S_, .f32⟩
  | 65 => ⟨S65536x128, .f32⟩
  | 66 => ⟨S65536x128, .f32⟩
  | 67 => ⟨S65536x128, .f32⟩
  | 68 => ⟨S65536x128, .f32⟩
  | 69 => ⟨S65536x128, .f32⟩
  | 70 => ⟨S65536x128, .f32⟩
  | 71 => ⟨S65536x128, .f32⟩
  | 72 => ⟨S65536x128, .f32⟩
  | 73 => ⟨S_, .f32⟩
  | 74 => ⟨S128, .f32⟩
  | 75 => ⟨S128, .f32⟩
  | 76 => ⟨S1x128, .f32⟩
  | 77 => ⟨S65536x128, .f32⟩
  | 78 => ⟨S65536x128, .f32⟩
  | 79 => ⟨S65536x128, .f32⟩
  | 80 => ⟨S1x128, .f32⟩
  | 81 => ⟨S65536x128, .f32⟩
  | 82 => ⟨S65536x128, .f32⟩
  | 83 => ⟨S65536x256, .f32⟩
  | 84 => ⟨S65536x132, .f32⟩
  | 85 => ⟨S1x132, .f32⟩
  | 86 => ⟨S65536x132, .f32⟩
  | 87 => ⟨S65536x132, .f32⟩
  | 88 => ⟨S_, .f32⟩
  | 89 => ⟨S65536x132, .f32⟩
  | 90 => ⟨S65536x132, .f32⟩
  | 91 => ⟨S65536x132, .f32⟩
  | 92 => ⟨S1x132, .f32⟩
  | 93 => ⟨S65536x132, .f32⟩
  | 94 => ⟨S65536x132, .f32⟩
  | 95 => ⟨S_, .f32⟩
  | 96 => ⟨S65536x132, .f32⟩
  | 97 => ⟨S65536x132, .f32⟩
  | 98 => ⟨S65536x128, .f32⟩
  | 99 => ⟨S1x128, .f32⟩
  | 100 => ⟨S65536x128, .f32⟩
  | 101 => ⟨S65536x128, .f32⟩
  | 102 => ⟨S1x65536x128, .f32⟩
  | 103 => ⟨S1x65536x128, .f32⟩
  | 104 => ⟨S1x65536x128, .f32⟩
  | 105 => ⟨S1x65536x128, .f32⟩
  | 106 => ⟨S1x65536x128, .f32⟩
  | 107 => ⟨S1x65536x128, .f32⟩
  | 108 => ⟨S1x65536x128, .f32⟩
  | 109 => ⟨S1x65536x128, .f32⟩
  | 110 => ⟨S8x65536x128, .f32⟩
  | _ => ⟨S65536x512, .f32⟩

abbrev hbmTy (i : Nat) : BufTy := match i / 128 with
  | 0 => hbmTy0_0 i
  | 1 => hbmTy0_1 i
  | 2 => hbmTy0_2 i
  | 3 => hbmTy0_3 i
  | _ => ⟨S65536x512, .f32⟩

abbrev bufTy : (tb : Table) → Fin (tcTables nBuf tb) → BufTy
  | .hbm, ⟨i, _⟩ => hbmTy i
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_cst : Ref sig .tc := ⟨.hbm, 37, rfl⟩
abbrev main_v0 : Ref sig .tc := ⟨.hbm, 38, rfl⟩
abbrev main_v1 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_call0_cst : Ref sig .tc := ⟨.hbm, 44, rfl⟩
abbrev main_call0_v0 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_call1_cst : Ref sig .tc := ⟨.hbm, 51, rfl⟩
abbrev main_call1_v0 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_cst_0 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_call2_cst : Ref sig .tc := ⟨.hbm, 65, rfl⟩
abbrev main_call2_v0 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_call3_cst : Ref sig .tc := ⟨.hbm, 72, rfl⟩
abbrev main_call3_v0 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_call4_cst : Ref sig .tc := ⟨.hbm, 84, rfl⟩
abbrev main_call4_v0 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_call5_cst : Ref sig .tc := ⟨.hbm, 91, rfl⟩
abbrev main_call5_v0 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_call6_cst : Ref sig .tc := ⟨.hbm, 98, rfl⟩
abbrev main_call6_v0 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_call7_cst : Ref sig .tc := ⟨.hbm, 110, rfl⟩
abbrev main_call7_v0 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_call8_cst : Ref sig .tc := ⟨.hbm, 117, rfl⟩
abbrev main_call8_v0 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_call9_cst : Ref sig .tc := ⟨.hbm, 124, rfl⟩
abbrev main_call9_v0 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_call10_cst : Ref sig .tc := ⟨.hbm, 136, rfl⟩
abbrev main_call10_v0 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_call11_cst : Ref sig .tc := ⟨.hbm, 143, rfl⟩
abbrev main_call11_v0 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_call12_cst : Ref sig .tc := ⟨.hbm, 150, rfl⟩
abbrev main_call12_v0 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_cst_1 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_cst_2 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_call13_cst : Ref sig .tc := ⟨.hbm, 178, rfl⟩
abbrev main_call13_v0 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_call14_cst : Ref sig .tc := ⟨.hbm, 185, rfl⟩
abbrev main_call14_v0 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_call15_cst : Ref sig .tc := ⟨.hbm, 197, rfl⟩
abbrev main_call15_v0 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_call16_cst : Ref sig .tc := ⟨.hbm, 204, rfl⟩
abbrev main_call16_v0 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_call17_cst : Ref sig .tc := ⟨.hbm, 211, rfl⟩
abbrev main_call17_v0 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_call18_cst : Ref sig .tc := ⟨.hbm, 223, rfl⟩
abbrev main_call18_v0 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_call19_cst : Ref sig .tc := ⟨.hbm, 230, rfl⟩
abbrev main_call19_v0 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_call20_cst : Ref sig .tc := ⟨.hbm, 237, rfl⟩
abbrev main_call20_v0 : Ref sig .tc := ⟨.hbm, 238, rfl⟩
abbrev main_v156 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_v160 : Ref sig .tc := ⟨.hbm, 243, rfl⟩
abbrev main_cst_3 : Ref sig .tc := ⟨.hbm, 244, rfl⟩
abbrev main_v161 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_v165 : Ref sig .tc := ⟨.hbm, 249, rfl⟩
abbrev main_v166 : Ref sig .tc := ⟨.hbm, 250, rfl⟩
abbrev main_call21_cst : Ref sig .tc := ⟨.hbm, 251, rfl⟩
abbrev main_call21_v0 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_call22_cst : Ref sig .tc := ⟨.hbm, 258, rfl⟩
abbrev main_call22_v0 : Ref sig .tc := ⟨.hbm, 259, rfl⟩
abbrev main_v172 : Ref sig .tc := ⟨.hbm, 260, rfl⟩
abbrev main_v173 : Ref sig .tc := ⟨.hbm, 261, rfl⟩
abbrev main_v174 : Ref sig .tc := ⟨.hbm, 262, rfl⟩
abbrev main_v175 : Ref sig .tc := ⟨.hbm, 263, rfl⟩
abbrev main_v176 : Ref sig .tc := ⟨.hbm, 264, rfl⟩
abbrev main_cst_4 : Ref sig .tc := ⟨.hbm, 265, rfl⟩
abbrev main_v177 : Ref sig .tc := ⟨.hbm, 266, rfl⟩
abbrev main_v178 : Ref sig .tc := ⟨.hbm, 267, rfl⟩
abbrev main_v179 : Ref sig .tc := ⟨.hbm, 268, rfl⟩
abbrev main_v180 : Ref sig .tc := ⟨.hbm, 269, rfl⟩
abbrev main_v181 : Ref sig .tc := ⟨.hbm, 270, rfl⟩
abbrev main_v182 : Ref sig .tc := ⟨.hbm, 271, rfl⟩
abbrev main_call23_cst : Ref sig .tc := ⟨.hbm, 272, rfl⟩
abbrev main_call23_v0 : Ref sig .tc := ⟨.hbm, 273, rfl⟩
abbrev main_v183 : Ref sig .tc := ⟨.hbm, 274, rfl⟩
abbrev main_v184 : Ref sig .tc := ⟨.hbm, 275, rfl⟩
abbrev main_v185 : Ref sig .tc := ⟨.hbm, 276, rfl⟩
abbrev main_v186 : Ref sig .tc := ⟨.hbm, 277, rfl⟩
abbrev main_v187 : Ref sig .tc := ⟨.hbm, 278, rfl⟩
abbrev main_call24_cst : Ref sig .tc := ⟨.hbm, 279, rfl⟩
abbrev main_call24_v0 : Ref sig .tc := ⟨.hbm, 280, rfl⟩
abbrev main_v188 : Ref sig .tc := ⟨.hbm, 281, rfl⟩
abbrev main_v189 : Ref sig .tc := ⟨.hbm, 282, rfl⟩
abbrev main_v190 : Ref sig .tc := ⟨.hbm, 283, rfl⟩
abbrev main_v191 : Ref sig .tc := ⟨.hbm, 284, rfl⟩
abbrev main_v192 : Ref sig .tc := ⟨.hbm, 285, rfl⟩
abbrev main_cst_5 : Ref sig .tc := ⟨.hbm, 286, rfl⟩
abbrev main_v193 : Ref sig .tc := ⟨.hbm, 287, rfl⟩
abbrev main_v194 : Ref sig .tc := ⟨.hbm, 288, rfl⟩
abbrev main_v195 : Ref sig .tc := ⟨.hbm, 289, rfl⟩
abbrev main_v196 : Ref sig .tc := ⟨.hbm, 290, rfl⟩
abbrev main_v197 : Ref sig .tc := ⟨.hbm, 291, rfl⟩
abbrev main_v198 : Ref sig .tc := ⟨.hbm, 292, rfl⟩
abbrev main_call25_cst : Ref sig .tc := ⟨.hbm, 293, rfl⟩
abbrev main_call25_v0 : Ref sig .tc := ⟨.hbm, 294, rfl⟩
abbrev main_v199 : Ref sig .tc := ⟨.hbm, 295, rfl⟩
abbrev main_v200 : Ref sig .tc := ⟨.hbm, 296, rfl⟩
abbrev main_v201 : Ref sig .tc := ⟨.hbm, 297, rfl⟩
abbrev main_v202 : Ref sig .tc := ⟨.hbm, 298, rfl⟩
abbrev main_v203 : Ref sig .tc := ⟨.hbm, 299, rfl⟩
abbrev main_call26_cst : Ref sig .tc := ⟨.hbm, 300, rfl⟩
abbrev main_call26_v0 : Ref sig .tc := ⟨.hbm, 301, rfl⟩
abbrev main_v204 : Ref sig .tc := ⟨.hbm, 302, rfl⟩
abbrev main_v205 : Ref sig .tc := ⟨.hbm, 303, rfl⟩
abbrev main_v206 : Ref sig .tc := ⟨.hbm, 304, rfl⟩
abbrev main_v207 : Ref sig .tc := ⟨.hbm, 305, rfl⟩
abbrev main_v208 : Ref sig .tc := ⟨.hbm, 306, rfl⟩
abbrev main_v209 : Ref sig .tc := ⟨.hbm, 307, rfl⟩
abbrev main_cst_6 : Ref sig .tc := ⟨.hbm, 308, rfl⟩
abbrev main_v210 : Ref sig .tc := ⟨.hbm, 309, rfl⟩
abbrev main_v211 : Ref sig .tc := ⟨.hbm, 310, rfl⟩
abbrev main_v212 : Ref sig .tc := ⟨.hbm, 311, rfl⟩
abbrev main_v213 : Ref sig .tc := ⟨.hbm, 312, rfl⟩
abbrev main_cst_7 : Ref sig .tc := ⟨.hbm, 313, rfl⟩
abbrev main_v214 : Ref sig .tc := ⟨.hbm, 314, rfl⟩
abbrev main_v215 : Ref sig .tc := ⟨.hbm, 315, rfl⟩
abbrev main_v216 : Ref sig .tc := ⟨.hbm, 316, rfl⟩
abbrev main_v217 : Ref sig .tc := ⟨.hbm, 317, rfl⟩
abbrev main_v218 : Ref sig .tc := ⟨.hbm, 318, rfl⟩
abbrev main_v219 : Ref sig .tc := ⟨.hbm, 319, rfl⟩
abbrev main_v220 : Ref sig .tc := ⟨.hbm, 320, rfl⟩
abbrev main_v221 : Ref sig .tc := ⟨.hbm, 321, rfl⟩
abbrev main_v222 : Ref sig .tc := ⟨.hbm, 322, rfl⟩
abbrev main_v223 : Ref sig .tc := ⟨.hbm, 323, rfl⟩
abbrev main_v224 : Ref sig .tc := ⟨.hbm, 324, rfl⟩
abbrev main_v225 : Ref sig .tc := ⟨.hbm, 325, rfl⟩
abbrev main_v226 : Ref sig .tc := ⟨.hbm, 326, rfl⟩
abbrev main_v227 : Ref sig .tc := ⟨.hbm, 327, rfl⟩
abbrev main_call27_cst : Ref sig .tc := ⟨.hbm, 328, rfl⟩
abbrev main_call27_v0 : Ref sig .tc := ⟨.hbm, 329, rfl⟩
abbrev main_v228 : Ref sig .tc := ⟨.hbm, 330, rfl⟩
abbrev main_v229 : Ref sig .tc := ⟨.hbm, 331, rfl⟩
abbrev main_v230 : Ref sig .tc := ⟨.hbm, 332, rfl⟩
abbrev main_v231 : Ref sig .tc := ⟨.hbm, 333, rfl⟩
abbrev main_v232 : Ref sig .tc := ⟨.hbm, 334, rfl⟩
abbrev main_call28_cst : Ref sig .tc := ⟨.hbm, 335, rfl⟩
abbrev main_call28_v0 : Ref sig .tc := ⟨.hbm, 336, rfl⟩
abbrev main_v233 : Ref sig .tc := ⟨.hbm, 337, rfl⟩
abbrev main_v234 : Ref sig .tc := ⟨.hbm, 338, rfl⟩
abbrev main_v235 : Ref sig .tc := ⟨.hbm, 339, rfl⟩
abbrev main_v236 : Ref sig .tc := ⟨.hbm, 340, rfl⟩
abbrev main_v237 : Ref sig .tc := ⟨.hbm, 341, rfl⟩
abbrev main_v238 : Ref sig .tc := ⟨.hbm, 342, rfl⟩
abbrev main_cst_8 : Ref sig .tc := ⟨.hbm, 343, rfl⟩
abbrev main_v239 : Ref sig .tc := ⟨.hbm, 344, rfl⟩
abbrev main_v240 : Ref sig .tc := ⟨.hbm, 345, rfl⟩
abbrev main_cst_9 : Ref sig .tc := ⟨.hbm, 346, rfl⟩
abbrev main_v241 : Ref sig .tc := ⟨.hbm, 347, rfl⟩
abbrev main_v242 : Ref sig .tc := ⟨.hbm, 348, rfl⟩
abbrev main_v243 : Ref sig .tc := ⟨.hbm, 349, rfl⟩
abbrev main_v244 : Ref sig .tc := ⟨.hbm, 350, rfl⟩
abbrev main_v245 : Ref sig .tc := ⟨.hbm, 351, rfl⟩
abbrev main_v246 : Ref sig .tc := ⟨.hbm, 352, rfl⟩
abbrev main_v247 : Ref sig .tc := ⟨.hbm, 353, rfl⟩
abbrev main_v248 : Ref sig .tc := ⟨.hbm, 354, rfl⟩
abbrev main_v249 : Ref sig .tc := ⟨.hbm, 355, rfl⟩
abbrev main_v250 : Ref sig .tc := ⟨.hbm, 356, rfl⟩
abbrev main_v251 : Ref sig .tc := ⟨.hbm, 357, rfl⟩
abbrev main_v252 : Ref sig .tc := ⟨.hbm, 358, rfl⟩
abbrev main_v253 : Ref sig .tc := ⟨.hbm, 359, rfl⟩
abbrev main_v254 : Ref sig .tc := ⟨.hbm, 360, rfl⟩
abbrev main_call29_cst : Ref sig .tc := ⟨.hbm, 361, rfl⟩
abbrev main_call29_v0 : Ref sig .tc := ⟨.hbm, 362, rfl⟩
abbrev main_v255 : Ref sig .tc := ⟨.hbm, 363, rfl⟩
abbrev main_v256 : Ref sig .tc := ⟨.hbm, 364, rfl⟩
abbrev main_v257 : Ref sig .tc := ⟨.hbm, 365, rfl⟩
abbrev main_v258 : Ref sig .tc := ⟨.hbm, 366, rfl⟩
abbrev main_v259 : Ref sig .tc := ⟨.hbm, 367, rfl⟩
abbrev main_call30_cst : Ref sig .tc := ⟨.hbm, 368, rfl⟩
abbrev main_call30_v0 : Ref sig .tc := ⟨.hbm, 369, rfl⟩
abbrev main_v260 : Ref sig .tc := ⟨.hbm, 370, rfl⟩
abbrev main_v261 : Ref sig .tc := ⟨.hbm, 371, rfl⟩
abbrev main_v262 : Ref sig .tc := ⟨.hbm, 372, rfl⟩
abbrev main_v263 : Ref sig .tc := ⟨.hbm, 373, rfl⟩
abbrev main_v264 : Ref sig .tc := ⟨.hbm, 374, rfl⟩
abbrev main_v265 : Ref sig .tc := ⟨.hbm, 375, rfl⟩
abbrev main_cst_10 : Ref sig .tc := ⟨.hbm, 376, rfl⟩
abbrev main_v266 : Ref sig .tc := ⟨.hbm, 377, rfl⟩
abbrev main_v267 : Ref sig .tc := ⟨.hbm, 378, rfl⟩
abbrev main_cst_11 : Ref sig .tc := ⟨.hbm, 379, rfl⟩
abbrev main_v268 : Ref sig .tc := ⟨.hbm, 380, rfl⟩
abbrev main_v269 : Ref sig .tc := ⟨.hbm, 381, rfl⟩
abbrev main_v270 : Ref sig .tc := ⟨.hbm, 382, rfl⟩
abbrev main_v271 : Ref sig .tc := ⟨.hbm, 383, rfl⟩
abbrev main_v272 : Ref sig .tc := ⟨.hbm, 384, rfl⟩
abbrev main_v273 : Ref sig .tc := ⟨.hbm, 385, rfl⟩
abbrev main_v274 : Ref sig .tc := ⟨.hbm, 386, rfl⟩
abbrev main_v275 : Ref sig .tc := ⟨.hbm, 387, rfl⟩
abbrev main_v276 : Ref sig .tc := ⟨.hbm, 388, rfl⟩
abbrev main_v277 : Ref sig .tc := ⟨.hbm, 389, rfl⟩
abbrev main_v278 : Ref sig .tc := ⟨.hbm, 390, rfl⟩
abbrev main_v279 : Ref sig .tc := ⟨.hbm, 391, rfl⟩
abbrev main_v280 : Ref sig .tc := ⟨.hbm, 392, rfl⟩
abbrev main_v281 : Ref sig .tc := ⟨.hbm, 393, rfl⟩
abbrev main_call31_cst : Ref sig .tc := ⟨.hbm, 394, rfl⟩
abbrev main_call31_v0 : Ref sig .tc := ⟨.hbm, 395, rfl⟩
abbrev main_v282 : Ref sig .tc := ⟨.hbm, 396, rfl⟩
abbrev main_v283 : Ref sig .tc := ⟨.hbm, 397, rfl⟩
abbrev main_v284 : Ref sig .tc := ⟨.hbm, 398, rfl⟩
abbrev main_v285 : Ref sig .tc := ⟨.hbm, 399, rfl⟩
abbrev main_v286 : Ref sig .tc := ⟨.hbm, 400, rfl⟩
abbrev main_call32_cst : Ref sig .tc := ⟨.hbm, 401, rfl⟩
abbrev main_call32_v0 : Ref sig .tc := ⟨.hbm, 402, rfl⟩
abbrev main_v287 : Ref sig .tc := ⟨.hbm, 403, rfl⟩
abbrev main_v288 : Ref sig .tc := ⟨.hbm, 404, rfl⟩
abbrev main_v289 : Ref sig .tc := ⟨.hbm, 405, rfl⟩
abbrev main_v290 : Ref sig .tc := ⟨.hbm, 406, rfl⟩
abbrev main_v291 : Ref sig .tc := ⟨.hbm, 407, rfl⟩
abbrev main_v292 : Ref sig .tc := ⟨.hbm, 408, rfl⟩
abbrev main_cst_12 : Ref sig .tc := ⟨.hbm, 409, rfl⟩
abbrev main_v293 : Ref sig .tc := ⟨.hbm, 410, rfl⟩
abbrev main_v294 : Ref sig .tc := ⟨.hbm, 411, rfl⟩
abbrev main_v295 : Ref sig .tc := ⟨.hbm, 412, rfl⟩
abbrev main_v296 : Ref sig .tc := ⟨.hbm, 413, rfl⟩
abbrev main_v297 : Ref sig .tc := ⟨.hbm, 414, rfl⟩
abbrev main_v298 : Ref sig .tc := ⟨.hbm, 415, rfl⟩
abbrev main_v299 : Ref sig .tc := ⟨.hbm, 416, rfl⟩
abbrev main_v300 : Ref sig .tc := ⟨.hbm, 417, rfl⟩
abbrev main_cst_13 : Ref sig .tc := ⟨.hbm, 418, rfl⟩
abbrev main_v301 : Ref sig .tc := ⟨.hbm, 419, rfl⟩
abbrev main_v302 : Ref sig .tc := ⟨.hbm, 420, rfl⟩
abbrev main_v303 : Ref sig .tc := ⟨.hbm, 421, rfl⟩
abbrev main_v304 : Ref sig .tc := ⟨.hbm, 422, rfl⟩
abbrev main_v305 : Ref sig .tc := ⟨.hbm, 423, rfl⟩
abbrev main_v306 : Ref sig .tc := ⟨.hbm, 424, rfl⟩
abbrev main_v307 : Ref sig .tc := ⟨.hbm, 425, rfl⟩
abbrev main_v308 : Ref sig .tc := ⟨.hbm, 426, rfl⟩
abbrev main_v309 : Ref sig .tc := ⟨.hbm, 427, rfl⟩
abbrev main_v310 : Ref sig .tc := ⟨.hbm, 428, rfl⟩
abbrev main_v311 : Ref sig .tc := ⟨.hbm, 429, rfl⟩
abbrev main_v312 : Ref sig .tc := ⟨.hbm, 430, rfl⟩
abbrev main_v313 : Ref sig .tc := ⟨.hbm, 431, rfl⟩
abbrev main_v314 : Ref sig .tc := ⟨.hbm, 432, rfl⟩
abbrev main_call33_cst : Ref sig .tc := ⟨.hbm, 433, rfl⟩
abbrev main_call33_v0 : Ref sig .tc := ⟨.hbm, 434, rfl⟩
abbrev main_v315 : Ref sig .tc := ⟨.hbm, 435, rfl⟩
abbrev main_v316 : Ref sig .tc := ⟨.hbm, 436, rfl⟩
abbrev main_v317 : Ref sig .tc := ⟨.hbm, 437, rfl⟩
abbrev main_v318 : Ref sig .tc := ⟨.hbm, 438, rfl⟩
abbrev main_v319 : Ref sig .tc := ⟨.hbm, 439, rfl⟩
abbrev main_call34_cst : Ref sig .tc := ⟨.hbm, 440, rfl⟩
abbrev main_call34_v0 : Ref sig .tc := ⟨.hbm, 441, rfl⟩
abbrev main_v320 : Ref sig .tc := ⟨.hbm, 442, rfl⟩
abbrev main_v321 : Ref sig .tc := ⟨.hbm, 443, rfl⟩
abbrev main_v322 : Ref sig .tc := ⟨.hbm, 444, rfl⟩
abbrev main_v323 : Ref sig .tc := ⟨.hbm, 445, rfl⟩
abbrev main_v324 : Ref sig .tc := ⟨.hbm, 446, rfl⟩
abbrev main_v325 : Ref sig .tc := ⟨.hbm, 447, rfl⟩
abbrev main_cst_14 : Ref sig .tc := ⟨.hbm, 448, rfl⟩
abbrev main_v326 : Ref sig .tc := ⟨.hbm, 449, rfl⟩
abbrev main_v327 : Ref sig .tc := ⟨.hbm, 450, rfl⟩
abbrev main_v328 : Ref sig .tc := ⟨.hbm, 451, rfl⟩
abbrev main_v329 : Ref sig .tc := ⟨.hbm, 452, rfl⟩
abbrev main_v330 : Ref sig .tc := ⟨.hbm, 453, rfl⟩
abbrev main_v331 : Ref sig .tc := ⟨.hbm, 454, rfl⟩
abbrev main_v332 : Ref sig .tc := ⟨.hbm, 455, rfl⟩
abbrev main_v333 : Ref sig .tc := ⟨.hbm, 456, rfl⟩
abbrev main_cst_15 : Ref sig .tc := ⟨.hbm, 457, rfl⟩
abbrev main_v334 : Ref sig .tc := ⟨.hbm, 458, rfl⟩
abbrev main_v335 : Ref sig .tc := ⟨.hbm, 459, rfl⟩
abbrev main_v336 : Ref sig .tc := ⟨.hbm, 460, rfl⟩
abbrev main_v337 : Ref sig .tc := ⟨.hbm, 461, rfl⟩
abbrev main_v338 : Ref sig .tc := ⟨.hbm, 462, rfl⟩
abbrev main_v339 : Ref sig .tc := ⟨.hbm, 463, rfl⟩
abbrev main_v340 : Ref sig .tc := ⟨.hbm, 464, rfl⟩
abbrev main_v341 : Ref sig .tc := ⟨.hbm, 465, rfl⟩
abbrev main_v342 : Ref sig .tc := ⟨.hbm, 466, rfl⟩
abbrev main_v343 : Ref sig .tc := ⟨.hbm, 467, rfl⟩
abbrev main_v344 : Ref sig .tc := ⟨.hbm, 468, rfl⟩
abbrev main_v345 : Ref sig .tc := ⟨.hbm, 469, rfl⟩
abbrev main_v346 : Ref sig .tc := ⟨.hbm, 470, rfl⟩
abbrev main_v347 : Ref sig .tc := ⟨.hbm, 471, rfl⟩
abbrev main_call35_cst : Ref sig .tc := ⟨.hbm, 472, rfl⟩
abbrev main_call35_v0 : Ref sig .tc := ⟨.hbm, 473, rfl⟩
abbrev main_v348 : Ref sig .tc := ⟨.hbm, 474, rfl⟩
abbrev main_v349 : Ref sig .tc := ⟨.hbm, 475, rfl⟩
abbrev main_v350 : Ref sig .tc := ⟨.hbm, 476, rfl⟩
abbrev main_v351 : Ref sig .tc := ⟨.hbm, 477, rfl⟩
abbrev main_v352 : Ref sig .tc := ⟨.hbm, 478, rfl⟩
abbrev main_call36_cst : Ref sig .tc := ⟨.hbm, 479, rfl⟩
abbrev main_call36_v0 : Ref sig .tc := ⟨.hbm, 480, rfl⟩
abbrev main_v353 : Ref sig .tc := ⟨.hbm, 481, rfl⟩
abbrev main_v354 : Ref sig .tc := ⟨.hbm, 482, rfl⟩
abbrev main_v355 : Ref sig .tc := ⟨.hbm, 483, rfl⟩
abbrev main_v356 : Ref sig .tc := ⟨.hbm, 484, rfl⟩
abbrev main_v357 : Ref sig .tc := ⟨.hbm, 485, rfl⟩
abbrev main_v358 : Ref sig .tc := ⟨.hbm, 486, rfl⟩
abbrev main_v359 : Ref sig .tc := ⟨.hbm, 487, rfl⟩
abbrev main_v360 : Ref sig .tc := ⟨.hbm, 488, rfl⟩
abbrev main_v361 : Ref sig .tc := ⟨.hbm, 489, rfl⟩
abbrev main_v362 : Ref sig .tc := ⟨.hbm, 490, rfl⟩
abbrev main_v363 : Ref sig .tc := ⟨.hbm, 491, rfl⟩
abbrev main_v364 : Ref sig .tc := ⟨.hbm, 492, rfl⟩
abbrev main_v365 : Ref sig .tc := ⟨.hbm, 493, rfl⟩
abbrev main_v366 : Ref sig .tc := ⟨.hbm, 494, rfl⟩

abbrev nD : Nat := 1
abbrev τ : Topo := Topo.v7x

variable {F : FTy → Type} [FloatOps F]

class Facts₀ : Prop where
  bcast_S_S65536x128 : S_.BroadcastsInDim S65536x128 (![] : Fin 0 → Fin S65536x128.rank)
  concatenates_S65536x512_S65536x128_S65536x640_d1 : Shape.Concatenates [S65536x512, S65536x128] S65536x640 1
  bcast_S132_S1x132_1 : S132.BroadcastsInDim S1x132 (![1] : Fin 1 → Fin S1x132.rank)
  bcast_S1x132_S65536x132_0_1 : S1x132.BroadcastsInDim S65536x132 (![0, 1] : Fin 2 → Fin S65536x132.rank)
  bcast_S_S65536x132 : S_.BroadcastsInDim S65536x132 (![] : Fin 0 → Fin S65536x132.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  concatenates_S65536x128_S65536x128_S65536x256_d1 : Shape.Concatenates [S65536x128, S65536x128] S65536x256 1
  bcast_S_S128 : S_.BroadcastsInDim S128 (![] : Fin 0 → Fin S128.rank)
  bcast_S65536x128_S1x65536x128_1_2 : S65536x128.BroadcastsInDim S1x65536x128 (![1, 2] : Fin 2 → Fin S1x65536x128.rank)
  concatenates_S1x65536x128_S1x65536x128_S1x65536x128_S1x65536x128_S1x65536x128_S1x65536x128_S1x65536x128_S1x65536x128_S8x65536x128_d0 : Shape.Concatenates [S1x65536x128, S1x65536x128, S1x65536x128, S1x65536x128, S1x65536x128, S1x65536x128, S1x65536x128, S1x65536x128] S8x65536x128 0
  dot_S65536x640_S640x132_S65536x132_1_0_0_1_n_n_wf : DotDims.WF S65536x640 S640x132 S65536x132 [1] [0] [0] [1] [] []
  dot_S65536x132_S132x132_S65536x132_1_0_0_1_n_n_wf : DotDims.WF S65536x132 S132x132 S65536x132 [1] [0] [0] [1] [] []
  dot_S65536x132_S132x128_S65536x128_1_0_0_1_n_n_wf : DotDims.WF S65536x132 S132x128 S65536x128 [1] [0] [0] [1] [] []
  dot_S65536x256_S256x132_S65536x132_1_0_0_1_n_n_wf : DotDims.WF S65536x256 S256x132 S65536x132 [1] [0] [0] [1] [] []
  dot_S65536x128_S128x128_S65536x128_1_0_0_1_n_n_wf : DotDims.WF S65536x128 S128x128 S65536x128 [1] [0] [0] [1] [] []

variable [Facts₀]

def dot_S65536x640_S640x132_S65536x132_1_0_0_1_n_n : DotDims S65536x640 S640x132 S65536x132 where
  lhsContracting := [1]
  rhsContracting := [0]
  lhsNonContracting := [0]
  rhsNonContracting := [1]
  lhsBatch := []
  rhsBatch := []
  wf := dot_S65536x640_S640x132_S65536x132_1_0_0_1_n_n_wf
def dot_S65536x132_S132x132_S65536x132_1_0_0_1_n_n : DotDims S65536x132 S132x132 S65536x132 where
  lhsContracting := [1]
  rhsContracting := [0]
  lhsNonContracting := [0]
  rhsNonContracting := [1]
  lhsBatch := []
  rhsBatch := []
  wf := dot_S65536x132_S132x132_S65536x132_1_0_0_1_n_n_wf
def dot_S65536x132_S132x128_S65536x128_1_0_0_1_n_n : DotDims S65536x132 S132x128 S65536x128 where
  lhsContracting := [1]
  rhsContracting := [0]
  lhsNonContracting := [0]
  rhsNonContracting := [1]
  lhsBatch := []
  rhsBatch := []
  wf := dot_S65536x132_S132x128_S65536x128_1_0_0_1_n_n_wf
def dot_S65536x256_S256x132_S65536x132_1_0_0_1_n_n : DotDims S65536x256 S256x132 S65536x132 where
  lhsContracting := [1]
  rhsContracting := [0]
  lhsNonContracting := [0]
  rhsNonContracting := [1]
  lhsBatch := []
  rhsBatch := []
  wf := dot_S65536x256_S256x132_S65536x132_1_0_0_1_n_n_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf

class Facts : Prop extends Facts₀ where

variable [Facts]
-- ==== Proof.LibPlainDot.lean ====
/-
  A plain matrix product's contraction as a sum over one natural coordinate.

  For the dimension numbers of an M×K by K×N product with no batch axis (the left operand contracted on its columns,
  the right on its rows), the contraction index has one axis of extent K, the left operand is read at (row of the
  output, k) and the right at (k, column of the output). So the sum over the contraction index of the products is

      Σ over k < K of  l(r, k) · r(k, c)

  at output index (r, c): the form in which a kernel's block product and a whole-array product are compared.
-/
import Idealize.ShloMosaic.Lib.ValueIdx
import Idealize.ShloMosaic.PureOps.Ideal.Laws

noncomputable section

namespace Cert.LibPlainDot

open Idealize.ShloMosaic Idealize.ShloMosaic.ValueIdx

/-- The contraction of a plain M×K by K×N product at output index j, as a sum over the K positions. -/
theorem plain_contr_sum (M K N : Nat) (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hk := contrEquiv1_symm_val (DotDims.plain M K N) K hr hs k
  have el : (DotDims.plain M K N).lhsIdx j ((contrEquiv1 (DotDims.plain M K N) K hr hs).symm k) = ix2 (j 0) k := by
    funext a; apply Fin.ext
    match a with
    | ⟨0, _⟩ => rfl
    | ⟨1, _⟩ => exact ((DotDims.plain M K N).lhsIdx_val_of_single rfl j _).trans hk
  have er : (DotDims.plain M K N).rhsIdx j ((contrEquiv1 (DotDims.plain M K N) K hr hs).symm k) = ix2 k (j 1) := by
    funext a; apply Fin.ext
    match a with
    | ⟨0, _⟩ => exact ((DotDims.plain M K N).rhsIdx_val_of_single rfl j _).trans hk
    | ⟨1, _⟩ => rfl
  exact congrArg₂ (· * ·) (congrArg l el) (congrArg r er)

/-- A tpu.matmul into the zero accumulator with plain dimension numbers, read at an output index. -/
theorem matmul_zero_plain {φ₁ φ₂ : FTy} (M K N : Nat) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply _ prec l r j).trans (plain_contr_sum M K N l r j)

/-- The host's dot_general with plain dimension numbers, read at an output index. -/
theorem dotGeneral_plain {φ₁ φ₂ : FTy} (M K N : Nat) (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j = ∑ k : Fin K, l (ix2 (j 0) k) * r (ix2 k (j 1)) :=
  (Ideal.dotGeneral_apply _ prec sched l r j).trans (plain_contr_sum M K N l r j)

end Cert.LibPlainDot

end
-- ==== Proof.Net.lean ====
/-
  The network both programs compute, one input row at a time.

  Every output row depends on one row `x` of the signal (512 numbers) and on the weights. The building blocks are a row
  times a matrix (`mv`), an affine layer (`lin`: row times matrix plus bias), the positive part (`relu`), joining two
  rows end to end (`cat`), and stacks of three and four affine layers with positive parts between them (`fc3`, `fc4`).
  They are stated over any type with a sum, a product and a maximum, so that the same text reads on the real numbers
  (where the algebra is done) and on the extended reals (where the programs live).

  `refOut` composes the blocks the way the reference does: every node of its graph in turn, a joined row padded with
  zeros where a node has no incoming messages, the messages multiplied by the message matrix one by one and added up,
  the bias multiplied by the number of messages. `kernOut` composes them the way the kernel does: only the distinct
  nodes; a zero half of a joined row dropped together with the matching rows of the first matrix (`top`); a row joined
  with itself replaced by the row times the sum of the two halves of the first matrix (`fold2`); equal messages added
  before the one product with the message matrix.
-/
import Mathlib.Data.EReal.Inv
import Mathlib.Algebra.BigOperators.Fin
import Mathlib.Algebra.Order.Ring.Defs

namespace Cert.Net

open scoped BigOperators

variable {α : Type}

/-- The weights: four message/update pairs and four stacks of layers, as matrices and bias rows. -/
structure Wts (α : Type) where
  ppMw : Fin 128 → Fin 128 → α
  ppMb : Fin 128 → α
  ppUw : Fin 128 → Fin 128 → α
  ppUb : Fin 128 → α
  ppW0 : Fin 640 → Fin 132 → α
  ppB0 : Fin 132 → α
  ppW1 : Fin 132 → Fin 132 → α
  ppB1 : Fin 132 → α
  ppW2 : Fin 132 → Fin 128 → α
  ppB2 : Fin 128 → α
  lnW0 : Fin 256 → Fin 132 → α
  lnB0 : Fin 132 → α
  lnW1 : Fin 132 → Fin 132 → α
  lnB1 : Fin 132 → α
  lnW2 : Fin 132 → Fin 132 → α
  lnB2 : Fin 132 → α
  lnW3 : Fin 132 → Fin 128 → α
  lnB3 : Fin 128 → α
  crW0 : Fin 256 → Fin 132 → α
  crB0 : Fin 132 → α
  crW1 : Fin 132 → Fin 132 → α
  crB1 : Fin 132 → α
  crW2 : Fin 132 → Fin 132 → α
  crB2 : Fin 132 → α
  crW3 : Fin 132 → Fin 128 → α
  crB3 : Fin 128 → α
  mpMw : Fin 128 → Fin 128 → α
  mpMb : Fin 128 → α
  mpUw : Fin 128 → Fin 128 → α
  mpUb : Fin 128 → α
  mpW0 : Fin 256 → Fin 132 → α
  mpB0 : Fin 132 → α
  mpW1 : Fin 132 → Fin 132 → α
  mpB1 : Fin 132 → α
  mpW2 : Fin 132 → Fin 128 → α
  mpB2 : Fin 128 → α

/-- The weights entry by entry under a map of the numbers. -/
def Wts.map {β : Type} (f : α → β) (W : Wts α) : Wts β where
  ppMw := fun k q => f (W.ppMw k q)
  ppMb := fun q => f (W.ppMb q)
  ppUw := fun k q => f (W.ppUw k q)
  ppUb := fun q => f (W.ppUb q)
  ppW0 := fun k q => f (W.ppW0 k q)
  ppB0 := fun q => f (W.ppB0 q)
  ppW1 := fun k q => f (W.ppW1 k q)
  ppB1 := fun q => f (W.ppB1 q)
  ppW2 := fun k q => f (W.ppW2 k q)
  ppB2 := fun q => f (W.ppB2 q)
  lnW0 := fun k q => f (W.lnW0 k q)
  lnB0 := fun q => f (W.lnB0 q)
  lnW1 := fun k q => f (W.lnW1 k q)
  lnB1 := fun q => f (W.lnB1 q)
  lnW2 := fun k q => f (W.lnW2 k q)
  lnB2 := fun q => f (W.lnB2 q)
  lnW3 := fun k q => f (W.lnW3 k q)
  lnB3 := fun q => f (W.lnB3 q)
  crW0 := fun k q => f (W.crW0 k q)
  crB0 := fun q => f (W.crB0 q)
  crW1 := fun k q => f (W.crW1 k q)
  crB1 := fun q => f (W.crB1 q)
  crW2 := fun k q => f (W.crW2 k q)
  crB2 := fun q => f (W.crB2 q)
  crW3 := fun k q => f (W.crW3 k q)
  crB3 := fun q => f (W.crB3 q)
  mpMw := fun k q => f (W.mpMw k q)
  mpMb := fun q => f (W.mpMb q)
  mpUw := fun k q => f (W.mpUw k q)
  mpUb := fun q => f (W.mpUb q)
  mpW0 := fun k q => f (W.mpW0 k q)
  mpB0 := fun q => f (W.mpB0 q)
  mpW1 := fun k q => f (W.mpW1 k q)
  mpB1 := fun q => f (W.mpB1 q)
  mpW2 := fun k q => f (W.mpW2 k q)
  mpB2 := fun q => f (W.mpB2 q)

section Blocks
variable [AddCommMonoid α] [Mul α]

/-- A row times a matrix: entry `q` is the sum over `k` of `x k * w k q`. -/
def mv {K N : ℕ} (x : Fin K → α) (w : Fin K → Fin N → α) : Fin N → α := fun q => ∑ k : Fin K, x k * w k q

/-- An affine layer: the row times the matrix, plus the bias row. -/
def lin {K N : ℕ} (x : Fin K → α) (w : Fin K → Fin N → α) (b : Fin N → α) : Fin N → α := fun q => mv x w q + b q

/-- The positive part of a row, entry by entry. -/
def relu [Max α] {N : ℕ} (x : Fin N → α) : Fin N → α := fun q => max (x q) 0

/-- Two rows joined end to end. -/
def cat {A B C : ℕ} (h : A + B = C) (x : Fin A → α) (y : Fin B → α) : Fin C → α :=
  fun k => if hk : k.val < A then x ⟨k.val, hk⟩ else y ⟨k.val - A, by omega⟩

/-- The first `A` rows of a matrix. -/
def top {A C N : ℕ} (h : A ≤ C) (w : Fin C → Fin N → α) : Fin A → Fin N → α := fun k q => w ⟨k.val, by omega⟩ q

/-- The sum of the two halves of a matrix of `A + A` rows. -/
def fold2 {A C N : ℕ} (h : A + A = C) (w : Fin C → Fin N → α) : Fin A → Fin N → α :=
  fun k q => w ⟨k.val, by omega⟩ q + w ⟨A + k.val, by omega⟩ q

variable [Max α]

/-- Three affine layers, the positive part after the first two. -/
def fc3 {K : ℕ} (x : Fin K → α) (w0 : Fin K → Fin 132 → α) (b0 : Fin 132 → α) (w1 : Fin 132 → Fin 132 → α) (b1 : Fin 132 → α)
    (w2 : Fin 132 → Fin 128 → α) (b2 : Fin 128 → α) : Fin 128 → α :=
  lin (relu (lin (relu (lin x w0 b0)) w1 b1)) w2 b2

/-- Four affine layers, the positive part after the first three. -/
def fc4 {K : ℕ} (x : Fin K → α) (w0 : Fin K → Fin 132 → α) (b0 : Fin 132 → α) (w1 : Fin 132 → Fin 132 → α) (b1 : Fin 132 → α)
    (w2 : Fin 132 → Fin 132 → α) (b2 : Fin 132 → α) (w3 : Fin 132 → Fin 128 → α) (b3 : Fin 128 → α) : Fin 128 → α :=
  lin (relu (lin (relu (lin (relu (lin x w0 b0)) w1 b1)) w2 b2)) w3 b3

/-! ## The reference's order -/

/-- One message: zero plus the message, plus `c` times the bias. -/
def msg1 (c : α) (mw : Fin 128 → Fin 128 → α) (mb : Fin 128 → α) (a : Fin 128 → α) : Fin 128 → α :=
  fun q => (0 + mv a mw q) + c * mb q

/-- Two messages added one by one from zero, plus `c` times the bias. -/
def msg2 (c : α) (mw : Fin 128 → Fin 128 → α) (mb : Fin 128 → α) (a b : Fin 128 → α) : Fin 128 → α :=
  fun q => ((0 + mv a mw q) + mv b mw q) + c * mb q

/-- Four messages added one by one from zero, plus `c` times the bias. -/
def msg4 (c : α) (mw : Fin 128 → Fin 128 → α) (mb : Fin 128 → α) (a b d e : Fin 128 → α) : Fin 128 → α :=
  fun q => ((((0 + mv a mw q) + mv b mw q) + mv d mw q) + mv e mw q) + c * mb q

variable (W : Wts α) (c1 c2 c4 : α) (x : Fin 512 → α)

/-- The point stack on the signal row with no messages (both of the reference's two such nodes). -/
def rUpP1 : Fin 128 → α :=
  fc3 (cat (by norm_num : 512 + 128 = 640) x (fun _ => 0)) W.ppW0 W.ppB0 W.ppW1 W.ppB1 W.ppW2 W.ppB2
/-- The line stack on that node joined with its twin. -/
def rUpL1 : Fin 128 → α :=
  fc4 (cat (by norm_num : 128 + 128 = 256) (rUpP1 W x) (rUpP1 W x)) W.lnW0 W.lnB0 W.lnW1 W.lnB1 W.lnW2 W.lnB2 W.lnW3 W.lnB3
/-- The circle stack on that node joined with its twin (both of the reference's two such nodes). -/
def rUpC1 : Fin 128 → α :=
  fc4 (cat (by norm_num : 128 + 128 = 256) (rUpP1 W x) (rUpP1 W x)) W.crW0 W.crB0 W.crW1 W.crB1 W.crW2 W.crB2 W.crW3 W.crB3
/-- The point stack on the signal row with the two circle nodes' messages. -/
def rUpP3 : Fin 128 → α :=
  fc3 (cat (by norm_num : 512 + 128 = 640) x (lin (msg2 c2 W.ppMw W.ppMb (rUpC1 W x) (rUpC1 W x)) W.ppUw W.ppUb))
    W.ppW0 W.ppB0 W.ppW1 W.ppB1 W.ppW2 W.ppB2
/-- The line stack on the first point node joined with the third (both of the reference's two such nodes). -/
def rUpL2 : Fin 128 → α :=
  fc4 (cat (by norm_num : 128 + 128 = 256) (rUpP1 W x) (rUpP3 W c2 x)) W.lnW0 W.lnB0 W.lnW1 W.lnB1 W.lnW2 W.lnB2 W.lnW3 W.lnB3
/-- Downward, the first line node: no messages. -/
def rDL1 : Fin 128 → α :=
  fc3 (cat (by norm_num : 128 + 128 = 256) (rUpL1 W x) (fun _ => 0)) W.mpW0 W.mpB0 W.mpW1 W.mpB1 W.mpW2 W.mpB2
/-- Downward, the second (and third) line node: no messages. -/
def rDL2 : Fin 128 → α :=
  fc3 (cat (by norm_num : 128 + 128 = 256) (rUpL2 W c2 x) (fun _ => 0)) W.mpW0 W.mpB0 W.mpW1 W.mpB1 W.mpW2 W.mpB2
/-- Downward, the third point node: the two line nodes' messages. -/
def rDP3 : Fin 128 → α :=
  fc3 (cat (by norm_num : 128 + 128 = 256) (rUpP3 W c2 x)
      (lin (msg2 c2 W.mpMw W.mpMb (rDL2 W c2 x) (rDL2 W c2 x)) W.mpUw W.mpUb)) W.mpW0 W.mpB0 W.mpW1 W.mpB1 W.mpW2 W.mpB2
/-- Downward, a circle node: the third point node's message. -/
def rDC1 : Fin 128 → α :=
  fc3 (cat (by norm_num : 128 + 128 = 256) (rUpC1 W x)
      (lin (msg1 c1 W.mpMw W.mpMb (rDP3 W c2 x)) W.mpUw W.mpUb)) W.mpW0 W.mpB0 W.mpW1 W.mpB1 W.mpW2 W.mpB2
/-- Downward, a first-level point node: four messages. -/
def rDP1 : Fin 128 → α :=
  fc3 (cat (by norm_num : 128 + 128 = 256) (rUpP1 W x)
      (lin (msg4 c4 W.mpMw W.mpMb (rDL1 W x) (rDC1 W c1 c2 x) (rDC1 W c1 c2 x) (rDL2 W c2 x)) W.mpUw W.mpUb))
    W.mpW0 W.mpB0 W.mpW1 W.mpB1 W.mpW2 W.mpB2

/-- The reference's eight output rows, in its order of the nodes. -/
def refOut (s : Fin 8) : Fin 128 → α :=
  match s with
  | ⟨0, _⟩ => rDP1 W c1 c2 c4 x
  | ⟨1, _⟩ => rDP1 W c1 c2 c4 x
  | ⟨2, _⟩ => rDL1 W x
  | ⟨3, _⟩ => rDC1 W c1 c2 x
  | ⟨4, _⟩ => rDC1 W c1 c2 x
  | ⟨5, _⟩ => rDP3 W c2 x
  | ⟨6, _⟩ => rDL2 W c2 x
  | ⟨7, _⟩ => rDL2 W c2 x

/-! ## The kernel's order -/

/-- The point stack on the signal row alone, against the first 512 rows of its first matrix. -/
def kUpP1 : Fin 128 → α :=
  fc3 x (top (by norm_num : 512 ≤ 640) W.ppW0) W.ppB0 W.ppW1 W.ppB1 W.ppW2 W.ppB2
/-- The line stack on that row, against the sum of the halves of its first matrix. -/
def kUpL1 : Fin 128 → α :=
  fc4 (kUpP1 W x) (fold2 (by norm_num : 128 + 128 = 256) W.lnW0) W.lnB0 W.lnW1 W.lnB1 W.lnW2 W.lnB2 W.lnW3 W.lnB3
/-- The circle stack likewise. -/
def kUpC1 : Fin 128 → α :=
  fc4 (kUpP1 W x) (fold2 (by norm_num : 128 + 128 = 256) W.crW0) W.crB0 W.crW1 W.crB1 W.crW2 W.crB2 W.crW3 W.crB3
/-- The point stack with twice the one circle message and twice the bias. -/
def kUpP3 : Fin 128 → α :=
  fc3 (cat (by norm_num : 512 + 128 = 640) x
      (lin (fun q => c2 * mv (kUpC1 W x) W.ppMw q + c2 * W.ppMb q) W.ppUw W.ppUb)) W.ppW0 W.ppB0 W.ppW1 W.ppB1 W.ppW2 W.ppB2
/-- The line stack on the first and third point rows joined. -/
def kUpL2 : Fin 128 → α :=
  fc4 (cat (by norm_num : 128 + 128 = 256) (kUpP1 W x) (kUpP3 W c2 x)) W.lnW0 W.lnB0 W.lnW1 W.lnB1 W.lnW2 W.lnB2 W.lnW3 W.lnB3
/-- Downward, the first line node, against the first 128 rows of the first matrix. -/
def kDL1 : Fin 128 → α :=
  fc3 (kUpL1 W x) (top (by norm_num : 128 ≤ 256) W.mpW0) W.mpB0 W.mpW1 W.mpB1 W.mpW2 W.mpB2
/-- Downward, the second line node likewise. -/
def kDL2 : Fin 128 → α :=
  fc3 (kUpL2 W c2 x) (top (by norm_num : 128 ≤ 256) W.mpW0) W.mpB0 W.mpW1 W.mpB1 W.mpW2 W.mpB2
/-- Downward, the third point node: twice the one line message and twice the bias. -/
def kDP3 : Fin 128 → α :=
  fc3 (cat (by norm_num : 128 + 128 = 256) (kUpP3 W c2 x)
      (lin (fun q => c2 * mv (kDL2 W c2 x) W.mpMw q + c2 * W.mpMb q) W.mpUw W.mpUb)) W.mpW0 W.mpB0 W.mpW1 W.mpB1 W.mpW2 W.mpB2
/-- Downward, the circle node: one message and the bias. -/
def kDC1 : Fin 128 → α :=
  fc3 (cat (by norm_num : 128 + 128 = 256) (kUpC1 W x)
      (lin (fun q => mv (kDP3 W c2 x) W.mpMw q + W.mpMb q) W.mpUw W.mpUb)) W.mpW0 W.mpB0 W.mpW1 W.mpB1 W.mpW2 W.mpB2
/-- Downward, the first-level point node: the four messages added first, one product with the message matrix. -/
def kDP1 : Fin 128 → α :=
  fc3 (cat (by norm_num : 128 + 128 = 256) (kUpP1 W x)
      (lin (fun q => mv (fun j => (kDL1 W x j + c2 * kDC1 W c2 x j) + kDL2 W c2 x j) W.mpMw q + c4 * W.mpMb q) W.mpUw W.mpUb))
    W.mpW0 W.mpB0 W.mpW1 W.mpB1 W.mpW2 W.mpB2

/-- The kernel's eight output rows. -/
def kernOut (s : Fin 8) : Fin 128 → α :=
  match s with
  | ⟨0, _⟩ => kDP1 W c2 c4 x
  | ⟨1, _⟩ => kDP1 W c2 c4 x
  | ⟨2, _⟩ => kDL1 W x
  | ⟨3, _⟩ => kDC1 W c2 x
  | ⟨4, _⟩ => kDC1 W c2 x
  | ⟨5, _⟩ => kDP3 W c2 x
  | ⟨6, _⟩ => kDL2 W c2 x
  | ⟨7, _⟩ => kDL2 W c2 x

end Blocks

end Cert.Net
-- ==== Proof.LibRows.lean ====
/-
  Rows of two-axis arrays of extended reals under the vector operations.

  An array of shape [M, N] is read one row at a time: `Row v p` is the function `q ↦ v (p, q)`; a weight matrix is read
  whole (`Mat`), a bias as a row (`Vec1`). Each vector operation that occurs in an affine layer acts on rows in the
  evident way: a matrix product's row is the row times the matrix (`Net.mv`), a bias broadcast down the rows has the bias
  as every row, two arrays joined along the columns have the two rows joined end to end (`Net.cat`), a pointwise
  operation acts entry by entry, a change of float format does nothing on the extended reals.
-/
import Idealize.ShloMosaic.Lib.ValueIdx
import Idealize.ShloMosaic.Lib.Pipeline.Value
import Idealize.ShloMosaic.PureOps.Ideal.Laws
import proofs.«167402_j1125281431924_2_alg».proof.Proof.LibPlainDot
import proofs.«167402_j1125281431924_2_alg».proof.Proof.Net

noncomputable section

namespace Cert.Rows

open Idealize.ShloMosaic Idealize.ShloMosaic.ValueIdx Cert.Net

/-- Row `p` of an array of shape [M, N]. -/
def Row {M N : Nat} (v : (⟨2, ![M, N]⟩ : Shape).Idx → EReal) (p : Fin M) : Fin N → EReal := fun q => v (ix2 p q)

/-- An array of shape [K, N] as a matrix. -/
def Mat {K N : Nat} (w : (⟨2, ![K, N]⟩ : Shape).Idx → EReal) : Fin K → Fin N → EReal := fun k q => w (ix2 k q)

/-- An array of shape [N] as a row. -/
def Vec1 {N : Nat} (b : (⟨1, ![N]⟩ : Shape).Idx → EReal) : Fin N → EReal := fun q => b (ix1 q)

variable {M N K : Nat}

/-! ## Pointwise operations -/

theorem Row_addf {φ : FTy} (a b : FVec Ideal ⟨2, ![M, N]⟩ φ) (p : Fin M) :
    Row (addf a b) p = fun q => Row a p q + Row b p q := rfl

theorem Row_mulf {φ : FTy} (a b : FVec Ideal ⟨2, ![M, N]⟩ φ) (p : Fin M) :
    Row (mulf a b) p = fun q => Row a p q * Row b p q := rfl

theorem Row_maximumf {φ : FTy} (a b : FVec Ideal ⟨2, ![M, N]⟩ φ) (p : Fin M) :
    Row (maximumf a b) p = fun q => max (Row a p q) (Row b p q) := rfl

theorem Row_truncf {φ ψ : FTy} (a : FVec Ideal ⟨2, ![M, N]⟩ φ) (h : ψ.bits < φ.bits) (p : Fin M) :
    Row (truncf ψ a h : FVec Ideal ⟨2, ![M, N]⟩ ψ) p = Row a p := rfl

theorem Row_broadcast (c : EReal) (p : Fin M) :
    Row (broadcast (⟨2, ![M, N]⟩ : Shape) c) p = fun _ => c := rfl

theorem Row_constant {φ : FTy} (w : BitVec φ.bits) (p : Fin M) :
    Row (constant (F := Ideal) (⟨2, ![M, N]⟩ : Shape) φ w) p = fun _ => Ideal.ofBits φ w := rfl

theorem Mat_addf {φ : FTy} (a b : FVec Ideal ⟨2, ![K, N]⟩ φ) :
    Mat (addf a b) = fun k q => Mat a k q + Mat b k q := rfl

theorem Vec1_mulf {φ : FTy} (a b : FVec Ideal ⟨1, ![N]⟩ φ) :
    Vec1 (mulf a b) = fun q => Vec1 a q * Vec1 b q := rfl

theorem Vec1_broadcast (c : EReal) : Vec1 (broadcast (⟨1, ![N]⟩ : Shape) c) = fun _ => c := rfl

/-- A shape cast to the same shape changes nothing. -/
theorem Mat_shapeCast_self (w : (⟨2, ![K, N]⟩ : Shape).Idx → EReal) (h : (⟨2, ![K, N]⟩ : Shape).ShapeCasts ⟨2, ![K, N]⟩) :
    Mat (shapeCast (⟨2, ![K, N]⟩ : Shape) w h) = Mat w := by
  rw [shapeCast_self]

/-! ## Matrix products -/

/-- A row of a product into the zero accumulator is the row of the left factor times the right factor. -/
theorem Row_matmul {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) :
    Row (FloatOps.matmul d prec l r (constant ⟨2, ![M, N]⟩ .f32 0x00000000#32)) p = mv (Row l p) (Mat r) := by
  subst hd
  funext q
  exact Cert.LibPlainDot.matmul_zero_plain M K N prec l r (ix2 p q)

/-- A row of the host's product is the row of the left factor times the right factor. -/
theorem Row_dotGeneral {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) :
    Row (Host.dotGeneral d prec l r) p = mv (Row l p) (Mat r) := by
  subst hd
  funext q
  exact Cert.LibPlainDot.dotGeneral_plain M K N prec .single l r (ix2 p q)

/-! ## Biases, scalars and joins -/

/-- The host's bias: a row of shape [N] broadcast to [1, N] and then down the M rows has the bias as every row. -/
theorem Row_bias_h (b : (⟨1, ![N]⟩ : Shape).Idx → EReal)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) :
    Row (broadcastInDim (⟨2, ![M, N]⟩ : Shape) ![0, 1] h2 (broadcastInDim (⟨2, ![1, N]⟩ : Shape) ![1] h1 b)) p = Vec1 b := by
  funext q
  refine (broadcastInDim_apply _ h2 _ (ix2 p q) (ix2 ⟨0, by omega⟩ q) ?_).trans ?_
  · intro a
    match a with
    | ⟨0, _⟩ => simp
    | ⟨1, _⟩ =>
      show q.val = if N = 1 then 0 else q.val
      split_ifs with h
      · subst h; omega
      · rfl
  · refine (broadcastInDim_apply _ h1 _ (ix2 ⟨0, by omega⟩ q) (ix1 q) ?_).trans rfl
    intro a
    match a with
    | ⟨0, _⟩ =>
      show q.val = if N = 1 then 0 else q.val
      split_ifs with h
      · subst h; omega
      · rfl

/-- The kernel's bias: a row of shape [N] recast to [1, N] and broadcast down the M rows has the bias as every row. -/
theorem Row_bias_k (b : (⟨1, ![N]⟩ : Shape).Idx → EReal)
    (h1 : (⟨1, ![N]⟩ : Shape).ShapeCasts ⟨2, ![1, N]⟩) (h2 : (⟨2, ![1, N]⟩ : Shape).Broadcasts ⟨2, ![M, N]⟩) (p : Fin M) :
    Row (broadcastTo (⟨2, ![M, N]⟩ : Shape) (shapeCast (⟨2, ![1, N]⟩ : Shape) b h1) h2) p = Vec1 b := by
  funext q
  refine (broadcastTo_apply _ h2 (ix2 p q) (ix2 ⟨0, by omega⟩ q) ?_).trans ?_
  · intro a
    match a with
    | ⟨0, _⟩ => simp
    | ⟨1, _⟩ =>
      show q.val = if N = 1 then 0 else q.val
      split_ifs with h
      · subst h; omega
      · rfl
  · refine (shapeCast_addUnit_apply (n := 1) ![N] b h1 (ix2 ⟨0, by omega⟩ q)).trans ?_
    refine congrArg b (funext fun a => ?_)
    match a with
    | ⟨0, _⟩ => rfl

/-- A scalar broadcast to every entry of an array of shape [M, N]. -/
theorem Row_bcast0 (c : (⟨0, ![]⟩ : Shape).Idx → EReal) (h : (⟨0, ![]⟩ : Shape).BroadcastsInDim ⟨2, ![M, N]⟩ ![]) (p : Fin M) :
    Row (broadcastInDim (⟨2, ![M, N]⟩ : Shape) ![] h c) p = fun _ => c ix0 := by
  funext q
  exact broadcastInDim_apply _ h c (ix2 p q) ix0 (fun a => a.elim0)

/-- A scalar broadcast to every entry of a row of shape [N]. -/
theorem Vec1_bcast0 (c : (⟨0, ![]⟩ : Shape).Idx → EReal) (h : (⟨0, ![]⟩ : Shape).BroadcastsInDim ⟨1, ![N]⟩ ![]) :
    Vec1 (broadcastInDim (⟨1, ![N]⟩ : Shape) ![] h c) = fun _ => c ix0 := by
  funext q
  exact broadcastInDim_apply _ h c (ix1 q) ix0 (fun a => a.elim0)

/-- Two arrays joined along the columns: each row is the two rows joined end to end. -/
theorem Row_concat {A B C : Nat} (hABC : A + B = C) (x : (⟨2, ![M, A]⟩ : Shape).Idx → EReal) (y : (⟨2, ![M, B]⟩ : Shape).Idx → EReal)
    (hc : Shape.Concatenates [(⟨2, ![M, A]⟩ : Shape), ⟨2, ![M, B]⟩] ⟨2, ![M, C]⟩ 1) (p : Fin M) :
    Row (concatenate (⟨2, ![M, C]⟩ : Shape) 1 [⟨⟨2, ![M, A]⟩, x⟩, ⟨⟨2, ![M, B]⟩, y⟩] hc) p = cat hABC (Row x p) (Row y p) := by
  funext q
  unfold cat
  by_cases hq : q.val < A
  · rw [dif_pos hq]
    refine concatenate_pair_apply_left 1 x y hc (ix2 p q) rfl (ix2 p ⟨q.val, hq⟩) ?_
    intro b
    match b with
    | ⟨0, _⟩ => rfl
    | ⟨1, _⟩ => rfl
  · rw [dif_neg hq]
    refine concatenate_pair_apply_right 1 x y hc (ix2 p q) rfl rfl (ix2 p ⟨q.val - A, by omega⟩) ?_ ?_
    · intro b hb
      match b, hb with
      | ⟨0, _⟩, _ => rfl
      | ⟨1, _⟩, hb => exact absurd rfl hb
    · show (q.val - A) + A = q.val
      omega

/-! ## The float words that occur -/

theorem bits_zero : Ideal.ofBits .f32 0x00000000#32 = (0 : EReal) := by
  simp [Ideal.ofBits, Ideal.ieee]

theorem bits_one : Ideal.ofBits .f32 0x3F800000#32 = ((1 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_four : Ideal.ofBits .f32 0x40800000#32 = ((4 : ℝ) : EReal) := by
  simp [Ideal.ofBits, Ideal.ieee, -EReal.coe_mul]; norm_num

end Cert.Rows

end
-- ==== Proof.KernInputs.lean ====
/-
  The kernel's input blocks as the launch arrays.

  The kernel runs over 64 grid points. At point `t` it reads rows `1024 t … 1024 t + 1023` of the signal (an array of
  65536 rows of 512 numbers) and each of the 36 weight arrays whole: a weight window's block index is 0 on every axis at
  every point. The 18 weight matrices are read from copies the host wrote before the run by a change of float format,
  which is the identity on the extended reals; the 18 biases are read from the launch arrays themselves.

  Proved here: each host copy is its launch array (`V_v0` … `V_v17`); each weight block at any point is its launch
  array (`blk_1` … `blk_36`); row `p` of the signal block at point `t` is row `1024 t + p` of the signal (`row_sig`);
  and the two index maps that move with the point, decided over the grid (`idx_facts`).
-/
import proofs.«167402_j1125281431924_2_alg».proof.Proof.KernelIdealFrameP
import proofs.«167402_j1125281431924_2_alg».proof.Proof.LibRows
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernValue

open Cert Cert.KernelIdeal Cert.KernelIdeal.Gen Cert.KernelIdeal.GenP

/-! ## The index maps that move with the point -/

/-- The printed index maps, decided over the 64 grid points: the signal's block index at point `t` is `(t, 0)`, the
    output's is `(0, t, 0)`. -/
theorem idx_facts : ∀ t : Fin cfg0.N, win0_0.index t (0 : Fin 2) = t.val ∧ win0_0.index t (1 : Fin 2) = 0
    ∧ win0_37.index t (0 : Fin 3) = 0 ∧ win0_37.index t (1 : Fin 3) = t.val ∧ win0_37.index t (2 : Fin 3) = 0 :=
  (by decide +kernel : ∀ t : Fin grid0.N, _)

variable [Cert.KernelIdeal.Facts]
variable (m : (ℓ : Loc nD τ sig) → Buf (Elt Ideal) ℓ)

/-! ## The arrays the region finds -/

/-- The host's copy of weight matrix 1 is the launch array: a change of float format is the identity on the extended reals. -/
theorem V_v0 (c : Dev nD) : (V m c main_v0 : S128x128.Idx → EReal) = m ((c : Thread nD τ).loc main_arg1) := by
  dsimp only [GenP.V, Gen.hostOps0]; after_results; rfl
/-- The host's copy of weight matrix 3 is the launch array: a change of float format is the identity on the extended reals. -/
theorem V_v1 (c : Dev nD) : (V m c main_v1 : S128x128.Idx → EReal) = m ((c : Thread nD τ).loc main_arg3) := by
  dsimp only [GenP.V, Gen.hostOps0]; after_results; rfl
/-- The host's copy of weight matrix 5 is the launch array: a change of float format is the identity on the extended reals. -/
theorem V_v2 (c : Dev nD) : (V m c main_v2 : S640x132.Idx → EReal) = m ((c : Thread nD τ).loc main_arg5) := by
  dsimp only [GenP.V, Gen.hostOps0]; after_results; rfl
/-- The host's copy of weight matrix 7 is the launch array: a change of float format is the identity on the extended reals. -/
theorem V_v3 (c : Dev nD) : (V m c main_v3 : S132x132.Idx → EReal) = m ((c : Thread nD τ).loc main_arg7) := by
  dsimp only [GenP.V, Gen.hostOps0]; after_results; rfl
/-- The host's copy of weight matrix 9 is the launch array: a change of float format is the identity on the extended reals. -/
theorem V_v4 (c : Dev nD) : (V m c main_v4 : S132x128.Idx → EReal) = m ((c : Thread nD τ).loc main_arg9) := by
  dsimp only [GenP.V, Gen.hostOps0]; after_results; rfl
/-- The host's copy of weight matrix 11 is the launch array: a change of float format is the identity on the extended reals. -/
theorem V_v5 (c : Dev nD) : (V m c main_v5 : S256x132.Idx → EReal) = m ((c : Thread nD τ).loc main_arg11) := by
  dsimp only [GenP.V, Gen.hostOps0]; after_results; rfl
/-- The host's copy of weight matrix 13 is the launch array: a change of float format is the identity on the extended reals. -/
theorem V_v6 (c : Dev nD) : (V m c main_v6 : S132x132.Idx → EReal) = m ((c : Thread nD τ).loc main_arg13) := by
  dsimp only [GenP.V, Gen.hostOps0]; after_results; rfl
/-- The host's copy of weight matrix 15 is the launch array: a change of float format is the identity on the extended reals. -/
theorem V_v7 (c : Dev nD) : (V m c main_v7 : S132x132.Idx → EReal) = m ((c : Thread nD τ).loc main_arg15) := by
  dsimp only [GenP.V, Gen.hostOps0]; after_results; rfl
/-- The host's copy of weight matrix 17 is the launch array: a change of float format is the identity on the extended reals. -/
theorem V_v8 (c : Dev nD) : (V m c main_v8 : S132x128.Idx → EReal) = m ((c : Thread nD τ).loc main_arg17) := by
  dsimp only [GenP.V, Gen.hostOps0]; after_results; rfl
/-- The host's copy of weight matrix 19 is the launch array: a change of float format is the identity on the extended reals. -/
theorem V_v9 (c : Dev nD) : (V m c main_v9 : S256x132.Idx → EReal) = m ((c : Thread nD τ).loc main_arg19) := by
  dsimp only [GenP.V, Gen.hostOps0]; after_results; rfl
/-- The host's copy of weight matrix 21 is the launch array: a change of float format is the identity on the extended reals. -/
theorem V_v10 (c : Dev nD) : (V m c main_v10 : S132x132.Idx → EReal) = m ((c : Thread nD τ).loc main_arg21) := by
  dsimp only [GenP.V, Gen.hostOps0]; after_results; rfl
/-- The host's copy of weight matrix 23 is the launch array: a change of float format is the identity on the extended reals. -/
theorem V_v11 (c : Dev nD) : (V m c main_v11 : S132x132.Idx → EReal) = m ((c : Thread nD τ).loc main_arg23) := by
  dsimp only [GenP.V, Gen.hostOps0]; after_results; rfl
/-- The host's copy of weight matrix 25 is the launch array: a change of float format is the identity on the extended reals. -/
theorem V_v12 (c : Dev nD) : (V m c main_v12 : S132x128.Idx → EReal) = m ((c : Thread nD τ).loc main_arg25) := by
  dsimp only [GenP.V, Gen.hostOps0]; after_results; rfl
/-- The host's copy of weight matrix 27 is the launch array: a change of float format is the identity on the extended reals. -/
theorem V_v13 (c : Dev nD) : (V m c main_v13 : S128x128.Idx → EReal) = m ((c : Thread nD τ).loc main_arg27) := by
  dsimp only [GenP.V, Gen.hostOps0]; after_results; rfl
/-- The host's copy of weight matrix 29 is the launch array: a change of float format is the identity on the extended reals. -/
theorem V_v14 (c : Dev nD) : (V m c main_v14 : S128x128.Idx → EReal) = m ((c : Thread nD τ).loc main_arg29) := by
  dsimp only [GenP.V, Gen.hostOps0]; after_results; rfl
/-- The host's copy of weight matrix 31 is the launch array: a change of float format is the identity on the extended reals. -/
theorem V_v15 (c : Dev nD) : (V m c main_v15 : S256x132.Idx → EReal) = m ((c : Thread nD τ).loc main_arg31) := by
  dsimp only [GenP.V, Gen.hostOps0]; after_results; rfl
/-- The host's copy of weight matrix 33 is the launch array: a change of float format is the identity on the extended reals. -/
theorem V_v16 (c : Dev nD) : (V m c main_v16 : S132x132.Idx → EReal) = m ((c : Thread nD τ).loc main_arg33) := by
  dsimp only [GenP.V, Gen.hostOps0]; after_results; rfl
/-- The host's copy of weight matrix 35 is the launch array: a change of float format is the identity on the extended reals. -/
theorem V_v17 (c : Dev nD) : (V m c main_v17 : S132x128.Idx → EReal) = m ((c : Thread nD τ).loc main_arg35) := by
  dsimp only [GenP.V, Gen.hostOps0]; after_results; rfl

/-! ## The input blocks -/

/-- Weight block 1 at any point is the whole launch array (its block index is 0 on every axis). -/
theorem blk_1 (c : Dev nD) (t : Fin cfg0.N) : (iblk m c 1 t : S128x128.Idx → EReal) = m ((c : Thread nD τ).loc main_arg1) := by
  refine Eq.trans (funext fun y => ?_) (V_v0 m c)
  show V m c main_v0 (((cfg0.win 1).blk t).view.emb y) = V m c main_v0 y
  refine congrArg _ (funext fun a => Fin.ext ?_)
  match a with
  | ⟨0, _⟩ => show win0_1.index t (0 : Fin 2) * 128 + 1 * (y 0).val = (y 0).val; rw [show win0_1.index t (0 : Fin 2) = 0 from rfl]; omega
  | ⟨1, _⟩ => show win0_1.index t (1 : Fin 2) * 128 + 1 * (y 1).val = (y 1).val; rw [show win0_1.index t (1 : Fin 2) = 0 from rfl]; omega
/-- Weight block 2 at any point is the whole launch array (its block index is 0 on every axis). -/
theorem blk_2 (c : Dev nD) (t : Fin cfg0.N) : (iblk m c 2 t : S128.Idx → EReal) = m ((c : Thread nD τ).loc main_arg2) := by
  refine Eq.trans (funext fun y => ?_) (V_main_arg2 m c)
  show V m c main_arg2 (((cfg0.win 2).blk t).view.emb y) = V m c main_arg2 y
  refine congrArg _ (funext fun a => Fin.ext ?_)
  match a with
  | ⟨0, _⟩ => show win0_2.index t (0 : Fin 1) * 128 + 1 * (y 0).val = (y 0).val; rw [show win0_2.index t (0 : Fin 1) = 0 from rfl]; omega
/-- Weight block 3 at any point is the whole launch array (its block index is 0 on every axis). -/
theorem blk_3 (c : Dev nD) (t : Fin cfg0.N) : (iblk m c 3 t : S128x128.Idx → EReal) = m ((c : Thread nD τ).loc main_arg3) := by
  refine Eq.trans (funext fun y => ?_) (V_v1 m c)
  show V m c main_v1 (((cfg0.win 3).blk t).view.emb y) = V m c main_v1 y
  refine congrArg _ (funext fun a => Fin.ext ?_)
  match a with
  | ⟨0, _⟩ => show win0_3.index t (0 : Fin 2) * 128 + 1 * (y 0).val = (y 0).val; rw [show win0_3.index t (0 : Fin 2) = 0 from rfl]; omega
  | ⟨1, _⟩ => show win0_3.index t (1 : Fin 2) * 128 + 1 * (y 1).val = (y 1).val; rw [show win0_3.index t (1 : Fin 2) = 0 from rfl]; omega
/-- Weight block 4 at any point is the whole launch array (its block index is 0 on every axis). -/
theorem blk_4 (c : Dev nD) (t : Fin cfg0.N) : (iblk m c 4 t : S128.Idx → EReal) = m ((c : Thread nD τ).loc main_arg4) := by
  refine Eq.trans (funext fun y => ?_) (V_main_arg4 m c)
  show V m c main_arg4 (((cfg0.win 4).blk t).view.emb y) = V m c main_arg4 y
  refine congrArg _ (funext fun a => Fin.ext ?_)
  match a with
  | ⟨0, _⟩ => show win0_4.index t (0 : Fin 1) * 128 + 1 * (y 0).val = (y 0).val; rw [show win0_4.index t (0 : Fin 1) = 0 from rfl]; omega
/-- Weight block 5 at any point is the whole launch array (its block index is 0 on every axis). -/
theorem blk_5 (c : Dev nD) (t : Fin cfg0.N) : (iblk m c 5 t : S640x132.Idx → EReal) = m ((c : Thread nD τ).loc main_arg5) := by
  refine Eq.trans (funext fun y => ?_) (V_v2 m c)
  show V m c main_v2 (((cfg0.win 5).blk t).view.emb y) = V m c main_v2 y
  refine congrArg _ (funext fun a => Fin.ext ?_)
  match a with
  | ⟨0, _⟩ => show win0_5.index t (0 : Fin 2) * 640 + 1 * (y 0).val = (y 0).val; rw [show win0_5.index t (0 : Fin 2) = 0 from rfl]; omega
  | ⟨1, _⟩ => show win0_5.index t (1 : Fin 2) * 132 + 1 * (y 1).val = (y 1).val; rw [show win0_5.index t (1 : Fin 2) = 0 from rfl]; omega
/-- Weight block 6 at any point is the whole launch array (its block index is 0 on every axis). -/
theorem blk_6 (c : Dev nD) (t : Fin cfg0.N) : (iblk m c 6 t : S132.Idx → EReal) = m ((c : Thread nD τ).loc main_arg6) := by
  refine Eq.trans (funext fun y => ?_) (V_main_arg6 m c)
  show V m c main_arg6 (((cfg0.win 6).blk t).view.emb y) = V m c main_arg6 y
  refine congrArg _ (funext fun a => Fin.ext ?_)
  match a with
  | ⟨0, _⟩ => show win0_6.index t (0 : Fin 1) * 132 + 1 * (y 0).val = (y 0).val; rw [show win0_6.index t (0 : Fin 1) = 0 from rfl]; omega
/-- Weight block 7 at any point is the whole launch array (its block index is 0 on every axis). -/
theorem blk_7 (c : Dev nD) (t : Fin cfg0.N) : (iblk m c 7 t : S132x132.Idx → EReal) = m ((c : Thread nD τ).loc main_arg7) := by
  refine Eq.trans (funext fun y => ?_) (V_v3 m c)
  show V m c main_v3 (((cfg0.win 7).blk t).view.emb y) = V m c main_v3 y
  refine congrArg _ (funext fun a => Fin.ext ?_)
  match a with
  | ⟨0, _⟩ => show win0_7.index t (0 : Fin 2) * 132 + 1 * (y 0).val = (y 0).val; rw [show win0_7.index t (0 : Fin 2) = 0 from rfl]; omega
  | ⟨1, _⟩ => show win0_7.index t (1 : Fin 2) * 132 + 1 * (y 1).val = (y 1).val; rw [show win0_7.index t (1 : Fin 2) = 0 from rfl]; omega
/-- Weight block 8 at any point is the whole launch array (its block index is 0 on every axis). -/
theorem blk_8 (c : Dev nD) (t : Fin cfg0.N) : (iblk m c 8 t : S132.Idx → EReal) = m ((c : Thread nD τ).loc main_arg8) := by
  refine Eq.trans (funext fun y => ?_) (V_main_arg8 m c)
  show V m c main_arg8 (((cfg0.win 8).blk t).view.emb y) = V m c main_arg8 y
  refine congrArg _ (funext fun a => Fin.ext ?_)
  match a with
  | ⟨0, _⟩ => show win0_8.index t (0 : Fin 1) * 132 + 1 * (y 0).val = (y 0).val; rw [show win0_8.index t (0 : Fin 1) = 0 from rfl]; omega
/-- Weight block 9 at any point is the whole launch array (its block index is 0 on every axis). -/
theorem blk_9 (c : Dev nD) (t : Fin cfg0.N) : (iblk m c 9 t : S132x128.Idx → EReal) = m ((c : Thread nD τ).loc main_arg9) := by
  refine Eq.trans (funext fun y => ?_) (V_v4 m c)
  show V m c main_v4 (((cfg0.win 9).blk t).view.emb y) = V m c main_v4 y
  refine congrArg _ (funext fun a => Fin.ext ?_)
  match a with
  | ⟨0, _⟩ => show win0_9.index t (0 : Fin 2) * 132 + 1 * (y 0).val = (y 0).val; rw [show win0_9.index t (0 : Fin 2) = 0 from rfl]; omega
  | ⟨1, _⟩ => show win0_9.index t (1 : Fin 2) * 128 + 1 * (y 1).val = (y 1).val; rw [show win0_9.index t (1 : Fin 2) = 0 from rfl]; omega
/-- Weight block 10 at any point is the whole launch array (its block index is 0 on every axis). -/
theorem blk_10 (c : Dev nD) (t : Fin cfg0.N) : (iblk m c 10 t : S128.Idx → EReal) = m ((c : Thread nD τ).loc main_arg10) := by
  refine Eq.trans (funext fun y => ?_) (V_main_arg10 m c)
  show V m c main_arg10 (((cfg0.win 10).blk t).view.emb y) = V m c main_arg10 y
  refine congrArg _ (funext fun a => Fin.ext ?_)
  match a with
  | ⟨0, _⟩ => show win0_10.index t (0 : Fin 1) * 128 + 1 * (y 0).val = (y 0).val; rw [show win0_10.index t (0 : Fin 1) = 0 from rfl]; omega
/-- Weight block 11 at any point is the whole launch array (its block index is 0 on every axis). -/
theorem blk_11 (c : Dev nD) (t : Fin cfg0.N) : (iblk m c 11 t : S256x132.Idx → EReal) = m ((c : Thread nD τ).loc main_arg11) := by
  refine Eq.trans (funext fun y => ?_) (V_v5 m c)
  show V m c main_v5 (((cfg0.win 11).blk t).view.emb y) = V m c main_v5 y
  refine congrArg _ (funext fun a => Fin.ext ?_)
  match a with
  | ⟨0, _⟩ => show win0_11.index t (0 : Fin 2) * 256 + 1 * (y 0).val = (y 0).val; rw [show win0_11.index t (0 : Fin 2) = 0 from rfl]; omega
  | ⟨1, _⟩ => show win0_11.index t (1 : Fin 2) * 132 + 1 * (y 1).val = (y 1).val; rw [show win0_11.index t (1 : Fin 2) = 0 from rfl]; omega
/-- Weight block 12 at any point is the whole launch array (its block index is 0 on every axis). -/
theorem blk_12 (c : Dev nD) (t : Fin cfg0.N) : (iblk m c 12 t : S132.Idx → EReal) = m ((c : Thread nD τ).loc main_arg12) := by
  refine Eq.trans (funext fun y => ?_) (V_main_arg12 m c)
  show V m c main_arg12 (((cfg0.win 12).blk t).view.emb y) = V m c main_arg12 y
  refine congrArg _ (funext fun a => Fin.ext ?_)
  match a with
  | ⟨0, _⟩ => show win0_12.index t (0 : Fin 1) * 132 + 1 * (y 0).val = (y 0).val; rw [show win0_12.index t (0 : Fin 1) = 0 from rfl]; omega
/-- Weight block 13 at any point is the whole launch array (its block index is 0 on every axis). -/
theorem blk_13 (c : Dev nD) (t : Fin cfg0.N) : (iblk m c 13 t : S132x132.Idx → EReal) = m ((c : Thread nD τ).loc main_arg13) := by
  refine Eq.trans (funext fun y => ?_) (V_v6 m c)
  show V m c main_v6 (((cfg0.win 13).blk t).view.emb y) = V m c main_v6 y
  refine congrArg _ (funext fun a => Fin.ext ?_)
  match a with
  | ⟨0, _⟩ => show win0_13.index t (0 : Fin 2) * 132 + 1 * (y 0).val = (y 0).val; rw [show win0_13.index t (0 : Fin 2) = 0 from rfl]; omega
  | ⟨1, _⟩ => show win0_13.index t (1 : Fin 2) * 132 + 1 * (y 1).val = (y 1).val; rw [show win0_13.index t (1 : Fin 2) = 0 from rfl]; omega
/-- Weight block 14 at any point is the whole launch array (its block index is 0 on every axis). -/
theorem blk_14 (c : Dev nD) (t : Fin cfg0.N) : (iblk m c 14 t : S132.Idx → EReal) = m ((c : Thread nD τ).loc main_arg14) := by
  refine Eq.trans (funext fun y => ?_) (V_main_arg14 m c)
  show V m c main_arg14 (((cfg0.win 14).blk t).view.emb y) = V m c main_arg14 y
  refine congrArg _ (funext fun a => Fin.ext ?_)
  match a with
  | ⟨0, _⟩ => show win0_14.index t (0 : Fin 1) * 132 + 1 * (y 0).val = (y 0).val; rw [show win0_14.index t (0 : Fin 1) = 0 from rfl]; omega
/-- Weight block 15 at any point is the whole launch array (its block index is 0 on every axis). -/
theorem blk_15 (c : Dev nD) (t : Fin cfg0.N) : (iblk m c 15 t : S132x132.Idx → EReal) = m ((c : Thread nD τ).loc main_arg15) := by
  refine Eq.trans (funext fun y => ?_) (V_v7 m c)
  show V m c main_v7 (((cfg0.win 15).blk t).view.emb y) = V m c main_v7 y
  refine congrArg _ (funext fun a => Fin.ext ?_)
  match a with
  | ⟨0, _⟩ => show win0_15.index t (0 : Fin 2) * 132 + 1 * (y 0).val = (y 0).val; rw [show win0_15.index t (0 : Fin 2) = 0 from rfl]; omega
  | ⟨1, _⟩ => show win0_15.index t (1 : Fin 2) * 132 + 1 * (y 1).val = (y 1).val; rw [show win0_15.index t (1 : Fin 2) = 0 from rfl]; omega
/-- Weight block 16 at any point is the whole launch array (its block index is 0 on every axis). -/
theorem blk_16 (c : Dev nD) (t : Fin cfg0.N) : (iblk m c 16 t : S132.Idx → EReal) = m ((c : Thread nD τ).loc main_arg16) := by
  refine Eq.trans (funext fun y => ?_) (V_main_arg16 m c)
  show V m c main_arg16 (((cfg0.win 16).blk t).view.emb y) = V m c main_arg16 y
  refine congrArg _ (funext fun a => Fin.ext ?_)
  match a with
  | ⟨0, _⟩ => show win0_16.index t (0 : Fin 1) * 132 + 1 * (y 0).val = (y 0).val; rw [show win0_16.index t (0 : Fin 1) = 0 from rfl]; omega
/-- Weight block 17 at any point is the whole launch array (its block index is 0 on every axis). -/
theorem blk_17 (c : Dev nD) (t : Fin cfg0.N) : (iblk m c 17 t : S132x128.Idx → EReal) = m ((c : Thread nD τ).loc main_arg17) := by
  refine Eq.trans (funext fun y => ?_) (V_v8 m c)
  show V m c main_v8 (((cfg0.win 17).blk t).view.emb y) = V m c main_v8 y
  refine congrArg _ (funext fun a => Fin.ext ?_)
  match a with
  | ⟨0, _⟩ => show win0_17.index t (0 : Fin 2) * 132 + 1 * (y 0).val = (y 0).val; rw [show win0_17.index t (0 : Fin 2) = 0 from rfl]; omega
  | ⟨1, _⟩ => show win0_17.index t (1 : Fin 2) * 128 + 1 * (y 1).val = (y 1).val; rw [show win0_17.index t (1 : Fin 2) = 0 from rfl]; omega
/-- Weight block 18 at any point is the whole launch array (its block index is 0 on every axis). -/
theorem blk_18 (c : Dev nD) (t : Fin cfg0.N) : (iblk m c 18 t : S128.Idx → EReal) = m ((c : Thread nD τ).loc main_arg18) := by
  refine Eq.trans (funext fun y => ?_) (V_main_arg18 m c)
  show V m c main_arg18 (((cfg0.win 18).blk t).view.emb y) = V m c main_arg18 y
  refine congrArg _ (funext fun a => Fin.ext ?_)
  match a with
  | ⟨0, _⟩ => show win0_18.index t (0 : Fin 1) * 128 + 1 * (y 0).val = (y 0).val; rw [show win0_18.index t (0 : Fin 1) = 0 from rfl]; omega
/-- Weight block 19 at any point is the whole launch array (its block index is 0 on every axis). -/
theorem blk_19 (c : Dev nD) (t : Fin cfg0.N) : (iblk m c 19 t : S256x132.Idx → EReal) = m ((c : Thread nD τ).loc main_arg19) := by
  refine Eq.trans (funext fun y => ?_) (V_v9 m c)
  show V m c main_v9 (((cfg0.win 19).blk t).view.emb y) = V m c main_v9 y
  refine congrArg _ (funext fun a => Fin.ext ?_)
  match a with
  | ⟨0, _⟩ => show win0_19.index t (0 : Fin 2) * 256 + 1 * (y 0).val = (y 0).val; rw [show win0_19.index t (0 : Fin 2) = 0 from rfl]; omega
  | ⟨1, _⟩ => show win0_19.index t (1 : Fin 2) * 132 + 1 * (y 1).val = (y 1).val; rw [show win0_19.index t (1 : Fin 2) = 0 from rfl]; omega
/-- Weight block 20 at any point is the whole launch array (its block index is 0 on every axis). -/
theorem blk_20 (c : Dev nD) (t : Fin cfg0.N) : (iblk m c 20 t : S132.Idx → EReal) = m ((c : Thread nD τ).loc main_arg20) := by
  refine Eq.trans (funext fun y => ?_) (V_main_arg20 m c)
  show V m c main_arg20 (((cfg0.win 20).blk t).view.emb y) = V m c main_arg20 y
  refine congrArg _ (funext fun a => Fin.ext ?_)
  match a with
  | ⟨0, _⟩ => show win0_20.index t (0 : Fin 1) * 132 + 1 * (y 0).val = (y 0).val; rw [show win0_20.index t (0 : Fin 1) = 0 from rfl]; omega
/-- Weight block 21 at any point is the whole launch array (its block index is 0 on every axis). -/
theorem blk_21 (c : Dev nD) (t : Fin cfg0.N) : (iblk m c 21 t : S132x132.Idx → EReal) = m ((c : Thread nD τ).loc main_arg21) := by
  refine Eq.trans (funext fun y => ?_) (V_v10 m c)
  show V m c main_v10 (((cfg0.win 21).blk t).view.emb y) = V m c main_v10 y
  refine congrArg _ (funext fun a => Fin.ext ?_)
  match a with
  | ⟨0, _⟩ => show win0_21.index t (0 : Fin 2) * 132 + 1 * (y 0).val = (y 0).val; rw [show win0_21.index t (0 : Fin 2) = 0 from rfl]; omega
  | ⟨1, _⟩ => show win0_21.index t (1 : Fin 2) * 132 + 1 * (y 1).val = (y 1).val; rw [show win0_21.index t (1 : Fin 2) = 0 from rfl]; omega
/-- Weight block 22 at any point is the whole launch array (its block index is 0 on every axis). -/
theorem blk_22 (c : Dev nD) (t : Fin cfg0.N) : (iblk m c 22 t : S132.Idx → EReal) = m ((c : Thread nD τ).loc main_arg22) := by
  refine Eq.trans (funext fun y => ?_) (V_main_arg22 m c)
  show V m c main_arg22 (((cfg0.win 22).blk t).view.emb y) = V m c main_arg22 y
  refine congrArg _ (funext fun a => Fin.ext ?_)
  match a with
  | ⟨0, _⟩ => show win0_22.index t (0 : Fin 1) * 132 + 1 * (y 0).val = (y 0).val; rw [show win0_22.index t (0 : Fin 1) = 0 from rfl]; omega
/-- Weight block 23 at any point is the whole launch array (its block index is 0 on every axis). -/
theorem blk_23 (c : Dev nD) (t : Fin cfg0.N) : (iblk m c 23 t : S132x132.Idx → EReal) = m ((c : Thread nD τ).loc main_arg23) := by
  refine Eq.trans (funext fun y => ?_) (V_v11 m c)
  show V m c main_v11 (((cfg0.win 23).blk t).view.emb y) = V m c main_v11 y
  refine congrArg _ (funext fun a => Fin.ext ?_)
  match a with
  | ⟨0, _⟩ => show win0_23.index t (0 : Fin 2) * 132 + 1 * (y 0).val = (y 0).val; rw [show win0_23.index t (0 : Fin 2) = 0 from rfl]; omega
  | ⟨1, _⟩ => show win0_23.index t (1 : Fin 2) * 132 + 1 * (y 1).val = (y 1).val; rw [show win0_23.index t (1 : Fin 2) = 0 from rfl]; omega
/-- Weight block 24 at any point is the whole launch array (its block index is 0 on every axis). -/
theorem blk_24 (c : Dev nD) (t : Fin cfg0.N) : (iblk m c 24 t : S132.Idx → EReal) = m ((c : Thread nD τ).loc main_arg24) := by
  refine Eq.trans (funext fun y => ?_) (V_main_arg24 m c)
  show V m c main_arg24 (((cfg0.win 24).blk t).view.emb y) = V m c main_arg24 y
  refine congrArg _ (funext fun a => Fin.ext ?_)
  match a with
  | ⟨0, _⟩ => show win0_24.index t (0 : Fin 1) * 132 + 1 * (y 0).val = (y 0).val; rw [show win0_24.index t (0 : Fin 1) = 0 from rfl]; omega
/-- Weight block 25 at any point is the whole launch array (its block index is 0 on every axis). -/
theorem blk_25 (c : Dev nD) (t : Fin cfg0.N) : (iblk m c 25 t : S132x128.Idx → EReal) = m ((c : Thread nD τ).loc main_arg25) := by
  refine Eq.trans (funext fun y => ?_) (V_v12 m c)
  show V m c main_v12 (((cfg0.win 25).blk t).view.emb y) = V m c main_v12 y
  refine congrArg _ (funext fun a => Fin.ext ?_)
  match a with
  | ⟨0, _⟩ => show win0_25.index t (0 : Fin 2) * 132 + 1 * (y 0).val = (y 0).val; rw [show win0_25.index t (0 : Fin 2) = 0 from rfl]; omega
  | ⟨1, _⟩ => show win0_25.index t (1 : Fin 2) * 128 + 1 * (y 1).val = (y 1).val; rw [show win0_25.index t (1 : Fin 2) = 0 from rfl]; omega
/-- Weight block 26 at any point is the whole launch array (its block index is 0 on every axis). -/
theorem blk_26 (c : Dev nD) (t : Fin cfg0.N) : (iblk m c 26 t : S128.Idx → EReal) = m ((c : Thread nD τ).loc main_arg26) := by
  refine Eq.trans (funext fun y => ?_) (V_main_arg26 m c)
  show V m c main_arg26 (((cfg0.win 26).blk t).view.emb y) = V m c main_arg26 y
  refine congrArg _ (funext fun a => Fin.ext ?_)
  match a with
  | ⟨0, _⟩ => show win0_26.index t (0 : Fin 1) * 128 + 1 * (y 0).val = (y 0).val; rw [show win0_26.index t (0 : Fin 1) = 0 from rfl]; omega
/-- Weight block 27 at any point is the whole launch array (its block index is 0 on every axis). -/
theorem blk_27 (c : Dev nD) (t : Fin cfg0.N) : (iblk m c 27 t : S128x128.Idx → EReal) = m ((c : Thread nD τ).loc main_arg27) := by
  refine Eq.trans (funext fun y => ?_) (V_v13 m c)
  show V m c main_v13 (((cfg0.win 27).blk t).view.emb y) = V m c main_v13 y
  refine congrArg _ (funext fun a => Fin.ext ?_)
  match a with
  | ⟨0, _⟩ => show win0_27.index t (0 : Fin 2) * 128 + 1 * (y 0).val = (y 0).val; rw [show win0_27.index t (0 : Fin 2) = 0 from rfl]; omega
  | ⟨1, _⟩ => show win0_27.index t (1 : Fin 2) * 128 + 1 * (y 1).val = (y 1).val; rw [show win0_27.index t (1 : Fin 2) = 0 from rfl]; omega
/-- Weight block 28 at any point is the whole launch array (its block index is 0 on every axis). -/
theorem blk_28 (c : Dev nD) (t : Fin cfg0.N) : (iblk m c 28 t : S128.Idx → EReal) = m ((c : Thread nD τ).loc main_arg28) := by
  refine Eq.trans (funext fun y => ?_) (V_main_arg28 m c)
  show V m c main_arg28 (((cfg0.win 28).blk t).view.emb y) = V m c main_arg28 y
  refine congrArg _ (funext fun a => Fin.ext ?_)
  match a with
  | ⟨0, _⟩ => show win0_28.index t (0 : Fin 1) * 128 + 1 * (y 0).val = (y 0).val; rw [show win0_28.index t (0 : Fin 1) = 0 from rfl]; omega
/-- Weight block 29 at any point is the whole launch array (its block index is 0 on every axis). -/
theorem blk_29 (c : Dev nD) (t : Fin cfg0.N) : (iblk m c 29 t : S128x128.Idx → EReal) = m ((c : Thread nD τ).loc main_arg29) := by
  refine Eq.trans (funext fun y => ?_) (V_v14 m c)
  show V m c main_v14 (((cfg0.win 29).blk t).view.emb y) = V m c main_v14 y
  refine congrArg _ (funext fun a => Fin.ext ?_)
  match a with
  | ⟨0, _⟩ => show win0_29.index t (0 : Fin 2) * 128 + 1 * (y 0).val = (y 0).val; rw [show win0_29.index t (0 : Fin 2) = 0 from rfl]; omega
  | ⟨1, _⟩ => show win0_29.index t (1 : Fin 2) * 128 + 1 * (y 1).val = (y 1).val; rw [show win0_29.index t (1 : Fin 2) = 0 from rfl]; omega
/-- Weight block 30 at any point is the whole launch array (its block index is 0 on every axis). -/
theorem blk_30 (c : Dev nD) (t : Fin cfg0.N) : (iblk m c 30 t : S128.Idx → EReal) = m ((c : Thread nD τ).loc main_arg30) := by
  refine Eq.trans (funext fun y => ?_) (V_main_arg30 m c)
  show V m c main_arg30 (((cfg0.win 30).blk t).view.emb y) = V m c main_arg30 y
  refine congrArg _ (funext fun a => Fin.ext ?_)
  match a with
  | ⟨0, _⟩ => show win0_30.index t (0 : Fin 1) * 128 + 1 * (y 0).val = (y 0).val; rw [show win0_30.index t (0 : Fin 1) = 0 from rfl]; omega
/-- Weight block 31 at any point is the whole launch array (its block index is 0 on every axis). -/
theorem blk_31 (c : Dev nD) (t : Fin cfg0.N) : (iblk m c 31 t : S256x132.Idx → EReal) = m ((c : Thread nD τ).loc main_arg31) := by
  refine Eq.trans (funext fun y => ?_) (V_v15 m c)
  show V m c main_v15 (((cfg0.win 31).blk t).view.emb y) = V m c main_v15 y
  refine congrArg _ (funext fun a => Fin.ext ?_)
  match a with
  | ⟨0, _⟩ => show win0_31.index t (0 : Fin 2) * 256 + 1 * (y 0).val = (y 0).val; rw [show win0_31.index t (0 : Fin 2) = 0 from rfl]; omega
  | ⟨1, _⟩ => show win0_31.index t (1 : Fin 2) * 132 + 1 * (y 1).val = (y 1).val; rw [show win0_31.index t (1 : Fin 2) = 0 from rfl]; omega
/-- Weight block 32 at any point is the whole launch array (its block index is 0 on every axis). -/
theorem blk_32 (c : Dev nD) (t : Fin cfg0.N) : (iblk m c 32 t : S132.Idx → EReal) = m ((c : Thread nD τ).loc main_arg32) := by
  refine Eq.trans (funext fun y => ?_) (V_main_arg32 m c)
  show V m c main_arg32 (((cfg0.win 32).blk t).view.emb y) = V m c main_arg32 y
  refine congrArg _ (funext fun a => Fin.ext ?_)
  match a with
  | ⟨0, _⟩ => show win0_32.index t (0 : Fin 1) * 132 + 1 * (y 0).val = (y 0).val; rw [show win0_32.index t (0 : Fin 1) = 0 from rfl]; omega
/-- Weight block 33 at any point is the whole launch array (its block index is 0 on every axis). -/
theorem blk_33 (c : Dev nD) (t : Fin cfg0.N) : (iblk m c 33 t : S132x132.Idx → EReal) = m ((c : Thread nD τ).loc main_arg33) := by
  refine Eq.trans (funext fun y => ?_) (V_v16 m c)
  show V m c main_v16 (((cfg0.win 33).blk t).view.emb y) = V m c main_v16 y
  refine congrArg _ (funext fun a => Fin.ext ?_)
  match a with
  | ⟨0, _⟩ => show win0_33.index t (0 : Fin 2) * 132 + 1 * (y 0).val = (y 0).val; rw [show win0_33.index t (0 : Fin 2) = 0 from rfl]; omega
  | ⟨1, _⟩ => show win0_33.index t (1 : Fin 2) * 132 + 1 * (y 1).val = (y 1).val; rw [show win0_33.index t (1 : Fin 2) = 0 from rfl]; omega
/-- Weight block 34 at any point is the whole launch array (its block index is 0 on every axis). -/
theorem blk_34 (c : Dev nD) (t : Fin cfg0.N) : (iblk m c 34 t : S132.Idx → EReal) = m ((c : Thread nD τ).loc main_arg34) := by
  refine Eq.trans (funext fun y => ?_) (V_main_arg34 m c)
  show V m c main_arg34 (((cfg0.win 34).blk t).view.emb y) = V m c main_arg34 y
  refine congrArg _ (funext fun a => Fin.ext ?_)
  match a with
  | ⟨0, _⟩ => show win0_34.index t (0 : Fin 1) * 132 + 1 * (y 0).val = (y 0).val; rw [show win0_34.index t (0 : Fin 1) = 0 from rfl]; omega
/-- Weight block 35 at any point is the whole launch array (its block index is 0 on every axis). -/
theorem blk_35 (c : Dev nD) (t : Fin cfg0.N) : (iblk m c 35 t : S132x128.Idx → EReal) = m ((c : Thread nD τ).loc main_arg35) := by
  refine Eq.trans (funext fun y => ?_) (V_v17 m c)
  show V m c main_v17 (((cfg0.win 35).blk t).view.emb y) = V m c main_v17 y
  refine congrArg _ (funext fun a => Fin.ext ?_)
  match a with
  | ⟨0, _⟩ => show win0_35.index t (0 : Fin 2) * 132 + 1 * (y 0).val = (y 0).val; rw [show win0_35.index t (0 : Fin 2) = 0 from rfl]; omega
  | ⟨1, _⟩ => show win0_35.index t (1 : Fin 2) * 128 + 1 * (y 1).val = (y 1).val; rw [show win0_35.index t (1 : Fin 2) = 0 from rfl]; omega
/-- Weight block 36 at any point is the whole launch array (its block index is 0 on every axis). -/
theorem blk_36 (c : Dev nD) (t : Fin cfg0.N) : (iblk m c 36 t : S128.Idx → EReal) = m ((c : Thread nD τ).loc main_arg36) := by
  refine Eq.trans (funext fun y => ?_) (V_main_arg36 m c)
  show V m c main_arg36 (((cfg0.win 36).blk t).view.emb y) = V m c main_arg36 y
  refine congrArg _ (funext fun a => Fin.ext ?_)
  match a with
  | ⟨0, _⟩ => show win0_36.index t (0 : Fin 1) * 128 + 1 * (y 0).val = (y 0).val; rw [show win0_36.index t (0 : Fin 1) = 0 from rfl]; omega

/-! ## The signal block -/

/-- Row `p` of block `t` is a row of the array: `1024 t + p < 65536` for `t < 64` and `p < 1024`. -/
theorem row_lt (t : Fin cfg0.N) (p : Fin 1024) : t.val * 1024 + p.val < 65536 := by
  have hN : grid0.N = 64 := Gen.N_0
  have ht : t.val < grid0.N := t.isLt
  have hp : p.val < 1024 := p.isLt
  omega

/-- Row `p` of the signal block at point `t` is row `1024 t + p` of the signal. -/
theorem row_sig (c : Dev nD) (t : Fin cfg0.N) (p : Fin 1024) :
    Rows.Row (iblk m c 0 t : S1024x512.Idx → EReal) p = Rows.Row (m ((c : Thread nD τ).loc main_arg0)) ⟨t.val * 1024 + p.val, row_lt t p⟩ := by
  obtain ⟨e0, e1, -, -, -⟩ := idx_facts t
  funext q
  show V m c main_arg0 (((cfg0.win 0).blk t).view.emb (ix2 p q))
    = (m ((c : Thread nD τ).loc main_arg0) : S65536x512.Idx → EReal) (ix2 ⟨t.val * 1024 + p.val, row_lt t p⟩ q)
  rw [V_main_arg0]
  refine congrArg _ (funext fun a => Fin.ext ?_)
  match a with
  | ⟨0, _⟩ => show win0_0.index t (0 : Fin 2) * 1024 + 1 * p.val = t.val * 1024 + p.val; rw [e0]; omega
  | ⟨1, _⟩ => show win0_0.index t (1 : Fin 2) * 512 + 1 * q.val = q.val; rw [e1]; omega

end Cert.KernValue

end
-- ==== Proof.Weights.lean ====
/-
  The 36 weight arrays of the network packed as the matrices and bias rows of `Net.Wts`: argument `k` of either
  program (`k` from 1 to 36, in the programs' common order) is field `k` of the structure.
-/
import proofs.«167402_j1125281431924_2_alg».proof.Proof.LibRows

noncomputable section

namespace Cert.Rows

open Idealize.ShloMosaic Cert.Net

/-- The weights of the network from the 36 weight arrays. -/
def mkW (x1 : (⟨2, ![128, 128]⟩ : Shape).Idx → EReal) (x2 : (⟨1, ![128]⟩ : Shape).Idx → EReal) (x3 : (⟨2, ![128, 128]⟩ : Shape).Idx → EReal) (x4 : (⟨1, ![128]⟩ : Shape).Idx → EReal) (x5 : (⟨2, ![640, 132]⟩ : Shape).Idx → EReal) (x6 : (⟨1, ![132]⟩ : Shape).Idx → EReal)
    (x7 : (⟨2, ![132, 132]⟩ : Shape).Idx → EReal) (x8 : (⟨1, ![132]⟩ : Shape).Idx → EReal) (x9 : (⟨2, ![132, 128]⟩ : Shape).Idx → EReal) (x10 : (⟨1, ![128]⟩ : Shape).Idx → EReal) (x11 : (⟨2, ![256, 132]⟩ : Shape).Idx → EReal) (x12 : (⟨1, ![132]⟩ : Shape).Idx → EReal)
    (x13 : (⟨2, ![132, 132]⟩ : Shape).Idx → EReal) (x14 : (⟨1, ![132]⟩ : Shape).Idx → EReal) (x15 : (⟨2, ![132, 132]⟩ : Shape).Idx → EReal) (x16 : (⟨1, ![132]⟩ : Shape).Idx → EReal) (x17 : (⟨2, ![132, 128]⟩ : Shape).Idx → EReal) (x18 : (⟨1, ![128]⟩ : Shape).Idx → EReal)
    (x19 : (⟨2, ![256, 132]⟩ : Shape).Idx → EReal) (x20 : (⟨1, ![132]⟩ : Shape).Idx → EReal) (x21 : (⟨2, ![132, 132]⟩ : Shape).Idx → EReal) (x22 : (⟨1, ![132]⟩ : Shape).Idx → EReal) (x23 : (⟨2, ![132, 132]⟩ : Shape).Idx → EReal) (x24 : (⟨1, ![132]⟩ : Shape).Idx → EReal)
    (x25 : (⟨2, ![132, 128]⟩ : Shape).Idx → EReal) (x26 : (⟨1, ![128]⟩ : Shape).Idx → EReal) (x27 : (⟨2, ![128, 128]⟩ : Shape).Idx → EReal) (x28 : (⟨1, ![128]⟩ : Shape).Idx → EReal) (x29 : (⟨2, ![128, 128]⟩ : Shape).Idx → EReal) (x30 : (⟨1, ![128]⟩ : Shape).Idx → EReal)
    (x31 : (⟨2, ![256, 132]⟩ : Shape).Idx → EReal) (x32 : (⟨1, ![132]⟩ : Shape).Idx → EReal) (x33 : (⟨2, ![132, 132]⟩ : Shape).Idx → EReal) (x34 : (⟨1, ![132]⟩ : Shape).Idx → EReal) (x35 : (⟨2, ![132, 128]⟩ : Shape).Idx → EReal) (x36 : (⟨1, ![128]⟩ : Shape).Idx → EReal) : Wts EReal where
  ppMw := Mat x1
  ppMb := Vec1 x2
  ppUw := Mat x3
  ppUb := Vec1 x4
  ppW0 := Mat x5
  ppB0 := Vec1 x6
  ppW1 := Mat x7
  ppB1 := Vec1 x8
  ppW2 := Mat x9
  ppB2 := Vec1 x10
  lnW0 := Mat x11
  lnB0 := Vec1 x12
  lnW1 := Mat x13
  lnB1 := Vec1 x14
  lnW2 := Mat x15
  lnB2 := Vec1 x16
  lnW3 := Mat x17
  lnB3 := Vec1 x18
  crW0 := Mat x19
  crB0 := Vec1 x20
  crW1 := Mat x21
  crB1 := Vec1 x22
  crW2 := Mat x23
  crB2 := Vec1 x24
  crW3 := Mat x25
  crB3 := Vec1 x26
  mpMw := Mat x27
  mpMb := Vec1 x28
  mpUw := Mat x29
  mpUb := Vec1 x30
  mpW0 := Mat x31
  mpB0 := Vec1 x32
  mpW1 := Mat x33
  mpB1 := Vec1 x34
  mpW2 := Mat x35
  mpB2 := Vec1 x36

end Cert.Rows

end
-- ==== Proof.KernBlocks.lean ====
/-
  From the blocks to the array, on the kernel's side.

  At grid point `t` (of 64) the kernel writes the block of the output array (8 × 65536 × 128) made of rows
  `1024 t … 1024 t + 1023` of each of its 8 slabs, computed from rows `1024 t … 1024 t + 1023` of the signal and the
  36 weight arrays.

  Taken as a hypothesis (`HOut`): what one point leaves in its output block as a function of its 37 input blocks, entry
  by entry — entry `(s, p, q)` is entry `q` of output row `s` of the network (`Net.kernOut`) on row `p` of the
  signal block, with the weights packed from the 36 weight blocks.

  Proved here: since each weight block is its launch array and row `p` of the signal block at point `t` is row
  `1024 t + p` of the signal, what point `t` writes back is block `t` of ONE function `G` of the launch arrays
  (`flushed_eq`): entry `(s, r, q)` of `G` is entry `q` of output row `s` of the network on row `r` of the signal.
  Row `r` of every slab lies in the block of point `r / 1024` (`cover`), so after the run the output array is `G`
  (`final`), and the run leaves every argument array as launched (`kern_run`).
-/
import proofs.«167402_j1125281431924_2_alg».proof.Proof.KernelIdealValueP
import proofs.«167402_j1125281431924_2_alg».proof.Proof.KernInputs
import proofs.«167402_j1125281431924_2_alg».proof.Proof.Weights
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernValue

open Cert Cert.KernelIdeal Cert.KernelIdeal.Gen Cert.KernelIdeal.GenP

variable [Cert.KernelIdeal.Facts]
variable (m : (ℓ : Loc nD τ sig) → Buf (Elt Ideal) ℓ) (ρ : Dev nD → PrngReg)

/-! ## The hypothesis on one point, and the function of the launch arrays -/

/-- What one grid point leaves in its output block, entry by entry, from its 37 input blocks: entry `(s, p, q)` is
    entry `q` of output row `s` of the network on row `p` of the signal block, the weights packed from the weight blocks. -/
abbrev HOut : Prop :=
  ∀ (X0 : Vec Ideal S1024x512 .f32) (X1 : Vec Ideal S128x128 .bf16) (X2 : Vec Ideal S128 .f32) (X3 : Vec Ideal S128x128 .bf16) (X4 : Vec Ideal S128 .f32) (X5 : Vec Ideal S640x132 .bf16) (X6 : Vec Ideal S132 .f32) (X7 : Vec Ideal S132x132 .bf16) (X8 : Vec Ideal S132 .f32) (X9 : Vec Ideal S132x128 .bf16) (X10 : Vec Ideal S128 .f32) (X11 : Vec Ideal S256x132 .bf16) (X12 : Vec Ideal S132 .f32) (X13 : Vec Ideal S132x132 .bf16) (X14 : Vec Ideal S132 .f32) (X15 : Vec Ideal S132x132 .bf16) (X16 : Vec Ideal S132 .f32) (X17 : Vec Ideal S132x128 .bf16) (X18 : Vec Ideal S128 .f32) (X19 : Vec Ideal S256x132 .bf16) (X20 : Vec Ideal S132 .f32) (X21 : Vec Ideal S132x132 .bf16) (X22 : Vec Ideal S132 .f32) (X23 : Vec Ideal S132x132 .bf16) (X24 : Vec Ideal S132 .f32) (X25 : Vec Ideal S132x128 .bf16) (X26 : Vec Ideal S128 .f32) (X27 : Vec Ideal S128x128 .bf16) (X28 : Vec Ideal S128 .f32) (X29 : Vec Ideal S128x128 .bf16) (X30 : Vec Ideal S128 .f32) (X31 : Vec Ideal S256x132 .bf16) (X32 : Vec Ideal S132 .f32) (X33 : Vec Ideal S132x132 .bf16) (X34 : Vec Ideal S132 .f32) (X35 : Vec Ideal S132x128 .bf16) (X36 : Vec Ideal S128 .f32)
    (s : Fin 8) (p : Fin 1024) (q : Fin 128),
    GenP.out0_37 (F := Ideal) X0 X1 X2 X3 X4 X5 X6 X7 X8 X9 X10 X11 X12 X13 X14 X15 X16 X17 X18 X19 X20 X21 X22 X23 X24 X25 X26 X27 X28 X29 X30 X31 X32 X33 X34 X35 X36 (ix3 s p q)
      = Net.kernOut (Rows.mkW X1 X2 X3 X4 X5 X6 X7 X8 X9 X10 X11 X12 X13 X14 X15 X16 X17 X18 X19 X20 X21 X22 X23 X24 X25 X26 X27 X28 X29 X30 X31 X32 X33 X34 X35 X36) (Ideal.ofBits .f32 0x40000000#32) (Ideal.ofBits .f32 0x40800000#32) (Rows.Row X0 p) s q

/-- The output array as one function of the launch arrays: entry `(s, r, q)` is entry `q` of output row `s` of the
    network on row `r` of the signal, the weights packed from the 36 weight arrays. -/
def G (c : Dev nD) : S8x65536x128.Idx → EReal := fun i =>
  Net.kernOut (Rows.mkW (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)))
    (Ideal.ofBits .f32 0x40000000#32) (Ideal.ofBits .f32 0x40800000#32) (Rows.Row (m ((c : Thread nD τ).loc main_arg0)) (i 1)) (i 0) (i 2)

theorem G_apply (c : Dev nD) (i : S8x65536x128.Idx) : G m c i =
  Net.kernOut (Rows.mkW (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)))
    (Ideal.ofBits .f32 0x40000000#32) (Ideal.ofBits .f32 0x40800000#32) (Rows.Row (m ((c : Thread nD τ).loc main_arg0)) (i 1)) (i 0) (i 2) := rfl

theorem G_ix3 (c : Dev nD) (s : Fin 8) (r : Fin 65536) (q : Fin 128) : G m c (ix3 s r q) =
  Net.kernOut (Rows.mkW (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)))
    (Ideal.ofBits .f32 0x40000000#32) (Ideal.ofBits .f32 0x40800000#32) (Rows.Row (m ((c : Thread nD τ).loc main_arg0)) r) s q := rfl

/-! ## What a point writes back -/

/-- Two functions on a block of shape 8 × 1024 × 128 are equal when they agree at every triple of coordinates. -/
theorem ext_block {f g : S8x1024x128.Idx → EReal} (h : ∀ (s : Fin 8) (p : Fin 1024) (q : Fin 128), f (ix3 s p q) = g (ix3 s p q)) : f = g :=
  funext fun j => by rw [eq_ix3 j]; exact h _ _ _

/-- `G` at an index whose coordinates are `s`, `r`, `q`. -/
theorem G_at (c : Dev nD) (i : S8x65536x128.Idx) (s : Fin 8) (r : Fin 65536) (q : Fin 128)
    (hs : (i 0).val = s.val) (hr : (i 1).val = r.val) (hq : (i 2).val = q.val) : G m c i =
  Net.kernOut (Rows.mkW (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)))
    (Ideal.ofBits .f32 0x40000000#32) (Ideal.ofBits .f32 0x40800000#32) (Rows.Row (m ((c : Thread nD τ).loc main_arg0)) r) s q := by
  obtain rfl : (i 0 : Fin 8) = s := Fin.ext hs
  obtain rfl : (i 1 : Fin 65536) = r := Fin.ext hr
  obtain rfl : (i 2 : Fin 128) = q := Fin.ext hq
  rfl

/-- WHAT POINT `t` WRITES BACK is block `t` of `G`: entry `(s, p, q)` of the block is entry `(s, 1024 t + p, q)` of `G`. -/
theorem flushed_eq (hout : HOut) (c : Dev nD) (t : Fin cfg0.N) :
    (dats m 0 c).flushed 37 t = ((cfg0.win 37).blk t).view.read (Elt Ideal) (G m c) := by
  obtain ⟨-, -, e0, e1, e2⟩ := idx_facts t
  rw [ValueP.flushed37]
  refine ext_block fun s p q => ?_
  show GenP.out0_37 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (ix3 s p q)
    = G m c (((cfg0.win 37).blk t).view.emb (ix3 s p q))
  refine (hout (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) s p q).trans ?_
  rw [blk_1 m c t, blk_2 m c t, blk_3 m c t, blk_4 m c t, blk_5 m c t, blk_6 m c t, blk_7 m c t, blk_8 m c t, blk_9 m c t, blk_10 m c t, blk_11 m c t, blk_12 m c t, blk_13 m c t, blk_14 m c t, blk_15 m c t, blk_16 m c t, blk_17 m c t, blk_18 m c t, blk_19 m c t, blk_20 m c t, blk_21 m c t, blk_22 m c t, blk_23 m c t, blk_24 m c t, blk_25 m c t, blk_26 m c t, blk_27 m c t, blk_28 m c t, blk_29 m c t, blk_30 m c t, blk_31 m c t, blk_32 m c t, blk_33 m c t, blk_34 m c t, blk_35 m c t, blk_36 m c t, row_sig m c t p]
  refine (G_at m c _ s ⟨t.val * 1024 + p.val, row_lt t p⟩ q ?_ ?_ ?_).symm
  · show win0_37.index t (0 : Fin 3) * 8 + 1 * s.val = s.val; rw [e0]; omega
  · show win0_37.index t (1 : Fin 3) * 1024 + 1 * p.val = t.val * 1024 + p.val; rw [e1]; omega
  · show win0_37.index t (2 : Fin 3) * 128 + 1 * q.val = q.val; rw [e2]; omega

/-! ## The blocks cover the array -/

/-- An index of the output array is in point `t`'s block iff each coordinate is in the block's range on its axis. -/
theorem mem_blk (t : Fin cfg0.N) (i : S8x65536x128.Idx) :
    i ∈ ((cfg0.win 37).blk t).view.set ↔ ∀ a : Fin 3, win0_37.index t a * S8x1024x128.size a ≤ (i a).val ∧ (i a).val < win0_37.index t a * S8x1024x128.size a + S8x1024x128.size a := by
  show i ∈ ((View.whole main_v18).slice (win0_37.rect t)).set ↔ _
  rw [View.set_slice_whole, Rect.mem_set_unit]
  exact Iff.rfl

/-- Every index of the output array is in some point's block: row `r` of each slab is in the block of point `r / 1024`. -/
theorem cover (i : S8x65536x128.Idx) :
    ∃ t : Fin cfg0.N, (cfg0.win 37).flush t = true ∧ i ∈ ((cfg0.win 37).blk t).view.set := by
  have hN : grid0.N = 64 := Gen.N_0
  have h0 : (i 0).val < 8 := (i 0).isLt
  have h1 : (i 1).val < 65536 := (i 1).isLt
  have h2 : (i 2).val < 128 := (i 2).isLt
  have ht : (i 1).val / 1024 < cfg0.N := by show (i 1).val / 1024 < grid0.N; omega
  obtain ⟨-, -, e0, e1, e2⟩ := idx_facts ⟨(i 1).val / 1024, ht⟩
  refine ⟨⟨(i 1).val / 1024, ht⟩, flush0_37 _, ?_⟩
  rw [mem_blk]
  intro a
  match a with
  | ⟨0, _⟩ => show win0_37.index ⟨(i 1).val / 1024, ht⟩ (0 : Fin 3) * 8 ≤ (i 0).val ∧ (i 0).val < win0_37.index ⟨(i 1).val / 1024, ht⟩ (0 : Fin 3) * 8 + 8; rw [e0]; omega
  | ⟨1, _⟩ => show win0_37.index ⟨(i 1).val / 1024, ht⟩ (1 : Fin 3) * 1024 ≤ (i 1).val ∧ (i 1).val < win0_37.index ⟨(i 1).val / 1024, ht⟩ (1 : Fin 3) * 1024 + 1024; rw [e1]; show (i 1).val / 1024 * 1024 ≤ (i 1).val ∧ (i 1).val < (i 1).val / 1024 * 1024 + 1024; omega
  | ⟨2, _⟩ => show win0_37.index ⟨(i 1).val / 1024, ht⟩ (2 : Fin 3) * 128 ≤ (i 2).val ∧ (i 2).val < win0_37.index ⟨(i 1).val / 1024, ht⟩ (2 : Fin 3) * 128 + 128; rw [e2]; omega

/-- THE ARRAY after the run is `G` of the launch arrays. -/
theorem final (hout : HOut) (c : Dev nD) : (dats m 0 c).arrAt 37 cfg0.N = G m c :=
  (dats m 0 c).arrAt_eq_of_cover 37 (G m c) (fun t _ => flushed_eq m hout c t) cover

/-! ## The run, read -/

/-- The run: the output array ends at `G` of the launch arrays, every argument array as launched. -/
theorem kern_run (hout : HOut) : θ_run defs (onTc (τ := τ) (main (F := Ideal))) ⟨m, fun _ => 0, ρ⟩ fun r => ∀ c : Dev nD,
      r.2.mem ((c : Thread nD τ).loc main_v18) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28)
      ∧ r.2.mem ((c : Thread nD τ).loc main_arg29) = m ((c : Thread nD τ).loc main_arg29)
      ∧ r.2.mem ((c : Thread nD τ).loc main_arg30) = m ((c : Thread nD τ).loc main_arg30)
      ∧ r.2.mem ((c : Thread nD τ).loc main_arg31) = m ((c : Thread nD τ).loc main_arg31)
      ∧ r.2.mem ((c : Thread nD τ).loc main_arg32) = m ((c : Thread nD τ).loc main_arg32)
      ∧ r.2.mem ((c : Thread nD τ).loc main_arg33) = m ((c : Thread nD τ).loc main_arg33)
      ∧ r.2.mem ((c : Thread nD τ).loc main_arg34) = m ((c : Thread nD τ).loc main_arg34)
      ∧ r.2.mem ((c : Thread nD τ).loc main_arg35) = m ((c : Thread nD τ).loc main_arg35)
      ∧ r.2.mem ((c : Thread nD τ).loc main_arg36) = m ((c : Thread nD τ).loc main_arg36) :=
  (θ_run defs _ _).mono (fun r h c => ⟨(h c).1.trans (final m hout c), (h c).2⟩) (ValueP.run_blocks m ρ)

end Cert.KernValue

end
-- ==== Proof.KernPay.lean ====
/-
  The kernel body's values, row by row.

  The body's arithmetic is printed as a chain of pure terms, each a function of the blocks it loads and of earlier terms.
  Read one row at a time (`Rows.Row`), each term is a composition of the row-level blocks of `Net`: a product with a
  weight block is the row times the matrix, a bias recast and broadcast down the rows is added to every row, the maximum
  with the zero splat is the positive part, two values joined along the columns are the two rows joined end to end, and
  the change of float format before each product does nothing on the extended reals.
-/
import proofs.«167402_j1125281431924_2_alg».proof.Proof.Gen.KernelIdeal.Skeleton
import proofs.«167402_j1125281431924_2_alg».proof.Proof.Weights

noncomputable section

namespace Cert.KernValue

open Idealize.ShloMosaic Idealize.ShloMosaic.ValueIdx Cert.Net Cert.Rows
open Cert.KernelIdeal Cert.KernelIdeal.Gen Cert.KernelIdeal.Facts₀

variable [Cert.KernelIdeal.Facts]

/-- The zero word is the number zero. -/
theorem scalar_zero : (Scalar.ofBits (F := Ideal) .f32 0x00000000#32) = (0 : EReal) := bits_zero

/-! ## The seven products of the body, each into a zero accumulator -/

theorem mm1 {φ₁ φ₂ : FTy} (l : FVec Ideal S1024x512 φ₁) (r : FVec Ideal S512x132 φ₂) (p : Fin 1024) :
    Row (matmul dot_S1024x512_S512x132_S1024x132_1_0_0_1_n_n none l r (constant S1024x132 .f32 0x00000000#32)) p = mv (Row l p) (Mat r) :=
  Row_matmul _ rfl none l r p
theorem mm2 {φ₁ φ₂ : FTy} (l : FVec Ideal S1024x132 φ₁) (r : FVec Ideal S132x132 φ₂) (p : Fin 1024) :
    Row (matmul dot_S1024x132_S132x132_S1024x132_1_0_0_1_n_n none l r (constant S1024x132 .f32 0x00000000#32)) p = mv (Row l p) (Mat r) :=
  Row_matmul _ rfl none l r p
theorem mm3 {φ₁ φ₂ : FTy} (l : FVec Ideal S1024x132 φ₁) (r : FVec Ideal S132x128 φ₂) (p : Fin 1024) :
    Row (matmul dot_S1024x132_S132x128_S1024x128_1_0_0_1_n_n none l r (constant S1024x128 .f32 0x00000000#32)) p = mv (Row l p) (Mat r) :=
  Row_matmul _ rfl none l r p
theorem mm4 {φ₁ φ₂ : FTy} (l : FVec Ideal S1024x128 φ₁) (r : FVec Ideal S128x132 φ₂) (p : Fin 1024) :
    Row (matmul dot_S1024x128_S128x132_S1024x132_1_0_0_1_n_n none l r (constant S1024x132 .f32 0x00000000#32)) p = mv (Row l p) (Mat r) :=
  Row_matmul _ rfl none l r p
theorem mm5 {φ₁ φ₂ : FTy} (l : FVec Ideal S1024x128 φ₁) (r : FVec Ideal S128x128 φ₂) (p : Fin 1024) :
    Row (matmul dot_S1024x128_S128x128_S1024x128_1_0_0_1_n_n none l r (constant S1024x128 .f32 0x00000000#32)) p = mv (Row l p) (Mat r) :=
  Row_matmul _ rfl none l r p
theorem mm6 {φ₁ φ₂ : FTy} (l : FVec Ideal S1024x640 φ₁) (r : FVec Ideal S640x132 φ₂) (p : Fin 1024) :
    Row (matmul dot_S1024x640_S640x132_S1024x132_1_0_0_1_n_n none l r (constant S1024x132 .f32 0x00000000#32)) p = mv (Row l p) (Mat r) :=
  Row_matmul _ rfl none l r p
theorem mm7 {φ₁ φ₂ : FTy} (l : FVec Ideal S1024x256 φ₁) (r : FVec Ideal S256x132 φ₂) (p : Fin 1024) :
    Row (matmul dot_S1024x256_S256x132_S1024x132_1_0_0_1_n_n none l r (constant S1024x132 .f32 0x00000000#32)) p = mv (Row l p) (Mat r) :=
  Row_matmul _ rfl none l r p

/-! ## The two joins -/

theorem cat640 (x : FVec Ideal S1024x512 .f32) (y : FVec Ideal S1024x128 .f32) (p : Fin 1024) :
    Row (concatenate S1024x640 1 [⟨S1024x512, x⟩, ⟨S1024x128, y⟩] Facts₀.concatenates_S1024x512_S1024x128_S1024x640_d1) p
      = cat (by norm_num : 512 + 128 = 640) (Row x p) (Row y p) :=
  Row_concat _ x y _ p
theorem cat256 (x : FVec Ideal S1024x128 .f32) (y : FVec Ideal S1024x128 .f32) (p : Fin 1024) :
    Row (concatenate S1024x256 1 [⟨S1024x128, x⟩, ⟨S1024x128, y⟩] Facts₀.concatenates_S1024x128_S1024x128_S1024x256_d1) p
      = cat (by norm_num : 128 + 128 = 256) (Row x p) (Row y p) :=
  Row_concat _ x y _ p

/-! ## The body's terms -/

theorem row_pay2 (v0 : Vec Ideal S1024x512 .f32) (v1 : Vec Ideal S512x132 .bf16) (v5 : Vec Ideal S132 .f32) (v11 : Vec Ideal S132x132 .bf16) (v15 : Vec Ideal S132 .f32) (v21 : Vec Ideal S132x128 .bf16) (v25 : Vec Ideal S128 .f32)  (p : Fin 1024) :
    Row (k0_pay2 (F := Ideal) v0 v1 v5 v11 v15 v21 v25) p
      = fc3 (Row v0 p) (Mat v1) (Vec1 v5) (Mat v11) (Vec1 v15) (Mat v21) (Vec1 v25) := by
  unfold k0_pay2
  simp only [Row_addf, Row_mulf, Row_maximumf, Row_broadcast, Row_truncf, Row_bias_k, mm1, mm2, mm3, mm4, mm5, mm6, mm7, Mat_shapeCast_self, Mat_addf, Vec1_mulf, Vec1_broadcast, scalar_zero, cat640, cat256] <;> rfl

theorem row_pay3 (v0 : Vec Ideal S1024x512 .f32) (v1 : Vec Ideal S512x132 .bf16) (v5 : Vec Ideal S132 .f32) (v11 : Vec Ideal S132x132 .bf16) (v15 : Vec Ideal S132 .f32) (v21 : Vec Ideal S132x128 .bf16) (v25 : Vec Ideal S128 .f32) (v29 : Vec Ideal S128x132 .bf16) (v31 : Vec Ideal S128x132 .bf16)  (p : Fin 1024) :
    Row (k0_pay3 (F := Ideal) v0 v1 v5 v11 v15 v21 v25 v29 v31) p
      = mv (Row (k0_pay2 (F := Ideal) v0 v1 v5 v11 v15 v21 v25) p) (fun k q => Mat v29 k q + Mat v31 k q) := by
  unfold k0_pay3
  simp only [Row_addf, Row_mulf, Row_maximumf, Row_broadcast, Row_truncf, Row_bias_k, mm1, mm2, mm3, mm4, mm5, mm6, mm7, Mat_shapeCast_self, Mat_addf, Vec1_mulf, Vec1_broadcast, scalar_zero, cat640, cat256] <;> rfl

theorem row_pay4 (v35 : Vec Ideal S1024x132 .f32) (v36 : Vec Ideal S132 .f32) (v42 : Vec Ideal S132x132 .bf16) (v46 : Vec Ideal S132 .f32) (v52 : Vec Ideal S132x132 .bf16) (v56 : Vec Ideal S132 .f32) (v62 : Vec Ideal S132x128 .bf16) (v66 : Vec Ideal S128 .f32)  (p : Fin 1024) :
    Row (k0_pay4 (F := Ideal) v35 v36 v42 v46 v52 v56 v62 v66) p
      = lin (relu (lin (relu (lin (relu (fun q => Row v35 p q + Vec1 v36 q)) (Mat v42) (Vec1 v46))) (Mat v52) (Vec1 v56))) (Mat v62) (Vec1 v66) := by
  unfold k0_pay4
  simp only [Row_addf, Row_mulf, Row_maximumf, Row_broadcast, Row_truncf, Row_bias_k, mm1, mm2, mm3, mm4, mm5, mm6, mm7, Mat_shapeCast_self, Mat_addf, Vec1_mulf, Vec1_broadcast, scalar_zero, cat640, cat256] <;> rfl

theorem row_pay5 (v28 : Vec Ideal S1024x128 .f32) (v70 : Vec Ideal S128x132 .bf16) (v72 : Vec Ideal S128x132 .bf16)  (p : Fin 1024) :
    Row (k0_pay5 (F := Ideal) v28 v70 v72) p
      = mv (Row v28 p) (fun k q => Mat v70 k q + Mat v72 k q) := by
  unfold k0_pay5
  simp only [Row_addf, Row_mulf, Row_maximumf, Row_broadcast, Row_truncf, Row_bias_k, mm1, mm2, mm3, mm4, mm5, mm6, mm7, Mat_shapeCast_self, Mat_addf, Vec1_mulf, Vec1_broadcast, scalar_zero, cat640, cat256] <;> rfl

theorem row_pay6 (v76 : Vec Ideal S1024x132 .f32) (v77 : Vec Ideal S132 .f32) (v83 : Vec Ideal S132x132 .bf16) (v87 : Vec Ideal S132 .f32) (v93 : Vec Ideal S132x132 .bf16) (v97 : Vec Ideal S132 .f32) (v103 : Vec Ideal S132x128 .bf16) (v107 : Vec Ideal S128 .f32)  (p : Fin 1024) :
    Row (k0_pay6 (F := Ideal) v76 v77 v83 v87 v93 v97 v103 v107) p
      = lin (relu (lin (relu (lin (relu (fun q => Row v76 p q + Vec1 v77 q)) (Mat v83) (Vec1 v87))) (Mat v93) (Vec1 v97))) (Mat v103) (Vec1 v107) := by
  unfold k0_pay6
  simp only [Row_addf, Row_mulf, Row_maximumf, Row_broadcast, Row_truncf, Row_bias_k, mm1, mm2, mm3, mm4, mm5, mm6, mm7, Mat_shapeCast_self, Mat_addf, Vec1_mulf, Vec1_broadcast, scalar_zero, cat640, cat256] <;> rfl

theorem row_pay7 (v76 : Vec Ideal S1024x132 .f32) (v77 : Vec Ideal S132 .f32) (v83 : Vec Ideal S132x132 .bf16) (v87 : Vec Ideal S132 .f32) (v93 : Vec Ideal S132x132 .bf16) (v97 : Vec Ideal S132 .f32) (v103 : Vec Ideal S132x128 .bf16) (v107 : Vec Ideal S128 .f32) (v111 : Vec Ideal S128x128 .bf16)  (p : Fin 1024) :
    Row (k0_pay7 (F := Ideal) v76 v77 v83 v87 v93 v97 v103 v107 v111) p
      = fun q => (Scalar.ofBits (F := Ideal) .f32 0x40000000#32) * mv (Row (k0_pay6 (F := Ideal) v76 v77 v83 v87 v93 v97 v103 v107) p) (Mat v111) q := by
  unfold k0_pay7
  simp only [Row_addf, Row_mulf, Row_maximumf, Row_broadcast, Row_truncf, Row_bias_k, mm1, mm2, mm3, mm4, mm5, mm6, mm7, Mat_shapeCast_self, Mat_addf, Vec1_mulf, Vec1_broadcast, scalar_zero, cat640, cat256] <;> rfl

theorem row_pay8 (v0 : Vec Ideal S1024x512 .f32) (v116 : Vec Ideal S1024x128 .f32) (v117 : Vec Ideal S128 .f32) (v123 : Vec Ideal S128x128 .bf16) (v127 : Vec Ideal S128 .f32) (v132 : Vec Ideal S640x132 .bf16) (v136 : Vec Ideal S132 .f32) (v142 : Vec Ideal S132x132 .bf16) (v146 : Vec Ideal S132 .f32) (v152 : Vec Ideal S132x128 .bf16)  (p : Fin 1024) :
    Row (k0_pay8 (F := Ideal) v0 v116 v117 v123 v127 v132 v136 v142 v146 v152) p
      = mv (relu (lin (relu (lin (cat (by norm_num : 512 + 128 = 640) (Row v0 p) (lin (fun q => Row v116 p q + (Scalar.ofBits (F := Ideal) .f32 0x40000000#32) * Vec1 v117 q) (Mat v123) (Vec1 v127))) (Mat v132) (Vec1 v136))) (Mat v142) (Vec1 v146))) (Mat v152) := by
  unfold k0_pay8
  simp only [Row_addf, Row_mulf, Row_maximumf, Row_broadcast, Row_truncf, Row_bias_k, mm1, mm2, mm3, mm4, mm5, mm6, mm7, Mat_shapeCast_self, Mat_addf, Vec1_mulf, Vec1_broadcast, scalar_zero, cat640, cat256] <;> rfl

theorem row_pay9 (v155 : Vec Ideal S1024x128 .f32) (v156 : Vec Ideal S128 .f32)  (p : Fin 1024) :
    Row (k0_pay9 (F := Ideal) v155 v156) p
      = fun q => Row v155 p q + Vec1 v156 q := by
  unfold k0_pay9
  simp only [Row_addf, Row_mulf, Row_maximumf, Row_broadcast, Row_truncf, Row_bias_k, mm1, mm2, mm3, mm4, mm5, mm6, mm7, Mat_shapeCast_self, Mat_addf, Vec1_mulf, Vec1_broadcast, scalar_zero, cat640, cat256] <;> rfl

theorem row_pay10 (v28 : Vec Ideal S1024x128 .f32) (v155 : Vec Ideal S1024x128 .f32) (v156 : Vec Ideal S128 .f32) (v161 : Vec Ideal S256x132 .bf16) (v165 : Vec Ideal S132 .f32) (v171 : Vec Ideal S132x132 .bf16) (v175 : Vec Ideal S132 .f32) (v181 : Vec Ideal S132x132 .bf16) (v185 : Vec Ideal S132 .f32) (v191 : Vec Ideal S132x128 .bf16)  (p : Fin 1024) :
    Row (k0_pay10 (F := Ideal) v28 v155 v156 v161 v165 v171 v175 v181 v185 v191) p
      = mv (relu (lin (relu (lin (relu (lin (cat (by norm_num : 128 + 128 = 256) (Row v28 p) (Row (k0_pay9 (F := Ideal) v155 v156) p)) (Mat v161) (Vec1 v165))) (Mat v171) (Vec1 v175))) (Mat v181) (Vec1 v185))) (Mat v191) := by
  unfold k0_pay10
  simp only [Row_addf, Row_mulf, Row_maximumf, Row_broadcast, Row_truncf, Row_bias_k, mm1, mm2, mm3, mm4, mm5, mm6, mm7, Mat_shapeCast_self, Mat_addf, Vec1_mulf, Vec1_broadcast, scalar_zero, cat640, cat256] <;> rfl

theorem row_pay11 (v195 : Vec Ideal S128 .f32)  (p : Fin 1024) :
    Row (k0_pay11 (F := Ideal) v195) p
      = Vec1 v195 := by
  unfold k0_pay11
  simp only [Row_addf, Row_mulf, Row_maximumf, Row_broadcast, Row_truncf, Row_bias_k, mm1, mm2, mm3, mm4, mm5, mm6, mm7, Mat_shapeCast_self, Mat_addf, Vec1_mulf, Vec1_broadcast, scalar_zero, cat640, cat256] <;> rfl

theorem row_pay12 (v69 : Vec Ideal S1024x128 .f32) (v199 : Vec Ideal S128x132 .bf16) (v203 : Vec Ideal S132 .f32) (v209 : Vec Ideal S132x132 .bf16) (v213 : Vec Ideal S132 .f32) (v219 : Vec Ideal S132x128 .bf16) (v223 : Vec Ideal S128 .f32)  (p : Fin 1024) :
    Row (k0_pay12 (F := Ideal) v69 v199 v203 v209 v213 v219 v223) p
      = fc3 (Row v69 p) (Mat v199) (Vec1 v203) (Mat v209) (Vec1 v213) (Mat v219) (Vec1 v223) := by
  unfold k0_pay12
  simp only [Row_addf, Row_mulf, Row_maximumf, Row_broadcast, Row_truncf, Row_bias_k, mm1, mm2, mm3, mm4, mm5, mm6, mm7, Mat_shapeCast_self, Mat_addf, Vec1_mulf, Vec1_broadcast, scalar_zero, cat640, cat256] <;> rfl

theorem row_pay13 (v194 : Vec Ideal S1024x128 .f32) (v197 : Vec Ideal S1024x128 .f32) (v227 : Vec Ideal S128x132 .bf16) (v231 : Vec Ideal S132 .f32)  (p : Fin 1024) :
    Row (k0_pay13 (F := Ideal) v194 v197 v227 v231) p
      = relu (lin (fun q => Row v194 p q + Row v197 p q) (Mat v227) (Vec1 v231)) := by
  unfold k0_pay13
  simp only [Row_addf, Row_mulf, Row_maximumf, Row_broadcast, Row_truncf, Row_bias_k, mm1, mm2, mm3, mm4, mm5, mm6, mm7, Mat_shapeCast_self, Mat_addf, Vec1_mulf, Vec1_broadcast, scalar_zero, cat640, cat256] <;> rfl

theorem row_pay14 (v236 : Vec Ideal S1024x132 .f32) (v237 : Vec Ideal S132x132 .bf16) (v241 : Vec Ideal S132 .f32) (v247 : Vec Ideal S132x128 .bf16) (v251 : Vec Ideal S128 .f32)  (p : Fin 1024) :
    Row (k0_pay14 (F := Ideal) v236 v237 v241 v247 v251) p
      = lin (relu (lin (Row v236 p) (Mat v237) (Vec1 v241))) (Mat v247) (Vec1 v251) := by
  unfold k0_pay14
  simp only [Row_addf, Row_mulf, Row_maximumf, Row_broadcast, Row_truncf, Row_bias_k, mm1, mm2, mm3, mm4, mm5, mm6, mm7, Mat_shapeCast_self, Mat_addf, Vec1_mulf, Vec1_broadcast, scalar_zero, cat640, cat256] <;> rfl

theorem row_pay15 (v159 : Vec Ideal S1024x128 .f32) (v236 : Vec Ideal S1024x132 .f32) (v237 : Vec Ideal S132x132 .bf16) (v241 : Vec Ideal S132 .f32) (v247 : Vec Ideal S132x128 .bf16) (v251 : Vec Ideal S128 .f32) (v255 : Vec Ideal S128x128 .bf16) (v261 : Vec Ideal S128 .f32) (v267 : Vec Ideal S128x128 .bf16) (v271 : Vec Ideal S128 .f32)  (p : Fin 1024) :
    Row (k0_pay15 (F := Ideal) v159 v236 v237 v241 v247 v251 v255 v261 v267 v271) p
      = cat (by norm_num : 128 + 128 = 256) (Row v159 p) (lin (fun q => (Scalar.ofBits (F := Ideal) .f32 0x40000000#32) * mv (Row (k0_pay14 (F := Ideal) v236 v237 v241 v247 v251) p) (Mat v255) q + (Scalar.ofBits (F := Ideal) .f32 0x40000000#32) * Vec1 v261 q) (Mat v267) (Vec1 v271)) := by
  unfold k0_pay15
  simp only [Row_addf, Row_mulf, Row_maximumf, Row_broadcast, Row_truncf, Row_bias_k, mm1, mm2, mm3, mm4, mm5, mm6, mm7, Mat_shapeCast_self, Mat_addf, Vec1_mulf, Vec1_broadcast, scalar_zero, cat640, cat256] <;> rfl

theorem mat_pay16 (v276 : Vec Ideal S256x132 .bf16) : Mat (k0_pay16 (F := Ideal) v276) = Mat v276 := by
  unfold k0_pay16
  simp only [Mat_shapeCast_self]

theorem row_pay17 (v275 : Vec Ideal S1024x256 .f32) (v277 : Vec Ideal S256x132 .bf16) (v280 : Vec Ideal S132 .f32) (v286 : Vec Ideal S132x132 .bf16) (v290 : Vec Ideal S132 .f32) (v296 : Vec Ideal S132x128 .bf16) (v300 : Vec Ideal S128 .f32)  (p : Fin 1024) :
    Row (k0_pay17 (F := Ideal) v275 v277 v280 v286 v290 v296 v300) p
      = fc3 (Row v275 p) (Mat v277) (Vec1 v280) (Mat v286) (Vec1 v290) (Mat v296) (Vec1 v300) := by
  unfold k0_pay17
  simp only [Row_addf, Row_mulf, Row_maximumf, Row_broadcast, Row_truncf, Row_bias_k, mm1, mm2, mm3, mm4, mm5, mm6, mm7, Mat_shapeCast_self, Mat_addf, Vec1_mulf, Vec1_broadcast, scalar_zero, cat640, cat256] <;> rfl

theorem row_pay18 (v275 : Vec Ideal S1024x256 .f32) (v277 : Vec Ideal S256x132 .bf16) (v280 : Vec Ideal S132 .f32) (v286 : Vec Ideal S132x132 .bf16) (v290 : Vec Ideal S132 .f32) (v296 : Vec Ideal S132x128 .bf16) (v300 : Vec Ideal S128 .f32) (v304 : Vec Ideal S128x128 .bf16) (v308 : Vec Ideal S128 .f32) (v312 : Vec Ideal S128x128 .bf16)  (p : Fin 1024) :
    Row (k0_pay18 (F := Ideal) v275 v277 v280 v286 v290 v296 v300 v304 v308 v312) p
      = mv (lin (Row (k0_pay17 (F := Ideal) v275 v277 v280 v286 v290 v296 v300) p) (Mat v304) (Vec1 v308)) (Mat v312) := by
  unfold k0_pay18
  simp only [Row_addf, Row_mulf, Row_maximumf, Row_broadcast, Row_truncf, Row_bias_k, mm1, mm2, mm3, mm4, mm5, mm6, mm7, Mat_shapeCast_self, Mat_addf, Vec1_mulf, Vec1_broadcast, scalar_zero, cat640, cat256] <;> rfl

theorem row_pay20 (v110 : Vec Ideal S1024x128 .f32) (v315 : Vec Ideal S1024x128 .f32) (v316 : Vec Ideal S128 .f32) (v321 : Vec Ideal S256x132 .bf16) (v325 : Vec Ideal S132 .f32) (v331 : Vec Ideal S132x132 .bf16) (v335 : Vec Ideal S132 .f32) (v341 : Vec Ideal S132x128 .bf16) (v345 : Vec Ideal S128 .f32)  (p : Fin 1024) :
    Row (k0_pay20 (F := Ideal) v110 v315 (k0_pay19 v316) v321 v325 v331 v335 v341 v345) p
      = fc3 (cat (by norm_num : 128 + 128 = 256) (Row v110 p) (fun q => Row v315 p q + Vec1 v316 q)) (Mat v321) (Vec1 v325) (Mat v331) (Vec1 v335) (Mat v341) (Vec1 v345) := by
  unfold k0_pay20 k0_pay19
  simp only [Row_addf, Row_mulf, Row_maximumf, Row_broadcast, Row_truncf, Row_bias_k, mm1, mm2, mm3, mm4, mm5, mm6, mm7, Mat_shapeCast_self, Mat_addf, Vec1_mulf, Vec1_broadcast, scalar_zero, cat640, cat256] <;> rfl

theorem row_pay21 (v110 : Vec Ideal S1024x128 .f32) (v226 : Vec Ideal S1024x128 .f32) (v254 : Vec Ideal S1024x128 .f32) (v315 : Vec Ideal S1024x128 .f32) (v316 : Vec Ideal S128 .f32) (v321 : Vec Ideal S256x132 .bf16) (v325 : Vec Ideal S132 .f32) (v331 : Vec Ideal S132x132 .bf16) (v335 : Vec Ideal S132 .f32) (v341 : Vec Ideal S132x128 .bf16) (v345 : Vec Ideal S128 .f32) (v353 : Vec Ideal S128x128 .bf16)  (p : Fin 1024) :
    Row (k0_pay21 (F := Ideal) v110 v226 v254 v315 (k0_pay19 v316) v321 v325 v331 v335 v341 v345 v353) p
      = mv (fun j => (Row v226 p j + (Scalar.ofBits (F := Ideal) .f32 0x40000000#32) * Row (k0_pay20 (F := Ideal) v110 v315 (k0_pay19 v316) v321 v325 v331 v335 v341 v345) p j) + Row v254 p j) (Mat v353) := by
  unfold k0_pay21
  simp only [Row_addf, Row_mulf, Row_maximumf, Row_broadcast, Row_truncf, Row_bias_k, mm1, mm2, mm3, mm4, mm5, mm6, mm7, Mat_shapeCast_self, Mat_addf, Vec1_mulf, Vec1_broadcast, scalar_zero, cat640, cat256] <;> rfl

theorem row_pay22 (v28 : Vec Ideal S1024x128 .f32) (v356 : Vec Ideal S1024x128 .f32) (v357 : Vec Ideal S128 .f32) (cst_177 : Ideal .f32) (v363 : Vec Ideal S128x128 .bf16) (v367 : Vec Ideal S128 .f32) (v372 : Vec Ideal S256x132 .bf16) (v376 : Vec Ideal S132 .f32) (v382 : Vec Ideal S132x132 .bf16) (v386 : Vec Ideal S132 .f32) (v392 : Vec Ideal S132x128 .bf16) (v396 : Vec Ideal S128 .f32)  (p : Fin 1024) :
    Row (k0_pay22 (F := Ideal) v28 v356 v357 cst_177 v363 v367 v372 v376 v382 v386 v392 v396) p
      = fc3 (cat (by norm_num : 128 + 128 = 256) (Row v28 p) (lin (fun q => Row v356 p q + cst_177 * Vec1 v357 q) (Mat v363) (Vec1 v367))) (Mat v372) (Vec1 v376) (Mat v382) (Vec1 v386) (Mat v392) (Vec1 v396) := by
  unfold k0_pay22
  simp only [Row_addf, Row_mulf, Row_maximumf, Row_broadcast, Row_truncf, Row_bias_k, mm1, mm2, mm3, mm4, mm5, mm6, mm7, Mat_shapeCast_self, Mat_addf, Vec1_mulf, Vec1_broadcast, scalar_zero, cat640, cat256] <;> rfl

/-- A value recast to one slab of the output block is read back at the same row and column. -/
theorem slab_apply (v : FVec Ideal S1024x128 .f32) (h : S1024x128.ShapeCasts S1x1024x128) (p : Fin 1024) (q : Fin 128) :
    shapeCast S1x1024x128 v h (ix3 (0 : Fin 1) p q) = v (ix2 p q) := by
  refine (shapeCast_addUnit_apply (n := 2) ![1024, 128] v h (ix3 (0 : Fin 1) p q)).trans ?_
  refine congrArg v (funext fun a => ?_)
  match a with
  | ⟨0, _⟩ => rfl
  | ⟨1, _⟩ => rfl

end Cert.KernValue

end
-- ==== Proof.KernOut.lean ====
/-
  What the kernel body leaves in its output block.

  The body stores eight slabs of shape [1, 1024, 128] into the output block [8, 1024, 128], slab `s` at offset `s` on
  the first axis; together they cover the block. Entry (s, p, q) of the block is therefore entry (p, q) of the value stored
  in slab `s`, and that value's row `p` is the kernel's composition of the row-level blocks (`Net.kernOut`) on row `p`
  of the signal block and on the weight blocks: the loads through whole rectangles read the blocks themselves, the loads
  of the first rows of a matrix read its upper part (`Net.top`), and the two loads of the halves of a matrix, added, read
  the sum of its halves (`Net.fold2`): the second half is read at row 128 + k.
-/
import proofs.«167402_j1125281431924_2_alg».proof.Proof.KernelIdealFrameP
import proofs.«167402_j1125281431924_2_alg».proof.Proof.KernPay

noncomputable section

namespace Cert.KernValue

open Idealize.ShloMosaic Idealize.ShloMosaic.ValueIdx Cert.Net Cert.Rows
open Cert.KernelIdeal Cert.KernelIdeal.Gen Cert.KernelIdeal.GenP Cert.KernelIdeal.Facts₀

variable [Cert.KernelIdeal.Facts]

/-! ## Loads -/

theorem hz1 : (![0] : Fin 1 → Nat) = fun _ => 0 := by
  funext a; match a with | ⟨0, _⟩ => rfl
theorem hz2 : (![0, 0] : Fin 2 → Nat) = fun _ => 0 := by
  funext a; match a with | ⟨0, _⟩ => rfl | ⟨1, _⟩ => rfl

theorem ld_r0_0 (x : Vec Ideal S1024x512 .f32) : View.ld x r0_0 = x := View.ld_unit_zero hz2 _ x
theorem ld_r0_2 (x : Vec Ideal S132 .f32) : View.ld x r0_2 = x := View.ld_unit_zero hz1 _ x
theorem ld_r0_3 (x : Vec Ideal S132x132 .bf16) : View.ld x r0_3 = x := View.ld_unit_zero hz2 _ x
theorem ld_r0_4 (x : Vec Ideal S132x128 .bf16) : View.ld x r0_4 = x := View.ld_unit_zero hz2 _ x
theorem ld_r0_5 (x : Vec Ideal S128 .f32) : View.ld x r0_5 = x := View.ld_unit_zero hz1 _ x
theorem ld_r0_8 (x : Vec Ideal S128x128 .bf16) : View.ld x r0_8 = x := View.ld_unit_zero hz2 _ x
theorem ld_r0_9 (x : Vec Ideal S640x132 .bf16) : View.ld x r0_9 = x := View.ld_unit_zero hz2 _ x
theorem ld_r0_10 (x : Vec Ideal S256x132 .bf16) : View.ld x r0_10 = x := View.ld_unit_zero hz2 _ x

/-- The first 512 rows of a matrix of 640 rows. -/
theorem mat_ld_r0_1 (x : Vec Ideal S640x132 .bf16) :
    Mat (View.ld x r0_1 : Vec Ideal S512x132 .bf16) = top (by norm_num : 512 ≤ 640) (Mat x) := by
  funext k q
  show x (r0_1.idx (ix2 k q)) = x (ix2 ⟨k.val, _⟩ q)
  refine congrArg x (funext fun a => Fin.ext ?_)
  match a with
  | ⟨0, _⟩ => show 0 + 1 * k.val = k.val; omega
  | ⟨1, _⟩ => show 0 + 1 * q.val = q.val; omega

/-- The first 128 rows of a matrix of 256 rows. -/
theorem mat_ld_r0_6 (x : Vec Ideal S256x132 .bf16) :
    Mat (View.ld x r0_6 : Vec Ideal S128x132 .bf16) = top (by norm_num : 128 ≤ 256) (Mat x) := by
  funext k q
  show x (r0_6.idx (ix2 k q)) = x (ix2 ⟨k.val, _⟩ q)
  refine congrArg x (funext fun a => Fin.ext ?_)
  match a with
  | ⟨0, _⟩ => show 0 + 1 * k.val = k.val; omega
  | ⟨1, _⟩ => show 0 + 1 * q.val = q.val; omega

/-- The last 128 rows of a matrix of 256 rows. -/
theorem mat_ld_r0_7 (x : Vec Ideal S256x132 .bf16) :
    Mat (View.ld x r0_7 : Vec Ideal S128x132 .bf16) = fun k q => Mat x ⟨128 + k.val, by omega⟩ q := by
  funext k q
  show x (r0_7.idx (ix2 k q)) = x (ix2 ⟨128 + k.val, _⟩ q)
  refine congrArg x (funext fun a => Fin.ext ?_)
  match a with
  | ⟨0, _⟩ => show 128 + 1 * k.val = 128 + k.val; omega
  | ⟨1, _⟩ => show 0 + 1 * q.val = q.val; omega

/-! ## The block -/

/-- Where slab `s` puts its entry (0, p, q). -/
theorem slab_emb (s : Fin 8) (inb : ∀ a, (![s.val, 0, 0] : Fin 3 → Nat) a + S1x1024x128.size a ≤ S8x1024x128.size a) (p : Fin 1024) (q : Fin 128) :
    (Rect.unit (s := S8x1024x128) ![s.val, 0, 0] S1x1024x128.size inb).emb (ix3 (0 : Fin 1) p q) = ix3 s p q := by
  funext a
  apply Fin.ext
  match a with
  | ⟨0, _⟩ => show s.val + 1 * 0 = s.val; omega
  | ⟨1, _⟩ => show 0 + 1 * p.val = p.val; omega
  | ⟨2, _⟩ => show 0 + 1 * q.val = q.val; omega

variable (X0 : Vec Ideal S1024x512 .f32) (X1 : Vec Ideal S128x128 .bf16) (X2 : Vec Ideal S128 .f32) (X3 : Vec Ideal S128x128 .bf16) (X4 : Vec Ideal S128 .f32) (X5 : Vec Ideal S640x132 .bf16) (X6 : Vec Ideal S132 .f32)
    (X7 : Vec Ideal S132x132 .bf16) (X8 : Vec Ideal S132 .f32) (X9 : Vec Ideal S132x128 .bf16) (X10 : Vec Ideal S128 .f32) (X11 : Vec Ideal S256x132 .bf16) (X12 : Vec Ideal S132 .f32) (X13 : Vec Ideal S132x132 .bf16)
    (X14 : Vec Ideal S132 .f32) (X15 : Vec Ideal S132x132 .bf16) (X16 : Vec Ideal S132 .f32) (X17 : Vec Ideal S132x128 .bf16) (X18 : Vec Ideal S128 .f32) (X19 : Vec Ideal S256x132 .bf16) (X20 : Vec Ideal S132 .f32)
    (X21 : Vec Ideal S132x132 .bf16) (X22 : Vec Ideal S132 .f32) (X23 : Vec Ideal S132x132 .bf16) (X24 : Vec Ideal S132 .f32) (X25 : Vec Ideal S132x128 .bf16) (X26 : Vec Ideal S128 .f32) (X27 : Vec Ideal S128x128 .bf16)
    (X28 : Vec Ideal S128 .f32) (X29 : Vec Ideal S128x128 .bf16) (X30 : Vec Ideal S128 .f32) (X31 : Vec Ideal S256x132 .bf16) (X32 : Vec Ideal S132 .f32) (X33 : Vec Ideal S132x132 .bf16) (X34 : Vec Ideal S132 .f32) (X35 : Vec Ideal S132x128 .bf16) (X36 : Vec Ideal S128 .f32)

/-- The block the body leaves, as one function of the block index. -/
def Gblk : S8x1024x128.Idx → EReal := fun y =>
  kernOut (mkW X1 X2 X3 X4 X5 X6 X7 X8 X9 X10 X11 X12 X13 X14 X15 X16 X17 X18 X19 X20 X21 X22 X23 X24 X25 X26 X27 X28 X29 X30 X31 X32 X33 X34 X35 X36) (Scalar.ofBits (F := Ideal) .f32 0x40000000#32) (Scalar.ofBits (F := Ideal) .f32 0x40800000#32) (Row X0 (y 1)) (y 0) (y 2)

theorem Gblk_apply (s : Fin 8) (p : Fin 1024) (q : Fin 128) :
    Gblk X0 X1 X2 X3 X4 X5 X6 X7 X8 X9 X10 X11 X12 X13 X14 X15 X16 X17 X18 X19 X20 X21 X22 X23 X24 X25 X26 X27 X28 X29 X30 X31 X32 X33 X34 X35 X36 (ix3 s p q)
      = kernOut (mkW X1 X2 X3 X4 X5 X6 X7 X8 X9 X10 X11 X12 X13 X14 X15 X16 X17 X18 X19 X20 X21 X22 X23 X24 X25 X26 X27 X28 X29 X30 X31 X32 X33 X34 X35 X36) (Scalar.ofBits (F := Ideal) .f32 0x40000000#32) (Scalar.ofBits (F := Ideal) .f32 0x40800000#32) (Row X0 p) s q := rfl

/-! ## The ten distinct nodes, as the body computes them -/

/-- The first point node. -/
theorem n_upP1 (p : Fin 1024) :
    Row (k0_pay2 (F := Ideal) (View.ld X0 r0_0) (View.ld X5 r0_1) (View.ld X6 r0_2) (View.ld X7 r0_3) (View.ld X8 r0_2) (View.ld X9 r0_4) (View.ld X10 r0_5)) p
      = kUpP1 (mkW X1 X2 X3 X4 X5 X6 X7 X8 X9 X10 X11 X12 X13 X14 X15 X16 X17 X18 X19 X20 X21 X22 X23 X24 X25 X26 X27 X28 X29 X30 X31 X32 X33 X34 X35 X36) (Row X0 p) := by
  rw [row_pay2]
  simp only [ld_r0_0, ld_r0_2, ld_r0_3, ld_r0_4, ld_r0_5, ld_r0_8, ld_r0_9, ld_r0_10, mat_ld_r0_1, mat_ld_r0_6, mat_ld_r0_7, mat_pay16]
  rfl

/-- The first line node. -/
theorem n_upL1 (p : Fin 1024) :
    Row (k0_pay4 (F := Ideal) (k0_pay3 (View.ld X0 r0_0) (View.ld X5 r0_1) (View.ld X6 r0_2) (View.ld X7 r0_3) (View.ld X8 r0_2) (View.ld X9 r0_4) (View.ld X10 r0_5) (View.ld X11 r0_6) (View.ld X11 r0_7)) (View.ld X12 r0_2) (View.ld X13 r0_3) (View.ld X14 r0_2) (View.ld X15 r0_3) (View.ld X16 r0_2) (View.ld X17 r0_4) (View.ld X18 r0_5)) p
      = kUpL1 (mkW X1 X2 X3 X4 X5 X6 X7 X8 X9 X10 X11 X12 X13 X14 X15 X16 X17 X18 X19 X20 X21 X22 X23 X24 X25 X26 X27 X28 X29 X30 X31 X32 X33 X34 X35 X36) (Row X0 p) := by
  rw [row_pay4, row_pay3, n_upP1]
  simp only [ld_r0_0, ld_r0_2, ld_r0_3, ld_r0_4, ld_r0_5, ld_r0_8, ld_r0_9, ld_r0_10, mat_ld_r0_1, mat_ld_r0_6, mat_ld_r0_7, mat_pay16]
  rfl

/-- The circle node. -/
theorem n_upC1 (p : Fin 1024) :
    Row (k0_pay6 (F := Ideal) (k0_pay5 (k0_pay2 (View.ld X0 r0_0) (View.ld X5 r0_1) (View.ld X6 r0_2) (View.ld X7 r0_3) (View.ld X8 r0_2) (View.ld X9 r0_4) (View.ld X10 r0_5)) (View.ld X19 r0_6) (View.ld X19 r0_7)) (View.ld X20 r0_2) (View.ld X21 r0_3) (View.ld X22 r0_2) (View.ld X23 r0_3) (View.ld X24 r0_2) (View.ld X25 r0_4) (View.ld X26 r0_5)) p
      = kUpC1 (mkW X1 X2 X3 X4 X5 X6 X7 X8 X9 X10 X11 X12 X13 X14 X15 X16 X17 X18 X19 X20 X21 X22 X23 X24 X25 X26 X27 X28 X29 X30 X31 X32 X33 X34 X35 X36) (Row X0 p) := by
  rw [row_pay6, row_pay5, n_upP1]
  simp only [ld_r0_0, ld_r0_2, ld_r0_3, ld_r0_4, ld_r0_5, ld_r0_8, ld_r0_9, ld_r0_10, mat_ld_r0_1, mat_ld_r0_6, mat_ld_r0_7, mat_pay16]
  rfl

/-- The third point node. -/
theorem n_upP3 (p : Fin 1024) :
    Row (k0_pay9 (F := Ideal) (k0_pay8 (View.ld X0 r0_0) (k0_pay7 (k0_pay5 (k0_pay2 (View.ld X0 r0_0) (View.ld X5 r0_1) (View.ld X6 r0_2) (View.ld X7 r0_3) (View.ld X8 r0_2) (View.ld X9 r0_4) (View.ld X10 r0_5)) (View.ld X19 r0_6) (View.ld X19 r0_7)) (View.ld X20 r0_2) (View.ld X21 r0_3) (View.ld X22 r0_2) (View.ld X23 r0_3) (View.ld X24 r0_2) (View.ld X25 r0_4) (View.ld X26 r0_5) (View.ld X1 r0_8)) (View.ld X2 r0_5) (View.ld X3 r0_8) (View.ld X4 r0_5) (View.ld X5 r0_9) (View.ld X6 r0_2) (View.ld X7 r0_3) (View.ld X8 r0_2) (View.ld X9 r0_4)) (View.ld X10 r0_5)) p
      = kUpP3 (mkW X1 X2 X3 X4 X5 X6 X7 X8 X9 X10 X11 X12 X13 X14 X15 X16 X17 X18 X19 X20 X21 X22 X23 X24 X25 X26 X27 X28 X29 X30 X31 X32 X33 X34 X35 X36) (Scalar.ofBits (F := Ideal) .f32 0x40000000#32) (Row X0 p) := by
  rw [row_pay9, row_pay8, row_pay7, n_upC1]
  simp only [ld_r0_0, ld_r0_2, ld_r0_3, ld_r0_4, ld_r0_5, ld_r0_8, ld_r0_9, ld_r0_10, mat_ld_r0_1, mat_ld_r0_6, mat_ld_r0_7, mat_pay16]
  rfl

/-- The second line node: the last product of its stack plus the bias. -/
theorem n_upL2 (p : Fin 1024) :
    (fun q => Row (k0_pay10 (F := Ideal) (k0_pay2 (View.ld X0 r0_0) (View.ld X5 r0_1) (View.ld X6 r0_2) (View.ld X7 r0_3) (View.ld X8 r0_2) (View.ld X9 r0_4) (View.ld X10 r0_5)) (k0_pay8 (View.ld X0 r0_0) (k0_pay7 (k0_pay5 (k0_pay2 (View.ld X0 r0_0) (View.ld X5 r0_1) (View.ld X6 r0_2) (View.ld X7 r0_3) (View.ld X8 r0_2) (View.ld X9 r0_4) (View.ld X10 r0_5)) (View.ld X19 r0_6) (View.ld X19 r0_7)) (View.ld X20 r0_2) (View.ld X21 r0_3) (View.ld X22 r0_2) (View.ld X23 r0_3) (View.ld X24 r0_2) (View.ld X25 r0_4) (View.ld X26 r0_5) (View.ld X1 r0_8)) (View.ld X2 r0_5) (View.ld X3 r0_8) (View.ld X4 r0_5) (View.ld X5 r0_9) (View.ld X6 r0_2) (View.ld X7 r0_3) (View.ld X8 r0_2) (View.ld X9 r0_4)) (View.ld X10 r0_5) (View.ld X11 r0_10) (View.ld X12 r0_2) (View.ld X13 r0_3) (View.ld X14 r0_2) (View.ld X15 r0_3) (View.ld X16 r0_2) (View.ld X17 r0_4)) p q + Row (k0_pay11 (F := Ideal) (View.ld X18 r0_5)) p q)
      = kUpL2 (mkW X1 X2 X3 X4 X5 X6 X7 X8 X9 X10 X11 X12 X13 X14 X15 X16 X17 X18 X19 X20 X21 X22 X23 X24 X25 X26 X27 X28 X29 X30 X31 X32 X33 X34 X35 X36) (Scalar.ofBits (F := Ideal) .f32 0x40000000#32) (Row X0 p) := by
  rw [row_pay10, row_pay11, n_upP1, n_upP3]
  simp only [ld_r0_0, ld_r0_2, ld_r0_3, ld_r0_4, ld_r0_5, ld_r0_8, ld_r0_9, ld_r0_10, mat_ld_r0_1, mat_ld_r0_6, mat_ld_r0_7, mat_pay16]
  rfl

/-- Downward, the first line node. -/
theorem n_dL1 (p : Fin 1024) :
    Row (k0_pay12 (F := Ideal) (k0_pay4 (k0_pay3 (View.ld X0 r0_0) (View.ld X5 r0_1) (View.ld X6 r0_2) (View.ld X7 r0_3) (View.ld X8 r0_2) (View.ld X9 r0_4) (View.ld X10 r0_5) (View.ld X11 r0_6) (View.ld X11 r0_7)) (View.ld X12 r0_2) (View.ld X13 r0_3) (View.ld X14 r0_2) (View.ld X15 r0_3) (View.ld X16 r0_2) (View.ld X17 r0_4) (View.ld X18 r0_5)) (View.ld X31 r0_6) (View.ld X32 r0_2) (View.ld X33 r0_3) (View.ld X34 r0_2) (View.ld X35 r0_4) (View.ld X36 r0_5)) p
      = kDL1 (mkW X1 X2 X3 X4 X5 X6 X7 X8 X9 X10 X11 X12 X13 X14 X15 X16 X17 X18 X19 X20 X21 X22 X23 X24 X25 X26 X27 X28 X29 X30 X31 X32 X33 X34 X35 X36) (Row X0 p) := by
  rw [row_pay12, n_upL1]
  simp only [ld_r0_0, ld_r0_2, ld_r0_3, ld_r0_4, ld_r0_5, ld_r0_8, ld_r0_9, ld_r0_10, mat_ld_r0_1, mat_ld_r0_6, mat_ld_r0_7, mat_pay16]
  rfl

/-- Downward, the second line node. -/
theorem n_dL2 (p : Fin 1024) :
    Row (k0_pay14 (F := Ideal) (k0_pay13 (k0_pay10 (k0_pay2 (View.ld X0 r0_0) (View.ld X5 r0_1) (View.ld X6 r0_2) (View.ld X7 r0_3) (View.ld X8 r0_2) (View.ld X9 r0_4) (View.ld X10 r0_5)) (k0_pay8 (View.ld X0 r0_0) (k0_pay7 (k0_pay5 (k0_pay2 (View.ld X0 r0_0) (View.ld X5 r0_1) (View.ld X6 r0_2) (View.ld X7 r0_3) (View.ld X8 r0_2) (View.ld X9 r0_4) (View.ld X10 r0_5)) (View.ld X19 r0_6) (View.ld X19 r0_7)) (View.ld X20 r0_2) (View.ld X21 r0_3) (View.ld X22 r0_2) (View.ld X23 r0_3) (View.ld X24 r0_2) (View.ld X25 r0_4) (View.ld X26 r0_5) (View.ld X1 r0_8)) (View.ld X2 r0_5) (View.ld X3 r0_8) (View.ld X4 r0_5) (View.ld X5 r0_9) (View.ld X6 r0_2) (View.ld X7 r0_3) (View.ld X8 r0_2) (View.ld X9 r0_4)) (View.ld X10 r0_5) (View.ld X11 r0_10) (View.ld X12 r0_2) (View.ld X13 r0_3) (View.ld X14 r0_2) (View.ld X15 r0_3) (View.ld X16 r0_2) (View.ld X17 r0_4)) (k0_pay11 (View.ld X18 r0_5)) (View.ld X31 r0_6) (View.ld X32 r0_2)) (View.ld X33 r0_3) (View.ld X34 r0_2) (View.ld X35 r0_4) (View.ld X36 r0_5)) p
      = kDL2 (mkW X1 X2 X3 X4 X5 X6 X7 X8 X9 X10 X11 X12 X13 X14 X15 X16 X17 X18 X19 X20 X21 X22 X23 X24 X25 X26 X27 X28 X29 X30 X31 X32 X33 X34 X35 X36) (Scalar.ofBits (F := Ideal) .f32 0x40000000#32) (Row X0 p) := by
  rw [row_pay14, row_pay13, n_upL2]
  simp only [ld_r0_0, ld_r0_2, ld_r0_3, ld_r0_4, ld_r0_5, ld_r0_8, ld_r0_9, ld_r0_10, mat_ld_r0_1, mat_ld_r0_6, mat_ld_r0_7, mat_pay16]
  rfl

/-- Downward, the third point node. -/
theorem n_dP3 (p : Fin 1024) :
    Row (k0_pay17 (F := Ideal) (k0_pay15 (k0_pay9 (k0_pay8 (View.ld X0 r0_0) (k0_pay7 (k0_pay5 (k0_pay2 (View.ld X0 r0_0) (View.ld X5 r0_1) (View.ld X6 r0_2) (View.ld X7 r0_3) (View.ld X8 r0_2) (View.ld X9 r0_4) (View.ld X10 r0_5)) (View.ld X19 r0_6) (View.ld X19 r0_7)) (View.ld X20 r0_2) (View.ld X21 r0_3) (View.ld X22 r0_2) (View.ld X23 r0_3) (View.ld X24 r0_2) (View.ld X25 r0_4) (View.ld X26 r0_5) (View.ld X1 r0_8)) (View.ld X2 r0_5) (View.ld X3 r0_8) (View.ld X4 r0_5) (View.ld X5 r0_9) (View.ld X6 r0_2) (View.ld X7 r0_3) (View.ld X8 r0_2) (View.ld X9 r0_4)) (View.ld X10 r0_5)) (k0_pay13 (k0_pay10 (k0_pay2 (View.ld X0 r0_0) (View.ld X5 r0_1) (View.ld X6 r0_2) (View.ld X7 r0_3) (View.ld X8 r0_2) (View.ld X9 r0_4) (View.ld X10 r0_5)) (k0_pay8 (View.ld X0 r0_0) (k0_pay7 (k0_pay5 (k0_pay2 (View.ld X0 r0_0) (View.ld X5 r0_1) (View.ld X6 r0_2) (View.ld X7 r0_3) (View.ld X8 r0_2) (View.ld X9 r0_4) (View.ld X10 r0_5)) (View.ld X19 r0_6) (View.ld X19 r0_7)) (View.ld X20 r0_2) (View.ld X21 r0_3) (View.ld X22 r0_2) (View.ld X23 r0_3) (View.ld X24 r0_2) (View.ld X25 r0_4) (View.ld X26 r0_5) (View.ld X1 r0_8)) (View.ld X2 r0_5) (View.ld X3 r0_8) (View.ld X4 r0_5) (View.ld X5 r0_9) (View.ld X6 r0_2) (View.ld X7 r0_3) (View.ld X8 r0_2) (View.ld X9 r0_4)) (View.ld X10 r0_5) (View.ld X11 r0_10) (View.ld X12 r0_2) (View.ld X13 r0_3) (View.ld X14 r0_2) (View.ld X15 r0_3) (View.ld X16 r0_2) (View.ld X17 r0_4)) (k0_pay11 (View.ld X18 r0_5)) (View.ld X31 r0_6) (View.ld X32 r0_2)) (View.ld X33 r0_3) (View.ld X34 r0_2) (View.ld X35 r0_4) (View.ld X36 r0_5) (View.ld X27 r0_8) (View.ld X28 r0_5) (View.ld X29 r0_8) (View.ld X30 r0_5)) (k0_pay16 (View.ld X31 r0_10)) (View.ld X32 r0_2) (View.ld X33 r0_3) (View.ld X34 r0_2) (View.ld X35 r0_4) (View.ld X36 r0_5)) p
      = kDP3 (mkW X1 X2 X3 X4 X5 X6 X7 X8 X9 X10 X11 X12 X13 X14 X15 X16 X17 X18 X19 X20 X21 X22 X23 X24 X25 X26 X27 X28 X29 X30 X31 X32 X33 X34 X35 X36) (Scalar.ofBits (F := Ideal) .f32 0x40000000#32) (Row X0 p) := by
  rw [row_pay17, row_pay15, n_upP3, n_dL2]
  simp only [ld_r0_0, ld_r0_2, ld_r0_3, ld_r0_4, ld_r0_5, ld_r0_8, ld_r0_9, ld_r0_10, mat_ld_r0_1, mat_ld_r0_6, mat_ld_r0_7, mat_pay16]
  rfl

/-- Downward, the circle node. -/
theorem n_dC1 (p : Fin 1024) :
    Row (k0_pay20 (F := Ideal) (k0_pay6 (k0_pay5 (k0_pay2 (View.ld X0 r0_0) (View.ld X5 r0_1) (View.ld X6 r0_2) (View.ld X7 r0_3) (View.ld X8 r0_2) (View.ld X9 r0_4) (View.ld X10 r0_5)) (View.ld X19 r0_6) (View.ld X19 r0_7)) (View.ld X20 r0_2) (View.ld X21 r0_3) (View.ld X22 r0_2) (View.ld X23 r0_3) (View.ld X24 r0_2) (View.ld X25 r0_4) (View.ld X26 r0_5)) (k0_pay18 (k0_pay15 (k0_pay9 (k0_pay8 (View.ld X0 r0_0) (k0_pay7 (k0_pay5 (k0_pay2 (View.ld X0 r0_0) (View.ld X5 r0_1) (View.ld X6 r0_2) (View.ld X7 r0_3) (View.ld X8 r0_2) (View.ld X9 r0_4) (View.ld X10 r0_5)) (View.ld X19 r0_6) (View.ld X19 r0_7)) (View.ld X20 r0_2) (View.ld X21 r0_3) (View.ld X22 r0_2) (View.ld X23 r0_3) (View.ld X24 r0_2) (View.ld X25 r0_4) (View.ld X26 r0_5) (View.ld X1 r0_8)) (View.ld X2 r0_5) (View.ld X3 r0_8) (View.ld X4 r0_5) (View.ld X5 r0_9) (View.ld X6 r0_2) (View.ld X7 r0_3) (View.ld X8 r0_2) (View.ld X9 r0_4)) (View.ld X10 r0_5)) (k0_pay13 (k0_pay10 (k0_pay2 (View.ld X0 r0_0) (View.ld X5 r0_1) (View.ld X6 r0_2) (View.ld X7 r0_3) (View.ld X8 r0_2) (View.ld X9 r0_4) (View.ld X10 r0_5)) (k0_pay8 (View.ld X0 r0_0) (k0_pay7 (k0_pay5 (k0_pay2 (View.ld X0 r0_0) (View.ld X5 r0_1) (View.ld X6 r0_2) (View.ld X7 r0_3) (View.ld X8 r0_2) (View.ld X9 r0_4) (View.ld X10 r0_5)) (View.ld X19 r0_6) (View.ld X19 r0_7)) (View.ld X20 r0_2) (View.ld X21 r0_3) (View.ld X22 r0_2) (View.ld X23 r0_3) (View.ld X24 r0_2) (View.ld X25 r0_4) (View.ld X26 r0_5) (View.ld X1 r0_8)) (View.ld X2 r0_5) (View.ld X3 r0_8) (View.ld X4 r0_5) (View.ld X5 r0_9) (View.ld X6 r0_2) (View.ld X7 r0_3) (View.ld X8 r0_2) (View.ld X9 r0_4)) (View.ld X10 r0_5) (View.ld X11 r0_10) (View.ld X12 r0_2) (View.ld X13 r0_3) (View.ld X14 r0_2) (View.ld X15 r0_3) (View.ld X16 r0_2) (View.ld X17 r0_4)) (k0_pay11 (View.ld X18 r0_5)) (View.ld X31 r0_6) (View.ld X32 r0_2)) (View.ld X33 r0_3) (View.ld X34 r0_2) (View.ld X35 r0_4) (View.ld X36 r0_5) (View.ld X27 r0_8) (View.ld X28 r0_5) (View.ld X29 r0_8) (View.ld X30 r0_5)) (k0_pay16 (View.ld X31 r0_10)) (View.ld X32 r0_2) (View.ld X33 r0_3) (View.ld X34 r0_2) (View.ld X35 r0_4) (View.ld X36 r0_5) (View.ld X27 r0_8) (View.ld X28 r0_5) (View.ld X29 r0_8)) (k0_pay19 (View.ld X30 r0_5)) (View.ld X31 r0_10) (View.ld X32 r0_2) (View.ld X33 r0_3) (View.ld X34 r0_2) (View.ld X35 r0_4) (View.ld X36 r0_5)) p
      = kDC1 (mkW X1 X2 X3 X4 X5 X6 X7 X8 X9 X10 X11 X12 X13 X14 X15 X16 X17 X18 X19 X20 X21 X22 X23 X24 X25 X26 X27 X28 X29 X30 X31 X32 X33 X34 X35 X36) (Scalar.ofBits (F := Ideal) .f32 0x40000000#32) (Row X0 p) := by
  rw [row_pay20, row_pay18, n_upC1, n_dP3]
  simp only [ld_r0_0, ld_r0_2, ld_r0_3, ld_r0_4, ld_r0_5, ld_r0_8, ld_r0_9, ld_r0_10, mat_ld_r0_1, mat_ld_r0_6, mat_ld_r0_7, mat_pay16]
  rfl

/-- Downward, the first point node. -/
theorem n_dP1 (p : Fin 1024) :
    Row (k0_pay22 (F := Ideal) (k0_pay2 (View.ld X0 r0_0) (View.ld X5 r0_1) (View.ld X6 r0_2) (View.ld X7 r0_3) (View.ld X8 r0_2) (View.ld X9 r0_4) (View.ld X10 r0_5)) (k0_pay21 (k0_pay6 (k0_pay5 (k0_pay2 (View.ld X0 r0_0) (View.ld X5 r0_1) (View.ld X6 r0_2) (View.ld X7 r0_3) (View.ld X8 r0_2) (View.ld X9 r0_4) (View.ld X10 r0_5)) (View.ld X19 r0_6) (View.ld X19 r0_7)) (View.ld X20 r0_2) (View.ld X21 r0_3) (View.ld X22 r0_2) (View.ld X23 r0_3) (View.ld X24 r0_2) (View.ld X25 r0_4) (View.ld X26 r0_5)) (k0_pay12 (k0_pay4 (k0_pay3 (View.ld X0 r0_0) (View.ld X5 r0_1) (View.ld X6 r0_2) (View.ld X7 r0_3) (View.ld X8 r0_2) (View.ld X9 r0_4) (View.ld X10 r0_5) (View.ld X11 r0_6) (View.ld X11 r0_7)) (View.ld X12 r0_2) (View.ld X13 r0_3) (View.ld X14 r0_2) (View.ld X15 r0_3) (View.ld X16 r0_2) (View.ld X17 r0_4) (View.ld X18 r0_5)) (View.ld X31 r0_6) (View.ld X32 r0_2) (View.ld X33 r0_3) (View.ld X34 r0_2) (View.ld X35 r0_4) (View.ld X36 r0_5)) (k0_pay14 (k0_pay13 (k0_pay10 (k0_pay2 (View.ld X0 r0_0) (View.ld X5 r0_1) (View.ld X6 r0_2) (View.ld X7 r0_3) (View.ld X8 r0_2) (View.ld X9 r0_4) (View.ld X10 r0_5)) (k0_pay8 (View.ld X0 r0_0) (k0_pay7 (k0_pay5 (k0_pay2 (View.ld X0 r0_0) (View.ld X5 r0_1) (View.ld X6 r0_2) (View.ld X7 r0_3) (View.ld X8 r0_2) (View.ld X9 r0_4) (View.ld X10 r0_5)) (View.ld X19 r0_6) (View.ld X19 r0_7)) (View.ld X20 r0_2) (View.ld X21 r0_3) (View.ld X22 r0_2) (View.ld X23 r0_3) (View.ld X24 r0_2) (View.ld X25 r0_4) (View.ld X26 r0_5) (View.ld X1 r0_8)) (View.ld X2 r0_5) (View.ld X3 r0_8) (View.ld X4 r0_5) (View.ld X5 r0_9) (View.ld X6 r0_2) (View.ld X7 r0_3) (View.ld X8 r0_2) (View.ld X9 r0_4)) (View.ld X10 r0_5) (View.ld X11 r0_10) (View.ld X12 r0_2) (View.ld X13 r0_3) (View.ld X14 r0_2) (View.ld X15 r0_3) (View.ld X16 r0_2) (View.ld X17 r0_4)) (k0_pay11 (View.ld X18 r0_5)) (View.ld X31 r0_6) (View.ld X32 r0_2)) (View.ld X33 r0_3) (View.ld X34 r0_2) (View.ld X35 r0_4) (View.ld X36 r0_5)) (k0_pay18 (k0_pay15 (k0_pay9 (k0_pay8 (View.ld X0 r0_0) (k0_pay7 (k0_pay5 (k0_pay2 (View.ld X0 r0_0) (View.ld X5 r0_1) (View.ld X6 r0_2) (View.ld X7 r0_3) (View.ld X8 r0_2) (View.ld X9 r0_4) (View.ld X10 r0_5)) (View.ld X19 r0_6) (View.ld X19 r0_7)) (View.ld X20 r0_2) (View.ld X21 r0_3) (View.ld X22 r0_2) (View.ld X23 r0_3) (View.ld X24 r0_2) (View.ld X25 r0_4) (View.ld X26 r0_5) (View.ld X1 r0_8)) (View.ld X2 r0_5) (View.ld X3 r0_8) (View.ld X4 r0_5) (View.ld X5 r0_9) (View.ld X6 r0_2) (View.ld X7 r0_3) (View.ld X8 r0_2) (View.ld X9 r0_4)) (View.ld X10 r0_5)) (k0_pay13 (k0_pay10 (k0_pay2 (View.ld X0 r0_0) (View.ld X5 r0_1) (View.ld X6 r0_2) (View.ld X7 r0_3) (View.ld X8 r0_2) (View.ld X9 r0_4) (View.ld X10 r0_5)) (k0_pay8 (View.ld X0 r0_0) (k0_pay7 (k0_pay5 (k0_pay2 (View.ld X0 r0_0) (View.ld X5 r0_1) (View.ld X6 r0_2) (View.ld X7 r0_3) (View.ld X8 r0_2) (View.ld X9 r0_4) (View.ld X10 r0_5)) (View.ld X19 r0_6) (View.ld X19 r0_7)) (View.ld X20 r0_2) (View.ld X21 r0_3) (View.ld X22 r0_2) (View.ld X23 r0_3) (View.ld X24 r0_2) (View.ld X25 r0_4) (View.ld X26 r0_5) (View.ld X1 r0_8)) (View.ld X2 r0_5) (View.ld X3 r0_8) (View.ld X4 r0_5) (View.ld X5 r0_9) (View.ld X6 r0_2) (View.ld X7 r0_3) (View.ld X8 r0_2) (View.ld X9 r0_4)) (View.ld X10 r0_5) (View.ld X11 r0_10) (View.ld X12 r0_2) (View.ld X13 r0_3) (View.ld X14 r0_2) (View.ld X15 r0_3) (View.ld X16 r0_2) (View.ld X17 r0_4)) (k0_pay11 (View.ld X18 r0_5)) (View.ld X31 r0_6) (View.ld X32 r0_2)) (View.ld X33 r0_3) (View.ld X34 r0_2) (View.ld X35 r0_4) (View.ld X36 r0_5) (View.ld X27 r0_8) (View.ld X28 r0_5) (View.ld X29 r0_8) (View.ld X30 r0_5)) (k0_pay16 (View.ld X31 r0_10)) (View.ld X32 r0_2) (View.ld X33 r0_3) (View.ld X34 r0_2) (View.ld X35 r0_4) (View.ld X36 r0_5) (View.ld X27 r0_8) (View.ld X28 r0_5) (View.ld X29 r0_8)) (k0_pay19 (View.ld X30 r0_5)) (View.ld X31 r0_10) (View.ld X32 r0_2) (View.ld X33 r0_3) (View.ld X34 r0_2) (View.ld X35 r0_4) (View.ld X36 r0_5) (View.ld X27 r0_8)) (View.ld X28 r0_5) (Scalar.ofBits .f32 0x40800000#32) (View.ld X29 r0_8) (View.ld X30 r0_5) (View.ld X31 r0_10) (View.ld X32 r0_2) (View.ld X33 r0_3) (View.ld X34 r0_2) (View.ld X35 r0_4) (View.ld X36 r0_5)) p
      = kDP1 (mkW X1 X2 X3 X4 X5 X6 X7 X8 X9 X10 X11 X12 X13 X14 X15 X16 X17 X18 X19 X20 X21 X22 X23 X24 X25 X26 X27 X28 X29 X30 X31 X32 X33 X34 X35 X36) (Scalar.ofBits (F := Ideal) .f32 0x40000000#32) (Scalar.ofBits (F := Ideal) .f32 0x40800000#32) (Row X0 p) := by
  rw [row_pay22, row_pay21, n_upP1, n_dL1, n_dC1, n_dL2]
  simp only [ld_r0_0, ld_r0_2, ld_r0_3, ld_r0_4, ld_r0_5, ld_r0_8, ld_r0_9, ld_r0_10, mat_ld_r0_1, mat_ld_r0_6, mat_ld_r0_7, mat_pay16]
  rfl

/-! ## The eight slabs -/

/-- A slab that has the kernel's composition as its rows agrees with the block function on its rectangle. -/
theorem slab_ok (w : S1x1024x128.Idx → EReal) (s : Fin 8)
    (inb : ∀ a, (![s.val, 0, 0] : Fin 3 → Nat) a + S1x1024x128.size a ≤ S8x1024x128.size a)
    (h : ∀ (p : Fin 1024) (q : Fin 128), w (ix3 (0 : Fin 1) p q) = kernOut (mkW X1 X2 X3 X4 X5 X6 X7 X8 X9 X10 X11 X12 X13 X14 X15 X16 X17 X18 X19 X20 X21 X22 X23 X24 X25 X26 X27 X28 X29 X30 X31 X32 X33 X34 X35 X36) (Scalar.ofBits (F := Ideal) .f32 0x40000000#32) (Scalar.ofBits (F := Ideal) .f32 0x40800000#32) (Row X0 p) s q)
    (x : S1x1024x128.Idx) :
    w x = Gblk X0 X1 X2 X3 X4 X5 X6 X7 X8 X9 X10 X11 X12 X13 X14 X15 X16 X17 X18 X19 X20 X21 X22 X23 X24 X25 X26 X27 X28 X29 X30 X31 X32 X33 X34 X35 X36 ((Rect.unit (s := S8x1024x128) ![s.val, 0, 0] S1x1024x128.size inb).emb x) := by
  obtain ⟨a, p', q', rfl⟩ : ∃ (a : Fin 1) (p' : Fin 1024) (q' : Fin 128), x = ix3 a p' q' := ⟨x 0, x 1, x 2, eq_ix3 x⟩
  obtain rfl : a = 0 := Subsingleton.elim _ _
  rw [slab_emb, Gblk_apply]
  exact h p' q'

/-- Entry (s, p, q) of the output block after the body. -/
theorem out_rows (s : Fin 8) (p : Fin 1024) (q : Fin 128) :
    out0_37 (F := Ideal) X0 X1 X2 X3 X4 X5 X6 X7 X8 X9 X10 X11 X12 X13 X14 X15 X16 X17 X18 X19 X20 X21 X22 X23 X24 X25 X26 X27 X28 X29 X30 X31 X32 X33 X34 X35 X36 (ix3 s p q)
      = kernOut (mkW X1 X2 X3 X4 X5 X6 X7 X8 X9 X10 X11 X12 X13 X14 X15 X16 X17 X18 X19 X20 X21 X22 X23 X24 X25 X26 X27 X28 X29 X30 X31 X32 X33 X34 X35 X36) (Scalar.ofBits (F := Ideal) .f32 0x40000000#32) (Scalar.ofBits (F := Ideal) .f32 0x40800000#32) (Row X0 p) s q := by
  unfold out0_37
  refine (View.canon_apply_of_pieces (Gblk X0 X1 X2 X3 X4 X5 X6 X7 X8 X9 X10 X11 X12 X13 X14 X15 X16 X17 X18 X19 X20 X21 X22 X23 X24 X25 X26 X27 X28 X29 X30 X31 X32 X33 X34 X35 X36) _ ?_ (ix3 s p q) (cover0_37 _ _ _ _ _ _ _ _ (ix3 s p q))).trans (Gblk_apply X0 X1 X2 X3 X4 X5 X6 X7 X8 X9 X10 X11 X12 X13 X14 X15 X16 X17 X18 X19 X20 X21 X22 X23 X24 X25 X26 X27 X28 X29 X30 X31 X32 X33 X34 X35 X36 s p q)
  intro pc hpc
  simp only [List.mem_cons, List.not_mem_nil, or_false] at hpc
  rcases hpc with rfl | rfl | rfl | rfl | rfl | rfl | rfl | rfl
  · intro x
    refine slab_ok X0 X1 X2 X3 X4 X5 X6 X7 X8 X9 X10 X11 X12 X13 X14 X15 X16 X17 X18 X19 X20 X21 X22 X23 X24 X25 X26 X27 X28 X29 X30 X31 X32 X33 X34 X35 X36 _ 7 Facts₀.inb_S8x1024x128_S1x1024x128_7_0_0 (fun p' q' => ?_) x
    exact (slab_apply _ _ p' q').trans (congrFun (n_dL2 X0 X1 X2 X3 X4 X5 X6 X7 X8 X9 X10 X11 X12 X13 X14 X15 X16 X17 X18 X19 X20 X21 X22 X23 X24 X25 X26 X27 X28 X29 X30 X31 X32 X33 X34 X35 X36 p') q')
  · intro x
    refine slab_ok X0 X1 X2 X3 X4 X5 X6 X7 X8 X9 X10 X11 X12 X13 X14 X15 X16 X17 X18 X19 X20 X21 X22 X23 X24 X25 X26 X27 X28 X29 X30 X31 X32 X33 X34 X35 X36 _ 6 Facts₀.inb_S8x1024x128_S1x1024x128_6_0_0 (fun p' q' => ?_) x
    exact (slab_apply _ _ p' q').trans (congrFun (n_dL2 X0 X1 X2 X3 X4 X5 X6 X7 X8 X9 X10 X11 X12 X13 X14 X15 X16 X17 X18 X19 X20 X21 X22 X23 X24 X25 X26 X27 X28 X29 X30 X31 X32 X33 X34 X35 X36 p') q')
  · intro x
    refine slab_ok X0 X1 X2 X3 X4 X5 X6 X7 X8 X9 X10 X11 X12 X13 X14 X15 X16 X17 X18 X19 X20 X21 X22 X23 X24 X25 X26 X27 X28 X29 X30 X31 X32 X33 X34 X35 X36 _ 5 Facts₀.inb_S8x1024x128_S1x1024x128_5_0_0 (fun p' q' => ?_) x
    exact (slab_apply _ _ p' q').trans (congrFun (n_dP3 X0 X1 X2 X3 X4 X5 X6 X7 X8 X9 X10 X11 X12 X13 X14 X15 X16 X17 X18 X19 X20 X21 X22 X23 X24 X25 X26 X27 X28 X29 X30 X31 X32 X33 X34 X35 X36 p') q')
  · intro x
    refine slab_ok X0 X1 X2 X3 X4 X5 X6 X7 X8 X9 X10 X11 X12 X13 X14 X15 X16 X17 X18 X19 X20 X21 X22 X23 X24 X25 X26 X27 X28 X29 X30 X31 X32 X33 X34 X35 X36 _ 4 Facts₀.inb_S8x1024x128_S1x1024x128_4_0_0 (fun p' q' => ?_) x
    exact (slab_apply _ _ p' q').trans (congrFun (n_dC1 X0 X1 X2 X3 X4 X5 X6 X7 X8 X9 X10 X11 X12 X13 X14 X15 X16 X17 X18 X19 X20 X21 X22 X23 X24 X25 X26 X27 X28 X29 X30 X31 X32 X33 X34 X35 X36 p') q')
  · intro x
    refine slab_ok X0 X1 X2 X3 X4 X5 X6 X7 X8 X9 X10 X11 X12 X13 X14 X15 X16 X17 X18 X19 X20 X21 X22 X23 X24 X25 X26 X27 X28 X29 X30 X31 X32 X33 X34 X35 X36 _ 3 Facts₀.inb_S8x1024x128_S1x1024x128_3_0_0 (fun p' q' => ?_) x
    exact (slab_apply _ _ p' q').trans (congrFun (n_dC1 X0 X1 X2 X3 X4 X5 X6 X7 X8 X9 X10 X11 X12 X13 X14 X15 X16 X17 X18 X19 X20 X21 X22 X23 X24 X25 X26 X27 X28 X29 X30 X31 X32 X33 X34 X35 X36 p') q')
  · intro x
    refine slab_ok X0 X1 X2 X3 X4 X5 X6 X7 X8 X9 X10 X11 X12 X13 X14 X15 X16 X17 X18 X19 X20 X21 X22 X23 X24 X25 X26 X27 X28 X29 X30 X31 X32 X33 X34 X35 X36 _ 2 Facts₀.inb_S8x1024x128_S1x1024x128_2_0_0 (fun p' q' => ?_) x
    exact (slab_apply _ _ p' q').trans (congrFun (n_dL1 X0 X1 X2 X3 X4 X5 X6 X7 X8 X9 X10 X11 X12 X13 X14 X15 X16 X17 X18 X19 X20 X21 X22 X23 X24 X25 X26 X27 X28 X29 X30 X31 X32 X33 X34 X35 X36 p') q')
  · intro x
    refine slab_ok X0 X1 X2 X3 X4 X5 X6 X7 X8 X9 X10 X11 X12 X13 X14 X15 X16 X17 X18 X19 X20 X21 X22 X23 X24 X25 X26 X27 X28 X29 X30 X31 X32 X33 X34 X35 X36 _ 1 Facts₀.inb_S8x1024x128_S1x1024x128_1_0_0 (fun p' q' => ?_) x
    exact (slab_apply _ _ p' q').trans (congrFun (n_dP1 X0 X1 X2 X3 X4 X5 X6 X7 X8 X9 X10 X11 X12 X13 X14 X15 X16 X17 X18 X19 X20 X21 X22 X23 X24 X25 X26 X27 X28 X29 X30 X31 X32 X33 X34 X35 X36 p') q')
  · intro x
    refine slab_ok X0 X1 X2 X3 X4 X5 X6 X7 X8 X9 X10 X11 X12 X13 X14 X15 X16 X17 X18 X19 X20 X21 X22 X23 X24 X25 X26 X27 X28 X29 X30 X31 X32 X33 X34 X35 X36 _ 0 Facts₀.inb_S8x1024x128_S1x1024x128_0_0_0 (fun p' q' => ?_) x
    exact (slab_apply _ _ p' q').trans (congrFun (n_dP1 X0 X1 X2 X3 X4 X5 X6 X7 X8 X9 X10 X11 X12 X13 X14 X15 X16 X17 X18 X19 X20 X21 X22 X23 X24 X25 X26 X27 X28 X29 X30 X31 X32 X33 X34 X35 X36 p') q')

end Cert.KernValue

end
-- ==== Proof.RefRunArgs.lean ====
/-
  The arguments after the reference's operations.

  Each of the program's 458 operations writes one buffer, the buffer of the value it defines, and those are the buffers of
  index 37 and above. The 37 arguments are the buffers of index 0 to 36: no operation writes them, so each still holds its
  launch contents after the whole line of operations. And no operation leaves the contents of its result undetermined.
-/
import proofs.«167402_j1125281431924_2_alg».proof.Proof.ReferenceOpsP

noncomputable section

namespace Cert.RefValue

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- An operation whose one written buffer is that of reference y, of index at least 37, writes only such buffers. -/
theorem hi_of_writes {op : HloOp τ sig (Elt F)} (y : Ref sig .tc) (hw : op.writes = {Proc.devRef .tc y}) (hy : 37 ≤ y.idx.val) :
    ∀ b ∈ op.writes, ∃ y : Ref sig .tc, b = Proc.devRef .tc y ∧ 37 ≤ y.idx.val :=
  fun b hb => ⟨y, Finset.mem_singleton.mp (hw ▸ hb), hy⟩

set_option maxRecDepth 40000 in
set_option maxHeartbeats 40000000 in
/-- Every operation of the program writes a buffer of index at least 37. -/
theorem ops_hi : (ops : List (HloOp τ sig (Elt F))).Forall fun op =>
    ∀ b ∈ op.writes, ∃ y : Ref sig .tc, b = Proc.devRef .tc y ∧ 37 ≤ y.idx.val :=
  ⟨
    hi_of_writes main_cst rfl (by decide), hi_of_writes main_v0 rfl (by decide), hi_of_writes main_v1 rfl (by decide), hi_of_writes main_v2 rfl (by decide),
    hi_of_writes main_v3 rfl (by decide), hi_of_writes main_v4 rfl (by decide), hi_of_writes main_v5 rfl (by decide), hi_of_writes main_call0_cst rfl (by decide),
    hi_of_writes main_call0_v0 rfl (by decide), hi_of_writes main_v6 rfl (by decide), hi_of_writes main_v7 rfl (by decide), hi_of_writes main_v8 rfl (by decide),
    hi_of_writes main_v9 rfl (by decide), hi_of_writes main_v10 rfl (by decide), hi_of_writes main_call1_cst rfl (by decide), hi_of_writes main_call1_v0 rfl (by decide),
    hi_of_writes main_v11 rfl (by decide), hi_of_writes main_v12 rfl (by decide), hi_of_writes main_v13 rfl (by decide), hi_of_writes main_v14 rfl (by decide),
    hi_of_writes main_v15 rfl (by decide), hi_of_writes main_cst_0 rfl (by decide), hi_of_writes main_v16 rfl (by decide), hi_of_writes main_v17 rfl (by decide),
    hi_of_writes main_v18 rfl (by decide), hi_of_writes main_v19 rfl (by decide), hi_of_writes main_v20 rfl (by decide), hi_of_writes main_v21 rfl (by decide),
    hi_of_writes main_call2_cst rfl (by decide), hi_of_writes main_call2_v0 rfl (by decide), hi_of_writes main_v22 rfl (by decide), hi_of_writes main_v23 rfl (by decide),
    hi_of_writes main_v24 rfl (by decide), hi_of_writes main_v25 rfl (by decide), hi_of_writes main_v26 rfl (by decide), hi_of_writes main_call3_cst rfl (by decide),
    hi_of_writes main_call3_v0 rfl (by decide), hi_of_writes main_v27 rfl (by decide), hi_of_writes main_v28 rfl (by decide), hi_of_writes main_v29 rfl (by decide),
    hi_of_writes main_v30 rfl (by decide), hi_of_writes main_v31 rfl (by decide), hi_of_writes main_v32 rfl (by decide), hi_of_writes main_v33 rfl (by decide),
    hi_of_writes main_v34 rfl (by decide), hi_of_writes main_v35 rfl (by decide), hi_of_writes main_v36 rfl (by decide), hi_of_writes main_call4_cst rfl (by decide),
    hi_of_writes main_call4_v0 rfl (by decide), hi_of_writes main_v37 rfl (by decide), hi_of_writes main_v38 rfl (by decide), hi_of_writes main_v39 rfl (by decide),
    hi_of_writes main_v40 rfl (by decide), hi_of_writes main_v41 rfl (by decide), hi_of_writes main_call5_cst rfl (by decide), hi_of_writes main_call5_v0 rfl (by decide),
    hi_of_writes main_v42 rfl (by decide), hi_of_writes main_v43 rfl (by decide), hi_of_writes main_v44 rfl (by decide), hi_of_writes main_v45 rfl (by decide),
    hi_of_writes main_v46 rfl (by decide), hi_of_writes main_call6_cst rfl (by decide), hi_of_writes main_call6_v0 rfl (by decide), hi_of_writes main_v47 rfl (by decide),
    hi_of_writes main_v48 rfl (by decide), hi_of_writes main_v49 rfl (by decide), hi_of_writes main_v50 rfl (by decide), hi_of_writes main_v51 rfl (by decide),
    hi_of_writes main_v52 rfl (by decide), hi_of_writes main_v53 rfl (by decide), hi_of_writes main_v54 rfl (by decide), hi_of_writes main_v55 rfl (by decide),
    hi_of_writes main_v56 rfl (by decide), hi_of_writes main_call7_cst rfl (by decide), hi_of_writes main_call7_v0 rfl (by decide), hi_of_writes main_v57 rfl (by decide),
    hi_of_writes main_v58 rfl (by decide), hi_of_writes main_v59 rfl (by decide), hi_of_writes main_v60 rfl (by decide), hi_of_writes main_v61 rfl (by decide),
    hi_of_writes main_call8_cst rfl (by decide), hi_of_writes main_call8_v0 rfl (by decide), hi_of_writes main_v62 rfl (by decide), hi_of_writes main_v63 rfl (by decide),
    hi_of_writes main_v64 rfl (by decide), hi_of_writes main_v65 rfl (by decide), hi_of_writes main_v66 rfl (by decide), hi_of_writes main_call9_cst rfl (by decide),
    hi_of_writes main_call9_v0 rfl (by decide), hi_of_writes main_v67 rfl (by decide), hi_of_writes main_v68 rfl (by decide), hi_of_writes main_v69 rfl (by decide),
    hi_of_writes main_v70 rfl (by decide), hi_of_writes main_v71 rfl (by decide), hi_of_writes main_v72 rfl (by decide), hi_of_writes main_v73 rfl (by decide),
    hi_of_writes main_v74 rfl (by decide), hi_of_writes main_v75 rfl (by decide), hi_of_writes main_v76 rfl (by decide), hi_of_writes main_call10_cst rfl (by decide),
    hi_of_writes main_call10_v0 rfl (by decide), hi_of_writes main_v77 rfl (by decide), hi_of_writes main_v78 rfl (by decide), hi_of_writes main_v79 rfl (by decide),
    hi_of_writes main_v80 rfl (by decide), hi_of_writes main_v81 rfl (by decide), hi_of_writes main_call11_cst rfl (by decide), hi_of_writes main_call11_v0 rfl (by decide),
    hi_of_writes main_v82 rfl (by decide), hi_of_writes main_v83 rfl (by decide), hi_of_writes main_v84 rfl (by decide), hi_of_writes main_v85 rfl (by decide),
    hi_of_writes main_v86 rfl (by decide), hi_of_writes main_call12_cst rfl (by decide), hi_of_writes main_call12_v0 rfl (by decide), hi_of_writes main_v87 rfl (by decide),
    hi_of_writes main_v88 rfl (by decide), hi_of_writes main_v89 rfl (by decide), hi_of_writes main_v90 rfl (by decide), hi_of_writes main_v91 rfl (by decide),
    hi_of_writes main_v92 rfl (by decide), hi_of_writes main_cst_1 rfl (by decide), hi_of_writes main_v93 rfl (by decide), hi_of_writes main_v94 rfl (by decide),
    hi_of_writes main_v95 rfl (by decide), hi_of_writes main_v96 rfl (by decide), hi_of_writes main_cst_2 rfl (by decide), hi_of_writes main_v97 rfl (by decide),
    hi_of_writes main_v98 rfl (by decide), hi_of_writes main_v99 rfl (by decide), hi_of_writes main_v100 rfl (by decide), hi_of_writes main_v101 rfl (by decide),
    hi_of_writes main_v102 rfl (by decide), hi_of_writes main_v103 rfl (by decide), hi_of_writes main_v104 rfl (by decide), hi_of_writes main_v105 rfl (by decide),
    hi_of_writes main_v106 rfl (by decide), hi_of_writes main_v107 rfl (by decide), hi_of_writes main_v108 rfl (by decide), hi_of_writes main_v109 rfl (by decide),
    hi_of_writes main_v110 rfl (by decide), hi_of_writes main_call13_cst rfl (by decide), hi_of_writes main_call13_v0 rfl (by decide), hi_of_writes main_v111 rfl (by decide),
    hi_of_writes main_v112 rfl (by decide), hi_of_writes main_v113 rfl (by decide), hi_of_writes main_v114 rfl (by decide), hi_of_writes main_v115 rfl (by decide),
    hi_of_writes main_call14_cst rfl (by decide), hi_of_writes main_call14_v0 rfl (by decide), hi_of_writes main_v116 rfl (by decide), hi_of_writes main_v117 rfl (by decide),
    hi_of_writes main_v118 rfl (by decide), hi_of_writes main_v119 rfl (by decide), hi_of_writes main_v120 rfl (by decide), hi_of_writes main_v121 rfl (by decide),
    hi_of_writes main_v122 rfl (by decide), hi_of_writes main_v123 rfl (by decide), hi_of_writes main_v124 rfl (by decide), hi_of_writes main_v125 rfl (by decide),
    hi_of_writes main_call15_cst rfl (by decide), hi_of_writes main_call15_v0 rfl (by decide), hi_of_writes main_v126 rfl (by decide), hi_of_writes main_v127 rfl (by decide),
    hi_of_writes main_v128 rfl (by decide), hi_of_writes main_v129 rfl (by decide), hi_of_writes main_v130 rfl (by decide), hi_of_writes main_call16_cst rfl (by decide),
    hi_of_writes main_call16_v0 rfl (by decide), hi_of_writes main_v131 rfl (by decide), hi_of_writes main_v132 rfl (by decide), hi_of_writes main_v133 rfl (by decide),
    hi_of_writes main_v134 rfl (by decide), hi_of_writes main_v135 rfl (by decide), hi_of_writes main_call17_cst rfl (by decide), hi_of_writes main_call17_v0 rfl (by decide),
    hi_of_writes main_v136 rfl (by decide), hi_of_writes main_v137 rfl (by decide), hi_of_writes main_v138 rfl (by decide), hi_of_writes main_v139 rfl (by decide),
    hi_of_writes main_v140 rfl (by decide), hi_of_writes main_v141 rfl (by decide), hi_of_writes main_v142 rfl (by decide), hi_of_writes main_v143 rfl (by decide),
    hi_of_writes main_v144 rfl (by decide), hi_of_writes main_v145 rfl (by decide), hi_of_writes main_call18_cst rfl (by decide), hi_of_writes main_call18_v0 rfl (by decide),
    hi_of_writes main_v146 rfl (by decide), hi_of_writes main_v147 rfl (by decide), hi_of_writes main_v148 rfl (by decide), hi_of_writes main_v149 rfl (by decide),
    hi_of_writes main_v150 rfl (by decide), hi_of_writes main_call19_cst rfl (by decide), hi_of_writes main_call19_v0 rfl (by decide), hi_of_writes main_v151 rfl (by decide),
    hi_of_writes main_v152 rfl (by decide), hi_of_writes main_v153 rfl (by decide), hi_of_writes main_v154 rfl (by decide), hi_of_writes main_v155 rfl (by decide),
    hi_of_writes main_call20_cst rfl (by decide), hi_of_writes main_call20_v0 rfl (by decide), hi_of_writes main_v156 rfl (by decide), hi_of_writes main_v157 rfl (by decide),
    hi_of_writes main_v158 rfl (by decide), hi_of_writes main_v159 rfl (by decide), hi_of_writes main_v160 rfl (by decide), hi_of_writes main_cst_3 rfl (by decide),
    hi_of_writes main_v161 rfl (by decide), hi_of_writes main_v162 rfl (by decide), hi_of_writes main_v163 rfl (by decide), hi_of_writes main_v164 rfl (by decide),
    hi_of_writes main_v165 rfl (by decide), hi_of_writes main_v166 rfl (by decide), hi_of_writes main_call21_cst rfl (by decide), hi_of_writes main_call21_v0 rfl (by decide),
    hi_of_writes main_v167 rfl (by decide), hi_of_writes main_v168 rfl (by decide), hi_of_writes main_v169 rfl (by decide), hi_of_writes main_v170 rfl (by decide),
    hi_of_writes main_v171 rfl (by decide), hi_of_writes main_call22_cst rfl (by decide), hi_of_writes main_call22_v0 rfl (by decide), hi_of_writes main_v172 rfl (by decide),
    hi_of_writes main_v173 rfl (by decide), hi_of_writes main_v174 rfl (by decide), hi_of_writes main_v175 rfl (by decide), hi_of_writes main_v176 rfl (by decide),
    hi_of_writes main_cst_4 rfl (by decide), hi_of_writes main_v177 rfl (by decide), hi_of_writes main_v178 rfl (by decide), hi_of_writes main_v179 rfl (by decide),
    hi_of_writes main_v180 rfl (by decide), hi_of_writes main_v181 rfl (by decide), hi_of_writes main_v182 rfl (by decide), hi_of_writes main_call23_cst rfl (by decide),
    hi_of_writes main_call23_v0 rfl (by decide), hi_of_writes main_v183 rfl (by decide), hi_of_writes main_v184 rfl (by decide), hi_of_writes main_v185 rfl (by decide),
    hi_of_writes main_v186 rfl (by decide), hi_of_writes main_v187 rfl (by decide), hi_of_writes main_call24_cst rfl (by decide), hi_of_writes main_call24_v0 rfl (by decide),
    hi_of_writes main_v188 rfl (by decide), hi_of_writes main_v189 rfl (by decide), hi_of_writes main_v190 rfl (by decide), hi_of_writes main_v191 rfl (by decide),
    hi_of_writes main_v192 rfl (by decide), hi_of_writes main_cst_5 rfl (by decide), hi_of_writes main_v193 rfl (by decide), hi_of_writes main_v194 rfl (by decide),
    hi_of_writes main_v195 rfl (by decide), hi_of_writes main_v196 rfl (by decide), hi_of_writes main_v197 rfl (by decide), hi_of_writes main_v198 rfl (by decide),
    hi_of_writes main_call25_cst rfl (by decide), hi_of_writes main_call25_v0 rfl (by decide), hi_of_writes main_v199 rfl (by decide), hi_of_writes main_v200 rfl (by decide),
    hi_of_writes main_v201 rfl (by decide), hi_of_writes main_v202 rfl (by decide), hi_of_writes main_v203 rfl (by decide), hi_of_writes main_call26_cst rfl (by decide),
    hi_of_writes main_call26_v0 rfl (by decide), hi_of_writes main_v204 rfl (by decide), hi_of_writes main_v205 rfl (by decide), hi_of_writes main_v206 rfl (by decide),
    hi_of_writes main_v207 rfl (by decide), hi_of_writes main_v208 rfl (by decide), hi_of_writes main_v209 rfl (by decide), hi_of_writes main_cst_6 rfl (by decide),
    hi_of_writes main_v210 rfl (by decide), hi_of_writes main_v211 rfl (by decide), hi_of_writes main_v212 rfl (by decide), hi_of_writes main_v213 rfl (by decide),
    hi_of_writes main_cst_7 rfl (by decide), hi_of_writes main_v214 rfl (by decide), hi_of_writes main_v215 rfl (by decide), hi_of_writes main_v216 rfl (by decide),
    hi_of_writes main_v217 rfl (by decide), hi_of_writes main_v218 rfl (by decide), hi_of_writes main_v219 rfl (by decide), hi_of_writes main_v220 rfl (by decide),
    hi_of_writes main_v221 rfl (by decide), hi_of_writes main_v222 rfl (by decide), hi_of_writes main_v223 rfl (by decide), hi_of_writes main_v224 rfl (by decide),
    hi_of_writes main_v225 rfl (by decide), hi_of_writes main_v226 rfl (by decide), hi_of_writes main_v227 rfl (by decide), hi_of_writes main_call27_cst rfl (by decide),
    hi_of_writes main_call27_v0 rfl (by decide), hi_of_writes main_v228 rfl (by decide), hi_of_writes main_v229 rfl (by decide), hi_of_writes main_v230 rfl (by decide),
    hi_of_writes main_v231 rfl (by decide), hi_of_writes main_v232 rfl (by decide), hi_of_writes main_call28_cst rfl (by decide), hi_of_writes main_call28_v0 rfl (by decide),
    hi_of_writes main_v233 rfl (by decide), hi_of_writes main_v234 rfl (by decide), hi_of_writes main_v235 rfl (by decide), hi_of_writes main_v236 rfl (by decide),
    hi_of_writes main_v237 rfl (by decide), hi_of_writes main_v238 rfl (by decide), hi_of_writes main_cst_8 rfl (by decide), hi_of_writes main_v239 rfl (by decide),
    hi_of_writes main_v240 rfl (by decide), hi_of_writes main_cst_9 rfl (by decide), hi_of_writes main_v241 rfl (by decide), hi_of_writes main_v242 rfl (by decide),
    hi_of_writes main_v243 rfl (by decide), hi_of_writes main_v244 rfl (by decide), hi_of_writes main_v245 rfl (by decide), hi_of_writes main_v246 rfl (by decide),
    hi_of_writes main_v247 rfl (by decide), hi_of_writes main_v248 rfl (by decide), hi_of_writes main_v249 rfl (by decide), hi_of_writes main_v250 rfl (by decide),
    hi_of_writes main_v251 rfl (by decide), hi_of_writes main_v252 rfl (by decide), hi_of_writes main_v253 rfl (by decide), hi_of_writes main_v254 rfl (by decide),
    hi_of_writes main_call29_cst rfl (by decide), hi_of_writes main_call29_v0 rfl (by decide), hi_of_writes main_v255 rfl (by decide), hi_of_writes main_v256 rfl (by decide),
    hi_of_writes main_v257 rfl (by decide), hi_of_writes main_v258 rfl (by decide), hi_of_writes main_v259 rfl (by decide), hi_of_writes main_call30_cst rfl (by decide),
    hi_of_writes main_call30_v0 rfl (by decide), hi_of_writes main_v260 rfl (by decide), hi_of_writes main_v261 rfl (by decide), hi_of_writes main_v262 rfl (by decide),
    hi_of_writes main_v263 rfl (by decide), hi_of_writes main_v264 rfl (by decide), hi_of_writes main_v265 rfl (by decide), hi_of_writes main_cst_10 rfl (by decide),
    hi_of_writes main_v266 rfl (by decide), hi_of_writes main_v267 rfl (by decide), hi_of_writes main_cst_11 rfl (by decide), hi_of_writes main_v268 rfl (by decide),
    hi_of_writes main_v269 rfl (by decide), hi_of_writes main_v270 rfl (by decide), hi_of_writes main_v271 rfl (by decide), hi_of_writes main_v272 rfl (by decide),
    hi_of_writes main_v273 rfl (by decide), hi_of_writes main_v274 rfl (by decide), hi_of_writes main_v275 rfl (by decide), hi_of_writes main_v276 rfl (by decide),
    hi_of_writes main_v277 rfl (by decide), hi_of_writes main_v278 rfl (by decide), hi_of_writes main_v279 rfl (by decide), hi_of_writes main_v280 rfl (by decide),
    hi_of_writes main_v281 rfl (by decide), hi_of_writes main_call31_cst rfl (by decide), hi_of_writes main_call31_v0 rfl (by decide), hi_of_writes main_v282 rfl (by decide),
    hi_of_writes main_v283 rfl (by decide), hi_of_writes main_v284 rfl (by decide), hi_of_writes main_v285 rfl (by decide), hi_of_writes main_v286 rfl (by decide),
    hi_of_writes main_call32_cst rfl (by decide), hi_of_writes main_call32_v0 rfl (by decide), hi_of_writes main_v287 rfl (by decide), hi_of_writes main_v288 rfl (by decide),
    hi_of_writes main_v289 rfl (by decide), hi_of_writes main_v290 rfl (by decide), hi_of_writes main_v291 rfl (by decide), hi_of_writes main_v292 rfl (by decide),
    hi_of_writes main_cst_12 rfl (by decide), hi_of_writes main_v293 rfl (by decide), hi_of_writes main_v294 rfl (by decide), hi_of_writes main_v295 rfl (by decide),
    hi_of_writes main_v296 rfl (by decide), hi_of_writes main_v297 rfl (by decide), hi_of_writes main_v298 rfl (by decide), hi_of_writes main_v299 rfl (by decide),
    hi_of_writes main_v300 rfl (by decide), hi_of_writes main_cst_13 rfl (by decide), hi_of_writes main_v301 rfl (by decide), hi_of_writes main_v302 rfl (by decide),
    hi_of_writes main_v303 rfl (by decide), hi_of_writes main_v304 rfl (by decide), hi_of_writes main_v305 rfl (by decide), hi_of_writes main_v306 rfl (by decide),
    hi_of_writes main_v307 rfl (by decide), hi_of_writes main_v308 rfl (by decide), hi_of_writes main_v309 rfl (by decide), hi_of_writes main_v310 rfl (by decide),
    hi_of_writes main_v311 rfl (by decide), hi_of_writes main_v312 rfl (by decide), hi_of_writes main_v313 rfl (by decide), hi_of_writes main_v314 rfl (by decide),
    hi_of_writes main_call33_cst rfl (by decide), hi_of_writes main_call33_v0 rfl (by decide), hi_of_writes main_v315 rfl (by decide), hi_of_writes main_v316 rfl (by decide),
    hi_of_writes main_v317 rfl (by decide), hi_of_writes main_v318 rfl (by decide), hi_of_writes main_v319 rfl (by decide), hi_of_writes main_call34_cst rfl (by decide),
    hi_of_writes main_call34_v0 rfl (by decide), hi_of_writes main_v320 rfl (by decide), hi_of_writes main_v321 rfl (by decide), hi_of_writes main_v322 rfl (by decide),
    hi_of_writes main_v323 rfl (by decide), hi_of_writes main_v324 rfl (by decide), hi_of_writes main_v325 rfl (by decide), hi_of_writes main_cst_14 rfl (by decide),
    hi_of_writes main_v326 rfl (by decide), hi_of_writes main_v327 rfl (by decide), hi_of_writes main_v328 rfl (by decide), hi_of_writes main_v329 rfl (by decide),
    hi_of_writes main_v330 rfl (by decide), hi_of_writes main_v331 rfl (by decide), hi_of_writes main_v332 rfl (by decide), hi_of_writes main_v333 rfl (by decide),
    hi_of_writes main_cst_15 rfl (by decide), hi_of_writes main_v334 rfl (by decide), hi_of_writes main_v335 rfl (by decide), hi_of_writes main_v336 rfl (by decide),
    hi_of_writes main_v337 rfl (by decide), hi_of_writes main_v338 rfl (by decide), hi_of_writes main_v339 rfl (by decide), hi_of_writes main_v340 rfl (by decide),
    hi_of_writes main_v341 rfl (by decide), hi_of_writes main_v342 rfl (by decide), hi_of_writes main_v343 rfl (by decide), hi_of_writes main_v344 rfl (by decide),
    hi_of_writes main_v345 rfl (by decide), hi_of_writes main_v346 rfl (by decide), hi_of_writes main_v347 rfl (by decide), hi_of_writes main_call35_cst rfl (by decide),
    hi_of_writes main_call35_v0 rfl (by decide), hi_of_writes main_v348 rfl (by decide), hi_of_writes main_v349 rfl (by decide), hi_of_writes main_v350 rfl (by decide),
    hi_of_writes main_v351 rfl (by decide), hi_of_writes main_v352 rfl (by decide), hi_of_writes main_call36_cst rfl (by decide), hi_of_writes main_call36_v0 rfl (by decide),
    hi_of_writes main_v353 rfl (by decide), hi_of_writes main_v354 rfl (by decide), hi_of_writes main_v355 rfl (by decide), hi_of_writes main_v356 rfl (by decide),
    hi_of_writes main_v357 rfl (by decide), hi_of_writes main_v358 rfl (by decide), hi_of_writes main_v359 rfl (by decide), hi_of_writes main_v360 rfl (by decide),
    hi_of_writes main_v361 rfl (by decide), hi_of_writes main_v362 rfl (by decide), hi_of_writes main_v363 rfl (by decide), hi_of_writes main_v364 rfl (by decide),
    hi_of_writes main_v365 rfl (by decide), hi_of_writes main_v366 rfl (by decide)⟩

/-- A buffer of index below 37 holds after the operations what it held before: none of them writes it. -/
theorem after_arg (V : Valuation τ sig (Elt F)) (r : Ref sig .tc) (hr : r.idx.val < 37) :
    after (ops (F := F)) V (Proc.devRef .tc r) = V (Proc.devRef .tc r) :=
  after_of_forall_not_mem ops V fun op hop hb => by
    obtain ⟨y, hy, h37⟩ := (List.forall_iff_forall_mem.mp ops_hi) op hop _ hb
    have e : r = y := Proc.devRef_injective _ hy
    subst e
    omega

set_option maxRecDepth 40000 in
set_option maxHeartbeats 40000000 in
/-- Every operation determines the contents of the buffer it writes. -/
theorem ops_fresh : (ops : List (HloOp τ sig (Elt F))).Forall fun op => op.fresh = ∅ :=
  ⟨
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl⟩

end Cert.RefValue

end
-- ==== Proof.RefRunRes.lean ====
/-
  The result buffer after the reference's operations is the program's composed term of the arguments' launch contents.

  The contents after the line of operations are a fold: each operation rewrites the buffer it writes to its function of the
  contents before it and leaves every other buffer. Read at the result buffer, the fold unwinds operation by operation:
  at the operation that writes the buffer asked for, to that operation's function of its operands' contents before it; at
  any other operation, to the same buffer before it. A join of arrays is written with its pieces as separate arguments so
  that the pieces unwind too. What is left is the composed term over the arguments' launch contents.
-/
import proofs.«167402_j1125281431924_2_alg».proof.Proof.ReferenceOpsP

noncomputable section

namespace Cert.RefValue

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- Two arrays joined along an axis: the two-piece concatenation with the pieces as separate arguments. -/
def cat2 {α : Type} (t : Shape) (a : Fin t.rank) (S1 S2 : Shape) (x : S1.Idx → α) (y : S2.Idx → α)
    (h : Shape.Concatenates [S1, S2] t a) : t.Idx → α :=
  concatenate t a [⟨S1, x⟩, ⟨S2, y⟩] h

theorem concatenate_two {α : Type} (t : Shape) (a : Fin t.rank) (S1 S2 : Shape) (x : S1.Idx → α) (y : S2.Idx → α)
    (h : Shape.Concatenates [S1, S2] t a) : concatenate t a [⟨S1, x⟩, ⟨S2, y⟩] h = cat2 t a S1 S2 x y h := rfl

/-- Eight arrays joined along an axis, the pieces as separate arguments. -/
def cat8 {α : Type} (t : Shape) (a : Fin t.rank) (S1 S2 S3 S4 S5 S6 S7 S8 : Shape) (x1 : S1.Idx → α) (x2 : S2.Idx → α)
    (x3 : S3.Idx → α) (x4 : S4.Idx → α) (x5 : S5.Idx → α) (x6 : S6.Idx → α) (x7 : S7.Idx → α) (x8 : S8.Idx → α)
    (h : Shape.Concatenates [S1, S2, S3, S4, S5, S6, S7, S8] t a) : t.Idx → α :=
  concatenate t a [⟨S1, x1⟩, ⟨S2, x2⟩, ⟨S3, x3⟩, ⟨S4, x4⟩, ⟨S5, x5⟩, ⟨S6, x6⟩, ⟨S7, x7⟩, ⟨S8, x8⟩] h

theorem concatenate_eight {α : Type} (t : Shape) (a : Fin t.rank) (S1 S2 S3 S4 S5 S6 S7 S8 : Shape) (x1 : S1.Idx → α) (x2 : S2.Idx → α)
    (x3 : S3.Idx → α) (x4 : S4.Idx → α) (x5 : S5.Idx → α) (x6 : S6.Idx → α) (x7 : S7.Idx → α) (x8 : S8.Idx → α)
    (h : Shape.Concatenates [S1, S2, S3, S4, S5, S6, S7, S8] t a) :
    concatenate t a [⟨S1, x1⟩, ⟨S2, x2⟩, ⟨S3, x3⟩, ⟨S4, x4⟩, ⟨S5, x5⟩, ⟨S6, x6⟩, ⟨S7, x7⟩, ⟨S8, x8⟩] h
      = cat8 t a S1 S2 S3 S4 S5 S6 S7 S8 x1 x2 x3 x4 x5 x6 x7 x8 h := rfl

set_option maxRecDepth 40000 in
set_option maxHeartbeats 4000000000 in
/-- The result buffer after the operations: the composed term of the arguments' launch contents. -/
theorem after_res (m : (ℓ : Loc nD τ sig) → Buf (Elt F) ℓ) (c : Dev nD) :
    after (ops (F := F)) (launchContents m c) (Proc.devRef .tc main_v366) = res_main_v366 m c := by
  simp (disch := decide) only [after_cons, after_nil, concatenate_two, concatenate_eight,
      nullary_result', unary_result', binary_result', nary_result',
      nullary_result_ne', unary_result_ne', binary_result_ne', nary_result_ne', Matrix.cons_val]
  unfold res_main_v366
  rfl

end Cert.RefValue
end
-- ==== Proof.RefRun.lean ====
/-
  The reference's run: every execution of the program ends with its result buffer at the composed term of the arguments'
  launch contents and with the 37 arguments unchanged. The line of operations leaves every buffer at the fold of the
  operations' results over the launch contents; the result buffer's fold is the composed term, and an argument's fold is
  its launch contents since no operation writes it.
-/
import proofs.«167402_j1125281431924_2_alg».proof.Proof.RefRunArgs
import proofs.«167402_j1125281431924_2_alg».proof.Proof.RefRunRes

noncomputable section

namespace Cert.RefValue

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

set_option maxRecDepth 40000 in
set_option maxHeartbeats 40000000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v366) = res_main_v366 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36) :=
  (θ_run defs _ _).mono (fun _ h c => ⟨(h c main_v366).trans (after_res m c),
      (h c main_arg0).trans (after_arg _ main_arg0 (by decide)),
      (h c main_arg1).trans (after_arg _ main_arg1 (by decide)),
      (h c main_arg2).trans (after_arg _ main_arg2 (by decide)),
      (h c main_arg3).trans (after_arg _ main_arg3 (by decide)),
      (h c main_arg4).trans (after_arg _ main_arg4 (by decide)),
      (h c main_arg5).trans (after_arg _ main_arg5 (by decide)),
      (h c main_arg6).trans (after_arg _ main_arg6 (by decide)),
      (h c main_arg7).trans (after_arg _ main_arg7 (by decide)),
      (h c main_arg8).trans (after_arg _ main_arg8 (by decide)),
      (h c main_arg9).trans (after_arg _ main_arg9 (by decide)),
      (h c main_arg10).trans (after_arg _ main_arg10 (by decide)),
      (h c main_arg11).trans (after_arg _ main_arg11 (by decide)),
      (h c main_arg12).trans (after_arg _ main_arg12 (by decide)),
      (h c main_arg13).trans (after_arg _ main_arg13 (by decide)),
      (h c main_arg14).trans (after_arg _ main_arg14 (by decide)),
      (h c main_arg15).trans (after_arg _ main_arg15 (by decide)),
      (h c main_arg16).trans (after_arg _ main_arg16 (by decide)),
      (h c main_arg17).trans (after_arg _ main_arg17 (by decide)),
      (h c main_arg18).trans (after_arg _ main_arg18 (by decide)),
      (h c main_arg19).trans (after_arg _ main_arg19 (by decide)),
      (h c main_arg20).trans (after_arg _ main_arg20 (by decide)),
      (h c main_arg21).trans (after_arg _ main_arg21 (by decide)),
      (h c main_arg22).trans (after_arg _ main_arg22 (by decide)),
      (h c main_arg23).trans (after_arg _ main_arg23 (by decide)),
      (h c main_arg24).trans (after_arg _ main_arg24 (by decide)),
      (h c main_arg25).trans (after_arg _ main_arg25 (by decide)),
      (h c main_arg26).trans (after_arg _ main_arg26 (by decide)),
      (h c main_arg27).trans (after_arg _ main_arg27 (by decide)),
      (h c main_arg28).trans (after_arg _ main_arg28 (by decide)),
      (h c main_arg29).trans (after_arg _ main_arg29 (by decide)),
      (h c main_arg30).trans (after_arg _ main_arg30 (by decide)),
      (h c main_arg31).trans (after_arg _ main_arg31 (by decide)),
      (h c main_arg32).trans (after_arg _ main_arg32 (by decide)),
      (h c main_arg33).trans (after_arg _ main_arg33 (by decide)),
      (h c main_arg34).trans (after_arg _ main_arg34 (by decide)),
      (h c main_arg35).trans (after_arg _ main_arg35 (by decide)),
      (h c main_arg36).trans (after_arg _ main_arg36 (by decide))⟩)
    (run_seq scopedRefs_eq scopedSems_eq defs main (fun _ => ops) main_eq (fun _ => ops_sub) m ρ
      (fun _ => List.forall_iff_forall_mem.mp ops_fresh))

end Cert.RefValue

end
-- ==== Proof.RefArr.lean ====
/-
  The reference program's result as a graph of named arrays.

  The program computes every node of the network on the whole batch at once: arrays of shape [65536, N], one row per
  row of the signal. The layer combinators below are the program's own operations on such arrays (a matrix product plus a
  bias broadcast down the rows, the maximum with a zero array, two arrays joined along the columns, matrix products of
  messages added one by one to a zero array); the nodes compose them in the program's order. The program computes six of
  its nodes twice, from the same operations on the same operands; one definition serves both.
-/
import Idealize.ShloMosaic.PureOps.Ideal.Laws
import proofs.«167402_j1125281431924_2_alg».proof.ReferenceIdeal

noncomputable section

namespace Cert.RefValue

open Idealize.ShloMosaic Cert.ReferenceIdeal Cert.ReferenceIdeal.Facts₀

variable [Cert.ReferenceIdeal.Facts]

/-! ## Layers -/

/-- The zero array of 128 columns: the scalar zero broadcast to every entry. -/
def zero128 : FVec Ideal S65536x128 .f32 :=
  broadcastInDim S65536x128 ![] bcast_S_S65536x128 (constant S_ .f32 0x00000000#32)

/-- The positive part of an array of 132 columns: its maximum with the zero array, entry by entry. -/
def relu132 (v : FVec Ideal S65536x132 .f32) : FVec Ideal S65536x132 .f32 :=
  maximumf v (broadcastInDim S65536x132 ![] bcast_S_S65536x132 (constant S_ .f32 0x00000000#32))

/-- An affine layer from 640 columns to 132: the product with the matrix plus the bias on every row. -/
def aff640 (X : FVec Ideal S65536x640 .f32) (W : FVec Ideal S640x132 .f32) (b : FVec Ideal S132 .f32) : FVec Ideal S65536x132 .f32 :=
  addf (Host.dotGeneral dot_S65536x640_S640x132_S65536x132_1_0_0_1_n_n none X W)
    (broadcastInDim S65536x132 ![0, 1] bcast_S1x132_S65536x132_0_1 (broadcastInDim S1x132 ![1] bcast_S132_S1x132_1 b))

/-- An affine layer from 256 columns to 132. -/
def aff256 (X : FVec Ideal S65536x256 .f32) (W : FVec Ideal S256x132 .f32) (b : FVec Ideal S132 .f32) : FVec Ideal S65536x132 .f32 :=
  addf (Host.dotGeneral dot_S65536x256_S256x132_S65536x132_1_0_0_1_n_n none X W)
    (broadcastInDim S65536x132 ![0, 1] bcast_S1x132_S65536x132_0_1 (broadcastInDim S1x132 ![1] bcast_S132_S1x132_1 b))

/-- An affine layer from 132 columns to 132. -/
def aff132 (X : FVec Ideal S65536x132 .f32) (W : FVec Ideal S132x132 .f32) (b : FVec Ideal S132 .f32) : FVec Ideal S65536x132 .f32 :=
  addf (Host.dotGeneral dot_S65536x132_S132x132_S65536x132_1_0_0_1_n_n none X W)
    (broadcastInDim S65536x132 ![0, 1] bcast_S1x132_S65536x132_0_1 (broadcastInDim S1x132 ![1] bcast_S132_S1x132_1 b))

/-- An affine layer from 132 columns to 128. -/
def affOut (X : FVec Ideal S65536x132 .f32) (W : FVec Ideal S132x128 .f32) (b : FVec Ideal S128 .f32) : FVec Ideal S65536x128 .f32 :=
  addf (Host.dotGeneral dot_S65536x132_S132x128_S65536x128_1_0_0_1_n_n none X W)
    (broadcastInDim S65536x128 ![0, 1] bcast_S1x128_S65536x128_0_1 (broadcastInDim S1x128 ![1] bcast_S128_S1x128_1 b))

/-- An affine layer from 128 columns to 128. -/
def aff128 (X : FVec Ideal S65536x128 .f32) (W : FVec Ideal S128x128 .f32) (b : FVec Ideal S128 .f32) : FVec Ideal S65536x128 .f32 :=
  addf (Host.dotGeneral dot_S65536x128_S128x128_S65536x128_1_0_0_1_n_n none X W)
    (broadcastInDim S65536x128 ![0, 1] bcast_S1x128_S65536x128_0_1 (broadcastInDim S1x128 ![1] bcast_S128_S1x128_1 b))

/-- An array of 512 columns and one of 128 joined along the columns. -/
def cat640 (a : FVec Ideal S65536x512 .f32) (b : FVec Ideal S65536x128 .f32) : FVec Ideal S65536x640 .f32 :=
  concatenate S65536x640 1 [⟨S65536x512, a⟩, ⟨S65536x128, b⟩] concatenates_S65536x512_S65536x128_S65536x640_d1

/-- Two arrays of 128 columns joined along the columns. -/
def cat256 (a b : FVec Ideal S65536x128 .f32) : FVec Ideal S65536x256 .f32 :=
  concatenate S65536x256 1 [⟨S65536x128, a⟩, ⟨S65536x128, b⟩] concatenates_S65536x128_S65536x128_S65536x256_d1

/-- Three affine layers from 640 columns, the positive part after the first two. -/
def fc3x640 (X : FVec Ideal S65536x640 .f32) (w0 : FVec Ideal S640x132 .f32) (b0 : FVec Ideal S132 .f32) (w1 : FVec Ideal S132x132 .f32)
    (b1 : FVec Ideal S132 .f32) (w2 : FVec Ideal S132x128 .f32) (b2 : FVec Ideal S128 .f32) : FVec Ideal S65536x128 .f32 :=
  affOut (relu132 (aff132 (relu132 (aff640 X w0 b0)) w1 b1)) w2 b2

/-- Three affine layers from 256 columns, the positive part after the first two. -/
def fc3x256 (X : FVec Ideal S65536x256 .f32) (w0 : FVec Ideal S256x132 .f32) (b0 : FVec Ideal S132 .f32) (w1 : FVec Ideal S132x132 .f32)
    (b1 : FVec Ideal S132 .f32) (w2 : FVec Ideal S132x128 .f32) (b2 : FVec Ideal S128 .f32) : FVec Ideal S65536x128 .f32 :=
  affOut (relu132 (aff132 (relu132 (aff256 X w0 b0)) w1 b1)) w2 b2

/-- Four affine layers from 256 columns, the positive part after the first three. -/
def fc4x256 (X : FVec Ideal S65536x256 .f32) (w0 : FVec Ideal S256x132 .f32) (b0 : FVec Ideal S132 .f32) (w1 : FVec Ideal S132x132 .f32)
    (b1 : FVec Ideal S132 .f32) (w2 : FVec Ideal S132x132 .f32) (b2 : FVec Ideal S132 .f32) (w3 : FVec Ideal S132x128 .f32)
    (b3 : FVec Ideal S128 .f32) : FVec Ideal S65536x128 .f32 :=
  affOut (relu132 (aff132 (relu132 (aff132 (relu132 (aff256 X w0 b0)) w1 b1)) w2 b2)) w3 b3

/-! ## Messages -/

/-- The message bias times a scalar constant, on every row: the constant broadcast to a row, times the bias row. -/
def cbias (cw : BitVec 32) (mb : FVec Ideal S128 .f32) : FVec Ideal S65536x128 .f32 :=
  broadcastInDim S65536x128 ![0, 1] bcast_S1x128_S65536x128_0_1 (broadcastInDim S1x128 ![1] bcast_S128_S1x128_1
    (mulf (broadcastInDim S128 ![] bcast_S_S128 (constant S_ .f32 cw)) mb))

/-- One message: the zero array plus the product with the message matrix, plus the scaled bias. -/
def aMsg1 (cw : BitVec 32) (mw : FVec Ideal S128x128 .f32) (mb : FVec Ideal S128 .f32) (a : FVec Ideal S65536x128 .f32) :
    FVec Ideal S65536x128 .f32 :=
  addf (addf (broadcastInDim S65536x128 ![] bcast_S_S65536x128 (constant S_ .f32 0x00000000#32))
      (Host.dotGeneral dot_S65536x128_S128x128_S65536x128_1_0_0_1_n_n none a mw)) (cbias cw mb)

/-- Two messages added one by one to the zero array, plus the scaled bias. -/
def aMsg2 (cw : BitVec 32) (mw : FVec Ideal S128x128 .f32) (mb : FVec Ideal S128 .f32) (a b : FVec Ideal S65536x128 .f32) :
    FVec Ideal S65536x128 .f32 :=
  addf (addf (addf (broadcastInDim S65536x128 ![] bcast_S_S65536x128 (constant S_ .f32 0x00000000#32))
        (Host.dotGeneral dot_S65536x128_S128x128_S65536x128_1_0_0_1_n_n none a mw))
      (Host.dotGeneral dot_S65536x128_S128x128_S65536x128_1_0_0_1_n_n none b mw)) (cbias cw mb)

/-- Four messages added one by one to the zero array, plus the scaled bias. -/
def aMsg4 (cw : BitVec 32) (mw : FVec Ideal S128x128 .f32) (mb : FVec Ideal S128 .f32) (a b d e : FVec Ideal S65536x128 .f32) :
    FVec Ideal S65536x128 .f32 :=
  addf (addf (addf (addf (addf (broadcastInDim S65536x128 ![] bcast_S_S65536x128 (constant S_ .f32 0x00000000#32))
            (Host.dotGeneral dot_S65536x128_S128x128_S65536x128_1_0_0_1_n_n none a mw))
          (Host.dotGeneral dot_S65536x128_S128x128_S65536x128_1_0_0_1_n_n none b mw))
        (Host.dotGeneral dot_S65536x128_S128x128_S65536x128_1_0_0_1_n_n none d mw))
      (Host.dotGeneral dot_S65536x128_S128x128_S65536x128_1_0_0_1_n_n none e mw)) (cbias cw mb)

/-! ## The nodes, in the program's order -/

/-- Upward, a first-level point node: the point stack on the signal joined with the zero array. -/
def aUpP1
    (x0 : FVec Ideal S65536x512 .f32) (x1 : FVec Ideal S128x128 .f32) (x2 : FVec Ideal S128 .f32) (x3 : FVec Ideal S128x128 .f32) (x4 : FVec Ideal S128 .f32)
    (x5 : FVec Ideal S640x132 .f32) (x6 : FVec Ideal S132 .f32) (x7 : FVec Ideal S132x132 .f32) (x8 : FVec Ideal S132 .f32) (x9 : FVec Ideal S132x128 .f32)
    (x10 : FVec Ideal S128 .f32) (x11 : FVec Ideal S256x132 .f32) (x12 : FVec Ideal S132 .f32) (x13 : FVec Ideal S132x132 .f32) (x14 : FVec Ideal S132 .f32)
    (x15 : FVec Ideal S132x132 .f32) (x16 : FVec Ideal S132 .f32) (x17 : FVec Ideal S132x128 .f32) (x18 : FVec Ideal S128 .f32) (x19 : FVec Ideal S256x132 .f32)
    (x20 : FVec Ideal S132 .f32) (x21 : FVec Ideal S132x132 .f32) (x22 : FVec Ideal S132 .f32) (x23 : FVec Ideal S132x132 .f32) (x24 : FVec Ideal S132 .f32)
    (x25 : FVec Ideal S132x128 .f32) (x26 : FVec Ideal S128 .f32) (x27 : FVec Ideal S128x128 .f32) (x28 : FVec Ideal S128 .f32) (x29 : FVec Ideal S128x128 .f32)
    (x30 : FVec Ideal S128 .f32) (x31 : FVec Ideal S256x132 .f32) (x32 : FVec Ideal S132 .f32) (x33 : FVec Ideal S132x132 .f32) (x34 : FVec Ideal S132 .f32)
    (x35 : FVec Ideal S132x128 .f32) (x36 : FVec Ideal S128 .f32) :
    FVec Ideal S65536x128 .f32 :=
  fc3x640 (cat640 x0 zero128) x5 x6 x7 x8 x9 x10

/-- Upward, the first line node: the line stack on the point node joined with itself. -/
def aUpL1
    (x0 : FVec Ideal S65536x512 .f32) (x1 : FVec Ideal S128x128 .f32) (x2 : FVec Ideal S128 .f32) (x3 : FVec Ideal S128x128 .f32) (x4 : FVec Ideal S128 .f32)
    (x5 : FVec Ideal S640x132 .f32) (x6 : FVec Ideal S132 .f32) (x7 : FVec Ideal S132x132 .f32) (x8 : FVec Ideal S132 .f32) (x9 : FVec Ideal S132x128 .f32)
    (x10 : FVec Ideal S128 .f32) (x11 : FVec Ideal S256x132 .f32) (x12 : FVec Ideal S132 .f32) (x13 : FVec Ideal S132x132 .f32) (x14 : FVec Ideal S132 .f32)
    (x15 : FVec Ideal S132x132 .f32) (x16 : FVec Ideal S132 .f32) (x17 : FVec Ideal S132x128 .f32) (x18 : FVec Ideal S128 .f32) (x19 : FVec Ideal S256x132 .f32)
    (x20 : FVec Ideal S132 .f32) (x21 : FVec Ideal S132x132 .f32) (x22 : FVec Ideal S132 .f32) (x23 : FVec Ideal S132x132 .f32) (x24 : FVec Ideal S132 .f32)
    (x25 : FVec Ideal S132x128 .f32) (x26 : FVec Ideal S128 .f32) (x27 : FVec Ideal S128x128 .f32) (x28 : FVec Ideal S128 .f32) (x29 : FVec Ideal S128x128 .f32)
    (x30 : FVec Ideal S128 .f32) (x31 : FVec Ideal S256x132 .f32) (x32 : FVec Ideal S132 .f32) (x33 : FVec Ideal S132x132 .f32) (x34 : FVec Ideal S132 .f32)
    (x35 : FVec Ideal S132x128 .f32) (x36 : FVec Ideal S128 .f32) :
    FVec Ideal S65536x128 .f32 :=
  fc4x256 (cat256 (aUpP1 x0 x1 x2 x3 x4 x5 x6 x7 x8 x9 x10 x11 x12 x13 x14 x15 x16 x17 x18 x19 x20 x21 x22 x23 x24 x25 x26 x27 x28 x29 x30 x31 x32 x33 x34 x35 x36) (aUpP1 x0 x1 x2 x3 x4 x5 x6 x7 x8 x9 x10 x11 x12 x13 x14 x15 x16 x17 x18 x19 x20 x21 x22 x23 x24 x25 x26 x27 x28 x29 x30 x31 x32 x33 x34 x35 x36)) x11 x12 x13 x14 x15 x16 x17 x18

/-- Upward, a circle node: the circle stack on the point node joined with itself. -/
def aUpC1
    (x0 : FVec Ideal S65536x512 .f32) (x1 : FVec Ideal S128x128 .f32) (x2 : FVec Ideal S128 .f32) (x3 : FVec Ideal S128x128 .f32) (x4 : FVec Ideal S128 .f32)
    (x5 : FVec Ideal S640x132 .f32) (x6 : FVec Ideal S132 .f32) (x7 : FVec Ideal S132x132 .f32) (x8 : FVec Ideal S132 .f32) (x9 : FVec Ideal S132x128 .f32)
    (x10 : FVec Ideal S128 .f32) (x11 : FVec Ideal S256x132 .f32) (x12 : FVec Ideal S132 .f32) (x13 : FVec Ideal S132x132 .f32) (x14 : FVec Ideal S132 .f32)
    (x15 : FVec Ideal S132x132 .f32) (x16 : FVec Ideal S132 .f32) (x17 : FVec Ideal S132x128 .f32) (x18 : FVec Ideal S128 .f32) (x19 : FVec Ideal S256x132 .f32)
    (x20 : FVec Ideal S132 .f32) (x21 : FVec Ideal S132x132 .f32) (x22 : FVec Ideal S132 .f32) (x23 : FVec Ideal S132x132 .f32) (x24 : FVec Ideal S132 .f32)
    (x25 : FVec Ideal S132x128 .f32) (x26 : FVec Ideal S128 .f32) (x27 : FVec Ideal S128x128 .f32) (x28 : FVec Ideal S128 .f32) (x29 : FVec Ideal S128x128 .f32)
    (x30 : FVec Ideal S128 .f32) (x31 : FVec Ideal S256x132 .f32) (x32 : FVec Ideal S132 .f32) (x33 : FVec Ideal S132x132 .f32) (x34 : FVec Ideal S132 .f32)
    (x35 : FVec Ideal S132x128 .f32) (x36 : FVec Ideal S128 .f32) :
    FVec Ideal S65536x128 .f32 :=
  fc4x256 (cat256 (aUpP1 x0 x1 x2 x3 x4 x5 x6 x7 x8 x9 x10 x11 x12 x13 x14 x15 x16 x17 x18 x19 x20 x21 x22 x23 x24 x25 x26 x27 x28 x29 x30 x31 x32 x33 x34 x35 x36) (aUpP1 x0 x1 x2 x3 x4 x5 x6 x7 x8 x9 x10 x11 x12 x13 x14 x15 x16 x17 x18 x19 x20 x21 x22 x23 x24 x25 x26 x27 x28 x29 x30 x31 x32 x33 x34 x35 x36)) x19 x20 x21 x22 x23 x24 x25 x26

/-- Upward, the third point node: the point stack on the signal joined with the update of the two circle messages. -/
def aUpP3
    (x0 : FVec Ideal S65536x512 .f32) (x1 : FVec Ideal S128x128 .f32) (x2 : FVec Ideal S128 .f32) (x3 : FVec Ideal S128x128 .f32) (x4 : FVec Ideal S128 .f32)
    (x5 : FVec Ideal S640x132 .f32) (x6 : FVec Ideal S132 .f32) (x7 : FVec Ideal S132x132 .f32) (x8 : FVec Ideal S132 .f32) (x9 : FVec Ideal S132x128 .f32)
    (x10 : FVec Ideal S128 .f32) (x11 : FVec Ideal S256x132 .f32) (x12 : FVec Ideal S132 .f32) (x13 : FVec Ideal S132x132 .f32) (x14 : FVec Ideal S132 .f32)
    (x15 : FVec Ideal S132x132 .f32) (x16 : FVec Ideal S132 .f32) (x17 : FVec Ideal S132x128 .f32) (x18 : FVec Ideal S128 .f32) (x19 : FVec Ideal S256x132 .f32)
    (x20 : FVec Ideal S132 .f32) (x21 : FVec Ideal S132x132 .f32) (x22 : FVec Ideal S132 .f32) (x23 : FVec Ideal S132x132 .f32) (x24 : FVec Ideal S132 .f32)
    (x25 : FVec Ideal S132x128 .f32) (x26 : FVec Ideal S128 .f32) (x27 : FVec Ideal S128x128 .f32) (x28 : FVec Ideal S128 .f32) (x29 : FVec Ideal S128x128 .f32)
    (x30 : FVec Ideal S128 .f32) (x31 : FVec Ideal S256x132 .f32) (x32 : FVec Ideal S132 .f32) (x33 : FVec Ideal S132x132 .f32) (x34 : FVec Ideal S132 .f32)
    (x35 : FVec Ideal S132x128 .f32) (x36 : FVec Ideal S128 .f32) :
    FVec Ideal S65536x128 .f32 :=
  fc3x640 (cat640 x0 (aff128 (aMsg2 0x40000000#32 x1 x2 (aUpC1 x0 x1 x2 x3 x4 x5 x6 x7 x8 x9 x10 x11 x12 x13 x14 x15 x16 x17 x18 x19 x20 x21 x22 x23 x24 x25 x26 x27 x28 x29 x30 x31 x32 x33 x34 x35 x36) (aUpC1 x0 x1 x2 x3 x4 x5 x6 x7 x8 x9 x10 x11 x12 x13 x14 x15 x16 x17 x18 x19 x20 x21 x22 x23 x24 x25 x26 x27 x28 x29 x30 x31 x32 x33 x34 x35 x36)) x3 x4)) x5 x6 x7 x8 x9 x10

/-- Upward, a second-level line node: the line stack on the first point node joined with the third. -/
def aUpL2
    (x0 : FVec Ideal S65536x512 .f32) (x1 : FVec Ideal S128x128 .f32) (x2 : FVec Ideal S128 .f32) (x3 : FVec Ideal S128x128 .f32) (x4 : FVec Ideal S128 .f32)
    (x5 : FVec Ideal S640x132 .f32) (x6 : FVec Ideal S132 .f32) (x7 : FVec Ideal S132x132 .f32) (x8 : FVec Ideal S132 .f32) (x9 : FVec Ideal S132x128 .f32)
    (x10 : FVec Ideal S128 .f32) (x11 : FVec Ideal S256x132 .f32) (x12 : FVec Ideal S132 .f32) (x13 : FVec Ideal S132x132 .f32) (x14 : FVec Ideal S132 .f32)
    (x15 : FVec Ideal S132x132 .f32) (x16 : FVec Ideal S132 .f32) (x17 : FVec Ideal S132x128 .f32) (x18 : FVec Ideal S128 .f32) (x19 : FVec Ideal S256x132 .f32)
    (x20 : FVec Ideal S132 .f32) (x21 : FVec Ideal S132x132 .f32) (x22 : FVec Ideal S132 .f32) (x23 : FVec Ideal S132x132 .f32) (x24 : FVec Ideal S132 .f32)
    (x25 : FVec Ideal S132x128 .f32) (x26 : FVec Ideal S128 .f32) (x27 : FVec Ideal S128x128 .f32) (x28 : FVec Ideal S128 .f32) (x29 : FVec Ideal S128x128 .f32)
    (x30 : FVec Ideal S128 .f32) (x31 : FVec Ideal S256x132 .f32) (x32 : FVec Ideal S132 .f32) (x33 : FVec Ideal S132x132 .f32) (x34 : FVec Ideal S132 .f32)
    (x35 : FVec Ideal S132x128 .f32) (x36 : FVec Ideal S128 .f32) :
    FVec Ideal S65536x128 .f32 :=
  fc4x256 (cat256 (aUpP1 x0 x1 x2 x3 x4 x5 x6 x7 x8 x9 x10 x11 x12 x13 x14 x15 x16 x17 x18 x19 x20 x21 x22 x23 x24 x25 x26 x27 x28 x29 x30 x31 x32 x33 x34 x35 x36) (aUpP3 x0 x1 x2 x3 x4 x5 x6 x7 x8 x9 x10 x11 x12 x13 x14 x15 x16 x17 x18 x19 x20 x21 x22 x23 x24 x25 x26 x27 x28 x29 x30 x31 x32 x33 x34 x35 x36)) x11 x12 x13 x14 x15 x16 x17 x18

/-- Downward, the first line node: no messages. -/
def aDL1
    (x0 : FVec Ideal S65536x512 .f32) (x1 : FVec Ideal S128x128 .f32) (x2 : FVec Ideal S128 .f32) (x3 : FVec Ideal S128x128 .f32) (x4 : FVec Ideal S128 .f32)
    (x5 : FVec Ideal S640x132 .f32) (x6 : FVec Ideal S132 .f32) (x7 : FVec Ideal S132x132 .f32) (x8 : FVec Ideal S132 .f32) (x9 : FVec Ideal S132x128 .f32)
    (x10 : FVec Ideal S128 .f32) (x11 : FVec Ideal S256x132 .f32) (x12 : FVec Ideal S132 .f32) (x13 : FVec Ideal S132x132 .f32) (x14 : FVec Ideal S132 .f32)
    (x15 : FVec Ideal S132x132 .f32) (x16 : FVec Ideal S132 .f32) (x17 : FVec Ideal S132x128 .f32) (x18 : FVec Ideal S128 .f32) (x19 : FVec Ideal S256x132 .f32)
    (x20 : FVec Ideal S132 .f32) (x21 : FVec Ideal S132x132 .f32) (x22 : FVec Ideal S132 .f32) (x23 : FVec Ideal S132x132 .f32) (x24 : FVec Ideal S132 .f32)
    (x25 : FVec Ideal S132x128 .f32) (x26 : FVec Ideal S128 .f32) (x27 : FVec Ideal S128x128 .f32) (x28 : FVec Ideal S128 .f32) (x29 : FVec Ideal S128x128 .f32)
    (x30 : FVec Ideal S128 .f32) (x31 : FVec Ideal S256x132 .f32) (x32 : FVec Ideal S132 .f32) (x33 : FVec Ideal S132x132 .f32) (x34 : FVec Ideal S132 .f32)
    (x35 : FVec Ideal S132x128 .f32) (x36 : FVec Ideal S128 .f32) :
    FVec Ideal S65536x128 .f32 :=
  fc3x256 (cat256 (aUpL1 x0 x1 x2 x3 x4 x5 x6 x7 x8 x9 x10 x11 x12 x13 x14 x15 x16 x17 x18 x19 x20 x21 x22 x23 x24 x25 x26 x27 x28 x29 x30 x31 x32 x33 x34 x35 x36) zero128) x31 x32 x33 x34 x35 x36

/-- Downward, a second-level line node: no messages. -/
def aDL2
    (x0 : FVec Ideal S65536x512 .f32) (x1 : FVec Ideal S128x128 .f32) (x2 : FVec Ideal S128 .f32) (x3 : FVec Ideal S128x128 .f32) (x4 : FVec Ideal S128 .f32)
    (x5 : FVec Ideal S640x132 .f32) (x6 : FVec Ideal S132 .f32) (x7 : FVec Ideal S132x132 .f32) (x8 : FVec Ideal S132 .f32) (x9 : FVec Ideal S132x128 .f32)
    (x10 : FVec Ideal S128 .f32) (x11 : FVec Ideal S256x132 .f32) (x12 : FVec Ideal S132 .f32) (x13 : FVec Ideal S132x132 .f32) (x14 : FVec Ideal S132 .f32)
    (x15 : FVec Ideal S132x132 .f32) (x16 : FVec Ideal S132 .f32) (x17 : FVec Ideal S132x128 .f32) (x18 : FVec Ideal S128 .f32) (x19 : FVec Ideal S256x132 .f32)
    (x20 : FVec Ideal S132 .f32) (x21 : FVec Ideal S132x132 .f32) (x22 : FVec Ideal S132 .f32) (x23 : FVec Ideal S132x132 .f32) (x24 : FVec Ideal S132 .f32)
    (x25 : FVec Ideal S132x128 .f32) (x26 : FVec Ideal S128 .f32) (x27 : FVec Ideal S128x128 .f32) (x28 : FVec Ideal S128 .f32) (x29 : FVec Ideal S128x128 .f32)
    (x30 : FVec Ideal S128 .f32) (x31 : FVec Ideal S256x132 .f32) (x32 : FVec Ideal S132 .f32) (x33 : FVec Ideal S132x132 .f32) (x34 : FVec Ideal S132 .f32)
    (x35 : FVec Ideal S132x128 .f32) (x36 : FVec Ideal S128 .f32) :
    FVec Ideal S65536x128 .f32 :=
  fc3x256 (cat256 (aUpL2 x0 x1 x2 x3 x4 x5 x6 x7 x8 x9 x10 x11 x12 x13 x14 x15 x16 x17 x18 x19 x20 x21 x22 x23 x24 x25 x26 x27 x28 x29 x30 x31 x32 x33 x34 x35 x36) zero128) x31 x32 x33 x34 x35 x36

/-- Downward, the third point node: the two line messages. -/
def aDP3
    (x0 : FVec Ideal S65536x512 .f32) (x1 : FVec Ideal S128x128 .f32) (x2 : FVec Ideal S128 .f32) (x3 : FVec Ideal S128x128 .f32) (x4 : FVec Ideal S128 .f32)
    (x5 : FVec Ideal S640x132 .f32) (x6 : FVec Ideal S132 .f32) (x7 : FVec Ideal S132x132 .f32) (x8 : FVec Ideal S132 .f32) (x9 : FVec Ideal S132x128 .f32)
    (x10 : FVec Ideal S128 .f32) (x11 : FVec Ideal S256x132 .f32) (x12 : FVec Ideal S132 .f32) (x13 : FVec Ideal S132x132 .f32) (x14 : FVec Ideal S132 .f32)
    (x15 : FVec Ideal S132x132 .f32) (x16 : FVec Ideal S132 .f32) (x17 : FVec Ideal S132x128 .f32) (x18 : FVec Ideal S128 .f32) (x19 : FVec Ideal S256x132 .f32)
    (x20 : FVec Ideal S132 .f32) (x21 : FVec Ideal S132x132 .f32) (x22 : FVec Ideal S132 .f32) (x23 : FVec Ideal S132x132 .f32) (x24 : FVec Ideal S132 .f32)
    (x25 : FVec Ideal S132x128 .f32) (x26 : FVec Ideal S128 .f32) (x27 : FVec Ideal S128x128 .f32) (x28 : FVec Ideal S128 .f32) (x29 : FVec Ideal S128x128 .f32)
    (x30 : FVec Ideal S128 .f32) (x31 : FVec Ideal S256x132 .f32) (x32 : FVec Ideal S132 .f32) (x33 : FVec Ideal S132x132 .f32) (x34 : FVec Ideal S132 .f32)
    (x35 : FVec Ideal S132x128 .f32) (x36 : FVec Ideal S128 .f32) :
    FVec Ideal S65536x128 .f32 :=
  fc3x256 (cat256 (aUpP3 x0 x1 x2 x3 x4 x5 x6 x7 x8 x9 x10 x11 x12 x13 x14 x15 x16 x17 x18 x19 x20 x21 x22 x23 x24 x25 x26 x27 x28 x29 x30 x31 x32 x33 x34 x35 x36) (aff128 (aMsg2 0x40000000#32 x27 x28 (aDL2 x0 x1 x2 x3 x4 x5 x6 x7 x8 x9 x10 x11 x12 x13 x14 x15 x16 x17 x18 x19 x20 x21 x22 x23 x24 x25 x26 x27 x28 x29 x30 x31 x32 x33 x34 x35 x36) (aDL2 x0 x1 x2 x3 x4 x5 x6 x7 x8 x9 x10 x11 x12 x13 x14 x15 x16 x17 x18 x19 x20 x21 x22 x23 x24 x25 x26 x27 x28 x29 x30 x31 x32 x33 x34 x35 x36)) x29 x30)) x31 x32 x33 x34 x35 x36

/-- Downward, a circle node: the third point node's message. -/
def aDC1
    (x0 : FVec Ideal S65536x512 .f32) (x1 : FVec Ideal S128x128 .f32) (x2 : FVec Ideal S128 .f32) (x3 : FVec Ideal S128x128 .f32) (x4 : FVec Ideal S128 .f32)
    (x5 : FVec Ideal S640x132 .f32) (x6 : FVec Ideal S132 .f32) (x7 : FVec Ideal S132x132 .f32) (x8 : FVec Ideal S132 .f32) (x9 : FVec Ideal S132x128 .f32)
    (x10 : FVec Ideal S128 .f32) (x11 : FVec Ideal S256x132 .f32) (x12 : FVec Ideal S132 .f32) (x13 : FVec Ideal S132x132 .f32) (x14 : FVec Ideal S132 .f32)
    (x15 : FVec Ideal S132x132 .f32) (x16 : FVec Ideal S132 .f32) (x17 : FVec Ideal S132x128 .f32) (x18 : FVec Ideal S128 .f32) (x19 : FVec Ideal S256x132 .f32)
    (x20 : FVec Ideal S132 .f32) (x21 : FVec Ideal S132x132 .f32) (x22 : FVec Ideal S132 .f32) (x23 : FVec Ideal S132x132 .f32) (x24 : FVec Ideal S132 .f32)
    (x25 : FVec Ideal S132x128 .f32) (x26 : FVec Ideal S128 .f32) (x27 : FVec Ideal S128x128 .f32) (x28 : FVec Ideal S128 .f32) (x29 : FVec Ideal S128x128 .f32)
    (x30 : FVec Ideal S128 .f32) (x31 : FVec Ideal S256x132 .f32) (x32 : FVec Ideal S132 .f32) (x33 : FVec Ideal S132x132 .f32) (x34 : FVec Ideal S132 .f32)
    (x35 : FVec Ideal S132x128 .f32) (x36 : FVec Ideal S128 .f32) :
    FVec Ideal S65536x128 .f32 :=
  fc3x256 (cat256 (aUpC1 x0 x1 x2 x3 x4 x5 x6 x7 x8 x9 x10 x11 x12 x13 x14 x15 x16 x17 x18 x19 x20 x21 x22 x23 x24 x25 x26 x27 x28 x29 x30 x31 x32 x33 x34 x35 x36) (aff128 (aMsg1 0x3F800000#32 x27 x28 (aDP3 x0 x1 x2 x3 x4 x5 x6 x7 x8 x9 x10 x11 x12 x13 x14 x15 x16 x17 x18 x19 x20 x21 x22 x23 x24 x25 x26 x27 x28 x29 x30 x31 x32 x33 x34 x35 x36)) x29 x30)) x31 x32 x33 x34 x35 x36

/-- Downward, a first-level point node: four messages. -/
def aDP1
    (x0 : FVec Ideal S65536x512 .f32) (x1 : FVec Ideal S128x128 .f32) (x2 : FVec Ideal S128 .f32) (x3 : FVec Ideal S128x128 .f32) (x4 : FVec Ideal S128 .f32)
    (x5 : FVec Ideal S640x132 .f32) (x6 : FVec Ideal S132 .f32) (x7 : FVec Ideal S132x132 .f32) (x8 : FVec Ideal S132 .f32) (x9 : FVec Ideal S132x128 .f32)
    (x10 : FVec Ideal S128 .f32) (x11 : FVec Ideal S256x132 .f32) (x12 : FVec Ideal S132 .f32) (x13 : FVec Ideal S132x132 .f32) (x14 : FVec Ideal S132 .f32)
    (x15 : FVec Ideal S132x132 .f32) (x16 : FVec Ideal S132 .f32) (x17 : FVec Ideal S132x128 .f32) (x18 : FVec Ideal S128 .f32) (x19 : FVec Ideal S256x132 .f32)
    (x20 : FVec Ideal S132 .f32) (x21 : FVec Ideal S132x132 .f32) (x22 : FVec Ideal S132 .f32) (x23 : FVec Ideal S132x132 .f32) (x24 : FVec Ideal S132 .f32)
    (x25 : FVec Ideal S132x128 .f32) (x26 : FVec Ideal S128 .f32) (x27 : FVec Ideal S128x128 .f32) (x28 : FVec Ideal S128 .f32) (x29 : FVec Ideal S128x128 .f32)
    (x30 : FVec Ideal S128 .f32) (x31 : FVec Ideal S256x132 .f32) (x32 : FVec Ideal S132 .f32) (x33 : FVec Ideal S132x132 .f32) (x34 : FVec Ideal S132 .f32)
    (x35 : FVec Ideal S132x128 .f32) (x36 : FVec Ideal S128 .f32) :
    FVec Ideal S65536x128 .f32 :=
  fc3x256 (cat256 (aUpP1 x0 x1 x2 x3 x4 x5 x6 x7 x8 x9 x10 x11 x12 x13 x14 x15 x16 x17 x18 x19 x20 x21 x22 x23 x24 x25 x26 x27 x28 x29 x30 x31 x32 x33 x34 x35 x36) (aff128 (aMsg4 0x40800000#32 x27 x28 (aDL1 x0 x1 x2 x3 x4 x5 x6 x7 x8 x9 x10 x11 x12 x13 x14 x15 x16 x17 x18 x19 x20 x21 x22 x23 x24 x25 x26 x27 x28 x29 x30 x31 x32 x33 x34 x35 x36) (aDC1 x0 x1 x2 x3 x4 x5 x6 x7 x8 x9 x10 x11 x12 x13 x14 x15 x16 x17 x18 x19 x20 x21 x22 x23 x24 x25 x26 x27 x28 x29 x30 x31 x32 x33 x34 x35 x36) (aDC1 x0 x1 x2 x3 x4 x5 x6 x7 x8 x9 x10 x11 x12 x13 x14 x15 x16 x17 x18 x19 x20 x21 x22 x23 x24 x25 x26 x27 x28 x29 x30 x31 x32 x33 x34 x35 x36) (aDL2 x0 x1 x2 x3 x4 x5 x6 x7 x8 x9 x10 x11 x12 x13 x14 x15 x16 x17 x18 x19 x20 x21 x22 x23 x24 x25 x26 x27 x28 x29 x30 x31 x32 x33 x34 x35 x36)) x29 x30)) x31 x32 x33 x34 x35 x36

/-- A node's array as one slab of the result: a new leading axis of extent one. -/
def slab (v : FVec Ideal S65536x128 .f32) : FVec Ideal S1x65536x128 .f32 :=
  broadcastInDim S1x65536x128 ![1, 2] bcast_S65536x128_S1x65536x128_1_2 v

/-- The result: the eight nodes' slabs joined along the leading axis, in the program's order of the nodes. -/
def aOut
    (x0 : FVec Ideal S65536x512 .f32) (x1 : FVec Ideal S128x128 .f32) (x2 : FVec Ideal S128 .f32) (x3 : FVec Ideal S128x128 .f32) (x4 : FVec Ideal S128 .f32)
    (x5 : FVec Ideal S640x132 .f32) (x6 : FVec Ideal S132 .f32) (x7 : FVec Ideal S132x132 .f32) (x8 : FVec Ideal S132 .f32) (x9 : FVec Ideal S132x128 .f32)
    (x10 : FVec Ideal S128 .f32) (x11 : FVec Ideal S256x132 .f32) (x12 : FVec Ideal S132 .f32) (x13 : FVec Ideal S132x132 .f32) (x14 : FVec Ideal S132 .f32)
    (x15 : FVec Ideal S132x132 .f32) (x16 : FVec Ideal S132 .f32) (x17 : FVec Ideal S132x128 .f32) (x18 : FVec Ideal S128 .f32) (x19 : FVec Ideal S256x132 .f32)
    (x20 : FVec Ideal S132 .f32) (x21 : FVec Ideal S132x132 .f32) (x22 : FVec Ideal S132 .f32) (x23 : FVec Ideal S132x132 .f32) (x24 : FVec Ideal S132 .f32)
    (x25 : FVec Ideal S132x128 .f32) (x26 : FVec Ideal S128 .f32) (x27 : FVec Ideal S128x128 .f32) (x28 : FVec Ideal S128 .f32) (x29 : FVec Ideal S128x128 .f32)
    (x30 : FVec Ideal S128 .f32) (x31 : FVec Ideal S256x132 .f32) (x32 : FVec Ideal S132 .f32) (x33 : FVec Ideal S132x132 .f32) (x34 : FVec Ideal S132 .f32)
    (x35 : FVec Ideal S132x128 .f32) (x36 : FVec Ideal S128 .f32) :
    FVec Ideal S8x65536x128 .f32 :=
  concatenate S8x65536x128 0 [⟨S1x65536x128, slab (aDP1 x0 x1 x2 x3 x4 x5 x6 x7 x8 x9 x10 x11 x12 x13 x14 x15 x16 x17 x18 x19 x20 x21 x22 x23 x24 x25 x26 x27 x28 x29 x30 x31 x32 x33 x34 x35 x36)⟩, ⟨S1x65536x128, slab (aDP1 x0 x1 x2 x3 x4 x5 x6 x7 x8 x9 x10 x11 x12 x13 x14 x15 x16 x17 x18 x19 x20 x21 x22 x23 x24 x25 x26 x27 x28 x29 x30 x31 x32 x33 x34 x35 x36)⟩,
    ⟨S1x65536x128, slab (aDL1 x0 x1 x2 x3 x4 x5 x6 x7 x8 x9 x10 x11 x12 x13 x14 x15 x16 x17 x18 x19 x20 x21 x22 x23 x24 x25 x26 x27 x28 x29 x30 x31 x32 x33 x34 x35 x36)⟩, ⟨S1x65536x128, slab (aDC1 x0 x1 x2 x3 x4 x5 x6 x7 x8 x9 x10 x11 x12 x13 x14 x15 x16 x17 x18 x19 x20 x21 x22 x23 x24 x25 x26 x27 x28 x29 x30 x31 x32 x33 x34 x35 x36)⟩,
    ⟨S1x65536x128, slab (aDC1 x0 x1 x2 x3 x4 x5 x6 x7 x8 x9 x10 x11 x12 x13 x14 x15 x16 x17 x18 x19 x20 x21 x22 x23 x24 x25 x26 x27 x28 x29 x30 x31 x32 x33 x34 x35 x36)⟩, ⟨S1x65536x128, slab (aDP3 x0 x1 x2 x3 x4 x5 x6 x7 x8 x9 x10 x11 x12 x13 x14 x15 x16 x17 x18 x19 x20 x21 x22 x23 x24 x25 x26 x27 x28 x29 x30 x31 x32 x33 x34 x35 x36)⟩,
    ⟨S1x65536x128, slab (aDL2 x0 x1 x2 x3 x4 x5 x6 x7 x8 x9 x10 x11 x12 x13 x14 x15 x16 x17 x18 x19 x20 x21 x22 x23 x24 x25 x26 x27 x28 x29 x30 x31 x32 x33 x34 x35 x36)⟩, ⟨S1x65536x128, slab (aDL2 x0 x1 x2 x3 x4 x5 x6 x7 x8 x9 x10 x11 x12 x13 x14 x15 x16 x17 x18 x19 x20 x21 x22 x23 x24 x25 x26 x27 x28 x29 x30 x31 x32 x33 x34 x35 x36)⟩]
    concatenates_S1x65536x128_S1x65536x128_S1x65536x128_S1x65536x128_S1x65536x128_S1x65536x128_S1x65536x128_S1x65536x128_S8x65536x128_d0

end Cert.RefValue

end
-- ==== Proof.RefRes.lean ====
/-
  The reference's run ends with its result array equal to the graph of named arrays of the launch contents of its 37
  arguments: the program's composed term of the arguments and that graph are the same operations on the same operands in
  the same order, each of the six repeated nodes written once in the graph.
-/
import proofs.«167402_j1125281431924_2_alg».proof.Proof.ReferenceOpsP
import proofs.«167402_j1125281431924_2_alg».proof.Proof.RefArr

noncomputable section

namespace Cert.RefValue

open Idealize.ShloMosaic Idealize.ShloMosaic.TcCoe Idealize.SL.Sem Cert.ReferenceIdeal Cert.ReferenceIdeal.Gen

set_option maxRecDepth 16384 in
set_option maxHeartbeats 4000000 in
/-- The result array of the reference's run, as the graph of named arrays of the arguments' launch contents. -/
theorem res_eq (m : (ℓ : Loc nD τ sig) → Buf (Elt Ideal) ℓ) (c : Dev nD) :
    Cert.ReferenceIdeal.ValueP.res_main_v366 (F := Ideal) m c
      = aOut
        (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14)) (m ((c.tc : Thread nD τ).loc main_arg15))
        (m ((c.tc : Thread nD τ).loc main_arg16)) (m ((c.tc : Thread nD τ).loc main_arg17)) (m ((c.tc : Thread nD τ).loc main_arg18)) (m ((c.tc : Thread nD τ).loc main_arg19))
        (m ((c.tc : Thread nD τ).loc main_arg20)) (m ((c.tc : Thread nD τ).loc main_arg21)) (m ((c.tc : Thread nD τ).loc main_arg22)) (m ((c.tc : Thread nD τ).loc main_arg23))
        (m ((c.tc : Thread nD τ).loc main_arg24)) (m ((c.tc : Thread nD τ).loc main_arg25)) (m ((c.tc : Thread nD τ).loc main_arg26)) (m ((c.tc : Thread nD τ).loc main_arg27))
        (m ((c.tc : Thread nD τ).loc main_arg28)) (m ((c.tc : Thread nD τ).loc main_arg29)) (m ((c.tc : Thread nD τ).loc main_arg30)) (m ((c.tc : Thread nD τ).loc main_arg31))
        (m ((c.tc : Thread nD τ).loc main_arg32)) (m ((c.tc : Thread nD τ).loc main_arg33)) (m ((c.tc : Thread nD τ).loc main_arg34)) (m ((c.tc : Thread nD τ).loc main_arg35))
        (m ((c.tc : Thread nD τ).loc main_arg36)) := by
  unfold Cert.ReferenceIdeal.ValueP.res_main_v366
  rfl

end Cert.RefValue

end
-- ==== Proof.RefRows.lean ====
/-
  The reference's result read one row of the signal at a time.

  Each of the program's arrays has one row per row of the signal, and each of its operations acts on rows: a matrix
  product's row is the row times the matrix, a bias broadcast down the rows has the bias as every row, the maximum with the
  zero array is the positive part of the row, two arrays joined along the columns have their rows joined end to end. So row
  r of every node's array is that node of the network (the row-level blocks, in the reference's order) on row r of the
  signal, with the 36 weight arrays read as matrices and bias rows; and entry (s, r, q) of the result, which joins the eight
  nodes' arrays along a new leading axis, is entry q of node s on row r.
-/
import proofs.«167402_j1125281431924_2_alg».proof.Proof.Weights
import proofs.«167402_j1125281431924_2_alg».proof.Proof.RefArr

noncomputable section

namespace Cert.RefValue

open Idealize.ShloMosaic Idealize.ShloMosaic.ValueIdx Cert.ReferenceIdeal Cert.ReferenceIdeal.Facts₀ Cert.Rows Cert.Net

variable [Cert.ReferenceIdeal.Facts]

/-! ## Rows of the layers -/

theorem Row_zero128 (r : Fin 65536) : Row zero128 r = fun _ => (0 : EReal) := by
  unfold zero128
  rw [Row_bcast0]
  funext _
  exact bits_zero

theorem Row_relu132 (v : FVec Ideal S65536x132 .f32) (r : Fin 65536) : Row (relu132 v) r = relu (Row v r) := by
  unfold relu132
  rw [Row_maximumf, Row_bcast0]
  funext q
  show max (Row v r q) (Ideal.ofBits .f32 0x00000000#32) = max (Row v r q) 0
  rw [bits_zero]

theorem Row_aff640 (X : FVec Ideal S65536x640 .f32) (W : FVec Ideal S640x132 .f32) (b : FVec Ideal S132 .f32) (r : Fin 65536) :
    Row (aff640 X W b) r = lin (Row X r) (Mat W) (Vec1 b) := by
  unfold aff640
  rw [Row_addf, Row_dotGeneral dot_S65536x640_S640x132_S65536x132_1_0_0_1_n_n rfl, Row_bias_h]
  rfl

theorem Row_aff256 (X : FVec Ideal S65536x256 .f32) (W : FVec Ideal S256x132 .f32) (b : FVec Ideal S132 .f32) (r : Fin 65536) :
    Row (aff256 X W b) r = lin (Row X r) (Mat W) (Vec1 b) := by
  unfold aff256
  rw [Row_addf, Row_dotGeneral dot_S65536x256_S256x132_S65536x132_1_0_0_1_n_n rfl, Row_bias_h]
  rfl

theorem Row_aff132 (X : FVec Ideal S65536x132 .f32) (W : FVec Ideal S132x132 .f32) (b : FVec Ideal S132 .f32) (r : Fin 65536) :
    Row (aff132 X W b) r = lin (Row X r) (Mat W) (Vec1 b) := by
  unfold aff132
  rw [Row_addf, Row_dotGeneral dot_S65536x132_S132x132_S65536x132_1_0_0_1_n_n rfl, Row_bias_h]
  rfl

theorem Row_affOut (X : FVec Ideal S65536x132 .f32) (W : FVec Ideal S132x128 .f32) (b : FVec Ideal S128 .f32) (r : Fin 65536) :
    Row (affOut X W b) r = lin (Row X r) (Mat W) (Vec1 b) := by
  unfold affOut
  rw [Row_addf, Row_dotGeneral dot_S65536x132_S132x128_S65536x128_1_0_0_1_n_n rfl, Row_bias_h]
  rfl

theorem Row_aff128 (X : FVec Ideal S65536x128 .f32) (W : FVec Ideal S128x128 .f32) (b : FVec Ideal S128 .f32) (r : Fin 65536) :
    Row (aff128 X W b) r = lin (Row X r) (Mat W) (Vec1 b) := by
  unfold aff128
  rw [Row_addf, Row_dotGeneral dot_S65536x128_S128x128_S65536x128_1_0_0_1_n_n rfl, Row_bias_h]
  rfl

theorem Row_cat640 (a : FVec Ideal S65536x512 .f32) (b : FVec Ideal S65536x128 .f32) (r : Fin 65536) :
    Row (cat640 a b) r = cat (by norm_num : 512 + 128 = 640) (Row a r) (Row b r) :=
  Row_concat _ a b _ r

theorem Row_cat256 (a b : FVec Ideal S65536x128 .f32) (r : Fin 65536) :
    Row (cat256 a b) r = cat (by norm_num : 128 + 128 = 256) (Row a r) (Row b r) :=
  Row_concat _ a b _ r

theorem Row_fc3x640 (X : FVec Ideal S65536x640 .f32) (w0 : FVec Ideal S640x132 .f32) (b0 : FVec Ideal S132 .f32) (w1 : FVec Ideal S132x132 .f32)
    (b1 : FVec Ideal S132 .f32) (w2 : FVec Ideal S132x128 .f32) (b2 : FVec Ideal S128 .f32) (r : Fin 65536) :
    Row (fc3x640 X w0 b0 w1 b1 w2 b2) r = fc3 (Row X r) (Mat w0) (Vec1 b0) (Mat w1) (Vec1 b1) (Mat w2) (Vec1 b2) := by
  unfold fc3x640 fc3
  rw [Row_affOut, Row_relu132, Row_aff132, Row_relu132, Row_aff640]

theorem Row_fc3x256 (X : FVec Ideal S65536x256 .f32) (w0 : FVec Ideal S256x132 .f32) (b0 : FVec Ideal S132 .f32) (w1 : FVec Ideal S132x132 .f32)
    (b1 : FVec Ideal S132 .f32) (w2 : FVec Ideal S132x128 .f32) (b2 : FVec Ideal S128 .f32) (r : Fin 65536) :
    Row (fc3x256 X w0 b0 w1 b1 w2 b2) r = fc3 (Row X r) (Mat w0) (Vec1 b0) (Mat w1) (Vec1 b1) (Mat w2) (Vec1 b2) := by
  unfold fc3x256 fc3
  rw [Row_affOut, Row_relu132, Row_aff132, Row_relu132, Row_aff256]

theorem Row_fc4x256 (X : FVec Ideal S65536x256 .f32) (w0 : FVec Ideal S256x132 .f32) (b0 : FVec Ideal S132 .f32) (w1 : FVec Ideal S132x132 .f32)
    (b1 : FVec Ideal S132 .f32) (w2 : FVec Ideal S132x132 .f32) (b2 : FVec Ideal S132 .f32) (w3 : FVec Ideal S132x128 .f32)
    (b3 : FVec Ideal S128 .f32) (r : Fin 65536) :
    Row (fc4x256 X w0 b0 w1 b1 w2 b2 w3 b3) r
      = fc4 (Row X r) (Mat w0) (Vec1 b0) (Mat w1) (Vec1 b1) (Mat w2) (Vec1 b2) (Mat w3) (Vec1 b3) := by
  unfold fc4x256 fc4
  rw [Row_affOut, Row_relu132, Row_aff132, Row_relu132, Row_aff132, Row_relu132, Row_aff256]

/-! ## Rows of the messages -/

theorem Row_cbias (cw : BitVec 32) (mb : FVec Ideal S128 .f32) (r : Fin 65536) :
    Row (cbias cw mb) r = fun q => Ideal.ofBits .f32 cw * Vec1 mb q := by
  unfold cbias
  rw [Row_bias_h, Vec1_mulf, Vec1_bcast0]
  rfl

theorem Row_aMsg1 (cw : BitVec 32) (mw : FVec Ideal S128x128 .f32) (mb : FVec Ideal S128 .f32) (a : FVec Ideal S65536x128 .f32)
    (r : Fin 65536) : Row (aMsg1 cw mw mb a) r = msg1 (Ideal.ofBits .f32 cw) (Mat mw) (Vec1 mb) (Row a r) := by
  unfold aMsg1
  rw [Row_addf, Row_addf, Row_cbias, ← zero128, Row_zero128, Row_dotGeneral dot_S65536x128_S128x128_S65536x128_1_0_0_1_n_n rfl]
  rfl

theorem Row_aMsg2 (cw : BitVec 32) (mw : FVec Ideal S128x128 .f32) (mb : FVec Ideal S128 .f32) (a b : FVec Ideal S65536x128 .f32)
    (r : Fin 65536) : Row (aMsg2 cw mw mb a b) r = msg2 (Ideal.ofBits .f32 cw) (Mat mw) (Vec1 mb) (Row a r) (Row b r) := by
  unfold aMsg2
  rw [Row_addf, Row_addf, Row_addf, Row_cbias, ← zero128, Row_zero128,
    Row_dotGeneral dot_S65536x128_S128x128_S65536x128_1_0_0_1_n_n rfl, Row_dotGeneral dot_S65536x128_S128x128_S65536x128_1_0_0_1_n_n rfl]
  rfl

theorem Row_aMsg4 (cw : BitVec 32) (mw : FVec Ideal S128x128 .f32) (mb : FVec Ideal S128 .f32) (a b d e : FVec Ideal S65536x128 .f32)
    (r : Fin 65536) :
    Row (aMsg4 cw mw mb a b d e) r = msg4 (Ideal.ofBits .f32 cw) (Mat mw) (Vec1 mb) (Row a r) (Row b r) (Row d r) (Row e r) := by
  unfold aMsg4
  rw [Row_addf, Row_addf, Row_addf, Row_addf, Row_addf, Row_cbias, ← zero128, Row_zero128,
    Row_dotGeneral dot_S65536x128_S128x128_S65536x128_1_0_0_1_n_n rfl, Row_dotGeneral dot_S65536x128_S128x128_S65536x128_1_0_0_1_n_n rfl,
    Row_dotGeneral dot_S65536x128_S128x128_S65536x128_1_0_0_1_n_n rfl, Row_dotGeneral dot_S65536x128_S128x128_S65536x128_1_0_0_1_n_n rfl]
  rfl

/-! ## Rows of the nodes -/

/-- Row r of the first-level point node is that node of the network on row r of the signal. -/
theorem Row_aUpP1
    (x0 : FVec Ideal S65536x512 .f32) (x1 : FVec Ideal S128x128 .f32) (x2 : FVec Ideal S128 .f32) (x3 : FVec Ideal S128x128 .f32) (x4 : FVec Ideal S128 .f32)
    (x5 : FVec Ideal S640x132 .f32) (x6 : FVec Ideal S132 .f32) (x7 : FVec Ideal S132x132 .f32) (x8 : FVec Ideal S132 .f32) (x9 : FVec Ideal S132x128 .f32)
    (x10 : FVec Ideal S128 .f32) (x11 : FVec Ideal S256x132 .f32) (x12 : FVec Ideal S132 .f32) (x13 : FVec Ideal S132x132 .f32) (x14 : FVec Ideal S132 .f32)
    (x15 : FVec Ideal S132x132 .f32) (x16 : FVec Ideal S132 .f32) (x17 : FVec Ideal S132x128 .f32) (x18 : FVec Ideal S128 .f32) (x19 : FVec Ideal S256x132 .f32)
    (x20 : FVec Ideal S132 .f32) (x21 : FVec Ideal S132x132 .f32) (x22 : FVec Ideal S132 .f32) (x23 : FVec Ideal S132x132 .f32) (x24 : FVec Ideal S132 .f32)
    (x25 : FVec Ideal S132x128 .f32) (x26 : FVec Ideal S128 .f32) (x27 : FVec Ideal S128x128 .f32) (x28 : FVec Ideal S128 .f32) (x29 : FVec Ideal S128x128 .f32)
    (x30 : FVec Ideal S128 .f32) (x31 : FVec Ideal S256x132 .f32) (x32 : FVec Ideal S132 .f32) (x33 : FVec Ideal S132x132 .f32) (x34 : FVec Ideal S132 .f32)
    (x35 : FVec Ideal S132x128 .f32) (x36 : FVec Ideal S128 .f32)
    (r : Fin 65536) :
    Row (aUpP1 x0 x1 x2 x3 x4 x5 x6 x7 x8 x9 x10 x11 x12 x13 x14 x15 x16 x17 x18 x19 x20 x21 x22 x23 x24 x25 x26 x27 x28 x29 x30 x31 x32 x33 x34 x35 x36) r
      = rUpP1 (mkW x1 x2 x3 x4 x5 x6 x7 x8 x9 x10 x11 x12 x13 x14 x15 x16 x17 x18 x19 x20 x21 x22 x23 x24 x25 x26 x27 x28 x29 x30 x31 x32 x33 x34 x35 x36) (Row x0 r) := by
  unfold aUpP1
  rw [Row_fc3x640, Row_cat640, Row_zero128]
  rfl

/-- The first line node, upward. -/
theorem Row_aUpL1
    (x0 : FVec Ideal S65536x512 .f32) (x1 : FVec Ideal S128x128 .f32) (x2 : FVec Ideal S128 .f32) (x3 : FVec Ideal S128x128 .f32) (x4 : FVec Ideal S128 .f32)
    (x5 : FVec Ideal S640x132 .f32) (x6 : FVec Ideal S132 .f32) (x7 : FVec Ideal S132x132 .f32) (x8 : FVec Ideal S132 .f32) (x9 : FVec Ideal S132x128 .f32)
    (x10 : FVec Ideal S128 .f32) (x11 : FVec Ideal S256x132 .f32) (x12 : FVec Ideal S132 .f32) (x13 : FVec Ideal S132x132 .f32) (x14 : FVec Ideal S132 .f32)
    (x15 : FVec Ideal S132x132 .f32) (x16 : FVec Ideal S132 .f32) (x17 : FVec Ideal S132x128 .f32) (x18 : FVec Ideal S128 .f32) (x19 : FVec Ideal S256x132 .f32)
    (x20 : FVec Ideal S132 .f32) (x21 : FVec Ideal S132x132 .f32) (x22 : FVec Ideal S132 .f32) (x23 : FVec Ideal S132x132 .f32) (x24 : FVec Ideal S132 .f32)
    (x25 : FVec Ideal S132x128 .f32) (x26 : FVec Ideal S128 .f32) (x27 : FVec Ideal S128x128 .f32) (x28 : FVec Ideal S128 .f32) (x29 : FVec Ideal S128x128 .f32)
    (x30 : FVec Ideal S128 .f32) (x31 : FVec Ideal S256x132 .f32) (x32 : FVec Ideal S132 .f32) (x33 : FVec Ideal S132x132 .f32) (x34 : FVec Ideal S132 .f32)
    (x35 : FVec Ideal S132x128 .f32) (x36 : FVec Ideal S128 .f32)
    (r : Fin 65536) :
    Row (aUpL1 x0 x1 x2 x3 x4 x5 x6 x7 x8 x9 x10 x11 x12 x13 x14 x15 x16 x17 x18 x19 x20 x21 x22 x23 x24 x25 x26 x27 x28 x29 x30 x31 x32 x33 x34 x35 x36) r
      = rUpL1 (mkW x1 x2 x3 x4 x5 x6 x7 x8 x9 x10 x11 x12 x13 x14 x15 x16 x17 x18 x19 x20 x21 x22 x23 x24 x25 x26 x27 x28 x29 x30 x31 x32 x33 x34 x35 x36) (Row x0 r) := by
  unfold aUpL1
  rw [Row_fc4x256, Row_cat256, Row_aUpP1]
  rfl

/-- A circle node, upward. -/
theorem Row_aUpC1
    (x0 : FVec Ideal S65536x512 .f32) (x1 : FVec Ideal S128x128 .f32) (x2 : FVec Ideal S128 .f32) (x3 : FVec Ideal S128x128 .f32) (x4 : FVec Ideal S128 .f32)
    (x5 : FVec Ideal S640x132 .f32) (x6 : FVec Ideal S132 .f32) (x7 : FVec Ideal S132x132 .f32) (x8 : FVec Ideal S132 .f32) (x9 : FVec Ideal S132x128 .f32)
    (x10 : FVec Ideal S128 .f32) (x11 : FVec Ideal S256x132 .f32) (x12 : FVec Ideal S132 .f32) (x13 : FVec Ideal S132x132 .f32) (x14 : FVec Ideal S132 .f32)
    (x15 : FVec Ideal S132x132 .f32) (x16 : FVec Ideal S132 .f32) (x17 : FVec Ideal S132x128 .f32) (x18 : FVec Ideal S128 .f32) (x19 : FVec Ideal S256x132 .f32)
    (x20 : FVec Ideal S132 .f32) (x21 : FVec Ideal S132x132 .f32) (x22 : FVec Ideal S132 .f32) (x23 : FVec Ideal S132x132 .f32) (x24 : FVec Ideal S132 .f32)
    (x25 : FVec Ideal S132x128 .f32) (x26 : FVec Ideal S128 .f32) (x27 : FVec Ideal S128x128 .f32) (x28 : FVec Ideal S128 .f32) (x29 : FVec Ideal S128x128 .f32)
    (x30 : FVec Ideal S128 .f32) (x31 : FVec Ideal S256x132 .f32) (x32 : FVec Ideal S132 .f32) (x33 : FVec Ideal S132x132 .f32) (x34 : FVec Ideal S132 .f32)
    (x35 : FVec Ideal S132x128 .f32) (x36 : FVec Ideal S128 .f32)
    (r : Fin 65536) :
    Row (aUpC1 x0 x1 x2 x3 x4 x5 x6 x7 x8 x9 x10 x11 x12 x13 x14 x15 x16 x17 x18 x19 x20 x21 x22 x23 x24 x25 x26 x27 x28 x29 x30 x31 x32 x33 x34 x35 x36) r
      = rUpC1 (mkW x1 x2 x3 x4 x5 x6 x7 x8 x9 x10 x11 x12 x13 x14 x15 x16 x17 x18 x19 x20 x21 x22 x23 x24 x25 x26 x27 x28 x29 x30 x31 x32 x33 x34 x35 x36) (Row x0 r) := by
  unfold aUpC1
  rw [Row_fc4x256, Row_cat256, Row_aUpP1]
  rfl

/-- The third point node, upward. -/
theorem Row_aUpP3
    (x0 : FVec Ideal S65536x512 .f32) (x1 : FVec Ideal S128x128 .f32) (x2 : FVec Ideal S128 .f32) (x3 : FVec Ideal S128x128 .f32) (x4 : FVec Ideal S128 .f32)
    (x5 : FVec Ideal S640x132 .f32) (x6 : FVec Ideal S132 .f32) (x7 : FVec Ideal S132x132 .f32) (x8 : FVec Ideal S132 .f32) (x9 : FVec Ideal S132x128 .f32)
    (x10 : FVec Ideal S128 .f32) (x11 : FVec Ideal S256x132 .f32) (x12 : FVec Ideal S132 .f32) (x13 : FVec Ideal S132x132 .f32) (x14 : FVec Ideal S132 .f32)
    (x15 : FVec Ideal S132x132 .f32) (x16 : FVec Ideal S132 .f32) (x17 : FVec Ideal S132x128 .f32) (x18 : FVec Ideal S128 .f32) (x19 : FVec Ideal S256x132 .f32)
    (x20 : FVec Ideal S132 .f32) (x21 : FVec Ideal S132x132 .f32) (x22 : FVec Ideal S132 .f32) (x23 : FVec Ideal S132x132 .f32) (x24 : FVec Ideal S132 .f32)
    (x25 : FVec Ideal S132x128 .f32) (x26 : FVec Ideal S128 .f32) (x27 : FVec Ideal S128x128 .f32) (x28 : FVec Ideal S128 .f32) (x29 : FVec Ideal S128x128 .f32)
    (x30 : FVec Ideal S128 .f32) (x31 : FVec Ideal S256x132 .f32) (x32 : FVec Ideal S132 .f32) (x33 : FVec Ideal S132x132 .f32) (x34 : FVec Ideal S132 .f32)
    (x35 : FVec Ideal S132x128 .f32) (x36 : FVec Ideal S128 .f32)
    (r : Fin 65536) :
    Row (aUpP3 x0 x1 x2 x3 x4 x5 x6 x7 x8 x9 x10 x11 x12 x13 x14 x15 x16 x17 x18 x19 x20 x21 x22 x23 x24 x25 x26 x27 x28 x29 x30 x31 x32 x33 x34 x35 x36) r
      = rUpP3 (mkW x1 x2 x3 x4 x5 x6 x7 x8 x9 x10 x11 x12 x13 x14 x15 x16 x17 x18 x19 x20 x21 x22 x23 x24 x25 x26 x27 x28 x29 x30 x31 x32 x33 x34 x35 x36) (Ideal.ofBits .f32 0x40000000#32) (Row x0 r) := by
  unfold aUpP3
  rw [Row_fc3x640, Row_cat640, Row_aff128, Row_aMsg2, Row_aUpC1]
  rfl

/-- A second-level line node, upward. -/
theorem Row_aUpL2
    (x0 : FVec Ideal S65536x512 .f32) (x1 : FVec Ideal S128x128 .f32) (x2 : FVec Ideal S128 .f32) (x3 : FVec Ideal S128x128 .f32) (x4 : FVec Ideal S128 .f32)
    (x5 : FVec Ideal S640x132 .f32) (x6 : FVec Ideal S132 .f32) (x7 : FVec Ideal S132x132 .f32) (x8 : FVec Ideal S132 .f32) (x9 : FVec Ideal S132x128 .f32)
    (x10 : FVec Ideal S128 .f32) (x11 : FVec Ideal S256x132 .f32) (x12 : FVec Ideal S132 .f32) (x13 : FVec Ideal S132x132 .f32) (x14 : FVec Ideal S132 .f32)
    (x15 : FVec Ideal S132x132 .f32) (x16 : FVec Ideal S132 .f32) (x17 : FVec Ideal S132x128 .f32) (x18 : FVec Ideal S128 .f32) (x19 : FVec Ideal S256x132 .f32)
    (x20 : FVec Ideal S132 .f32) (x21 : FVec Ideal S132x132 .f32) (x22 : FVec Ideal S132 .f32) (x23 : FVec Ideal S132x132 .f32) (x24 : FVec Ideal S132 .f32)
    (x25 : FVec Ideal S132x128 .f32) (x26 : FVec Ideal S128 .f32) (x27 : FVec Ideal S128x128 .f32) (x28 : FVec Ideal S128 .f32) (x29 : FVec Ideal S128x128 .f32)
    (x30 : FVec Ideal S128 .f32) (x31 : FVec Ideal S256x132 .f32) (x32 : FVec Ideal S132 .f32) (x33 : FVec Ideal S132x132 .f32) (x34 : FVec Ideal S132 .f32)
    (x35 : FVec Ideal S132x128 .f32) (x36 : FVec Ideal S128 .f32)
    (r : Fin 65536) :
    Row (aUpL2 x0 x1 x2 x3 x4 x5 x6 x7 x8 x9 x10 x11 x12 x13 x14 x15 x16 x17 x18 x19 x20 x21 x22 x23 x24 x25 x26 x27 x28 x29 x30 x31 x32 x33 x34 x35 x36) r
      = rUpL2 (mkW x1 x2 x3 x4 x5 x6 x7 x8 x9 x10 x11 x12 x13 x14 x15 x16 x17 x18 x19 x20 x21 x22 x23 x24 x25 x26 x27 x28 x29 x30 x31 x32 x33 x34 x35 x36) (Ideal.ofBits .f32 0x40000000#32) (Row x0 r) := by
  unfold aUpL2
  rw [Row_fc4x256, Row_cat256, Row_aUpP1, Row_aUpP3]
  rfl

/-- The first line node, downward. -/
theorem Row_aDL1
    (x0 : FVec Ideal S65536x512 .f32) (x1 : FVec Ideal S128x128 .f32) (x2 : FVec Ideal S128 .f32) (x3 : FVec Ideal S128x128 .f32) (x4 : FVec Ideal S128 .f32)
    (x5 : FVec Ideal S640x132 .f32) (x6 : FVec Ideal S132 .f32) (x7 : FVec Ideal S132x132 .f32) (x8 : FVec Ideal S132 .f32) (x9 : FVec Ideal S132x128 .f32)
    (x10 : FVec Ideal S128 .f32) (x11 : FVec Ideal S256x132 .f32) (x12 : FVec Ideal S132 .f32) (x13 : FVec Ideal S132x132 .f32) (x14 : FVec Ideal S132 .f32)
    (x15 : FVec Ideal S132x132 .f32) (x16 : FVec Ideal S132 .f32) (x17 : FVec Ideal S132x128 .f32) (x18 : FVec Ideal S128 .f32) (x19 : FVec Ideal S256x132 .f32)
    (x20 : FVec Ideal S132 .f32) (x21 : FVec Ideal S132x132 .f32) (x22 : FVec Ideal S132 .f32) (x23 : FVec Ideal S132x132 .f32) (x24 : FVec Ideal S132 .f32)
    (x25 : FVec Ideal S132x128 .f32) (x26 : FVec Ideal S128 .f32) (x27 : FVec Ideal S128x128 .f32) (x28 : FVec Ideal S128 .f32) (x29 : FVec Ideal S128x128 .f32)
    (x30 : FVec Ideal S128 .f32) (x31 : FVec Ideal S256x132 .f32) (x32 : FVec Ideal S132 .f32) (x33 : FVec Ideal S132x132 .f32) (x34 : FVec Ideal S132 .f32)
    (x35 : FVec Ideal S132x128 .f32) (x36 : FVec Ideal S128 .f32)
    (r : Fin 65536) :
    Row (aDL1 x0 x1 x2 x3 x4 x5 x6 x7 x8 x9 x10 x11 x12 x13 x14 x15 x16 x17 x18 x19 x20 x21 x22 x23 x24 x25 x26 x27 x28 x29 x30 x31 x32 x33 x34 x35 x36) r
      = rDL1 (mkW x1 x2 x3 x4 x5 x6 x7 x8 x9 x10 x11 x12 x13 x14 x15 x16 x17 x18 x19 x20 x21 x22 x23 x24 x25 x26 x27 x28 x29 x30 x31 x32 x33 x34 x35 x36) (Row x0 r) := by
  unfold aDL1
  rw [Row_fc3x256, Row_cat256, Row_aUpL1, Row_zero128]
  rfl

/-- A second-level line node, downward. -/
theorem Row_aDL2
    (x0 : FVec Ideal S65536x512 .f32) (x1 : FVec Ideal S128x128 .f32) (x2 : FVec Ideal S128 .f32) (x3 : FVec Ideal S128x128 .f32) (x4 : FVec Ideal S128 .f32)
    (x5 : FVec Ideal S640x132 .f32) (x6 : FVec Ideal S132 .f32) (x7 : FVec Ideal S132x132 .f32) (x8 : FVec Ideal S132 .f32) (x9 : FVec Ideal S132x128 .f32)
    (x10 : FVec Ideal S128 .f32) (x11 : FVec Ideal S256x132 .f32) (x12 : FVec Ideal S132 .f32) (x13 : FVec Ideal S132x132 .f32) (x14 : FVec Ideal S132 .f32)
    (x15 : FVec Ideal S132x132 .f32) (x16 : FVec Ideal S132 .f32) (x17 : FVec Ideal S132x128 .f32) (x18 : FVec Ideal S128 .f32) (x19 : FVec Ideal S256x132 .f32)
    (x20 : FVec Ideal S132 .f32) (x21 : FVec Ideal S132x132 .f32) (x22 : FVec Ideal S132 .f32) (x23 : FVec Ideal S132x132 .f32) (x24 : FVec Ideal S132 .f32)
    (x25 : FVec Ideal S132x128 .f32) (x26 : FVec Ideal S128 .f32) (x27 : FVec Ideal S128x128 .f32) (x28 : FVec Ideal S128 .f32) (x29 : FVec Ideal S128x128 .f32)
    (x30 : FVec Ideal S128 .f32) (x31 : FVec Ideal S256x132 .f32) (x32 : FVec Ideal S132 .f32) (x33 : FVec Ideal S132x132 .f32) (x34 : FVec Ideal S132 .f32)
    (x35 : FVec Ideal S132x128 .f32) (x36 : FVec Ideal S128 .f32)
    (r : Fin 65536) :
    Row (aDL2 x0 x1 x2 x3 x4 x5 x6 x7 x8 x9 x10 x11 x12 x13 x14 x15 x16 x17 x18 x19 x20 x21 x22 x23 x24 x25 x26 x27 x28 x29 x30 x31 x32 x33 x34 x35 x36) r
      = rDL2 (mkW x1 x2 x3 x4 x5 x6 x7 x8 x9 x10 x11 x12 x13 x14 x15 x16 x17 x18 x19 x20 x21 x22 x23 x24 x25 x26 x27 x28 x29 x30 x31 x32 x33 x34 x35 x36) (Ideal.ofBits .f32 0x40000000#32) (Row x0 r) := by
  unfold aDL2
  rw [Row_fc3x256, Row_cat256, Row_aUpL2, Row_zero128]
  rfl

/-- The third point node, downward. -/
theorem Row_aDP3
    (x0 : FVec Ideal S65536x512 .f32) (x1 : FVec Ideal S128x128 .f32) (x2 : FVec Ideal S128 .f32) (x3 : FVec Ideal S128x128 .f32) (x4 : FVec Ideal S128 .f32)
    (x5 : FVec Ideal S640x132 .f32) (x6 : FVec Ideal S132 .f32) (x7 : FVec Ideal S132x132 .f32) (x8 : FVec Ideal S132 .f32) (x9 : FVec Ideal S132x128 .f32)
    (x10 : FVec Ideal S128 .f32) (x11 : FVec Ideal S256x132 .f32) (x12 : FVec Ideal S132 .f32) (x13 : FVec Ideal S132x132 .f32) (x14 : FVec Ideal S132 .f32)
    (x15 : FVec Ideal S132x132 .f32) (x16 : FVec Ideal S132 .f32) (x17 : FVec Ideal S132x128 .f32) (x18 : FVec Ideal S128 .f32) (x19 : FVec Ideal S256x132 .f32)
    (x20 : FVec Ideal S132 .f32) (x21 : FVec Ideal S132x132 .f32) (x22 : FVec Ideal S132 .f32) (x23 : FVec Ideal S132x132 .f32) (x24 : FVec Ideal S132 .f32)
    (x25 : FVec Ideal S132x128 .f32) (x26 : FVec Ideal S128 .f32) (x27 : FVec Ideal S128x128 .f32) (x28 : FVec Ideal S128 .f32) (x29 : FVec Ideal S128x128 .f32)
    (x30 : FVec Ideal S128 .f32) (x31 : FVec Ideal S256x132 .f32) (x32 : FVec Ideal S132 .f32) (x33 : FVec Ideal S132x132 .f32) (x34 : FVec Ideal S132 .f32)
    (x35 : FVec Ideal S132x128 .f32) (x36 : FVec Ideal S128 .f32)
    (r : Fin 65536) :
    Row (aDP3 x0 x1 x2 x3 x4 x5 x6 x7 x8 x9 x10 x11 x12 x13 x14 x15 x16 x17 x18 x19 x20 x21 x22 x23 x24 x25 x26 x27 x28 x29 x30 x31 x32 x33 x34 x35 x36) r
      = rDP3 (mkW x1 x2 x3 x4 x5 x6 x7 x8 x9 x10 x11 x12 x13 x14 x15 x16 x17 x18 x19 x20 x21 x22 x23 x24 x25 x26 x27 x28 x29 x30 x31 x32 x33 x34 x35 x36) (Ideal.ofBits .f32 0x40000000#32) (Row x0 r) := by
  unfold aDP3
  rw [Row_fc3x256, Row_cat256, Row_aUpP3, Row_aff128, Row_aMsg2, Row_aDL2]
  rfl

/-- A circle node, downward. -/
theorem Row_aDC1
    (x0 : FVec Ideal S65536x512 .f32) (x1 : FVec Ideal S128x128 .f32) (x2 : FVec Ideal S128 .f32) (x3 : FVec Ideal S128x128 .f32) (x4 : FVec Ideal S128 .f32)
    (x5 : FVec Ideal S640x132 .f32) (x6 : FVec Ideal S132 .f32) (x7 : FVec Ideal S132x132 .f32) (x8 : FVec Ideal S132 .f32) (x9 : FVec Ideal S132x128 .f32)
    (x10 : FVec Ideal S128 .f32) (x11 : FVec Ideal S256x132 .f32) (x12 : FVec Ideal S132 .f32) (x13 : FVec Ideal S132x132 .f32) (x14 : FVec Ideal S132 .f32)
    (x15 : FVec Ideal S132x132 .f32) (x16 : FVec Ideal S132 .f32) (x17 : FVec Ideal S132x128 .f32) (x18 : FVec Ideal S128 .f32) (x19 : FVec Ideal S256x132 .f32)
    (x20 : FVec Ideal S132 .f32) (x21 : FVec Ideal S132x132 .f32) (x22 : FVec Ideal S132 .f32) (x23 : FVec Ideal S132x132 .f32) (x24 : FVec Ideal S132 .f32)
    (x25 : FVec Ideal S132x128 .f32) (x26 : FVec Ideal S128 .f32) (x27 : FVec Ideal S128x128 .f32) (x28 : FVec Ideal S128 .f32) (x29 : FVec Ideal S128x128 .f32)
    (x30 : FVec Ideal S128 .f32) (x31 : FVec Ideal S256x132 .f32) (x32 : FVec Ideal S132 .f32) (x33 : FVec Ideal S132x132 .f32) (x34 : FVec Ideal S132 .f32)
    (x35 : FVec Ideal S132x128 .f32) (x36 : FVec Ideal S128 .f32)
    (r : Fin 65536) :
    Row (aDC1 x0 x1 x2 x3 x4 x5 x6 x7 x8 x9 x10 x11 x12 x13 x14 x15 x16 x17 x18 x19 x20 x21 x22 x23 x24 x25 x26 x27 x28 x29 x30 x31 x32 x33 x34 x35 x36) r
      = rDC1 (mkW x1 x2 x3 x4 x5 x6 x7 x8 x9 x10 x11 x12 x13 x14 x15 x16 x17 x18 x19 x20 x21 x22 x23 x24 x25 x26 x27 x28 x29 x30 x31 x32 x33 x34 x35 x36) (Ideal.ofBits .f32 0x3F800000#32) (Ideal.ofBits .f32 0x40000000#32) (Row x0 r) := by
  unfold aDC1
  rw [Row_fc3x256, Row_cat256, Row_aUpC1, Row_aff128, Row_aMsg1, Row_aDP3]
  rfl

/-- A first-level point node, downward. -/
theorem Row_aDP1
    (x0 : FVec Ideal S65536x512 .f32) (x1 : FVec Ideal S128x128 .f32) (x2 : FVec Ideal S128 .f32) (x3 : FVec Ideal S128x128 .f32) (x4 : FVec Ideal S128 .f32)
    (x5 : FVec Ideal S640x132 .f32) (x6 : FVec Ideal S132 .f32) (x7 : FVec Ideal S132x132 .f32) (x8 : FVec Ideal S132 .f32) (x9 : FVec Ideal S132x128 .f32)
    (x10 : FVec Ideal S128 .f32) (x11 : FVec Ideal S256x132 .f32) (x12 : FVec Ideal S132 .f32) (x13 : FVec Ideal S132x132 .f32) (x14 : FVec Ideal S132 .f32)
    (x15 : FVec Ideal S132x132 .f32) (x16 : FVec Ideal S132 .f32) (x17 : FVec Ideal S132x128 .f32) (x18 : FVec Ideal S128 .f32) (x19 : FVec Ideal S256x132 .f32)
    (x20 : FVec Ideal S132 .f32) (x21 : FVec Ideal S132x132 .f32) (x22 : FVec Ideal S132 .f32) (x23 : FVec Ideal S132x132 .f32) (x24 : FVec Ideal S132 .f32)
    (x25 : FVec Ideal S132x128 .f32) (x26 : FVec Ideal S128 .f32) (x27 : FVec Ideal S128x128 .f32) (x28 : FVec Ideal S128 .f32) (x29 : FVec Ideal S128x128 .f32)
    (x30 : FVec Ideal S128 .f32) (x31 : FVec Ideal S256x132 .f32) (x32 : FVec Ideal S132 .f32) (x33 : FVec Ideal S132x132 .f32) (x34 : FVec Ideal S132 .f32)
    (x35 : FVec Ideal S132x128 .f32) (x36 : FVec Ideal S128 .f32)
    (r : Fin 65536) :
    Row (aDP1 x0 x1 x2 x3 x4 x5 x6 x7 x8 x9 x10 x11 x12 x13 x14 x15 x16 x17 x18 x19 x20 x21 x22 x23 x24 x25 x26 x27 x28 x29 x30 x31 x32 x33 x34 x35 x36) r
      = rDP1 (mkW x1 x2 x3 x4 x5 x6 x7 x8 x9 x10 x11 x12 x13 x14 x15 x16 x17 x18 x19 x20 x21 x22 x23 x24 x25 x26 x27 x28 x29 x30 x31 x32 x33 x34 x35 x36) (Ideal.ofBits .f32 0x3F800000#32) (Ideal.ofBits .f32 0x40000000#32) (Ideal.ofBits .f32 0x40800000#32) (Row x0 r) := by
  unfold aDP1
  rw [Row_fc3x256, Row_cat256, Row_aUpP1, Row_aff128, Row_aMsg4, Row_aDL1, Row_aDC1, Row_aDL2]
  rfl

/-! ## The result, entry by entry -/

/-- A slab read at (0, r, q) is the array at (r, q). -/
theorem slab_apply (v : FVec Ideal S65536x128 .f32) (r : Fin 65536) (q : Fin 128) :
    slab v (ix3 (⟨0, by omega⟩ : Fin 1) r q) = Row v r q := by
  unfold slab
  refine broadcastInDim_apply _ bcast_S65536x128_S1x65536x128_1_2 v (ix3 ⟨0, by omega⟩ r q) (ix2 r q) ?_
  intro a
  match a with
  | ⟨0, _⟩ => rfl
  | ⟨1, _⟩ => rfl

/-- Slabs joined along the leading axis, read at (k, r, q): slab k at (0, r, q), which is its array at (r, q). -/
theorem join8_apply (xs : List ((s : Shape) × (s.Idx → EReal))) (h : Shape.Concatenates (xs.map (·.1)) S8x65536x128 0)
    (k : Nat) (hk8 : k < 8) (hk : k < xs.length) (v : FVec Ideal S65536x128 .f32) (hxk : xs[k] = ⟨S1x65536x128, slab v⟩)
    (hpre : (((xs.take k).map (·.1)).map fun s =>
      if h : s.rank = S8x65536x128.rank then s.size ((0 : Fin S8x65536x128.rank).cast h.symm) else 0).sum = k)
    (r : Fin 65536) (q : Fin 128) :
    concatenate S8x65536x128 0 xs h (ix3 ⟨k, hk8⟩ r q) = Row v r q := by
  refine (concatenate_apply_piece 0 xs h (ix3 ⟨k, hk8⟩ r q) k hk S1x65536x128 (slab v) hxk rfl k hpre
    (ix3 ⟨0, by omega⟩ r q) ?_ rfl).trans (slab_apply v r q)
  intro b hb
  match b, hb with
  | ⟨0, _⟩, hb => exact absurd rfl hb
  | ⟨1, _⟩, _ => rfl
  | ⟨2, _⟩, _ => rfl

/-- Every entry of the reference's result: slab s, row r, column q is entry q of the network's node s on row r of the
    signal, the three scalar constants being the float words the program multiplies the message bias by. -/
theorem ref_rows
    (x0 : FVec Ideal S65536x512 .f32) (x1 : FVec Ideal S128x128 .f32) (x2 : FVec Ideal S128 .f32) (x3 : FVec Ideal S128x128 .f32) (x4 : FVec Ideal S128 .f32)
    (x5 : FVec Ideal S640x132 .f32) (x6 : FVec Ideal S132 .f32) (x7 : FVec Ideal S132x132 .f32) (x8 : FVec Ideal S132 .f32) (x9 : FVec Ideal S132x128 .f32)
    (x10 : FVec Ideal S128 .f32) (x11 : FVec Ideal S256x132 .f32) (x12 : FVec Ideal S132 .f32) (x13 : FVec Ideal S132x132 .f32) (x14 : FVec Ideal S132 .f32)
    (x15 : FVec Ideal S132x132 .f32) (x16 : FVec Ideal S132 .f32) (x17 : FVec Ideal S132x128 .f32) (x18 : FVec Ideal S128 .f32) (x19 : FVec Ideal S256x132 .f32)
    (x20 : FVec Ideal S132 .f32) (x21 : FVec Ideal S132x132 .f32) (x22 : FVec Ideal S132 .f32) (x23 : FVec Ideal S132x132 .f32) (x24 : FVec Ideal S132 .f32)
    (x25 : FVec Ideal S132x128 .f32) (x26 : FVec Ideal S128 .f32) (x27 : FVec Ideal S128x128 .f32) (x28 : FVec Ideal S128 .f32) (x29 : FVec Ideal S128x128 .f32)
    (x30 : FVec Ideal S128 .f32) (x31 : FVec Ideal S256x132 .f32) (x32 : FVec Ideal S132 .f32) (x33 : FVec Ideal S132x132 .f32) (x34 : FVec Ideal S132 .f32)
    (x35 : FVec Ideal S132x128 .f32) (x36 : FVec Ideal S128 .f32)
    (s : Fin 8) (r : Fin 65536) (q : Fin 128) :
    aOut x0 x1 x2 x3 x4 x5 x6 x7 x8 x9 x10 x11 x12 x13 x14 x15 x16 x17 x18 x19 x20 x21 x22 x23 x24 x25 x26 x27 x28 x29 x30 x31 x32 x33 x34 x35 x36 (ix3 s r q)
      = refOut (mkW x1 x2 x3 x4 x5 x6 x7 x8 x9 x10 x11 x12 x13 x14 x15 x16 x17 x18 x19 x20 x21 x22 x23 x24 x25 x26 x27 x28 x29 x30 x31 x32 x33 x34 x35 x36)
          (Ideal.ofBits .f32 0x3F800000#32) (Ideal.ofBits .f32 0x40000000#32) (Ideal.ofBits .f32 0x40800000#32) (Row x0 r) s q := by
  unfold aOut
  match s with
  | ⟨0, _⟩ => exact (join8_apply _ _ 0 (by omega) (by simp) _ rfl rfl r q).trans (congrFun (Row_aDP1 x0 x1 x2 x3 x4 x5 x6 x7 x8 x9 x10 x11 x12 x13 x14 x15 x16 x17 x18 x19 x20 x21 x22 x23 x24 x25 x26 x27 x28 x29 x30 x31 x32 x33 x34 x35 x36 r) q)
  | ⟨1, _⟩ => exact (join8_apply _ _ 1 (by omega) (by simp) _ rfl rfl r q).trans (congrFun (Row_aDP1 x0 x1 x2 x3 x4 x5 x6 x7 x8 x9 x10 x11 x12 x13 x14 x15 x16 x17 x18 x19 x20 x21 x22 x23 x24 x25 x26 x27 x28 x29 x30 x31 x32 x33 x34 x35 x36 r) q)
  | ⟨2, _⟩ => exact (join8_apply _ _ 2 (by omega) (by simp) _ rfl rfl r q).trans (congrFun (Row_aDL1 x0 x1 x2 x3 x4 x5 x6 x7 x8 x9 x10 x11 x12 x13 x14 x15 x16 x17 x18 x19 x20 x21 x22 x23 x24 x25 x26 x27 x28 x29 x30 x31 x32 x33 x34 x35 x36 r) q)
  | ⟨3, _⟩ => exact (join8_apply _ _ 3 (by omega) (by simp) _ rfl rfl r q).trans (congrFun (Row_aDC1 x0 x1 x2 x3 x4 x5 x6 x7 x8 x9 x10 x11 x12 x13 x14 x15 x16 x17 x18 x19 x20 x21 x22 x23 x24 x25 x26 x27 x28 x29 x30 x31 x32 x33 x34 x35 x36 r) q)
  | ⟨4, _⟩ => exact (join8_apply _ _ 4 (by omega) (by simp) _ rfl rfl r q).trans (congrFun (Row_aDC1 x0 x1 x2 x3 x4 x5 x6 x7 x8 x9 x10 x11 x12 x13 x14 x15 x16 x17 x18 x19 x20 x21 x22 x23 x24 x25 x26 x27 x28 x29 x30 x31 x32 x33 x34 x35 x36 r) q)
  | ⟨5, _⟩ => exact (join8_apply _ _ 5 (by omega) (by simp) _ rfl rfl r q).trans (congrFun (Row_aDP3 x0 x1 x2 x3 x4 x5 x6 x7 x8 x9 x10 x11 x12 x13 x14 x15 x16 x17 x18 x19 x20 x21 x22 x23 x24 x25 x26 x27 x28 x29 x30 x31 x32 x33 x34 x35 x36 r) q)
  | ⟨6, _⟩ => exact (join8_apply _ _ 6 (by omega) (by simp) _ rfl rfl r q).trans (congrFun (Row_aDL2 x0 x1 x2 x3 x4 x5 x6 x7 x8 x9 x10 x11 x12 x13 x14 x15 x16 x17 x18 x19 x20 x21 x22 x23 x24 x25 x26 x27 x28 x29 x30 x31 x32 x33 x34 x35 x36 r) q)
  | ⟨7, _⟩ => exact (join8_apply _ _ 7 (by omega) (by simp) _ rfl rfl r q).trans (congrFun (Row_aDL2 x0 x1 x2 x3 x4 x5 x6 x7 x8 x9 x10 x11 x12 x13 x14 x15 x16 x17 x18 x19 x20 x21 x22 x23 x24 x25 x26 x27 x28 x29 x30 x31 x32 x33 x34 x35 x36 r) q)

end Cert.RefValue

end
-- ==== Proof.RefOut.lean ====
/-
  Every entry of the result array the reference's run ends with: slab s, row r, column q is entry q of the network's node
  s (the row-level blocks in the reference's order) on row r of the signal, the weights being the launch contents of the
  36 weight arguments read as matrices and bias rows.
-/
import proofs.«167402_j1125281431924_2_alg».proof.Proof.RefRes
import proofs.«167402_j1125281431924_2_alg».proof.Proof.RefRows

noncomputable section

namespace Cert.RefValue

open Idealize.ShloMosaic Idealize.ShloMosaic.ValueIdx Idealize.ShloMosaic.TcCoe Idealize.SL.Sem Cert.ReferenceIdeal Cert.ReferenceIdeal.Gen Cert.Rows Cert.Net

/-- The reference's result array at (s, r, q), from the launch memory. -/
theorem res_rows (m : (ℓ : Loc nD τ sig) → Buf (Elt Ideal) ℓ) (c : Dev nD) (s : Fin 8) (r : Fin 65536) (q : Fin 128) :
    Cert.ReferenceIdeal.ValueP.res_main_v366 (F := Ideal) m c (ix3 s r q)
      = refOut
          (mkW
            (m ((c.tc : Thread nD τ).loc main_arg1)) (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11)) (m ((c.tc : Thread nD τ).loc main_arg12))
            (m ((c.tc : Thread nD τ).loc main_arg13)) (m ((c.tc : Thread nD τ).loc main_arg14)) (m ((c.tc : Thread nD τ).loc main_arg15)) (m ((c.tc : Thread nD τ).loc main_arg16))
            (m ((c.tc : Thread nD τ).loc main_arg17)) (m ((c.tc : Thread nD τ).loc main_arg18)) (m ((c.tc : Thread nD τ).loc main_arg19)) (m ((c.tc : Thread nD τ).loc main_arg20))
            (m ((c.tc : Thread nD τ).loc main_arg21)) (m ((c.tc : Thread nD τ).loc main_arg22)) (m ((c.tc : Thread nD τ).loc main_arg23)) (m ((c.tc : Thread nD τ).loc main_arg24))
            (m ((c.tc : Thread nD τ).loc main_arg25)) (m ((c.tc : Thread nD τ).loc main_arg26)) (m ((c.tc : Thread nD τ).loc main_arg27)) (m ((c.tc : Thread nD τ).loc main_arg28))
            (m ((c.tc : Thread nD τ).loc main_arg29)) (m ((c.tc : Thread nD τ).loc main_arg30)) (m ((c.tc : Thread nD τ).loc main_arg31)) (m ((c.tc : Thread nD τ).loc main_arg32))
            (m ((c.tc : Thread nD τ).loc main_arg33)) (m ((c.tc : Thread nD τ).loc main_arg34)) (m ((c.tc : Thread nD τ).loc main_arg35)) (m ((c.tc : Thread nD τ).loc main_arg36)))
          (Ideal.ofBits .f32 0x3F800000#32) (Ideal.ofBits .f32 0x40000000#32) (Ideal.ofBits .f32 0x40800000#32)
          (Row (m ((c.tc : Thread nD τ).loc main_arg0)) r) s q :=
  (congrFun (res_eq m c) (ix3 s r q)).trans (ref_rows _ _ _ _ _ _ _ _ _ _ _ _ _ _ _ _ _ _ _ _ _ _ _ _ _ _ _ _ _ _ _ _ _ _ _ _ _ s r q)

end Cert.RefValue

end
-- ==== Proof.Finite.lean ====
/-
  From the precondition to real entries.

  The precondition is one truth value: for each of the 37 argument arrays in turn, the comparison |a i| < +∞ is taken
  at every entry (the absolute value max (a i) (-a i) against the f32 pattern 0x7F800000, which denotes +∞), the
  comparisons of one array are folded by "and" over all its axes starting from 1, and the 37 results are joined by
  "and" from left to right. The hypothesis says the final value is 1.

  A one-bit "and" is 1 only when both operands are 1, so each array's fold is 1; a fold by "and" started at 1 that
  comes out 1 met a 1 at every entry, so |a i| < +∞ at every entry; and an extended real whose absolute value is below
  +∞ is neither +∞ nor -∞, that is, it is a real number.
-/
import Idealize.ShloMosaic.Lib.ReduceAll
import Idealize.ShloMosaic.PureOps.Ideal
import Idealize.ShloMosaic.Lib.ValueIdx
import proofs.«167402_j1125281431924_2_alg».proof.Pre_finite_inputs

namespace Cert.FiniteInputs

open Idealize.ShloMosaic Cert.Pre_finite_inputs Cert.Pre_finite_inputs.Facts

/-- The shape of rank 0 has exactly one index. -/
instance : Subsingleton S_.Idx := ⟨fun a b => funext fun d => d.elim0⟩

/-- The f32 pattern 0x7F800000 (sign 0, exponent all ones, fraction 0) denotes +∞. -/
theorem inf_bits : Ideal.ofBits .f32 0x7F800000#32 = (⊤ : EReal) := by
  simp [Ideal.ofBits, Ideal.ieee]

/-- A one-bit word made from a Boolean is 1 only when the Boolean is true. -/
theorem eq_true_of_ofBool_eq_one {b : Bool} (h : BitVec.ofBool b = 1#1) : b = true := by
  cases b
  · exact absurd h (by decide)
  · rfl

/-- An extended real x with |x| = max x (-x) < +∞ is neither +∞ nor -∞, hence a real. -/
theorem real_of_abs_lt_top (x : EReal) (h : max x (-x) < ⊤) : ∃ r : ℝ, x = (r : EReal) := by
  induction x using EReal.rec with
  | bot => simp at h
  | coe r => exact ⟨r, rfl⟩
  | top => simp at h

/-- If the conjunction over all entries of "|a i| < +∞" (the all-axes reduction by "and", started at 1) is 1,
    then every entry of a is a real: each entry's comparison is 1, so |a i| < +∞. -/
theorem real_of_all {s : Shape} {axes : List (Fin s.rank)} (hb : S_.BroadcastsInDim s (![] : Fin 0 → Fin s.rank))
    (hr : s.ReducesTo axes S_) (hu : 0 < S_.numel) (a : FVec Ideal s .f32) (j : S_.Idx)
    (e : Host.reduce IntOp.andi (cmpf .olt (Host.absf a) (broadcastInDim s ![] hb (constant S_ .f32 0x7F800000#32)))
      (constantI S_ 1 1#1) hr hu j = 1#1) : ∀ i, ∃ r : ℝ, a i = (r : EReal) := by
  intro i
  have h1 := Host.reduce_andi_all _ _ hr hu j e i
  have h2 : BitVec.ofBool (decide (max (a i) (-a i) < Ideal.ofBits .f32 0x7F800000#32)) = 1#1 := h1
  rw [inf_bits] at h2
  exact real_of_abs_lt_top _ (of_decide_eq_true (eq_true_of_ofBool_eq_one h2))

/-- The precondition's value being 1 makes every entry of every one of the 37 argument arrays a real number: the
    left-nested "and" of the 37 per-array conjunctions is taken apart from the right, and each per-array conjunction
    gives the reality of that array's entries. -/
theorem real_of_pre [Cert.Pre_finite_inputs.Facts]
    (a0 : FVec Ideal S65536x512 .f32) (a1 : FVec Ideal S128x128 .f32) (a2 : FVec Ideal S128 .f32)
    (a3 : FVec Ideal S128x128 .f32) (a4 : FVec Ideal S128 .f32) (a5 : FVec Ideal S640x132 .f32)
    (a6 : FVec Ideal S132 .f32) (a7 : FVec Ideal S132x132 .f32) (a8 : FVec Ideal S132 .f32)
    (a9 : FVec Ideal S132x128 .f32) (a10 : FVec Ideal S128 .f32) (a11 : FVec Ideal S256x132 .f32)
    (a12 : FVec Ideal S132 .f32) (a13 : FVec Ideal S132x132 .f32) (a14 : FVec Ideal S132 .f32)
    (a15 : FVec Ideal S132x132 .f32) (a16 : FVec Ideal S132 .f32) (a17 : FVec Ideal S132x128 .f32)
    (a18 : FVec Ideal S128 .f32) (a19 : FVec Ideal S256x132 .f32) (a20 : FVec Ideal S132 .f32)
    (a21 : FVec Ideal S132x132 .f32) (a22 : FVec Ideal S132 .f32) (a23 : FVec Ideal S132x132 .f32)
    (a24 : FVec Ideal S132 .f32) (a25 : FVec Ideal S132x128 .f32) (a26 : FVec Ideal S128 .f32)
    (a27 : FVec Ideal S128x128 .f32) (a28 : FVec Ideal S128 .f32) (a29 : FVec Ideal S128x128 .f32)
    (a30 : FVec Ideal S128 .f32) (a31 : FVec Ideal S256x132 .f32) (a32 : FVec Ideal S132 .f32)
    (a33 : FVec Ideal S132x132 .f32) (a34 : FVec Ideal S132 .f32) (a35 : FVec Ideal S132x128 .f32)
    (a36 : FVec Ideal S128 .f32)
    (h : Cert.Pre_finite_inputs.fn (F := Ideal) a0 a1 a2 a3 a4 a5 a6 a7 a8 a9 a10 a11 a12 a13 a14 a15 a16 a17 a18 a19 a20 a21 a22 a23 a24 a25 a26 a27 a28 a29 a30 a31 a32 a33 a34 a35 a36 = fun _ => 1#1) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧
    (∀ i, ∃ r : ℝ, a8 i = (r : EReal)) ∧ (∀ i, ∃ r : ℝ, a9 i = (r : EReal)) ∧
    (∀ i, ∃ r : ℝ, a10 i = (r : EReal)) ∧ (∀ i, ∃ r : ℝ, a11 i = (r : EReal)) ∧
    (∀ i, ∃ r : ℝ, a12 i = (r : EReal)) ∧ (∀ i, ∃ r : ℝ, a13 i = (r : EReal)) ∧
    (∀ i, ∃ r : ℝ, a14 i = (r : EReal)) ∧ (∀ i, ∃ r : ℝ, a15 i = (r : EReal)) ∧
    (∀ i, ∃ r : ℝ, a16 i = (r : EReal)) ∧ (∀ i, ∃ r : ℝ, a17 i = (r : EReal)) ∧
    (∀ i, ∃ r : ℝ, a18 i = (r : EReal)) ∧ (∀ i, ∃ r : ℝ, a19 i = (r : EReal)) ∧
    (∀ i, ∃ r : ℝ, a20 i = (r : EReal)) ∧ (∀ i, ∃ r : ℝ, a21 i = (r : EReal)) ∧
    (∀ i, ∃ r : ℝ, a22 i = (r : EReal)) ∧ (∀ i, ∃ r : ℝ, a23 i = (r : EReal)) ∧
    (∀ i, ∃ r : ℝ, a24 i = (r : EReal)) ∧ (∀ i, ∃ r : ℝ, a25 i = (r : EReal)) ∧
    (∀ i, ∃ r : ℝ, a26 i = (r : EReal)) ∧ (∀ i, ∃ r : ℝ, a27 i = (r : EReal)) ∧
    (∀ i, ∃ r : ℝ, a28 i = (r : EReal)) ∧ (∀ i, ∃ r : ℝ, a29 i = (r : EReal)) ∧
    (∀ i, ∃ r : ℝ, a30 i = (r : EReal)) ∧ (∀ i, ∃ r : ℝ, a31 i = (r : EReal)) ∧
    (∀ i, ∃ r : ℝ, a32 i = (r : EReal)) ∧ (∀ i, ∃ r : ℝ, a33 i = (r : EReal)) ∧
    (∀ i, ∃ r : ℝ, a34 i = (r : EReal)) ∧ (∀ i, ∃ r : ℝ, a35 i = (r : EReal)) ∧
    (∀ i, ∃ r : ℝ, a36 i = (r : EReal)) := by
  have h0 := congrFun h ValueIdx.ix0
  dsimp only [fn, fn_part1, fn_part2, fn_part3, fn_part4, fn_part5, fn_part6, fn_part7, fn_part8, fn_part9, fn_part10, andi] at h0
  obtain ⟨h0, e36⟩ := IntOp.andi_eq_one.1 h0
  obtain ⟨h0, e35⟩ := IntOp.andi_eq_one.1 h0
  obtain ⟨h0, e34⟩ := IntOp.andi_eq_one.1 h0
  obtain ⟨h0, e33⟩ := IntOp.andi_eq_one.1 h0
  obtain ⟨h0, e32⟩ := IntOp.andi_eq_one.1 h0
  obtain ⟨h0, e31⟩ := IntOp.andi_eq_one.1 h0
  obtain ⟨h0, e30⟩ := IntOp.andi_eq_one.1 h0
  obtain ⟨h0, e29⟩ := IntOp.andi_eq_one.1 h0
  obtain ⟨h0, e28⟩ := IntOp.andi_eq_one.1 h0
  obtain ⟨h0, e27⟩ := IntOp.andi_eq_one.1 h0
  obtain ⟨h0, e26⟩ := IntOp.andi_eq_one.1 h0
  obtain ⟨h0, e25⟩ := IntOp.andi_eq_one.1 h0
  obtain ⟨h0, e24⟩ := IntOp.andi_eq_one.1 h0
  obtain ⟨h0, e23⟩ := IntOp.andi_eq_one.1 h0
  obtain ⟨h0, e22⟩ := IntOp.andi_eq_one.1 h0
  obtain ⟨h0, e21⟩ := IntOp.andi_eq_one.1 h0
  obtain ⟨h0, e20⟩ := IntOp.andi_eq_one.1 h0
  obtain ⟨h0, e19⟩ := IntOp.andi_eq_one.1 h0
  obtain ⟨h0, e18⟩ := IntOp.andi_eq_one.1 h0
  obtain ⟨h0, e17⟩ := IntOp.andi_eq_one.1 h0
  obtain ⟨h0, e16⟩ := IntOp.andi_eq_one.1 h0
  obtain ⟨h0, e15⟩ := IntOp.andi_eq_one.1 h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all _ _ _ a0 _ e0,
    real_of_all _ _ _ a1 _ e1,
    real_of_all _ _ _ a2 _ e2,
    real_of_all _ _ _ a3 _ e3,
    real_of_all _ _ _ a4 _ e4,
    real_of_all _ _ _ a5 _ e5,
    real_of_all _ _ _ a6 _ e6,
    real_of_all _ _ _ a7 _ e7,
    real_of_all _ _ _ a8 _ e8,
    real_of_all _ _ _ a9 _ e9,
    real_of_all _ _ _ a10 _ e10,
    real_of_all _ _ _ a11 _ e11,
    real_of_all _ _ _ a12 _ e12,
    real_of_all _ _ _ a13 _ e13,
    real_of_all _ _ _ a14 _ e14,
    real_of_all _ _ _ a15 _ e15,
    real_of_all _ _ _ a16 _ e16,
    real_of_all _ _ _ a17 _ e17,
    real_of_all _ _ _ a18 _ e18,
    real_of_all _ _ _ a19 _ e19,
    real_of_all _ _ _ a20 _ e20,
    real_of_all _ _ _ a21 _ e21,
    real_of_all _ _ _ a22 _ e22,
    real_of_all _ _ _ a23 _ e23,
    real_of_all _ _ _ a24 _ e24,
    real_of_all _ _ _ a25 _ e25,
    real_of_all _ _ _ a26 _ e26,
    real_of_all _ _ _ a27 _ e27,
    real_of_all _ _ _ a28 _ e28,
    real_of_all _ _ _ a29 _ e29,
    real_of_all _ _ _ a30 _ e30,
    real_of_all _ _ _ a31 _ e31,
    real_of_all _ _ _ a32 _ e32,
    real_of_all _ _ _ a33 _ e33,
    real_of_all _ _ _ a34 _ e34,
    real_of_all _ _ _ a35 _ e35,
    real_of_all _ _ _ a36 _ e36⟩

end Cert.FiniteInputs
-- ==== Proof.NetAlgebra.lean ====
/-
  The two orders of composition give the same rows.

  Over the real numbers: a joined row whose second part is zero meets only the first rows of the matrix it is multiplied
  by; a row joined with itself is the row times the sum of the two halves of the matrix; a row times a matrix is
  linear in the row, so equal messages can be added before the one product. Node by node this turns the kernel's order
  into the reference's.

  On the extended reals: every building block commutes with the inclusion of the reals (finite sums, products, maxima
  and zero all do), so on included data each node of either order is the inclusion of the same node over the reals,
  and the equality over the reals carries over.
-/
import proofs.«167402_j1125281431924_2_alg».proof.Proof.Net

namespace Cert.Net

open scoped BigOperators

/-! ## Joined rows against a matrix -/

/-- The first part of a joined row. -/
theorem cat_castAdd {A B : ℕ} (x : Fin A → ℝ) (y : Fin B → ℝ) (i : Fin A) :
    cat (rfl : A + B = A + B) x y (Fin.castAdd B i) = x i := by
  have hi : (Fin.castAdd B i).val < A := i.isLt
  simp only [cat, dif_pos hi]
  rfl

/-- The second part of a joined row. -/
theorem cat_natAdd {A B : ℕ} (x : Fin A → ℝ) (y : Fin B → ℝ) (j : Fin B) :
    cat (rfl : A + B = A + B) x y (Fin.natAdd A j) = y j := by
  have hj : ¬ (Fin.natAdd A j).val < A := by simp [Fin.natAdd]
  simp only [cat, dif_neg hj]
  congr 1
  apply Fin.ext
  simp [Fin.natAdd]

/-- A row joined with zeros, times a matrix: only the first rows of the matrix count. -/
theorem lin_cat_zero {A B C N : ℕ} (h : A + B = C) (x : Fin A → ℝ) (w : Fin C → Fin N → ℝ) (b : Fin N → ℝ) :
    lin (cat h x (fun _ => (0 : ℝ))) w b = lin x (top (by omega : A ≤ C) w) b := by
  subst h
  funext q
  simp only [lin, mv, top]
  rw [Fin.sum_univ_add]
  have h1 : ∀ i : Fin A, cat (rfl : A + B = A + B) x (fun _ => (0 : ℝ)) (Fin.castAdd B i) * w (Fin.castAdd B i) q
      = x i * w ⟨i.val, by omega⟩ q := by
    intro i; rw [cat_castAdd]; rfl
  have h2 : ∀ j : Fin B, cat (rfl : A + B = A + B) x (fun _ => (0 : ℝ)) (Fin.natAdd A j) * w (Fin.natAdd A j) q = 0 := by
    intro j; rw [cat_natAdd]; exact zero_mul _
  rw [Finset.sum_congr rfl (fun i _ => h1 i), Finset.sum_congr rfl (fun j _ => h2 j), Finset.sum_const_zero, add_zero]

/-- A row joined with itself, times a matrix: the row times the sum of the two halves. -/
theorem lin_cat_self {A C N : ℕ} (h : A + A = C) (x : Fin A → ℝ) (w : Fin C → Fin N → ℝ) (b : Fin N → ℝ) :
    lin (cat h x x) w b = lin x (fold2 h w) b := by
  subst h
  funext q
  simp only [lin, mv, fold2]
  rw [Fin.sum_univ_add, ← Finset.sum_add_distrib]
  congr 1
  apply Finset.sum_congr rfl
  intro i _
  rw [cat_castAdd, cat_natAdd, mul_add]
  rfl

/-! ## The message sums -/

/-- The same message twice, from zero, and twice the bias. -/
theorem msg2_self (mw : Fin 128 → Fin 128 → ℝ) (mb a : Fin 128 → ℝ) :
    msg2 2 mw mb a a = fun q => 2 * mv a mw q + 2 * mb q := by
  funext q; simp only [msg2]; ring

/-- One message, from zero, and once the bias. -/
theorem msg1_one (mw : Fin 128 → Fin 128 → ℝ) (mb a : Fin 128 → ℝ) :
    msg1 1 mw mb a = fun q => mv a mw q + mb q := by
  funext q; simp only [msg1]; ring

/-- A row times a matrix is additive in the row. -/
theorem mv_add {K N : ℕ} (a b : Fin K → ℝ) (w : Fin K → Fin N → ℝ) (q : Fin N) :
    mv (fun j => a j + b j) w q = mv a w q + mv b w q := by
  simp only [mv, ← Finset.sum_add_distrib]
  exact Finset.sum_congr rfl (fun k _ => add_mul _ _ _)

/-- A row times a matrix commutes with a scalar multiple of the row. -/
theorem mv_smul {K N : ℕ} (c : ℝ) (a : Fin K → ℝ) (w : Fin K → Fin N → ℝ) (q : Fin N) :
    mv (fun j => c * a j) w q = c * mv a w q := by
  simp only [mv, Finset.mul_sum]
  exact Finset.sum_congr rfl (fun k _ => mul_assoc _ _ _)

/-- Four messages of which the middle two are equal: add the rows first, multiply once. -/
theorem msg4_mid (c : ℝ) (mw : Fin 128 → Fin 128 → ℝ) (mb a b e : Fin 128 → ℝ) :
    msg4 c mw mb a b b e = fun q => mv (fun j => (a j + 2 * b j) + e j) mw q + c * mb q := by
  funext q
  simp only [msg4]
  rw [mv_add (fun j => a j + 2 * b j) e, mv_add a (fun j => 2 * b j), mv_smul]
  ring

/-! ## Node by node over the reals -/

variable (W : Wts ℝ) (x : Fin 512 → ℝ)

theorem kUpP1_eq : kUpP1 W x = rUpP1 W x := by
  unfold kUpP1 rUpP1 fc3
  rw [lin_cat_zero]

theorem kUpL1_eq : kUpL1 W x = rUpL1 W x := by
  unfold kUpL1 rUpL1 fc4
  rw [kUpP1_eq, lin_cat_self]

theorem kUpC1_eq : kUpC1 W x = rUpC1 W x := by
  unfold kUpC1 rUpC1 fc4
  rw [kUpP1_eq, lin_cat_self]

theorem kUpP3_eq : kUpP3 W 2 x = rUpP3 W 2 x := by
  unfold kUpP3 rUpP3
  rw [kUpC1_eq, msg2_self]

theorem kUpL2_eq : kUpL2 W 2 x = rUpL2 W 2 x := by
  unfold kUpL2 rUpL2
  rw [kUpP1_eq, kUpP3_eq]

theorem kDL1_eq : kDL1 W x = rDL1 W x := by
  unfold kDL1 rDL1 fc3
  rw [kUpL1_eq, lin_cat_zero]

theorem kDL2_eq : kDL2 W 2 x = rDL2 W 2 x := by
  unfold kDL2 rDL2 fc3
  rw [kUpL2_eq, lin_cat_zero]

theorem kDP3_eq : kDP3 W 2 x = rDP3 W 2 x := by
  unfold kDP3 rDP3
  rw [kUpP3_eq, kDL2_eq, msg2_self]

theorem kDC1_eq : kDC1 W 2 x = rDC1 W 1 2 x := by
  unfold kDC1 rDC1
  rw [kUpC1_eq, kDP3_eq, msg1_one]

theorem kDP1_eq : kDP1 W 2 4 x = rDP1 W 1 2 4 x := by
  unfold kDP1 rDP1
  rw [kUpP1_eq, kDL1_eq, kDC1_eq, kDL2_eq, msg4_mid]

/-- Over the reals the kernel's eight rows are the reference's. -/
theorem kern_eq_ref_real (W : Wts ℝ) (x : Fin 512 → ℝ) (s : Fin 8) : kernOut W 2 4 x s = refOut W 1 2 4 x s := by
  match s with
  | ⟨0, _⟩ => exact kDP1_eq W x
  | ⟨1, _⟩ => exact kDP1_eq W x
  | ⟨2, _⟩ => exact kDL1_eq W x
  | ⟨3, _⟩ => exact kDC1_eq W x
  | ⟨4, _⟩ => exact kDC1_eq W x
  | ⟨5, _⟩ => exact kDP3_eq W x
  | ⟨6, _⟩ => exact kDL2_eq W x
  | ⟨7, _⟩ => exact kDL2_eq W x

/-! ## The building blocks commute with the inclusion of the reals in the extended reals -/

/-- The inclusion of a finite sum is the sum of the inclusions. -/
theorem coe_sum {ι : Type} (s : Finset ι) (f : ι → ℝ) :
    ((∑ i ∈ s, f i : ℝ) : EReal) = ∑ i ∈ s, (f i : EReal) := by
  classical
  induction s using Finset.induction_on with
  | empty => simp only [Finset.sum_empty, EReal.coe_zero]
  | insert a s ha ih => rw [Finset.sum_insert ha, Finset.sum_insert ha, EReal.coe_add, ih]

/-- The inclusion of a maximum is the maximum of the inclusions. -/
theorem coe_max (a b : ℝ) : ((max a b : ℝ) : EReal) = max (a : EReal) (b : EReal) :=
  EReal.coe_strictMono.monotone.map_max

theorem mv_coe_apply {K N : ℕ} (x : Fin K → ℝ) (w : Fin K → Fin N → ℝ) (q : Fin N) :
    mv (fun k => (x k : EReal)) (fun k q => (w k q : EReal)) q = ((mv x w q : ℝ) : EReal) := by
  simp only [mv, coe_sum, EReal.coe_mul]

theorem mv_coe {K N : ℕ} (x : Fin K → ℝ) (w : Fin K → Fin N → ℝ) :
    mv (fun k => (x k : EReal)) (fun k q => (w k q : EReal)) = fun q => ((mv x w q : ℝ) : EReal) :=
  funext (mv_coe_apply x w)

theorem lin_coe {K N : ℕ} (x : Fin K → ℝ) (w : Fin K → Fin N → ℝ) (b : Fin N → ℝ) :
    lin (fun k => (x k : EReal)) (fun k q => (w k q : EReal)) (fun q => (b q : EReal))
      = fun q => ((lin x w b q : ℝ) : EReal) := by
  funext q
  simp only [lin, mv_coe_apply, EReal.coe_add]

theorem relu_coe {N : ℕ} (x : Fin N → ℝ) :
    relu (fun q => (x q : EReal)) = fun q => ((relu x q : ℝ) : EReal) := by
  funext q
  simp only [relu, coe_max, EReal.coe_zero]

theorem cat_coe {A B C : ℕ} (h : A + B = C) (x : Fin A → ℝ) (y : Fin B → ℝ) :
    cat h (fun k => (x k : EReal)) (fun k => (y k : EReal)) = fun k => ((cat h x y k : ℝ) : EReal) := by
  funext k
  simp only [cat]
  split <;> rfl

theorem cat_coe_zero {A B C : ℕ} (h : A + B = C) (x : Fin A → ℝ) :
    cat h (fun k => (x k : EReal)) (fun _ : Fin B => (0 : EReal))
      = fun k => ((cat h x (fun _ => (0 : ℝ)) k : ℝ) : EReal) :=
  cat_coe h x (fun _ => 0)

theorem top_coe {A C N : ℕ} (h : A ≤ C) (w : Fin C → Fin N → ℝ) :
    top h (fun k q => (w k q : EReal)) = fun k q => ((top h w k q : ℝ) : EReal) := rfl

theorem fold2_coe {A C N : ℕ} (h : A + A = C) (w : Fin C → Fin N → ℝ) :
    fold2 h (fun k q => (w k q : EReal)) = fun k q => ((fold2 h w k q : ℝ) : EReal) := by
  funext k q
  simp only [fold2, EReal.coe_add]

theorem fc3_coe {K : ℕ} (x : Fin K → ℝ) (w0 : Fin K → Fin 132 → ℝ) (b0 : Fin 132 → ℝ) (w1 : Fin 132 → Fin 132 → ℝ)
    (b1 : Fin 132 → ℝ) (w2 : Fin 132 → Fin 128 → ℝ) (b2 : Fin 128 → ℝ) :
    fc3 (fun k => (x k : EReal)) (fun k q => (w0 k q : EReal)) (fun q => (b0 q : EReal)) (fun k q => (w1 k q : EReal))
        (fun q => (b1 q : EReal)) (fun k q => (w2 k q : EReal)) (fun q => (b2 q : EReal))
      = fun q => ((fc3 x w0 b0 w1 b1 w2 b2 q : ℝ) : EReal) := by
  unfold fc3
  rw [lin_coe, relu_coe, lin_coe, relu_coe, lin_coe]

theorem fc4_coe {K : ℕ} (x : Fin K → ℝ) (w0 : Fin K → Fin 132 → ℝ) (b0 : Fin 132 → ℝ) (w1 : Fin 132 → Fin 132 → ℝ)
    (b1 : Fin 132 → ℝ) (w2 : Fin 132 → Fin 132 → ℝ) (b2 : Fin 132 → ℝ) (w3 : Fin 132 → Fin 128 → ℝ) (b3 : Fin 128 → ℝ) :
    fc4 (fun k => (x k : EReal)) (fun k q => (w0 k q : EReal)) (fun q => (b0 q : EReal)) (fun k q => (w1 k q : EReal))
        (fun q => (b1 q : EReal)) (fun k q => (w2 k q : EReal)) (fun q => (b2 q : EReal)) (fun k q => (w3 k q : EReal))
        (fun q => (b3 q : EReal))
      = fun q => ((fc4 x w0 b0 w1 b1 w2 b2 w3 b3 q : ℝ) : EReal) := by
  unfold fc4
  rw [lin_coe, relu_coe, lin_coe, relu_coe, lin_coe, relu_coe, lin_coe]

theorem msg1_coe (c : ℝ) (mw : Fin 128 → Fin 128 → ℝ) (mb a : Fin 128 → ℝ) :
    msg1 (c : EReal) (fun k q => (mw k q : EReal)) (fun q => (mb q : EReal)) (fun k => (a k : EReal))
      = fun q => ((msg1 c mw mb a q : ℝ) : EReal) := by
  funext q
  simp only [msg1, mv_coe_apply, EReal.coe_add, EReal.coe_mul, EReal.coe_zero]

theorem msg2_coe (c : ℝ) (mw : Fin 128 → Fin 128 → ℝ) (mb a b : Fin 128 → ℝ) :
    msg2 (c : EReal) (fun k q => (mw k q : EReal)) (fun q => (mb q : EReal)) (fun k => (a k : EReal))
        (fun k => (b k : EReal))
      = fun q => ((msg2 c mw mb a b q : ℝ) : EReal) := by
  funext q
  simp only [msg2, mv_coe_apply, EReal.coe_add, EReal.coe_mul, EReal.coe_zero]

theorem msg4_coe (c : ℝ) (mw : Fin 128 → Fin 128 → ℝ) (mb a b d e : Fin 128 → ℝ) :
    msg4 (c : EReal) (fun k q => (mw k q : EReal)) (fun q => (mb q : EReal)) (fun k => (a k : EReal))
        (fun k => (b k : EReal)) (fun k => (d k : EReal)) (fun k => (e k : EReal))
      = fun q => ((msg4 c mw mb a b d e q : ℝ) : EReal) := by
  funext q
  simp only [msg4, mv_coe_apply, EReal.coe_add, EReal.coe_mul, EReal.coe_zero]

/-! ## Node by node: the reference's order -/

variable (Wr : Wts ℝ) (c1 c2 c4 : ℝ) (xr : Fin 512 → ℝ)

local notation "We" => Wts.map (fun r : ℝ => (r : EReal)) Wr
local notation "xe" => fun k : Fin 512 => ((xr k : ℝ) : EReal)

theorem rUpP1_coe : rUpP1 We xe = fun q => ((rUpP1 Wr xr q : ℝ) : EReal) := by
  unfold rUpP1
  simp only [Wts.map]
  rw [cat_coe_zero, fc3_coe]

theorem rUpL1_coe : rUpL1 We xe = fun q => ((rUpL1 Wr xr q : ℝ) : EReal) := by
  unfold rUpL1
  rw [rUpP1_coe]
  simp only [Wts.map]
  rw [cat_coe, fc4_coe]

theorem rUpC1_coe : rUpC1 We xe = fun q => ((rUpC1 Wr xr q : ℝ) : EReal) := by
  unfold rUpC1
  rw [rUpP1_coe]
  simp only [Wts.map]
  rw [cat_coe, fc4_coe]

theorem rUpP3_coe : rUpP3 We (c2 : EReal) xe = fun q => ((rUpP3 Wr c2 xr q : ℝ) : EReal) := by
  unfold rUpP3
  rw [rUpC1_coe]
  simp only [Wts.map]
  rw [msg2_coe, lin_coe, cat_coe, fc3_coe]

theorem rUpL2_coe : rUpL2 We (c2 : EReal) xe = fun q => ((rUpL2 Wr c2 xr q : ℝ) : EReal) := by
  unfold rUpL2
  rw [rUpP1_coe, rUpP3_coe]
  simp only [Wts.map]
  rw [cat_coe, fc4_coe]

theorem rDL1_coe : rDL1 We xe = fun q => ((rDL1 Wr xr q : ℝ) : EReal) := by
  unfold rDL1
  rw [rUpL1_coe]
  simp only [Wts.map]
  rw [cat_coe_zero, fc3_coe]

theorem rDL2_coe : rDL2 We (c2 : EReal) xe = fun q => ((rDL2 Wr c2 xr q : ℝ) : EReal) := by
  unfold rDL2
  rw [rUpL2_coe]
  simp only [Wts.map]
  rw [cat_coe_zero, fc3_coe]

theorem rDP3_coe : rDP3 We (c2 : EReal) xe = fun q => ((rDP3 Wr c2 xr q : ℝ) : EReal) := by
  unfold rDP3
  rw [rUpP3_coe, rDL2_coe]
  simp only [Wts.map]
  rw [msg2_coe, lin_coe, cat_coe, fc3_coe]

theorem rDC1_coe : rDC1 We (c1 : EReal) (c2 : EReal) xe = fun q => ((rDC1 Wr c1 c2 xr q : ℝ) : EReal) := by
  unfold rDC1
  rw [rUpC1_coe, rDP3_coe]
  simp only [Wts.map]
  rw [msg1_coe, lin_coe, cat_coe, fc3_coe]

theorem rDP1_coe :
    rDP1 We (c1 : EReal) (c2 : EReal) (c4 : EReal) xe = fun q => ((rDP1 Wr c1 c2 c4 xr q : ℝ) : EReal) := by
  unfold rDP1
  rw [rUpP1_coe, rDL1_coe, rDC1_coe, rDL2_coe]
  simp only [Wts.map]
  rw [msg4_coe, lin_coe, cat_coe, fc3_coe]

/-- The reference's rows on included data are the inclusions of its rows over the reals. -/
theorem refOut_coe (s : Fin 8) :
    refOut We (c1 : EReal) (c2 : EReal) (c4 : EReal) xe s = fun q => ((refOut Wr c1 c2 c4 xr s q : ℝ) : EReal) := by
  match s with
  | ⟨0, _⟩ => exact rDP1_coe Wr c1 c2 c4 xr
  | ⟨1, _⟩ => exact rDP1_coe Wr c1 c2 c4 xr
  | ⟨2, _⟩ => exact rDL1_coe Wr xr
  | ⟨3, _⟩ => exact rDC1_coe Wr c1 c2 xr
  | ⟨4, _⟩ => exact rDC1_coe Wr c1 c2 xr
  | ⟨5, _⟩ => exact rDP3_coe Wr c2 xr
  | ⟨6, _⟩ => exact rDL2_coe Wr c2 xr
  | ⟨7, _⟩ => exact rDL2_coe Wr c2 xr

/-! ## Node by node: the kernel's order -/

theorem kUpP1_coe : kUpP1 We xe = fun q => ((kUpP1 Wr xr q : ℝ) : EReal) := by
  unfold kUpP1
  simp only [Wts.map]
  rw [top_coe, fc3_coe]

theorem kUpL1_coe : kUpL1 We xe = fun q => ((kUpL1 Wr xr q : ℝ) : EReal) := by
  unfold kUpL1
  rw [kUpP1_coe]
  simp only [Wts.map]
  rw [fold2_coe, fc4_coe]

theorem kUpC1_coe : kUpC1 We xe = fun q => ((kUpC1 Wr xr q : ℝ) : EReal) := by
  unfold kUpC1
  rw [kUpP1_coe]
  simp only [Wts.map]
  rw [fold2_coe, fc4_coe]

theorem kUpP3_coe : kUpP3 We (c2 : EReal) xe = fun q => ((kUpP3 Wr c2 xr q : ℝ) : EReal) := by
  unfold kUpP3
  rw [kUpC1_coe]
  simp only [Wts.map, mv_coe_apply, ← EReal.coe_mul, ← EReal.coe_add]
  rw [lin_coe, cat_coe, fc3_coe]

theorem kUpL2_coe : kUpL2 We (c2 : EReal) xe = fun q => ((kUpL2 Wr c2 xr q : ℝ) : EReal) := by
  unfold kUpL2
  rw [kUpP1_coe, kUpP3_coe]
  simp only [Wts.map]
  rw [cat_coe, fc4_coe]

theorem kDL1_coe : kDL1 We xe = fun q => ((kDL1 Wr xr q : ℝ) : EReal) := by
  unfold kDL1
  rw [kUpL1_coe]
  simp only [Wts.map]
  rw [top_coe, fc3_coe]

theorem kDL2_coe : kDL2 We (c2 : EReal) xe = fun q => ((kDL2 Wr c2 xr q : ℝ) : EReal) := by
  unfold kDL2
  rw [kUpL2_coe]
  simp only [Wts.map]
  rw [top_coe, fc3_coe]

theorem kDP3_coe : kDP3 We (c2 : EReal) xe = fun q => ((kDP3 Wr c2 xr q : ℝ) : EReal) := by
  unfold kDP3
  rw [kUpP3_coe, kDL2_coe]
  simp only [Wts.map, mv_coe_apply, ← EReal.coe_mul, ← EReal.coe_add]
  rw [lin_coe, cat_coe, fc3_coe]

theorem kDC1_coe : kDC1 We (c2 : EReal) xe = fun q => ((kDC1 Wr c2 xr q : ℝ) : EReal) := by
  unfold kDC1
  rw [kUpC1_coe, kDP3_coe]
  simp only [Wts.map, mv_coe_apply, ← EReal.coe_add]
  rw [lin_coe, cat_coe, fc3_coe]

theorem kDP1_coe : kDP1 We (c2 : EReal) (c4 : EReal) xe = fun q => ((kDP1 Wr c2 c4 xr q : ℝ) : EReal) := by
  unfold kDP1
  rw [kUpP1_coe, kDL1_coe, kDC1_coe, kDL2_coe]
  simp only [Wts.map, mv_coe_apply, ← EReal.coe_mul, ← EReal.coe_add]
  rw [lin_coe, cat_coe, fc3_coe]

/-- The kernel's rows on included data are the inclusions of its rows over the reals. -/
theorem kernOut_coe (s : Fin 8) :
    kernOut We (c2 : EReal) (c4 : EReal) xe s = fun q => ((kernOut Wr c2 c4 xr s q : ℝ) : EReal) := by
  match s with
  | ⟨0, _⟩ => exact kDP1_coe Wr c2 c4 xr
  | ⟨1, _⟩ => exact kDP1_coe Wr c2 c4 xr
  | ⟨2, _⟩ => exact kDL1_coe Wr xr
  | ⟨3, _⟩ => exact kDC1_coe Wr c2 xr
  | ⟨4, _⟩ => exact kDC1_coe Wr c2 xr
  | ⟨5, _⟩ => exact kDP3_coe Wr c2 xr
  | ⟨6, _⟩ => exact kDL2_coe Wr c2 xr
  | ⟨7, _⟩ => exact kDL2_coe Wr c2 xr

/-- On real data included in the extended reals, the kernel's eight rows are the reference's. -/
theorem kern_eq_ref_ereal (Wr : Wts ℝ) (xr : Fin 512 → ℝ) (s : Fin 8) :
    kernOut (Wr.map (fun r : ℝ => (r : EReal))) ((2 : ℝ) : EReal) ((4 : ℝ) : EReal) (fun k => (xr k : EReal)) s
      = refOut (Wr.map (fun r : ℝ => (r : EReal))) ((1 : ℝ) : EReal) ((2 : ℝ) : EReal) ((4 : ℝ) : EReal)
          (fun k => (xr k : EReal)) s := by
  rw [kernOut_coe Wr 2 4 xr s, refOut_coe Wr 1 2 4 xr s, kern_eq_ref_real Wr xr s]

end Cert.Net
-- ==== Proof.Bridge.lean ====
/-
  The two compositions agree on real inputs.

  When every entry of the signal and of the 36 weight arrays is a real number, the kernel's and the reference's row-level
  compositions give the same output rows: both are then the images in the extended reals of the same real numbers, because
  sums, products and maxima of real numbers are computed in the extended reals as in the reals, and over the reals the two
  compositions are equal by the algebra of `NetAlgebra`. The float words 1.0, 2.0 and 4.0 are the numbers 1, 2 and 4.
-/
import proofs.«167402_j1125281431924_2_alg».proof.Proof.NetAlgebra
import proofs.«167402_j1125281431924_2_alg».proof.Proof.Weights

noncomputable section

namespace Cert.Rows

open Idealize.ShloMosaic Idealize.ShloMosaic.ValueIdx Cert.Net

/-- The weights from 36 arrays of real numbers. -/
def mkWr (g1 : (⟨2, ![128, 128]⟩ : Shape).Idx → ℝ) (g2 : (⟨1, ![128]⟩ : Shape).Idx → ℝ) (g3 : (⟨2, ![128, 128]⟩ : Shape).Idx → ℝ) (g4 : (⟨1, ![128]⟩ : Shape).Idx → ℝ) (g5 : (⟨2, ![640, 132]⟩ : Shape).Idx → ℝ) (g6 : (⟨1, ![132]⟩ : Shape).Idx → ℝ) (g7 : (⟨2, ![132, 132]⟩ : Shape).Idx → ℝ) (g8 : (⟨1, ![132]⟩ : Shape).Idx → ℝ) (g9 : (⟨2, ![132, 128]⟩ : Shape).Idx → ℝ) (g10 : (⟨1, ![128]⟩ : Shape).Idx → ℝ) (g11 : (⟨2, ![256, 132]⟩ : Shape).Idx → ℝ) (g12 : (⟨1, ![132]⟩ : Shape).Idx → ℝ) (g13 : (⟨2, ![132, 132]⟩ : Shape).Idx → ℝ) (g14 : (⟨1, ![132]⟩ : Shape).Idx → ℝ) (g15 : (⟨2, ![132, 132]⟩ : Shape).Idx → ℝ) (g16 : (⟨1, ![132]⟩ : Shape).Idx → ℝ) (g17 : (⟨2, ![132, 128]⟩ : Shape).Idx → ℝ) (g18 : (⟨1, ![128]⟩ : Shape).Idx → ℝ) (g19 : (⟨2, ![256, 132]⟩ : Shape).Idx → ℝ) (g20 : (⟨1, ![132]⟩ : Shape).Idx → ℝ) (g21 : (⟨2, ![132, 132]⟩ : Shape).Idx → ℝ) (g22 : (⟨1, ![132]⟩ : Shape).Idx → ℝ) (g23 : (⟨2, ![132, 132]⟩ : Shape).Idx → ℝ) (g24 : (⟨1, ![132]⟩ : Shape).Idx → ℝ) (g25 : (⟨2, ![132, 128]⟩ : Shape).Idx → ℝ) (g26 : (⟨1, ![128]⟩ : Shape).Idx → ℝ) (g27 : (⟨2, ![128, 128]⟩ : Shape).Idx → ℝ) (g28 : (⟨1, ![128]⟩ : Shape).Idx → ℝ) (g29 : (⟨2, ![128, 128]⟩ : Shape).Idx → ℝ) (g30 : (⟨1, ![128]⟩ : Shape).Idx → ℝ) (g31 : (⟨2, ![256, 132]⟩ : Shape).Idx → ℝ) (g32 : (⟨1, ![132]⟩ : Shape).Idx → ℝ) (g33 : (⟨2, ![132, 132]⟩ : Shape).Idx → ℝ) (g34 : (⟨1, ![132]⟩ : Shape).Idx → ℝ) (g35 : (⟨2, ![132, 128]⟩ : Shape).Idx → ℝ) (g36 : (⟨1, ![128]⟩ : Shape).Idx → ℝ) : Wts ℝ where
  ppMw := fun k q => g1 (ix2 k q)
  ppMb := fun q => g2 (ix1 q)
  ppUw := fun k q => g3 (ix2 k q)
  ppUb := fun q => g4 (ix1 q)
  ppW0 := fun k q => g5 (ix2 k q)
  ppB0 := fun q => g6 (ix1 q)
  ppW1 := fun k q => g7 (ix2 k q)
  ppB1 := fun q => g8 (ix1 q)
  ppW2 := fun k q => g9 (ix2 k q)
  ppB2 := fun q => g10 (ix1 q)
  lnW0 := fun k q => g11 (ix2 k q)
  lnB0 := fun q => g12 (ix1 q)
  lnW1 := fun k q => g13 (ix2 k q)
  lnB1 := fun q => g14 (ix1 q)
  lnW2 := fun k q => g15 (ix2 k q)
  lnB2 := fun q => g16 (ix1 q)
  lnW3 := fun k q => g17 (ix2 k q)
  lnB3 := fun q => g18 (ix1 q)
  crW0 := fun k q => g19 (ix2 k q)
  crB0 := fun q => g20 (ix1 q)
  crW1 := fun k q => g21 (ix2 k q)
  crB1 := fun q => g22 (ix1 q)
  crW2 := fun k q => g23 (ix2 k q)
  crB2 := fun q => g24 (ix1 q)
  crW3 := fun k q => g25 (ix2 k q)
  crB3 := fun q => g26 (ix1 q)
  mpMw := fun k q => g27 (ix2 k q)
  mpMb := fun q => g28 (ix1 q)
  mpUw := fun k q => g29 (ix2 k q)
  mpUb := fun q => g30 (ix1 q)
  mpW0 := fun k q => g31 (ix2 k q)
  mpB0 := fun q => g32 (ix1 q)
  mpW1 := fun k q => g33 (ix2 k q)
  mpB1 := fun q => g34 (ix1 q)
  mpW2 := fun k q => g35 (ix2 k q)
  mpB2 := fun q => g36 (ix1 q)

set_option maxHeartbeats 1000000 in
/-- On real inputs the kernel's output rows are the reference's. -/
theorem kern_eq_ref_of_real (x0 : (⟨2, ![65536, 512]⟩ : Shape).Idx → EReal) (x1 : (⟨2, ![128, 128]⟩ : Shape).Idx → EReal) (x2 : (⟨1, ![128]⟩ : Shape).Idx → EReal) (x3 : (⟨2, ![128, 128]⟩ : Shape).Idx → EReal) (x4 : (⟨1, ![128]⟩ : Shape).Idx → EReal) (x5 : (⟨2, ![640, 132]⟩ : Shape).Idx → EReal) (x6 : (⟨1, ![132]⟩ : Shape).Idx → EReal) (x7 : (⟨2, ![132, 132]⟩ : Shape).Idx → EReal)
    (x8 : (⟨1, ![132]⟩ : Shape).Idx → EReal) (x9 : (⟨2, ![132, 128]⟩ : Shape).Idx → EReal) (x10 : (⟨1, ![128]⟩ : Shape).Idx → EReal) (x11 : (⟨2, ![256, 132]⟩ : Shape).Idx → EReal) (x12 : (⟨1, ![132]⟩ : Shape).Idx → EReal) (x13 : (⟨2, ![132, 132]⟩ : Shape).Idx → EReal) (x14 : (⟨1, ![132]⟩ : Shape).Idx → EReal) (x15 : (⟨2, ![132, 132]⟩ : Shape).Idx → EReal)
    (x16 : (⟨1, ![132]⟩ : Shape).Idx → EReal) (x17 : (⟨2, ![132, 128]⟩ : Shape).Idx → EReal) (x18 : (⟨1, ![128]⟩ : Shape).Idx → EReal) (x19 : (⟨2, ![256, 132]⟩ : Shape).Idx → EReal) (x20 : (⟨1, ![132]⟩ : Shape).Idx → EReal) (x21 : (⟨2, ![132, 132]⟩ : Shape).Idx → EReal) (x22 : (⟨1, ![132]⟩ : Shape).Idx → EReal) (x23 : (⟨2, ![132, 132]⟩ : Shape).Idx → EReal)
    (x24 : (⟨1, ![132]⟩ : Shape).Idx → EReal) (x25 : (⟨2, ![132, 128]⟩ : Shape).Idx → EReal) (x26 : (⟨1, ![128]⟩ : Shape).Idx → EReal) (x27 : (⟨2, ![128, 128]⟩ : Shape).Idx → EReal) (x28 : (⟨1, ![128]⟩ : Shape).Idx → EReal) (x29 : (⟨2, ![128, 128]⟩ : Shape).Idx → EReal) (x30 : (⟨1, ![128]⟩ : Shape).Idx → EReal) (x31 : (⟨2, ![256, 132]⟩ : Shape).Idx → EReal)
    (x32 : (⟨1, ![132]⟩ : Shape).Idx → EReal) (x33 : (⟨2, ![132, 132]⟩ : Shape).Idx → EReal) (x34 : (⟨1, ![132]⟩ : Shape).Idx → EReal) (x35 : (⟨2, ![132, 128]⟩ : Shape).Idx → EReal) (x36 : (⟨1, ![128]⟩ : Shape).Idx → EReal)
    (hfin : (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) ∧ (∀ i, ∃ r : ℝ, x4 i = (r : EReal)) ∧ (∀ i, ∃ r : ℝ, x5 i = (r : EReal)) ∧ (∀ i, ∃ r : ℝ, x6 i = (r : EReal)) ∧ (∀ i, ∃ r : ℝ, x7 i = (r : EReal)) ∧ (∀ i, ∃ r : ℝ, x8 i = (r : EReal)) ∧ (∀ i, ∃ r : ℝ, x9 i = (r : EReal)) ∧ (∀ i, ∃ r : ℝ, x10 i = (r : EReal)) ∧ (∀ i, ∃ r : ℝ, x11 i = (r : EReal)) ∧ (∀ i, ∃ r : ℝ, x12 i = (r : EReal)) ∧ (∀ i, ∃ r : ℝ, x13 i = (r : EReal)) ∧ (∀ i, ∃ r : ℝ, x14 i = (r : EReal)) ∧ (∀ i, ∃ r : ℝ, x15 i = (r : EReal)) ∧ (∀ i, ∃ r : ℝ, x16 i = (r : EReal)) ∧ (∀ i, ∃ r : ℝ, x17 i = (r : EReal)) ∧ (∀ i, ∃ r : ℝ, x18 i = (r : EReal)) ∧ (∀ i, ∃ r : ℝ, x19 i = (r : EReal)) ∧ (∀ i, ∃ r : ℝ, x20 i = (r : EReal)) ∧ (∀ i, ∃ r : ℝ, x21 i = (r : EReal)) ∧ (∀ i, ∃ r : ℝ, x22 i = (r : EReal)) ∧ (∀ i, ∃ r : ℝ, x23 i = (r : EReal)) ∧ (∀ i, ∃ r : ℝ, x24 i = (r : EReal)) ∧ (∀ i, ∃ r : ℝ, x25 i = (r : EReal)) ∧ (∀ i, ∃ r : ℝ, x26 i = (r : EReal)) ∧ (∀ i, ∃ r : ℝ, x27 i = (r : EReal)) ∧ (∀ i, ∃ r : ℝ, x28 i = (r : EReal)) ∧ (∀ i, ∃ r : ℝ, x29 i = (r : EReal)) ∧ (∀ i, ∃ r : ℝ, x30 i = (r : EReal)) ∧ (∀ i, ∃ r : ℝ, x31 i = (r : EReal)) ∧ (∀ i, ∃ r : ℝ, x32 i = (r : EReal)) ∧ (∀ i, ∃ r : ℝ, x33 i = (r : EReal)) ∧ (∀ i, ∃ r : ℝ, x34 i = (r : EReal)) ∧ (∀ i, ∃ r : ℝ, x35 i = (r : EReal)) ∧ (∀ i, ∃ r : ℝ, x36 i = (r : EReal)))
    (s : Fin 8) (r : Fin 65536) (q : Fin 128) :
    kernOut (mkW x1 x2 x3 x4 x5 x6 x7 x8 x9 x10 x11 x12 x13 x14 x15 x16 x17 x18 x19 x20 x21 x22 x23 x24 x25 x26 x27 x28 x29 x30 x31 x32 x33 x34 x35 x36) (Ideal.ofBits .f32 0x40000000#32) (Ideal.ofBits .f32 0x40800000#32) (Row x0 r) s q
      = refOut (mkW x1 x2 x3 x4 x5 x6 x7 x8 x9 x10 x11 x12 x13 x14 x15 x16 x17 x18 x19 x20 x21 x22 x23 x24 x25 x26 x27 x28 x29 x30 x31 x32 x33 x34 x35 x36) (Ideal.ofBits .f32 0x3F800000#32) (Ideal.ofBits .f32 0x40000000#32) (Ideal.ofBits .f32 0x40800000#32) (Row x0 r) s q := by
  obtain ⟨h0, h1, h2, h3, h4, h5, h6, h7, h8, h9, h10, h11, h12, h13, h14, h15, h16, h17, h18, h19, h20, h21, h22, h23, h24, h25, h26, h27, h28, h29, h30, h31, h32, h33, h34, h35, h36⟩ := hfin
  choose g0 e0 using h0
  choose g1 e1 using h1
  choose g2 e2 using h2
  choose g3 e3 using h3
  choose g4 e4 using h4
  choose g5 e5 using h5
  choose g6 e6 using h6
  choose g7 e7 using h7
  choose g8 e8 using h8
  choose g9 e9 using h9
  choose g10 e10 using h10
  choose g11 e11 using h11
  choose g12 e12 using h12
  choose g13 e13 using h13
  choose g14 e14 using h14
  choose g15 e15 using h15
  choose g16 e16 using h16
  choose g17 e17 using h17
  choose g18 e18 using h18
  choose g19 e19 using h19
  choose g20 e20 using h20
  choose g21 e21 using h21
  choose g22 e22 using h22
  choose g23 e23 using h23
  choose g24 e24 using h24
  choose g25 e25 using h25
  choose g26 e26 using h26
  choose g27 e27 using h27
  choose g28 e28 using h28
  choose g29 e29 using h29
  choose g30 e30 using h30
  choose g31 e31 using h31
  choose g32 e32 using h32
  choose g33 e33 using h33
  choose g34 e34 using h34
  choose g35 e35 using h35
  choose g36 e36 using h36
  obtain rfl : x0 = fun i => ((g0 i : ℝ) : EReal) := funext e0
  obtain rfl : x1 = fun i => ((g1 i : ℝ) : EReal) := funext e1
  obtain rfl : x2 = fun i => ((g2 i : ℝ) : EReal) := funext e2
  obtain rfl : x3 = fun i => ((g3 i : ℝ) : EReal) := funext e3
  obtain rfl : x4 = fun i => ((g4 i : ℝ) : EReal) := funext e4
  obtain rfl : x5 = fun i => ((g5 i : ℝ) : EReal) := funext e5
  obtain rfl : x6 = fun i => ((g6 i : ℝ) : EReal) := funext e6
  obtain rfl : x7 = fun i => ((g7 i : ℝ) : EReal) := funext e7
  obtain rfl : x8 = fun i => ((g8 i : ℝ) : EReal) := funext e8
  obtain rfl : x9 = fun i => ((g9 i : ℝ) : EReal) := funext e9
  obtain rfl : x10 = fun i => ((g10 i : ℝ) : EReal) := funext e10
  obtain rfl : x11 = fun i => ((g11 i : ℝ) : EReal) := funext e11
  obtain rfl : x12 = fun i => ((g12 i : ℝ) : EReal) := funext e12
  obtain rfl : x13 = fun i => ((g13 i : ℝ) : EReal) := funext e13
  obtain rfl : x14 = fun i => ((g14 i : ℝ) : EReal) := funext e14
  obtain rfl : x15 = fun i => ((g15 i : ℝ) : EReal) := funext e15
  obtain rfl : x16 = fun i => ((g16 i : ℝ) : EReal) := funext e16
  obtain rfl : x17 = fun i => ((g17 i : ℝ) : EReal) := funext e17
  obtain rfl : x18 = fun i => ((g18 i : ℝ) : EReal) := funext e18
  obtain rfl : x19 = fun i => ((g19 i : ℝ) : EReal) := funext e19
  obtain rfl : x20 = fun i => ((g20 i : ℝ) : EReal) := funext e20
  obtain rfl : x21 = fun i => ((g21 i : ℝ) : EReal) := funext e21
  obtain rfl : x22 = fun i => ((g22 i : ℝ) : EReal) := funext e22
  obtain rfl : x23 = fun i => ((g23 i : ℝ) : EReal) := funext e23
  obtain rfl : x24 = fun i => ((g24 i : ℝ) : EReal) := funext e24
  obtain rfl : x25 = fun i => ((g25 i : ℝ) : EReal) := funext e25
  obtain rfl : x26 = fun i => ((g26 i : ℝ) : EReal) := funext e26
  obtain rfl : x27 = fun i => ((g27 i : ℝ) : EReal) := funext e27
  obtain rfl : x28 = fun i => ((g28 i : ℝ) : EReal) := funext e28
  obtain rfl : x29 = fun i => ((g29 i : ℝ) : EReal) := funext e29
  obtain rfl : x30 = fun i => ((g30 i : ℝ) : EReal) := funext e30
  obtain rfl : x31 = fun i => ((g31 i : ℝ) : EReal) := funext e31
  obtain rfl : x32 = fun i => ((g32 i : ℝ) : EReal) := funext e32
  obtain rfl : x33 = fun i => ((g33 i : ℝ) : EReal) := funext e33
  obtain rfl : x34 = fun i => ((g34 i : ℝ) : EReal) := funext e34
  obtain rfl : x35 = fun i => ((g35 i : ℝ) : EReal) := funext e35
  obtain rfl : x36 = fun i => ((g36 i : ℝ) : EReal) := funext e36
  rw [bits_one, bits_two, bits_four]
  exact congrFun (kern_eq_ref_ereal (mkWr g1 g2 g3 g4 g5 g6 g7 g8 g9 g10 g11 g12 g13 g14 g15 g16 g17 g18 g19 g20 g21 g22 g23 g24 g25 g26 g27 g28 g29 g30 g31 g32 g33 g34 g35 g36) (fun k => g0 (ix2 r k)) s) q

end Cert.Rows

end
-- ==== Proof.lean ====
/-
  The certificate of a small message-passing network on 65536 signal rows.

  The kernel and the reference both map each row of the signal, independently, through the same weights to eight output
  rows of 128 numbers. The reference evaluates every node of its graph (two of its point nodes, of its circle nodes and of
  its line nodes are computed twice from the same inputs), pads a joined row with zeros where a node receives no message,
  multiplies each message by the message matrix and adds them one by one. The kernel evaluates the ten distinct nodes, drops
  a zero half of a joined row together with the matching rows of the first matrix, replaces a row joined with itself by the
  row times the sum of the two halves of the first matrix, and adds equal messages before the one product with the message
  matrix. On the extended reals these agree wherever all inputs are real numbers, which the precondition gives: then every
  intermediate value is the image of a real number and the two compositions are equal by the algebra of the real numbers
  (distributivity of the product over the sum, and the zero products of a padded row).

  Kernel side: the body's result block is the kernel's composition on each row of its signal block (`KernOut`), the blocks
  of the 64 grid points tile the output array, the weight blocks are the weight arrays, whose conversion to a shorter
  float format is the identity on the extended reals (`KernBlocks`). Reference side: its result array is the reference's
  composition on each row of the signal (`RefOut`). Finiteness: `Finite`; the equality on real inputs: `Bridge`.
  The kernel carries no rewrite of its constants, so the preservation claim is trivial.
-/
import proofs.«167402_j1125281431924_2_alg».proof.Defs
import proofs.«167402_j1125281431924_2_alg».proof.Proof.Gen.Kernel
import proofs.«167402_j1125281431924_2_alg».proof.Proof.Gen.KernelIdeal
import proofs.«167402_j1125281431924_2_alg».proof.Proof.Gen.ReferenceIdeal
import proofs.«167402_j1125281431924_2_alg».proof.Proof.Gen.Pre_finite_inputs
import proofs.«167402_j1125281431924_2_alg».proof.Proof.KernelFrameP
import proofs.«167402_j1125281431924_2_alg».proof.Proof.KernBlocks
import proofs.«167402_j1125281431924_2_alg».proof.Proof.KernOut
import proofs.«167402_j1125281431924_2_alg».proof.Proof.RefRun
import proofs.«167402_j1125281431924_2_alg».proof.Proof.RefOut
import proofs.«167402_j1125281431924_2_alg».proof.Proof.Finite
import proofs.«167402_j1125281431924_2_alg».proof.Proof.Bridge
import Idealize.ShloMosaic.Adequacy
import Idealize.ShloMosaic.Init

noncomputable section

namespace Cert.Proof

open Idealize.ShloMosaic Idealize.SL.Sem Idealize.ShloMosaic.ValueIdx

/-- The kernel as printed runs and leaves its arguments unchanged. -/
theorem frame_p : Cert.frame_Kernel := fun m ρ _ => Cert.Kernel.GenP.frame m ρ

/-- The idealized kernel runs and leaves its arguments unchanged. -/
theorem frame_pi : Cert.frame_KernelIdeal := fun m ρ _ => Cert.KernelIdeal.GenP.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.RefValue.run (F := Ideal) m ρ)

set_option maxHeartbeats 2000000 in
/-- From memories that agree on the arguments, all of them finite, both idealized programs end with the same result
    array: entry (s, r, q) is output row s of the network on signal row r, at column q. -/
theorem algebraic : Cert.algebraic_KernelIdeal_ReferenceIdeal := by
  intro m ρ m' ρ' hpre hagree
  refine ⟨Cert.KernValue.G m, Cert.KernValue.kern_run m ρ (fun X0 X1 X2 X3 X4 X5 X6 X7 X8 X9 X10 X11 X12 X13 X14 X15 X16 X17 X18 X19 X20 X21 X22 X23 X24 X25 X26 X27 X28 X29 X30 X31 X32 X33 X34 X35 X36 s p q =>
    Cert.KernValue.out_rows X0 X1 X2 X3 X4 X5 X6 X7 X8 X9 X10 X11 X12 X13 X14 X15 X16 X17 X18 X19 X20 X21 X22 X23 X24 X25 X26 X27 X28 X29 X30 X31 X32 X33 X34 X35 X36 s p q), ?_⟩
  refine (θ_run Cert.ReferenceIdeal.defs _ _).mono (fun _ h c => ⟨(h c).1.trans ?_, (h c).2⟩)
    (Cert.RefValue.run (F := Ideal) m' ρ')
  funext i
  obtain ⟨s, r, q, rfl⟩ : ∃ (s : Fin 8) (r : Fin 65536) (q : Fin 128), i = ix3 s r q := ⟨i 0, i 1, i 2, eq_ix3 i⟩
  rw [Cert.RefValue.res_rows, Cert.KernValue.G_ix3]
  obtain ⟨a0, a1, a2, a3, a4, a5, a6, a7, a8, a9, a10, a11, a12, a13, a14, a15, a16, a17, a18, a19, a20, a21, a22, a23, a24, a25, a26, a27, a28, a29, a30, a31, a32, a33, a34, a35, a36⟩ := hagree c
  rw [a0, a1, a2, a3, a4, a5, a6, a7, a8, a9, a10, a11, a12, a13, a14, a15, a16, a17, a18, a19, a20, a21, a22, a23, a24, a25, a26, a27, a28, a29, a30, a31, a32, a33, a34, a35, a36]
  exact (Cert.Rows.kern_eq_ref_of_real _ _ _ _ _ _ _ _ _ _ _ _ _ _ _ _ _ _ _ _ _ _ _ _ _ _ _ _ _ _ _ _ _ _ _ _ _
    (Cert.FiniteInputs.real_of_pre _ _ _ _ _ _ _ _ _ _ _ _ _ _ _ _ _ _ _ _ _ _ _ _ _ _ _ _ _ _ _ _ _ _ _ _ _ (hpre c)) s r q).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
